-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2048]⟩ ⟨2, ![1024, 2048]⟩ (Layout.meshBlock [2, 2, 2] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 2048]⟩ ⟨2, ![512, 2048]⟩ (Layout.meshBlock [2, 2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x512 : Shape := ⟨2, ![512, 512]⟩
abbrev S512x2048 : Shape := ⟨2, ![512, 2048]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_

variable [Facts]

def fn {F : FTy → Type} [FloatOps F] (main_arg0 : FVec F S512x512 .f32) (main_arg1 : FVec F S512x2048 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  main_v8
-- ==== Pre_finite_inputs_ReferenceIdeal.lean ====
abbrev S1024x512 : Shape := ⟨2, ![1024, 512]⟩
abbrev S1024x2048 : Shape := ⟨2, ![1024, 2048]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_

variable [Facts]

def fn {F : FTy → Type} [FloatOps F] (main_arg0 : FVec F S1024x512 .f32) (main_arg1 : FVec F S1024x2048 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  main_v8
-- ==== Kernel.lean ====
abbrev S512x512 : Shape := ⟨2, ![512, 512]⟩
abbrev S512x2048 : Shape := ⟨2, ![512, 2048]⟩
abbrev S256x2048 : Shape := ⟨2, ![256, 2048]⟩
abbrev S2x128x512 : Shape := ⟨3, ![2, 128, 512]⟩
abbrev S8x128x256 : Shape := ⟨3, ![8, 128, 256]⟩
abbrev S_ : Shape := ⟨0, ![]⟩
abbrev S16 : Shape := ⟨1, ![16]⟩
abbrev S8 : Shape := ⟨1, ![8]⟩
abbrev S512x128 : Shape := ⟨2, ![512, 128]⟩
abbrev S128x512 : Shape := ⟨2, ![128, 512]⟩
abbrev S1x128x512 : Shape := ⟨3, ![1, 128, 512]⟩
abbrev S512x256 : Shape := ⟨2, ![512, 256]⟩
abbrev S128x256 : Shape := ⟨2, ![128, 256]⟩
abbrev S1x128x256 : Shape := ⟨3, ![1, 128, 256]⟩
abbrev S1 : Shape := ⟨1, ![1]⟩

abbrev nBuf : Space → Nat
  | .hbm => 3
  | .vmem => 9
  | .smem => 0
  | _ => 0

abbrev bufTy : (tb : Table) → Fin (tcTables nBuf tb) → BufTy
  | .hbm, ⟨0, _⟩ => ⟨S512x512, .f32⟩
  | .hbm, ⟨1, _⟩ => ⟨S512x2048, .f32⟩
  | .hbm, ⟨2, _⟩ => ⟨S256x2048, .f32⟩
  | .local _ .vmem, ⟨0, _⟩ => ⟨S512x512, .f32⟩
  | .local _ .vmem, ⟨1, _⟩ => ⟨S512x2048, .f32⟩
  | .local _ .vmem, ⟨2, _⟩ => ⟨S2x128x512, .f32⟩
  | .local _ .vmem, ⟨3, _⟩ => ⟨S8x128x256, .bf16⟩
  | .local _ .vmem, ⟨4, _⟩ => ⟨S8x128x256, .bf16⟩
  | .local _ .vmem, ⟨5, _⟩ => ⟨S8x128x256, .bf16⟩
  | .local _ .vmem, ⟨6, _⟩ => ⟨S8x128x256, .bf16⟩
  | .local _ .vmem, ⟨7, _⟩ => ⟨S8x128x256, .f32⟩
  | .local _ .vmem, ⟨8, _⟩ => ⟨S8x128x256, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  { ofTc nBuf bufTy 1 50 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_6 : BitVec 32 := 4#32
  let v12 : BitVec 32 := Scalar.muli v2 c4_i32_6
  let v13 : BitVec 32 := Scalar.addi c0_i32 v12
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_7 : BitVec 32 := 2#32
  let v14 : BitVec 32 := Scalar.muli v9 c2_i32_7
  let v15 : BitVec 32 := Scalar.addi v13 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_8 : BitVec 32 := 1#32
  let v16 : BitVec 32 := Scalar.muli v8 c1_i32_8
  let v17 : BitVec 32 := Scalar.addi v15 v16
  v17.toNat
def k0_dev2 (d0 : Dev nD) : Nat :=
  let c0_i32_11 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_10 : BitVec 32 := 4#32
  let v18 : BitVec 32 := Scalar.muli v2 c4_i32_10
  let v19 : BitVec 32 := Scalar.addi c0_i32_11 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_12 : BitVec 32 := 2#32
  let v20 : BitVec 32 := Scalar.muli v5 c2_i32_12
  let v21 : BitVec 32 := Scalar.addi v19 v20
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_13 : BitVec 32 := 1#32
  let v22 : BitVec 32 := Scalar.muli v10 c1_i32_13
  let v23 : BitVec 32 := Scalar.addi v21 v22
  v23.toNat
def k0_off1 (d0 : Dev nD) : Fin 2 → Nat :=
  let c0 : Index := 0#32
  let c1_i32_15 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v24 : BitVec 32 := Scalar.subi c1_i32_15 v5
  let c256_i32 : BitVec 32 := 256#32
  let v25 : BitVec 32 := Scalar.muli v24 c256_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32 : BitVec 32 := 128#32
  let v26 : BitVec 32 := Scalar.muli v8 c128_i32
  let v27 : BitVec 32 := Scalar.addi v25 v26
  let v28 : Index := Scalar.indexCast v27
  ![0, v28.toNat]
def k0_off2 (d0 : Dev nD) : Fin 2 → Nat :=
  let c0_21 : Index := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c256_i32_19 : BitVec 32 := 256#32
  let v35 : BitVec 32 := Scalar.muli v5 c256_i32_19
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_20 : BitVec 32 := 128#32
  let v36 : BitVec 32 := Scalar.muli v8 c128_i32_20
  let v37 : BitVec 32 := Scalar.addi v35 v36
  let v38 : Index := Scalar.indexCast v37
  ![0, v38.toNat]
def k0_dev3 (d0 : Dev nD) : Nat :=
  let c0_i32_40 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_39 : BitVec 32 := 4#32
  let v55 : BitVec 32 := Scalar.muli v2 c4_i32_39
  let v56 : BitVec 32 := Scalar.addi c0_i32_40 v55
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_41 : BitVec 32 := 2#32
  let v57 : BitVec 32 := Scalar.muli v9 c2_i32_41
  let v58 : BitVec 32 := Scalar.addi v56 v57
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_42 : BitVec 32 := 1#32
  let v59 : BitVec 32 := Scalar.muli v8 c1_i32_42
  let v60 : BitVec 32 := Scalar.addi v58 v59
  v60.toNat
def k0_dev4 (d0 : Dev nD) : Nat :=
  let c0_i32_57 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_56 : BitVec 32 := 4#32
  let v75 : BitVec 32 := Scalar.muli v2 c4_i32_56
  let v76 : BitVec 32 := Scalar.addi c0_i32_57 v75
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_58 : BitVec 32 := 2#32
  let v77 : BitVec 32 := Scalar.muli v9 c2_i32_58
  let v78 : BitVec 32 := Scalar.addi v76 v77
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_59 : BitVec 32 := 1#32
  let v79 : BitVec 32 := Scalar.muli v8 c1_i32_59
  let v80 : BitVec 32 := Scalar.addi v78 v79
  v80.toNat
def k0_dev5 (d0 : Dev nD) : Nat :=
  let c0_i32_73 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_72 : BitVec 32 := 4#32
  let v95 : BitVec 32 := Scalar.muli v2 c4_i32_72
  let v96 : BitVec 32 := Scalar.addi c0_i32_73 v95
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_74 : BitVec 32 := 2#32
  let v97 : BitVec 32 := Scalar.muli v9 c2_i32_74
  let v98 : BitVec 32 := Scalar.addi v96 v97
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_75 : BitVec 32 := 1#32
  let v99 : BitVec 32 := Scalar.muli v8 c1_i32_75
  let v100 : BitVec 32 := Scalar.addi v98 v99
  v100.toNat
def k0_dev6 (d0 : Dev nD) : Nat :=
  let c0_i32_88 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_87 : BitVec 32 := 4#32
  let v115 : BitVec 32 := Scalar.muli v2 c4_i32_87
  let v116 : BitVec 32 := Scalar.addi c0_i32_88 v115
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_89 : BitVec 32 := 2#32
  let v117 : BitVec 32 := Scalar.muli v9 c2_i32_89
  let v118 : BitVec 32 := Scalar.addi v116 v117
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_90 : BitVec 32 := 1#32
  let v119 : BitVec 32 := Scalar.muli v8 c1_i32_90
  let v120 : BitVec 32 := Scalar.addi v118 v119
  v120.toNat
def k0_dev7 (d0 : Dev nD) : Nat :=
  let c0_i32_104 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_103 : BitVec 32 := 4#32
  let v135 : BitVec 32 := Scalar.muli v2 c4_i32_103
  let v136 : BitVec 32 := Scalar.addi c0_i32_104 v135
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_105 : BitVec 32 := 2#32
  let v137 : BitVec 32 := Scalar.muli v9 c2_i32_105
  let v138 : BitVec 32 := Scalar.addi v136 v137
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_106 : BitVec 32 := 1#32
  let v139 : BitVec 32 := Scalar.muli v8 c1_i32_106
  let v140 : BitVec 32 := Scalar.addi v138 v139
  v140.toNat
def k0_dev8 (d0 : Dev nD) : Nat :=
  let c0_i32_119 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_118 : BitVec 32 := 4#32
  let v155 : BitVec 32 := Scalar.muli v2 c4_i32_118
  let v156 : BitVec 32 := Scalar.addi c0_i32_119 v155
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_120 : BitVec 32 := 2#32
  let v157 : BitVec 32 := Scalar.muli v9 c2_i32_120
  let v158 : BitVec 32 := Scalar.addi v156 v157
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_121 : BitVec 32 := 1#32
  let v159 : BitVec 32 := Scalar.muli v8 c1_i32_121
  let v160 : BitVec 32 := Scalar.addi v158 v159
  v160.toNat
def k0_dev9 (d0 : Dev nD) : Nat :=
  let c0_i32_134 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_133 : BitVec 32 := 4#32
  let v175 : BitVec 32 := Scalar.muli v2 c4_i32_133
  let v176 : BitVec 32 := Scalar.addi c0_i32_134 v175
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_135 : BitVec 32 := 2#32
  let v177 : BitVec 32 := Scalar.muli v9 c2_i32_135
  let v178 : BitVec 32 := Scalar.addi v176 v177
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_136 : BitVec 32 := 1#32
  let v179 : BitVec 32 := Scalar.muli v8 c1_i32_136
  let v180 : BitVec 32 := Scalar.addi v178 v179
  v180.toNat
def k0_dev10 (d0 : Dev nD) : Nat :=
  let c0_i32_149 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_148 : BitVec 32 := 4#32
  let v195 : BitVec 32 := Scalar.muli v2 c4_i32_148
  let v196 : BitVec 32 := Scalar.addi c0_i32_149 v195
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_150 : BitVec 32 := 2#32
  let v197 : BitVec 32 := Scalar.muli v9 c2_i32_150
  let v198 : BitVec 32 := Scalar.addi v196 v197
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_151 : BitVec 32 := 1#32
  let v199 : BitVec 32 := Scalar.muli v8 c1_i32_151
  let v200 : BitVec 32 := Scalar.addi v198 v199
  v200.toNat
def k0_dev11 (d0 : Dev nD) : Nat :=
  let c0_i32_185 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_184 : BitVec 32 := 4#32
  let v234 : BitVec 32 := Scalar.muli v2 c4_i32_184
  let v235 : BitVec 32 := Scalar.addi c0_i32_185 v234
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_186 : BitVec 32 := 2#32
  let v236 : BitVec 32 := Scalar.muli v5 c2_i32_186
  let v237 : BitVec 32 := Scalar.addi v235 v236
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_187 : BitVec 32 := 1#32
  let v238 : BitVec 32 := Scalar.muli v10 c1_i32_187
  let v239 : BitVec 32 := Scalar.addi v237 v238
  v239.toNat
def k0_off3 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_192 : BitVec 32 := 128#32
  let v248 : BitVec 32 := Scalar.muli v8 c128_i32_192
  let c0_i32_195 : BitVec 32 := 0#32
  ![v248.toNat, 0]
def k0_dev12 (d0 : Dev nD) : Nat :=
  let c0_i32_227 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_226 : BitVec 32 := 4#32
  let v279 : BitVec 32 := Scalar.muli v2 c4_i32_226
  let v280 : BitVec 32 := Scalar.addi c0_i32_227 v279
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_228 : BitVec 32 := 2#32
  let v281 : BitVec 32 := Scalar.muli v5 c2_i32_228
  let v282 : BitVec 32 := Scalar.addi v280 v281
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_229 : BitVec 32 := 1#32
  let v283 : BitVec 32 := Scalar.muli v10 c1_i32_229
  let v284 : BitVec 32 := Scalar.addi v282 v283
  v284.toNat
def k0_off4 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_234 : BitVec 32 := 128#32
  let v293 : BitVec 32 := Scalar.muli v8 c128_i32_234
  let c256_i32_237 : BitVec 32 := 256#32
  ![v293.toNat, 256]
def k0_dev13 (d0 : Dev nD) : Nat :=
  let c0_i32_269 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_268 : BitVec 32 := 4#32
  let v324 : BitVec 32 := Scalar.muli v2 c4_i32_268
  let v325 : BitVec 32 := Scalar.addi c0_i32_269 v324
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_270 : BitVec 32 := 2#32
  let v326 : BitVec 32 := Scalar.muli v5 c2_i32_270
  let v327 : BitVec 32 := Scalar.addi v325 v326
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_271 : BitVec 32 := 1#32
  let v328 : BitVec 32 := Scalar.muli v10 c1_i32_271
  let v329 : BitVec 32 := Scalar.addi v327 v328
  v329.toNat
def k0_off5 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_276 : BitVec 32 := 128#32
  let v338 : BitVec 32 := Scalar.muli v8 c128_i32_276
  let c512_i32 : BitVec 32 := 512#32
  ![v338.toNat, 512]
def k0_dev14 (d0 : Dev nD) : Nat :=
  let c0_i32_310 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_309 : BitVec 32 := 4#32
  let v369 : BitVec 32 := Scalar.muli v2 c4_i32_309
  let v370 : BitVec 32 := Scalar.addi c0_i32_310 v369
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_311 : BitVec 32 := 2#32
  let v371 : BitVec 32 := Scalar.muli v5 c2_i32_311
  let v372 : BitVec 32 := Scalar.addi v370 v371
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_312 : BitVec 32 := 1#32
  let v373 : BitVec 32 := Scalar.muli v10 c1_i32_312
  let v374 : BitVec 32 := Scalar.addi v372 v373
  v374.toNat
def k0_off6 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_317 : BitVec 32 := 128#32
  let v383 : BitVec 32 := Scalar.muli v8 c128_i32_317
  let c768_i32 : BitVec 32 := 768#32
  ![v383.toNat, 768]
def k0_dev15 (d0 : Dev nD) : Nat :=
  let c0_i32_351 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_350 : BitVec 32 := 4#32
  let v414 : BitVec 32 := Scalar.muli v2 c4_i32_350
  let v415 : BitVec 32 := Scalar.addi c0_i32_351 v414
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_352 : BitVec 32 := 2#32
  let v416 : BitVec 32 := Scalar.muli v5 c2_i32_352
  let v417 : BitVec 32 := Scalar.addi v415 v416
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_353 : BitVec 32 := 1#32
  let v418 : BitVec 32 := Scalar.muli v10 c1_i32_353
  let v419 : BitVec 32 := Scalar.addi v417 v418
  v419.toNat
def k0_off7 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_358 : BitVec 32 := 128#32
  let v428 : BitVec 32 := Scalar.muli v8 c128_i32_358
  let c1024_i32 : BitVec 32 := 1024#32
  ![v428.toNat, 1024]
def k0_dev16 (d0 : Dev nD) : Nat :=
  let c0_i32_392 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_391 : BitVec 32 := 4#32
  let v459 : BitVec 32 := Scalar.muli v2 c4_i32_391
  let v460 : BitVec 32 := Scalar.addi c0_i32_392 v459
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_393 : BitVec 32 := 2#32
  let v461 : BitVec 32 := Scalar.muli v5 c2_i32_393
  let v462 : BitVec 32 := Scalar.addi v460 v461
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_394 : BitVec 32 := 1#32
  let v463 : BitVec 32 := Scalar.muli v10 c1_i32_394
  let v464 : BitVec 32 := Scalar.addi v462 v463
  v464.toNat
def k0_off8 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_399 : BitVec 32 := 128#32
  let v473 : BitVec 32 := Scalar.muli v8 c128_i32_399
  let c1280_i32 : BitVec 32 := 1280#32
  ![v473.toNat, 1280]
def k0_dev17 (d0 : Dev nD) : Nat :=
  let c0_i32_433 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_432 : BitVec 32 := 4#32
  let v504 : BitVec 32 := Scalar.muli v2 c4_i32_432
  let v505 : BitVec 32 := Scalar.addi c0_i32_433 v504
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_434 : BitVec 32 := 2#32
  let v506 : BitVec 32 := Scalar.muli v5 c2_i32_434
  let v507 : BitVec 32 := Scalar.addi v505 v506
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_435 : BitVec 32 := 1#32
  let v508 : BitVec 32 := Scalar.muli v10 c1_i32_435
  let v509 : BitVec 32 := Scalar.addi v507 v508
  v509.toNat
def k0_off9 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_440 : BitVec 32 := 128#32
  let v518 : BitVec 32 := Scalar.muli v8 c128_i32_440
  let c1536_i32 : BitVec 32 := 1536#32
  ![v518.toNat, 1536]
def k0_dev18 (d0 : Dev nD) : Nat :=
  let c0_i32_474 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_473 : BitVec 32 := 4#32
  let v549 : BitVec 32 := Scalar.muli v2 c4_i32_473
  let v550 : BitVec 32 := Scalar.addi c0_i32_474 v549
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_475 : BitVec 32 := 2#32
  let v551 : BitVec 32 := Scalar.muli v5 c2_i32_475
  let v552 : BitVec 32 := Scalar.addi v550 v551
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_476 : BitVec 32 := 1#32
  let v553 : BitVec 32 := Scalar.muli v10 c1_i32_476
  let v554 : BitVec 32 := Scalar.addi v552 v553
  v554.toNat
def k0_off10 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_481 : BitVec 32 := 128#32
  let v563 : BitVec 32 := Scalar.muli v8 c128_i32_481
  let c1792_i32 : BitVec 32 := 1792#32
  ![v563.toNat, 1792]
def k0_off11 (d0 : Dev nD) : Fin 2 → Nat :=
  let c1_i32_504 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v587 : BitVec 32 := Scalar.subi c1_i32_504 v8
  let c128_i32_505 : BitVec 32 := 128#32
  let v588 : BitVec 32 := Scalar.muli v587 c128_i32_505
  let c0_i32_507 : BitVec 32 := 0#32
  ![v588.toNat, 0]
def k0_off12 (d0 : Dev nD) : Fin 2 → Nat :=
  let c1_i32_528 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v612 : BitVec 32 := Scalar.subi c1_i32_528 v8
  let c128_i32_529 : BitVec 32 := 128#32
  let v613 : BitVec 32 := Scalar.muli v612 c128_i32_529
  let c256_i32_531 : BitVec 32 := 256#32
  ![v613.toNat, 256]
def k0_off13 (d0 : Dev nD) : Fin 2 → Nat :=
  let c1_i32_552 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v637 : BitVec 32 := Scalar.subi c1_i32_552 v8
  let c128_i32_553 : BitVec 32 := 128#32
  let v638 : BitVec 32 := Scalar.muli v637 c128_i32_553
  let c512_i32_555 : BitVec 32 := 512#32
  ![v638.toNat, 512]
def k0_off14 (d0 : Dev nD) : Fin 2 → Nat :=
  let c1_i32_576 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v662 : BitVec 32 := Scalar.subi c1_i32_576 v8
  let c128_i32_577 : BitVec 32 := 128#32
  let v663 : BitVec 32 := Scalar.muli v662 c128_i32_577
  let c768_i32_579 : BitVec 32 := 768#32
  ![v663.toNat, 768]
def k0_off15 (d0 : Dev nD) : Fin 2 → Nat :=
  let c1_i32_600 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v687 : BitVec 32 := Scalar.subi c1_i32_600 v8
  let c128_i32_601 : BitVec 32 := 128#32
  let v688 : BitVec 32 := Scalar.muli v687 c128_i32_601
  let c1024_i32_603 : BitVec 32 := 1024#32
  ![v688.toNat, 1024]
def k0_off16 (d0 : Dev nD) : Fin 2 → Nat :=
  let c1_i32_624 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v712 : BitVec 32 := Scalar.subi c1_i32_624 v8
  let c128_i32_625 : BitVec 32 := 128#32
  let v713 : BitVec 32 := Scalar.muli v712 c128_i32_625
  let c1280_i32_627 : BitVec 32 := 1280#32
  ![v713.toNat, 1280]
def k0_off17 (d0 : Dev nD) : Fin 2 → Nat :=
  let c1_i32_648 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v737 : BitVec 32 := Scalar.subi c1_i32_648 v8
  let c128_i32_649 : BitVec 32 := 128#32
  let v738 : BitVec 32 := Scalar.muli v737 c128_i32_649
  let c1536_i32_651 : BitVec 32 := 1536#32
  ![v738.toNat, 1536]
def k0_off18 (d0 : Dev nD) : Fin 2 → Nat :=
  let c1_i32_672 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v762 : BitVec 32 := Scalar.subi c1_i32_672 v8
  let c128_i32_673 : BitVec 32 := 128#32
  let v763 : BitVec 32 := Scalar.muli v762 c128_i32_673
  let c1792_i32_675 : BitVec 32 := 1792#32
  ![v763.toNat, 1792]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  hamt_1 : (1#32 : BitVec 32).msb = false
  hamt_2 : (2#32 : BitVec 32).msb = false
  h_S512x128 : 0 < S512x128.numel
  shapeCasts_S512x128_S512x128 : S512x128.ShapeCasts S512x128
  transposes_S512x128_p1_0_S128x512 : S512x128.Transposes [1, 0] S128x512
  inb_S2x128x512_S1x128x512_0_0_0 : ∀ a, (![0, 0, 0] : Fin 3 → Nat) a + S1x128x512.size a ≤ S2x128x512.size a
  h_S1x128x512 : 0 < S1x128x512.numel
  shapeCasts_S1x128x512_S128x512 : S1x128x512.ShapeCasts S128x512
  shapeCasts_S128x512_S1x128x512 : S128x512.ShapeCasts S1x128x512
  inb_S2x128x512_S1x128x512_1_0_0 : ∀ a, (![1, 0, 0] : Fin 3 → Nat) a + S1x128x512.size a ≤ S2x128x512.size a
  inb_S512x2048_S512x256_0_0 : ∀ a, (![0, 0] : Fin 2 → Nat) a + S512x256.size a ≤ S512x2048.size a
  h_S512x256 : 0 < S512x256.numel
  bitsLt_bf16_f32 : FTy.bits .bf16 < FTy.bits .f32
  inb_S8x128x256_S1x128x256_0_0_0 : ∀ a, (![0, 0, 0] : Fin 3 → Nat) a + S1x128x256.size a ≤ S8x128x256.size a
  h_S1x128x256 : 0 < S1x128x256.numel
  shapeCasts_S1x128x256_S128x256 : S1x128x256.ShapeCasts S128x256
  shapeCasts_S128x256_S1x128x256 : S128x256.ShapeCasts S1x128x256
  packedbf16_S8x128x256_S1x128x256_0_0_0 : (Rect.unit (s := S8x128x256) ![0, 0, 0] S1x128x256.size inb_S8x128x256_S1x128x256_0_0_0).PackedRows (EltTy.packing .bf16)
  inb_S8_S1_0 : ∀ a, (![0] : Fin 1 → Nat) a + S1.size a ≤ S8.size a
  squeezes_S1_S_ : S1.Squeezes S_
  squeezes_S1x128x256_S128x256 : S1x128x256.Squeezes S128x256
  wordsbf16_S8x128x256_S1x128x256_0_0_0 : (Rect.unit (s := S8x128x256) ![0, 0, 0] S1x128x256.size inb_S8x128x256_S1x128x256_0_0_0).WholeWords (EltTy.packing .bf16)
  inb_S512x2048_S512x256_0_256 : ∀ a, (![0, 256] : Fin 2 → Nat) a + S512x256.size a ≤ S512x2048.size a
  inb_S8x128x256_S1x128x256_1_0_0 : ∀ a, (![1, 0, 0] : Fin 3 → Nat) a + S1x128x256.size a ≤ S8x128x256.size a
  packedbf16_S8x128x256_S1x128x256_1_0_0 : (Rect.unit (s := S8x128x256) ![1, 0, 0] S1x128x256.size inb_S8x128x256_S1x128x256_1_0_0).PackedRows (EltTy.packing .bf16)
  inb_S8_S1_1 : ∀ a, (![1] : Fin 1 → Nat) a + S1.size a ≤ S8.size a
  wordsbf16_S8x128x256_S1x128x256_1_0_0 : (Rect.unit (s := S8x128x256) ![1, 0, 0] S1x128x256.size inb_S8x128x256_S1x128x256_1_0_0).WholeWords (EltTy.packing .bf16)
  inb_S512x2048_S512x256_0_512 : ∀ a, (![0, 512] : Fin 2 → Nat) a + S512x256.size a ≤ S512x2048.size a
  inb_S8x128x256_S1x128x256_2_0_0 : ∀ a, (![2, 0, 0] : Fin 3 → Nat) a + S1x128x256.size a ≤ S8x128x256.size a
  packedbf16_S8x128x256_S1x128x256_2_0_0 : (Rect.unit (s := S8x128x256) ![2, 0, 0] S1x128x256.size inb_S8x128x256_S1x128x256_2_0_0).PackedRows (EltTy.packing .bf16)
  inb_S8_S1_2 : ∀ a, (![2] : Fin 1 → Nat) a + S1.size a ≤ S8.size a
  wordsbf16_S8x128x256_S1x128x256_2_0_0 : (Rect.unit (s := S8x128x256) ![2, 0, 0] S1x128x256.size inb_S8x128x256_S1x128x256_2_0_0).WholeWords (EltTy.packing .bf16)
  inb_S512x2048_S512x256_0_768 : ∀ a, (![0, 768] : Fin 2 → Nat) a + S512x256.size a ≤ S512x2048.size a
  inb_S8x128x256_S1x128x256_3_0_0 : ∀ a, (![3, 0, 0] : Fin 3 → Nat) a + S1x128x256.size a ≤ S8x128x256.size a
  packedbf16_S8x128x256_S1x128x256_3_0_0 : (Rect.unit (s := S8x128x256) ![3, 0, 0] S1x128x256.size inb_S8x128x256_S1x128x256_3_0_0).PackedRows (EltTy.packing .bf16)
  inb_S8_S1_3 : ∀ a, (![3] : Fin 1 → Nat) a + S1.size a ≤ S8.size a
  wordsbf16_S8x128x256_S1x128x256_3_0_0 : (Rect.unit (s := S8x128x256) ![3, 0, 0] S1x128x256.size inb_S8x128x256_S1x128x256_3_0_0).WholeWords (EltTy.packing .bf16)
  inb_S512x2048_S512x256_0_1024 : ∀ a, (![0, 1024] : Fin 2 → Nat) a + S512x256.size a ≤ S512x2048.size a
  inb_S8x128x256_S1x128x256_4_0_0 : ∀ a, (![4, 0, 0] : Fin 3 → Nat) a + S1x128x256.size a ≤ S8x128x256.size a
  packedbf16_S8x128x256_S1x128x256_4_0_0 : (Rect.unit (s := S8x128x256) ![4, 0, 0] S1x128x256.size inb_S8x128x256_S1x128x256_4_0_0).PackedRows (EltTy.packing .bf16)
  inb_S8_S1_4 : ∀ a, (![4] : Fin 1 → Nat) a + S1.size a ≤ S8.size a
  wordsbf16_S8x128x256_S1x128x256_4_0_0 : (Rect.unit (s := S8x128x256) ![4, 0, 0] S1x128x256.size inb_S8x128x256_S1x128x256_4_0_0).WholeWords (EltTy.packing .bf16)
  inb_S512x2048_S512x256_0_1280 : ∀ a, (![0, 1280] : Fin 2 → Nat) a + S512x256.size a ≤ S512x2048.size a
  inb_S8x128x256_S1x128x256_5_0_0 : ∀ a, (![5, 0, 0] : Fin 3 → Nat) a + S1x128x256.size a ≤ S8x128x256.size a
  packedbf16_S8x128x256_S1x128x256_5_0_0 : (Rect.unit (s := S8x128x256) ![5, 0, 0] S1x128x256.size inb_S8x128x256_S1x128x256_5_0_0).PackedRows (EltTy.packing .bf16)
  inb_S8_S1_5 : ∀ a, (![5] : Fin 1 → Nat) a + S1.size a ≤ S8.size a
  wordsbf16_S8x128x256_S1x128x256_5_0_0 : (Rect.unit (s := S8x128x256) ![5, 0, 0] S1x128x256.size inb_S8x128x256_S1x128x256_5_0_0).WholeWords (EltTy.packing .bf16)
  inb_S512x2048_S512x256_0_1536 : ∀ a, (![0, 1536] : Fin 2 → Nat) a + S512x256.size a ≤ S512x2048.size a
  inb_S8x128x256_S1x128x256_6_0_0 : ∀ a, (![6, 0, 0] : Fin 3 → Nat) a + S1x128x256.size a ≤ S8x128x256.size a
  packedbf16_S8x128x256_S1x128x256_6_0_0 : (Rect.unit (s := S8x128x256) ![6, 0, 0] S1x128x256.size inb_S8x128x256_S1x128x256_6_0_0).PackedRows (EltTy.packing .bf16)
  inb_S8_S1_6 : ∀ a, (![6] : Fin 1 → Nat) a + S1.size a ≤ S8.size a
  wordsbf16_S8x128x256_S1x128x256_6_0_0 : (Rect.unit (s := S8x128x256) ![6, 0, 0] S1x128x256.size inb_S8x128x256_S1x128x256_6_0_0).WholeWords (EltTy.packing .bf16)
  inb_S512x2048_S512x256_0_1792 : ∀ a, (![0, 1792] : Fin 2 → Nat) a + S512x256.size a ≤ S512x2048.size a
  inb_S8x128x256_S1x128x256_7_0_0 : ∀ a, (![7, 0, 0] : Fin 3 → Nat) a + S1x128x256.size a ≤ S8x128x256.size a
  packedbf16_S8x128x256_S1x128x256_7_0_0 : (Rect.unit (s := S8x128x256) ![7, 0, 0] S1x128x256.size inb_S8x128x256_S1x128x256_7_0_0).PackedRows (EltTy.packing .bf16)
  inb_S8_S1_7 : ∀ a, (![7] : Fin 1 → Nat) a + S1.size a ≤ S8.size a
  wordsbf16_S8x128x256_S1x128x256_7_0_0 : (Rect.unit (s := S8x128x256) ![7, 0, 0] S1x128x256.size inb_S8x128x256_S1x128x256_7_0_0).WholeWords (EltTy.packing .bf16)
  inb_S16_S1_0 : ∀ a, (![0] : Fin 1 → Nat) a + S1.size a ≤ S16.size a
  inb_S16_S1_1 : ∀ a, (![1] : Fin 1 → Nat) a + S1.size a ≤ S16.size a
  inb_S16_S1_2 : ∀ a, (![2] : Fin 1 → Nat) a + S1.size a ≤ S16.size a
  inb_S16_S1_3 : ∀ a, (![3] : Fin 1 → Nat) a + S1.size a ≤ S16.size a
  inb_S16_S1_4 : ∀ a, (![4] : Fin 1 → Nat) a + S1.size a ≤ S16.size a
  inb_S16_S1_5 : ∀ a, (![5] : Fin 1 → Nat) a + S1.size a ≤ S16.size a
  inb_S16_S1_6 : ∀ a, (![6] : Fin 1 → Nat) a + S1.size a ≤ S16.size a
  inb_S16_S1_7 : ∀ a, (![7] : Fin 1 → Nat) a + S1.size a ≤ S16.size a
  inb_S16_S1_8 : ∀ a, (![8] : Fin 1 → Nat) a + S1.size a ≤ S16.size a
  inb_S16_S1_9 : ∀ a, (![9] : Fin 1 → Nat) a + S1.size a ≤ S16.size a
  inb_S16_S1_10 : ∀ a, (![10] : Fin 1 → Nat) a + S1.size a ≤ S16.size a
  inb_S16_S1_11 : ∀ a, (![11] : Fin 1 → Nat) a + S1.size a ≤ S16.size a
  inb_S16_S1_12 : ∀ a, (![12] : Fin 1 → Nat) a + S1.size a ≤ S16.size a
  inb_S16_S1_13 : ∀ a, (![13] : Fin 1 → Nat) a + S1.size a ≤ S16.size a
  inb_S16_S1_14 : ∀ a, (![14] : Fin 1 → Nat) a + S1.size a ≤ S16.size a
  inb_S16_S1_15 : ∀ a, (![15] : Fin 1 → Nat) a + S1.size a ≤ S16.size a
  dot_S128x512_S512x256_S128x256_1_0_0_1_n_n_wf : DotDims.WF S128x512 S512x256 S128x256 [1] [0] [0] [1] [] []
  hcc0_scratch8 : 1 + S_.numel ≤ 50
  hcc0_scratch9 : 2 + S16.numel ≤ 50
  hcc0_scratch10 : 18 + S8.numel ≤ 50
  hcc0_scratch11 : 26 + S8.numel ≤ 50
  hcc0_scratch12 : 34 + S8.numel ≤ 50
  hcc0_scratch13 : 42 + S8.numel ≤ 50
  k0_dev1_lt : ∀ d0 : Dev nD, (k0_dev1 d0) < nD
  k0_dev2_lt : ∀ d0 : Dev nD, (k0_dev2 d0) < nD
  k0_off1_inb : ∀ d0 : Dev nD, ∀ a, (k0_off1 d0) a + S512x128.size a ≤ S512x512.size a
  k0_off2_inb : ∀ d0 : Dev nD, ∀ a, (k0_off2 d0) a + S512x128.size a ≤ S512x512.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_off3_inb : ∀ d0 : Dev nD, ∀ a, (k0_off3 d0) a + S128x256.size a ≤ S256x2048.size a
  k0_dev12_lt : ∀ d0 : Dev nD, (k0_dev12 d0) < nD
  k0_off4_inb : ∀ d0 : Dev nD, ∀ a, (k0_off4 d0) a + S128x256.size a ≤ S256x2048.size a
  k0_dev13_lt : ∀ d0 : Dev nD, (k0_dev13 d0) < nD
  k0_off5_inb : ∀ d0 : Dev nD, ∀ a, (k0_off5 d0) a + S128x256.size a ≤ S256x2048.size a
  k0_dev14_lt : ∀ d0 : Dev nD, (k0_dev14 d0) < nD
  k0_off6_inb : ∀ d0 : Dev nD, ∀ a, (k0_off6 d0) a + S128x256.size a ≤ S256x2048.size a
  k0_dev15_lt : ∀ d0 : Dev nD, (k0_dev15 d0) < nD
  k0_off7_inb : ∀ d0 : Dev nD, ∀ a, (k0_off7 d0) a + S128x256.size a ≤ S256x2048.size a
  k0_dev16_lt : ∀ d0 : Dev nD, (k0_dev16 d0) < nD
  k0_off8_inb : ∀ d0 : Dev nD, ∀ a, (k0_off8 d0) a + S128x256.size a ≤ S256x2048.size a
  k0_dev17_lt : ∀ d0 : Dev nD, (k0_dev17 d0) < nD
  k0_off9_inb : ∀ d0 : Dev nD, ∀ a, (k0_off9 d0) a + S128x256.size a ≤ S256x2048.size a
  k0_dev18_lt : ∀ d0 : Dev nD, (k0_dev18 d0) < nD
  k0_off10_inb : ∀ d0 : Dev nD, ∀ a, (k0_off10 d0) a + S128x256.size a ≤ S256x2048.size a
  k0_off11_inb : ∀ d0 : Dev nD, ∀ a, (k0_off11 d0) a + S128x256.size a ≤ S256x2048.size a
  k0_off12_inb : ∀ d0 : Dev nD, ∀ a, (k0_off12 d0) a + S128x256.size a ≤ S256x2048.size a
  k0_off13_inb : ∀ d0 : Dev nD, ∀ a, (k0_off13 d0) a + S128x256.size a ≤ S256x2048.size a
  k0_off14_inb : ∀ d0 : Dev nD, ∀ a, (k0_off14 d0) a + S128x256.size a ≤ S256x2048.size a
  k0_off15_inb : ∀ d0 : Dev nD, ∀ a, (k0_off15 d0) a + S128x256.size a ≤ S256x2048.size a
  k0_off16_inb : ∀ d0 : Dev nD, ∀ a, (k0_off16 d0) a + S128x256.size a ≤ S256x2048.size a
  k0_off17_inb : ∀ d0 : Dev nD, ∀ a, (k0_off17 d0) a + S128x256.size a ≤ S256x2048.size a
  k0_off18_inb : ∀ d0 : Dev nD, ∀ a, (k0_off18 d0) a + S128x256.size a ≤ S256x2048.size a
  hstage0_0 : ∀ j, (stage0_0 j).IsWhole

variable [Facts₀]

abbrev cc0_scratch8 : DmaSems sig S_ := SemArray.consecutive 1 S_ hcc0_scratch8
abbrev cc0_scratch9 : DmaSems sig S16 := SemArray.consecutive 2 S16 hcc0_scratch9
abbrev cc0_scratch10 : DmaSems sig S8 := SemArray.consecutive 18 S8 hcc0_scratch10
abbrev cc0_scratch11 : DmaSems sig S8 := SemArray.consecutive 26 S8 hcc0_scratch11
abbrev cc0_scratch12 : DmaSems sig S8 := SemArray.consecutive 34 S8 hcc0_scratch12
abbrev cc0_scratch13 : DmaSems sig S8 := SemArray.consecutive 42 S8 hcc0_scratch13
def dot_S128x512_S512x256_S128x256_1_0_0_1_n_n : DotDims S128x512 S512x256 S128x256 where
  lhsContracting := [1]
  rhsContracting := [0]
  lhsNonContracting := [0]
  rhsNonContracting := [1]
  lhsBatch := []
  rhsBatch := []
  wf := dot_S128x512_S512x256_S128x256_1_0_0_1_n_n_wf

abbrev win0_0 : Pipeline.Window sig grid0 :=
  Pipeline.Window.whole (Memref.whole main_arg0) false false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S1024x512 : Shape := ⟨2, ![1024, 512]⟩
abbrev S1024x2048 : Shape := ⟨2, ![1024, 2048]⟩
abbrev S512x1024 : Shape := ⟨2, ![512, 1024]⟩
abbrev S512x2048 : Shape := ⟨2, ![512, 2048]⟩

abbrev nBuf : Space → Nat
  | .hbm => 4
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x2048, .f32⟩
  | .hbm, ⟨2, _⟩ => ⟨S512x1024, .f32⟩
  | .hbm, ⟨3, _⟩ => ⟨S512x2048, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S1024x512_S512x1024_1_0 : S1024x512.Transposes [1, 0] S512x1024
  dot_S512x1024_S1024x2048_S512x2048_1_0_0_1_n_n_wf : DotDims.WF S512x1024 S1024x2048 S512x2048 [1] [0] [0] [1] [] []

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

class Facts : Prop extends Facts₀ where

variable [Facts]
-- ==== Proof.Protocol.lean ====
import proofs.«900476_g7700000000000477_dist_rsdw_v7x_xyz2x2x2_y_m512_d512_f2048_f32_1_alg».proof.Proof.Gen.KernelIdeal
import proofs.«900476_g7700000000000477_dist_rsdw_v7x_xyz2x2x2_y_m512_d512_f2048_f32_1_alg».proof.Proof.Gen.KernelIdeal.Launch
import Idealize.ShloMosaic.Lib.Pipeline.Launch
import Idealize.ShloMosaic.Lib.Pipeline.Kit
import Idealize.ShloMosaic.Lib.Transfers
import Idealize.ShloMosaic.Lib.Tactic

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The mesh: a device is (x, y, z) with id 4x + 2y + z; the partner along y flips bit 1, along z bit 0 -/

def yp (c : Dev nD) : Dev nD := ⟨(4 * (c.val / 4) + (c.val % 2) + 2) - 2 * ((c.val / 2) % 2), by revert c; decide⟩
def zp (c : Dev nD) : Dev nD := ⟨(4 * (c.val / 4) + 2 * ((c.val / 2) % 2) + 1) - (c.val % 2), by revert c; decide⟩

theorem yp_yp (c : Dev nD) : yp (yp c) = c := by revert c; decide
theorem zp_zp (c : Dev nD) : zp (zp c) = c := by revert c; decide
theorem yp_ne_zp (c : Dev nD) : yp c ≠ zp c := by revert c; decide
theorem yp_ne (c : Dev nD) : yp c ≠ c := by revert c; decide
theorem zp_ne (c : Dev nD) : zp c ≠ c := by revert c; decide

theorem dev1_eq (c : Dev nD) : (⟨k0_dev1 c, k0_dev1_lt c⟩ : Dev nD) = yp c := Fin.ext (k0_dev1_eq c)
theorem dev2_eq (c : Dev nD) : (⟨k0_dev2 c, k0_dev2_lt c⟩ : Dev nD) = zp c := Fin.ext (k0_dev2_eq c)

theorem routes_yp (c : Dev nD) : τ.routes (c : Thread nD τ) (yp c : Thread nD τ) = true := by revert c; decide
theorem routes_zp (c : Dev nD) : τ.routes (c : Thread nD τ) (zp c : Thread nD τ) = true := by revert c; decide

/-! ## The resource algebra: the pipeline library's copy, the protocol's rounds (duties `Bool`), the local transfers' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

/-! ## Cells and slots

Every device has a barrier cell and, per column chunk `i < 8`, four transfer cells: the send and the receive cell of the
exchange along `y` and those of the exchange along `z`. -/

abbrev barS : Sem sig := (SemArray.scalar (sig.barrier 0 rfl) : Sems sig S_).sem

def ysSem (i : Fin 8) : DmaSem sig := ⟨18 + i.val, by have := i.isLt; show 18 + i.val < 50; omega⟩
def yrSem (i : Fin 8) : DmaSem sig := ⟨26 + i.val, by have := i.isLt; show 26 + i.val < 50; omega⟩
def zsSem (i : Fin 8) : DmaSem sig := ⟨34 + i.val, by have := i.isLt; show 34 + i.val < 50; omega⟩
def zrSem (i : Fin 8) : DmaSem sig := ⟨42 + i.val, by have := i.isLt; show 42 + i.val < 50; omega⟩

abbrev barCell (c : Dev nD) : GSem nD τ sig := ((c : Thread nD τ), .reg barS)
abbrev ysCell (c : Dev nD) (i : Fin 8) : GSem nD τ sig := ((c : Thread nD τ), .dma (ysSem i))
abbrev yrCell (c : Dev nD) (i : Fin 8) : GSem nD τ sig := ((c : Thread nD τ), .dma (yrSem i))
abbrev zsCell (c : Dev nD) (i : Fin 8) : GSem nD τ sig := ((c : Thread nD τ), .dma (zsSem i))
abbrev zrCell (c : Dev nD) (i : Fin 8) : GSem nD τ sig := ((c : Thread nD τ), .dma (zrSem i))

theorem slot_inb (i : Fin 8) : ∀ a, (![i.val, 0, 0] : Fin 3 → Nat) a + S1x128x256.size a ≤ S8x128x256.size a := by
  revert i; decide

/-- Slot `i` of an `[8,128,256]` buffer, as the `[128,256]` memref a transfer names. -/
def slotM (M : Memref sig .tc .vmem S8x128x256 .bf16) (i : Fin 8) : Memref sig .tc .vmem S128x256 .bf16 :=
  (M.slice (Rect.unit (s := S8x128x256) ![i.val, 0, 0] S1x128x256.size (slot_inb i)) (fun _ => rfl)).squeeze S128x256 squeezes_S1x128x256_S128x256

/-- The four slotted buffers: what is sent along y, what arrives along y, what is sent along z, what arrives along z. -/
abbrev YS : Memref sig .tc .vmem S8x128x256 .bf16 := Memref.whole cc0_scratch2
abbrev YR : Memref sig .tc .vmem S8x128x256 .bf16 := Memref.whole cc0_scratch3
abbrev ZS : Memref sig .tc .vmem S8x128x256 .bf16 := Memref.whole cc0_scratch4
abbrev ZR : Memref sig .tc .vmem S8x128x256 .bf16 := Memref.whole cc0_scratch5

/-- A slot held at some contents; -/
def slotAny (M : Memref sig .tc .vmem S8x128x256 .bf16) (c : Dev nD) (i : Fin 8) : sProp 𝕄 :=
  iprop(∃ f, (slotM M i).view.loc (c : Thread nD τ) ↦[(slotM M i).view.set]{fullShare} f)
/-- and a slot held at contents that read `w` through the slot. -/
def slotHas (M : Memref sig .tc .vmem S8x128x256 .bf16) (c : Dev nD) (i : Fin 8) (w : S128x256.Idx → Elt F .bf16) : sProp 𝕄 :=
  iprop(∃ G, ⌜(slotM M i).view.read (Elt F) G = w⌝ ∗ ((slotM M i).view.loc (c : Thread nD τ) ↦[(slotM M i).view.set]{fullShare} G))

/-- One assertion per chunk. -/
def all8 (Φ : Fin 8 → sProp 𝕄) : sProp 𝕄 := iprop(Φ 0 ∗ Φ 1 ∗ Φ 2 ∗ Φ 3 ∗ Φ 4 ∗ Φ 5 ∗ Φ 6 ∗ Φ 7)

abbrev N : ℕ := (slotM YR 0).view.dmaCredit
theorem N_pos : 0 < N := View.dmaCredit_pos _ (by decide)

/-! ## The schedule: one round per cell

The barrier cell of device `c` has two duties of one unit each: `false`, paid by its partner along y, who hands over its
own buffer for what arrives along y and that it has opened its eight receive cells there; `true`, paid by its partner
along z, likewise for z. A send cell's one duty returns the slot that was read; a receive cell's one duty hands the owner
its slot holding what the partner computed for that chunk. -/

section Sched

variable (PS PZ : Dev nD → Fin 8 → S128x256.Idx → Elt F .bf16)

def barPayY (c : Dev nD) : sProp 𝕄 :=
  iprop((∃ f, (YR.view.loc (yp c : Thread nD τ)) ↦{fullShare} f) ∗ all8 fun i => reached ER (yrCell (yp c) i) 0)
def barPayZ (c : Dev nD) : sProp 𝕄 :=
  iprop((∃ f, (ZR.view.loc (zp c : Thread nD τ)) ↦{fullShare} f) ∗ all8 fun i => reached ER (zrCell (zp c) i) 0)

def chunkOf (n base : ℕ) : Fin 8 := ⟨(n - base) % 8, Nat.mod_lt _ (by decide)⟩

def sched : Rounds.Schedule (GSem nD τ sig) Bool 𝕄 where
  duties g r :=
    if r = 0 ∧ g.1.2 = .tc then
      (match g.2 with
        | .reg s => if s = barS then Finset.univ else ∅
        | .dma n => if 18 ≤ n.val then {false} else ∅)
    else ∅
  unitless _ := False
  amount g _ _ := match g.2 with | .reg _ => 1 | .dma _ => N
  payload g _ d := match g.2 with
    | .reg _ => if d then barPayZ g.1.1 else barPayY g.1.1
    | .dma n =>
      if n.val < 26 then slotAny YS g.1.1 (chunkOf n.val 18)
      else if n.val < 34 then slotHas YR g.1.1 (chunkOf n.val 26) (PS (yp g.1.1) (chunkOf n.val 26))
      else if n.val < 42 then slotAny ZS g.1.1 (chunkOf n.val 34)
      else slotHas ZR g.1.1 (chunkOf n.val 42) (PZ (zp g.1.1) (chunkOf n.val 42))
  amount_pos g _ _ _ := by
    cases g.2 with
    | reg _ => exact Nat.one_pos
    | dma _ => exact N_pos

instance all8_storable (Φ : Fin 8 → sProp 𝕄) [∀ i, BI.Storable (upEmb : UEmb _ 𝕄) (Φ i)] : BI.Storable (upEmb : UEmb _ 𝕄) (all8 Φ) := by
  unfold all8; infer_instance

instance sched_payload_storable (g : GSem nD τ sig) (r : ℕ) (d : Bool) :
    BI.Storable (upEmb : UEmb _ 𝕄) ((sched (F := F) PS PZ).payload g r d) := by
  show BI.Storable upEmb (match g.2 with
    | .reg _ => if d then barPayZ g.1.1 else barPayY g.1.1
    | .dma n =>
      if n.val < 26 then slotAny YS g.1.1 (chunkOf n.val 18)
      else if n.val < 34 then slotHas YR g.1.1 (chunkOf n.val 26) (PS (yp g.1.1) (chunkOf n.val 26))
      else if n.val < 42 then slotAny ZS g.1.1 (chunkOf n.val 34)
      else slotHas ZR g.1.1 (chunkOf n.val 42) (PZ (zp g.1.1) (chunkOf n.val 42)))
  unfold barPayY barPayZ slotAny slotHas
  (repeat' split) <;> infer_instance

end Sched

/-! ### The schedule's tables -/

section Tables

variable (PS PZ : Dev nD → Fin 8 → S128x256.Idx → Elt F .bf16) (c : Dev nD) (i : Fin 8)

theorem chunkOf_add (b : ℕ) : chunkOf (b + i.val) b = i := Fin.ext (by show (b + i.val - b) % 8 = i.val; have := i.isLt; omega)

omit [FloatOps F] in
theorem duties_bar : (sched (F := F) PS PZ).duties (barCell c) 0 = Finset.univ := by
  dsimp only [sched]; rw [if_pos ⟨rfl, rfl⟩]; exact if_pos rfl
omit [FloatOps F] in
theorem duties_ys : (sched (F := F) PS PZ).duties (ysCell c i) 0 = {false} := by
  dsimp only [sched]; rw [if_pos ⟨rfl, rfl⟩]; exact if_pos (by show 18 ≤ 18 + i.val; omega)
omit [FloatOps F] in
theorem duties_yr : (sched (F := F) PS PZ).duties (yrCell c i) 0 = {false} := by
  dsimp only [sched]; rw [if_pos ⟨rfl, rfl⟩]; exact if_pos (by show 18 ≤ 26 + i.val; omega)
omit [FloatOps F] in
theorem duties_zs : (sched (F := F) PS PZ).duties (zsCell c i) 0 = {false} := by
  dsimp only [sched]; rw [if_pos ⟨rfl, rfl⟩]; exact if_pos (by show 18 ≤ 34 + i.val; omega)
omit [FloatOps F] in
theorem duties_zr : (sched (F := F) PS PZ).duties (zrCell c i) 0 = {false} := by
  dsimp only [sched]; rw [if_pos ⟨rfl, rfl⟩]; exact if_pos (by show 18 ≤ 42 + i.val; omega)
omit [FloatOps F] in
theorem duties_later (g : GSem nD τ sig) : ∀ r, 1 ≤ r → (sched (F := F) PS PZ).duties g r = ∅ :=
  fun r hr => by dsimp only [sched]; rw [if_neg fun h => by omega]

omit [FloatOps F] in
theorem amount_bar (d : Bool) : (sched (F := F) PS PZ).amount (barCell c) 0 d = 1 := rfl
omit [FloatOps F] in
theorem amount_ys (d : Bool) : (sched (F := F) PS PZ).amount (ysCell c i) 0 d = N := rfl
omit [FloatOps F] in
theorem amount_yr (d : Bool) : (sched (F := F) PS PZ).amount (yrCell c i) 0 d = N := rfl
omit [FloatOps F] in
theorem amount_zs (d : Bool) : (sched (F := F) PS PZ).amount (zsCell c i) 0 d = N := rfl
omit [FloatOps F] in
theorem amount_zr (d : Bool) : (sched (F := F) PS PZ).amount (zrCell c i) 0 d = N := rfl

omit [FloatOps F] in
theorem expect_bar : (sched (F := F) PS PZ).expect (barCell c) 0 = 2 := by
  unfold Schedule.expect Schedule.amountOf
  rw [duties_bar, Finset.sum_congr rfl fun d _ => amount_bar PS PZ c d, Finset.sum_const, Finset.card_univ, Fintype.card_bool, smul_eq_mul]
omit [FloatOps F] in
theorem expect_ys : (sched (F := F) PS PZ).expect (ysCell c i) 0 = N := by
  unfold Schedule.expect Schedule.amountOf; rw [duties_ys, Finset.sum_singleton, amount_ys]
omit [FloatOps F] in
theorem expect_yr : (sched (F := F) PS PZ).expect (yrCell c i) 0 = N := by
  unfold Schedule.expect Schedule.amountOf; rw [duties_yr, Finset.sum_singleton, amount_yr]
omit [FloatOps F] in
theorem expect_zs : (sched (F := F) PS PZ).expect (zsCell c i) 0 = N := by
  unfold Schedule.expect Schedule.amountOf; rw [duties_zs, Finset.sum_singleton, amount_zs]
omit [FloatOps F] in
theorem expect_zr : (sched (F := F) PS PZ).expect (zrCell c i) 0 = N := by
  unfold Schedule.expect Schedule.amountOf; rw [duties_zr, Finset.sum_singleton, amount_zr]

omit [FloatOps F] in
theorem payload_bar_false : (sched (F := F) PS PZ).payload (barCell c) 0 false = barPayY c := by
  dsimp only [sched]; exact if_neg Bool.false_ne_true
omit [FloatOps F] in
theorem payload_bar_true : (sched (F := F) PS PZ).payload (barCell c) 0 true = barPayZ c := by
  dsimp only [sched]; exact if_pos rfl
omit [FloatOps F] in
theorem payload_ys (d : Bool) : (sched (F := F) PS PZ).payload (ysCell c i) 0 d = slotAny YS c i := by
  dsimp only [sched]
  rw [if_pos (show (ysSem i).val < 26 by show 18 + i.val < 26; have := i.isLt; omega)]
  show slotAny YS c (chunkOf (18 + i.val) 18) = _; rw [chunkOf_add]
omit [FloatOps F] in
theorem payload_yr (d : Bool) : (sched (F := F) PS PZ).payload (yrCell c i) 0 d = slotHas YR c i (PS (yp c) i) := by
  dsimp only [sched]
  rw [if_neg (show ¬ (yrSem i).val < 26 by show ¬ 26 + i.val < 26; omega), if_pos (show (yrSem i).val < 34 by show 26 + i.val < 34; have := i.isLt; omega)]
  show slotHas YR c (chunkOf (26 + i.val) 26) (PS (yp c) (chunkOf (26 + i.val) 26)) = _; rw [chunkOf_add]
omit [FloatOps F] in
theorem payload_zs (d : Bool) : (sched (F := F) PS PZ).payload (zsCell c i) 0 d = slotAny ZS c i := by
  dsimp only [sched]
  rw [if_neg (show ¬ (zsSem i).val < 26 by show ¬ 34 + i.val < 26; omega), if_neg (show ¬ (zsSem i).val < 34 by show ¬ 34 + i.val < 34; omega),
    if_pos (show (zsSem i).val < 42 by show 34 + i.val < 42; have := i.isLt; omega)]
  show slotAny ZS c (chunkOf (34 + i.val) 34) = _; rw [chunkOf_add]
omit [FloatOps F] in
theorem payload_zr (d : Bool) : (sched (F := F) PS PZ).payload (zrCell c i) 0 d = slotHas ZR c i (PZ (zp c) i) := by
  dsimp only [sched]
  rw [if_neg (show ¬ (zrSem i).val < 26 by show ¬ 42 + i.val < 26; omega), if_neg (show ¬ (zrSem i).val < 34 by show ¬ 42 + i.val < 34; omega),
    if_neg (show ¬ (zrSem i).val < 42 by show ¬ 42 + i.val < 42; omega)]
  show slotHas ZR c (chunkOf (42 + i.val) 42) (PZ (zp c) (chunkOf (42 + i.val) 42)) = _; rw [chunkOf_add]

omit [FloatOps F] in
/-- The whole of the barrier cell's round: both partners' buffers. -/
theorem rest_bar : bigSep ((sched (F := F) PS PZ).duties (barCell c) 0 \ ∅) (fun d => (sched (F := F) PS PZ).payload (barCell c) 0 d) = iprop(barPayY c ∗ barPayZ c) := by
  rw [Finset.sdiff_empty, duties_bar, bigSep_univ_eq_bigSepL [false, true] (by decide) (by decide), bigSepL_cons_cons, bigSepL_singleton,
    payload_bar_false, payload_bar_true]
  rfl
omit [FloatOps F] in
theorem rest_ys : bigSep ((sched (F := F) PS PZ).duties (ysCell c i) 0 \ ∅) (fun d => (sched (F := F) PS PZ).payload (ysCell c i) 0 d) = slotAny YS c i := by
  rw [Finset.sdiff_empty, duties_ys, bigSep_singleton, payload_ys]
omit [FloatOps F] in
theorem rest_yr : bigSep ((sched (F := F) PS PZ).duties (yrCell c i) 0 \ ∅) (fun d => (sched (F := F) PS PZ).payload (yrCell c i) 0 d) = slotHas YR c i (PS (yp c) i) := by
  rw [Finset.sdiff_empty, duties_yr, bigSep_singleton, payload_yr]
omit [FloatOps F] in
theorem rest_zs : bigSep ((sched (F := F) PS PZ).duties (zsCell c i) 0 \ ∅) (fun d => (sched (F := F) PS PZ).payload (zsCell c i) 0 d) = slotAny ZS c i := by
  rw [Finset.sdiff_empty, duties_zs, bigSep_singleton, payload_zs]
omit [FloatOps F] in
theorem rest_zr : bigSep ((sched (F := F) PS PZ).duties (zrCell c i) 0 \ ∅) (fun d => (sched (F := F) PS PZ).payload (zrCell c i) 0 d) = slotHas ZR c i (PZ (zp c) i) := by
  rw [Finset.sdiff_empty, duties_zr, bigSep_singleton, payload_zr]

end Tables

end Cert.KernelIdeal.Hand

end
-- ==== Proof.Steps.lean ====
import proofs.«900476_g7700000000000477_dist_rsdw_v7x_xyz2x2x2_y_m512_d512_f2048_f32_1_alg».proof.Proof.Protocol

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What a device owes, in the order it pays

The last summand is paid first: the signal to the partner along y, the one to the partner along z, then the eight
landings along y (chunk 0 first), then the eight along z. `owedZ n` is what remains with the last `n` z-landings
unpaid, `owedY n` all z-landings and the last `n` y-landings. -/

def chunkRev (n : ℕ) : Fin 8 := ⟨(7 - n) % 8, Nat.mod_lt _ (by decide)⟩

def owedZ (c : Dev nD) : ℕ → CellTallies nD τ sig Unit
  | 0 => 0
  | n + 1 => owedZ c n + tallyAt (zrCell (zp c) (chunkRev n)) () N
def owedY (c : Dev nD) : ℕ → CellTallies nD τ sig Unit
  | 0 => owedZ c 8
  | n + 1 => owedY c n + tallyAt (yrCell (yp c) (chunkRev n)) () N
def owed₁ (c : Dev nD) : CellTallies nD τ sig Unit := owedY c 8 + tallyAt (barCell (zp c)) () 1
def owed₀ (c : Dev nD) : CellTallies nD τ sig Unit := owed₁ c + tallyAt (barCell (yp c)) () 1

/-- Levels: a barrier cell at 1, a y-receive cell at 2, a z-receive cell at 3, every other cell at 0. -/
def L (g : GSem nD τ sig) : Finset Unit := if g.1.2 = .tc then {()} else ∅
def lv (g : GSem nD τ sig) (_ : Unit) : ℕ :=
  match g.2 with
  | .reg _ => 1
  | .dma n => if n.val < 26 then 0 else if n.val < 34 then 2 else if n.val < 42 then 0 else 3

theorem L_of_ne (g : GSem nD τ sig) (h : g.1.2 ≠ .tc) : L g = ∅ := if_neg h
theorem L_tc (c : Dev nD) (sm : SemLoc sig) : L ((c : Thread nD τ), sm) = {()} := if_pos rfl

theorem owedZ_pos {c : Dev nD} {g : GSem nD τ sig} {u : Unit} : ∀ {n : ℕ}, 0 < owedZ c n g u → ∃ i, g = zrCell (zp c) i
  | 0, h => absurd h (Nat.lt_irrefl 0)
  | n + 1, h => by
    rcases Pipeline.add_pos_cases (show 0 < (owedZ c n + tallyAt (zrCell (zp c) (chunkRev n)) () N) g u from h) with h | h
    · exact owedZ_pos h
    · rw [tallyAt_apply] at h
      by_cases hg : g = zrCell (zp c) (chunkRev n) ∧ u = ()
      · exact ⟨_, hg.1⟩
      · rw [if_neg hg] at h; exact absurd h (Nat.lt_irrefl 0)

theorem owedY_pos {c : Dev nD} {g : GSem nD τ sig} {u : Unit} : ∀ {n : ℕ}, 0 < owedY c n g u → (∃ i, g = zrCell (zp c) i) ∨ ∃ i, g = yrCell (yp c) i
  | 0, h => Or.inl (owedZ_pos h)
  | n + 1, h => by
    rcases Pipeline.add_pos_cases (show 0 < (owedY c n + tallyAt (yrCell (yp c) (chunkRev n)) () N) g u from h) with h | h
    · exact owedY_pos h
    · rw [tallyAt_apply] at h
      by_cases hg : g = yrCell (yp c) (chunkRev n) ∧ u = ()
      · exact Or.inr ⟨_, hg.1⟩
      · rw [if_neg hg] at h; exact absurd h (Nat.lt_irrefl 0)

theorem lv_zr (c : Dev nD) (i : Fin 8) (u : Unit) : lv (zrCell c i) u = 3 := by
  have := i.isLt
  show (if (42 + i.val) < 26 then 0 else if (42 + i.val) < 34 then 2 else if (42 + i.val) < 42 then 0 else 3) = 3
  rw [if_neg (by omega), if_neg (by omega), if_neg (by omega)]
theorem lv_yr (c : Dev nD) (i : Fin 8) (u : Unit) : lv (yrCell c i) u = 2 := by
  have := i.isLt
  show (if (26 + i.val) < 26 then 0 else if (26 + i.val) < 34 then 2 else if (26 + i.val) < 42 then 0 else 3) = 2
  rw [if_neg (by omega), if_pos (by omega)]

omit [FloatOps F] in
/-- A wait on a cell of level at most 1 is allowed while only landings are owed. -/
theorem mayWait_owedY (c : Dev nD) (s : SemLoc sig) (hs : lv ((c : Thread nD τ), s) () ≤ 1) (n : ℕ) :
    (levAts L lv : sProp 𝕄) ⊢ MayWait (c : Thread nD τ) s () (owedY c n) :=
  Pipeline.mayWait_of_levAts (by rw [L_tc]; exact Finset.mem_singleton_self _) fun g u hg => by
    rcases owedY_pos hg with ⟨i, rfl⟩ | ⟨i, rfl⟩
    · exact ⟨by rw [L_tc]; exact Finset.mem_singleton_self _, by rw [lv_zr]; omega⟩
    · exact ⟨by rw [L_tc]; exact Finset.mem_singleton_self _, by rw [lv_yr]; omega⟩

omit [FloatOps F] in
/-- A wait on a cell of level at most 2 is allowed while only landings along z are owed. -/
theorem mayWait_owedZ (c : Dev nD) (s : SemLoc sig) (hs : lv ((c : Thread nD τ), s) () ≤ 2) (n : ℕ) :
    (levAts L lv : sProp 𝕄) ⊢ MayWait (c : Thread nD τ) s () (owedZ c n) :=
  Pipeline.mayWait_of_levAts (by rw [L_tc]; exact Finset.mem_singleton_self _) fun g u hg => by
    obtain ⟨i, rfl⟩ := owedZ_pos hg
    exact ⟨by rw [L_tc]; exact Finset.mem_singleton_self _, by rw [lv_zr]; omega⟩

/-! ## The addressed transfers and their receive waits, one lemma per kind, at any chunk -/

abbrev 𝒱₀ : Variants := Variants.none

section Xfer

variable (PS PZ : Dev nD → Fin 8 → S128x256.Idx → Elt F .bf16) (K : GSem nD τ sig → ℕ)

theorem amount_slot (M : Memref sig .tc .vmem S8x128x256 .bf16) (i : Fin 8) (s : DmaSem sig) : (slotM M i).view.amount (.dma s) = N := rfl

/-- The transfer of chunk `i` to the partner along y: the slot sent comes back with the send cell's round, the partner's
    slot, rewritten, is what its receive cell's round hands it. -/
theorem send_y (c n : Dev nD) (hn : n = yp c) (i : Fin 8)
    {hsc : ((slotM YR i) : Memref sig (Dev.tc n : Thread nD τ).2.kind .vmem S128x256 .bf16).view.ref.isScScratch = false}
    {hsrc : (slotM YS i).view.WordExact} {hdst : (slotM YR i).view.WordExact}
    {hsem : DmaTarget.Typed .vmem (.dma (yrSem i)) (.remote (Dev.tc n : Thread nD τ) (slotM YR i) (.dma (ysSem i)) hsc)}
    {α : Type} {Q : α → sProp 𝕄} {k : PUnit → Prog (TpuEff nD τ sig (Elt F) Λ₀ .tc) α}
    (fs : Buf (Elt F) ((slotM YS i).view.loc (c : Thread nD τ))) (fd : Buf (Elt F) ((slotM YR i).view.loc (yp c : Thread nD τ)))
    (hval : (slotM YS i).view.read (Elt F) fs = PS c i)
    (O : CellTallies nD τ sig Unit) (W : Waits sig Unit) :
    iprop(cellInv ER (sched PS PZ) (K (ysCell c i)) (ysCell c i) ∗ cellInv ER (sched PS PZ) (K (yrCell (yp c) i)) (yrCell (yp c) i)
        ∗ ((slotM YS i).view.loc (c : Thread nD τ) ↦[(slotM YS i).view.set]{fullShare} fs)
        ∗ ((slotM YR i).view.loc (yp c : Thread nD τ) ↦[(slotM YR i).view.set]{fullShare} fd)
        ∗ owes (c : Thread nD τ) (O + tallyAt (yrCell (yp c) i) () N) W
        ∗ dutyTok ER (ysCell c i) 0 false ∗ reached ER (ysCell c i) 0
        ∗ dutyTok ER (yrCell (yp c) i) 0 false ∗ reached ER (yrCell (yp c) i) 0)
      ⊢ iprop(((cred (tallyAt (ysCell c i) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM YS i) (.remote (Dev.tc n : Thread nD τ) (slotM YR i) (.dma (ysSem i)) hsc) (.dma (yrSem i)) hsrc hdst hsem) k) Q) := by
  subst hn
  exact Rounds.wp_send_pointsTo 𝒱₀ ER (sched PS PZ) (c : Thread nD τ) none (κ₁ := K (ysCell c i)) (κ₂ := K (yrCell (yp c) i))
    (c' := (yp c : Thread nD τ)) (src := slotM YS i) (dst := slotM YR i) (q := fullShare) (fs := fs)
    (r₁ := 0) (r₂ := 0) (d₁ := false) (d₂ := false) (fd := fd)
    (by rw [duties_ys]; exact Finset.mem_singleton_self _) (by rw [duties_yr]; exact Finset.mem_singleton_self _)
    () () N (amount_slot YR i _) (amount_ys PS PZ c i false) (amount_yr PS PZ (yp c) i false) O rfl (W := W)
    (by rw [payload_ys]; unfold slotAny; iintro H; iexists fs; iexact H)
    (by
      rw [payload_yr, yp_yp]; unfold slotHas
      iintro H; iexists ((slotM YR i).view.write (Elt F) fd ((slotM YS i).view.read (Elt F) fs) Finset.univ)
      isplitr
      · ipureintro; rw [View.read_write_univ]; exact hval
      · iexact H)
    (routes_yp c)

set_option maxHeartbeats 3200000 in
/-- The same along z. -/
theorem send_z (c n : Dev nD) (hn : n = zp c) (i : Fin 8)
    {hsc : ((slotM ZR i) : Memref sig (Dev.tc n : Thread nD τ).2.kind .vmem S128x256 .bf16).view.ref.isScScratch = false}
    {hsrc : (slotM ZS i).view.WordExact} {hdst : (slotM ZR i).view.WordExact}
    {hsem : DmaTarget.Typed .vmem (.dma (zrSem i)) (.remote (Dev.tc n : Thread nD τ) (slotM ZR i) (.dma (zsSem i)) hsc)}
    {α : Type} {Q : α → sProp 𝕄} {k : PUnit → Prog (TpuEff nD τ sig (Elt F) Λ₀ .tc) α}
    (fs : Buf (Elt F) ((slotM ZS i).view.loc (c : Thread nD τ))) (fd : Buf (Elt F) ((slotM ZR i).view.loc (zp c : Thread nD τ)))
    (hval : (slotM ZS i).view.read (Elt F) fs = PZ c i)
    (O : CellTallies nD τ sig Unit) (W : Waits sig Unit) :
    iprop(cellInv ER (sched PS PZ) (K (zsCell c i)) (zsCell c i) ∗ cellInv ER (sched PS PZ) (K (zrCell (zp c) i)) (zrCell (zp c) i)
        ∗ ((slotM ZS i).view.loc (c : Thread nD τ) ↦[(slotM ZS i).view.set]{fullShare} fs)
        ∗ ((slotM ZR i).view.loc (zp c : Thread nD τ) ↦[(slotM ZR i).view.set]{fullShare} fd)
        ∗ owes (c : Thread nD τ) (O + tallyAt (zrCell (zp c) i) () N) W
        ∗ dutyTok ER (zsCell c i) 0 false ∗ reached ER (zsCell c i) 0
        ∗ dutyTok ER (zrCell (zp c) i) 0 false ∗ reached ER (zrCell (zp c) i) 0)
      ⊢ iprop(((cred (tallyAt (zsCell c i) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM ZS i) (.remote (Dev.tc n : Thread nD τ) (slotM ZR i) (.dma (zsSem i)) hsc) (.dma (zrSem i)) hsrc hdst hsem) k) Q) := by
  subst hn
  exact Rounds.wp_send_pointsTo 𝒱₀ ER (sched PS PZ) (c : Thread nD τ) none (κ₁ := K (zsCell c i)) (κ₂ := K (zrCell (zp c) i))
    (c' := (zp c : Thread nD τ)) (src := slotM ZS i) (dst := slotM ZR i) (q := fullShare) (fs := fs)
    (r₁ := 0) (r₂ := 0) (d₁ := false) (d₂ := false) (fd := fd)
    (by rw [duties_zs]; exact Finset.mem_singleton_self _) (by rw [duties_zr]; exact Finset.mem_singleton_self _)
    () () N (amount_slot ZR i _) (amount_zs PS PZ c i false) (amount_zr PS PZ (zp c) i false) O rfl (W := W)
    (by rw [payload_zs]; unfold slotAny; iintro H; iexists fs; iexact H)
    (by
      rw [payload_zr, zp_zp]; unfold slotHas
      iintro H; iexists ((slotM ZR i).view.write (Elt F) fd ((slotM ZS i).view.read (Elt F) fs) Finset.univ)
      isplitr
      · ipureintro; rw [View.read_write_univ]; exact hval
      · iexact H)
    (routes_zp c)

set_option maxHeartbeats 3200000 in
/-- `send_y` with what the sent slot holds stated last, beside the resources. -/
theorem send_y' (c n : Dev nD) (hn : n = yp c) (i : Fin 8)
    {hsc : ((slotM YR i) : Memref sig (Dev.tc n : Thread nD τ).2.kind .vmem S128x256 .bf16).view.ref.isScScratch = false}
    {hsrc : (slotM YS i).view.WordExact} {hdst : (slotM YR i).view.WordExact}
    {hsem : DmaTarget.Typed .vmem (.dma (yrSem i)) (.remote (Dev.tc n : Thread nD τ) (slotM YR i) (.dma (ysSem i)) hsc)}
    {α : Type} {Q : α → sProp 𝕄} {k : PUnit → Prog (TpuEff nD τ sig (Elt F) Λ₀ .tc) α}
    (fs : Buf (Elt F) ((slotM YS i).view.loc (c : Thread nD τ))) (fd : Buf (Elt F) ((slotM YR i).view.loc (yp c : Thread nD τ)))
    (O : CellTallies nD τ sig Unit) (W : Waits sig Unit) :
    iprop((cellInv ER (sched PS PZ) (K (ysCell c i)) (ysCell c i) ∗ cellInv ER (sched PS PZ) (K (yrCell (yp c) i)) (yrCell (yp c) i)
        ∗ ((slotM YS i).view.loc (c : Thread nD τ) ↦[(slotM YS i).view.set]{fullShare} fs)
        ∗ ((slotM YR i).view.loc (yp c : Thread nD τ) ↦[(slotM YR i).view.set]{fullShare} fd)
        ∗ owes (c : Thread nD τ) (O + tallyAt (yrCell (yp c) i) () N) W
        ∗ dutyTok ER (ysCell c i) 0 false ∗ reached ER (ysCell c i) 0
        ∗ dutyTok ER (yrCell (yp c) i) 0 false ∗ reached ER (yrCell (yp c) i) 0)
        ∗ ⌜(slotM YS i).view.read (Elt F) fs = PS c i⌝)
      ⊢ iprop(((cred (tallyAt (ysCell c i) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM YS i) (.remote (Dev.tc n : Thread nD τ) (slotM YR i) (.dma (ysSem i)) hsc) (.dma (yrSem i)) hsrc hdst hsem) k) Q) := by
  iintro ⟨H, %hval⟩
  iapply (send_y PS PZ K c n hn i fs fd hval O W) $$ H

set_option maxHeartbeats 3200000 in
/-- The same along z. -/
theorem send_z' (c n : Dev nD) (hn : n = zp c) (i : Fin 8)
    {hsc : ((slotM ZR i) : Memref sig (Dev.tc n : Thread nD τ).2.kind .vmem S128x256 .bf16).view.ref.isScScratch = false}
    {hsrc : (slotM ZS i).view.WordExact} {hdst : (slotM ZR i).view.WordExact}
    {hsem : DmaTarget.Typed .vmem (.dma (zrSem i)) (.remote (Dev.tc n : Thread nD τ) (slotM ZR i) (.dma (zsSem i)) hsc)}
    {α : Type} {Q : α → sProp 𝕄} {k : PUnit → Prog (TpuEff nD τ sig (Elt F) Λ₀ .tc) α}
    (fs : Buf (Elt F) ((slotM ZS i).view.loc (c : Thread nD τ))) (fd : Buf (Elt F) ((slotM ZR i).view.loc (zp c : Thread nD τ)))
    (O : CellTallies nD τ sig Unit) (W : Waits sig Unit) :
    iprop((cellInv ER (sched PS PZ) (K (zsCell c i)) (zsCell c i) ∗ cellInv ER (sched PS PZ) (K (zrCell (zp c) i)) (zrCell (zp c) i)
        ∗ ((slotM ZS i).view.loc (c : Thread nD τ) ↦[(slotM ZS i).view.set]{fullShare} fs)
        ∗ ((slotM ZR i).view.loc (zp c : Thread nD τ) ↦[(slotM ZR i).view.set]{fullShare} fd)
        ∗ owes (c : Thread nD τ) (O + tallyAt (zrCell (zp c) i) () N) W
        ∗ dutyTok ER (zsCell c i) 0 false ∗ reached ER (zsCell c i) 0
        ∗ dutyTok ER (zrCell (zp c) i) 0 false ∗ reached ER (zrCell (zp c) i) 0)
        ∗ ⌜(slotM ZS i).view.read (Elt F) fs = PZ c i⌝)
      ⊢ iprop(((cred (tallyAt (zsCell c i) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM ZS i) (.remote (Dev.tc n : Thread nD τ) (slotM ZR i) (.dma (zsSem i)) hsc) (.dma (zrSem i)) hsrc hdst hsem) k) Q) := by
  iintro ⟨H, %hval⟩
  iapply (send_z PS PZ K c n hn i fs fd hval O W) $$ H

end Xfer

section Recv

variable (PS PZ : Dev nD → Fin 8 → S128x256.Idx → Elt F .bf16) (K : GSem nD τ sig → ℕ)

set_option maxHeartbeats 1600000 in
/-- The wait for what the partner along y sent for chunk `i`: the slot comes back holding it. -/
theorem recv_y (c : Dev nD) (i : Fin 8) (sem : DmaSem sig) (hs : sem = yrSem i)
    {sp' : Space} {s' : Shape} {e' : EltTy} {src : Memref sig .tc sp' s' e'}
    {hsrc : src.view.WordExact} {hdst : (slotM YR i).view.WordExact}
    {α : Type} {Q : α → sProp 𝕄} {k : PUnit → Prog (TpuEff nD τ sig (Elt F) Λ₀ .tc) α}
    (O : CellTallies nD τ sig Unit) (W : Waits sig Unit) :
    iprop(cellInv ER (sched PS PZ) (K (yrCell c i)) (yrCell c i) ∗ cred (tallyAt (yrCell c i) () N) ∗ owes (c : Thread nD τ) O W
        ∗ MayWait (c : Thread nD τ) (.dma (yrSem i)) () O ∗ atPos ER (yrCell c i) 0 ∅ 0)
      ⊢ iprop(((owes (c : Thread nD τ) O (insert (SemLoc.dma (yrSem i), ()) W) ∗ atPos ER (yrCell c i) 1 ∅ 0 ∗ reached ER (yrCell c i) 1
              ∗ slotHas YR c i (PS (yp c) i))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src (slotM YR i) hsrc hdst) k) Q) := by
  subst hs
  have hcr : (slotM YR i).view.dmaCredit = N := rfl
  have h := Rounds.wp_wait_rest_token (defs := defs₀ (F := F)) 𝒱₀ ER (sched PS PZ) (c : Thread nD τ) none (κ := K (yrCell c i)) (Q := Q) (k := k)
      (w := .waitDma2 (yrSem i) src (slotM YR i) hsrc hdst) (sm := .dma (yrSem i)) (k' := (slotM YR i).view.dmaCredit)
      (wpE_waitDma2_eq (defs := defs₀ (F := F)) 𝒱₀ (c : Thread nD τ) none Set.univ) (Set.mem_univ _) () (O := O) (W := W) (R := 0) (m := 0) (T := ∅)
      (by rw [Nat.zero_add, hcr, expect_yr])
  rw [hcr, rest_yr] at h
  exact h

set_option maxHeartbeats 1600000 in
/-- The same along z. -/
theorem recv_z (c : Dev nD) (i : Fin 8) (sem : DmaSem sig) (hs : sem = zrSem i)
    {sp' : Space} {s' : Shape} {e' : EltTy} {src : Memref sig .tc sp' s' e'}
    {hsrc : src.view.WordExact} {hdst : (slotM ZR i).view.WordExact}
    {α : Type} {Q : α → sProp 𝕄} {k : PUnit → Prog (TpuEff nD τ sig (Elt F) Λ₀ .tc) α}
    (O : CellTallies nD τ sig Unit) (W : Waits sig Unit) :
    iprop(cellInv ER (sched PS PZ) (K (zrCell c i)) (zrCell c i) ∗ cred (tallyAt (zrCell c i) () N) ∗ owes (c : Thread nD τ) O W
        ∗ MayWait (c : Thread nD τ) (.dma (zrSem i)) () O ∗ atPos ER (zrCell c i) 0 ∅ 0)
      ⊢ iprop(((owes (c : Thread nD τ) O (insert (SemLoc.dma (zrSem i), ()) W) ∗ atPos ER (zrCell c i) 1 ∅ 0 ∗ reached ER (zrCell c i) 1
              ∗ slotHas ZR c i (PZ (zp c) i))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src (slotM ZR i) hsrc hdst) k) Q) := by
  subst hs
  have hcr : (slotM ZR i).view.dmaCredit = N := rfl
  have h := Rounds.wp_wait_rest_token (defs := defs₀ (F := F)) 𝒱₀ ER (sched PS PZ) (c : Thread nD τ) none (κ := K (zrCell c i)) (Q := Q) (k := k)
      (w := .waitDma2 (zrSem i) src (slotM ZR i) hsrc hdst) (sm := .dma (zrSem i)) (k' := (slotM ZR i).view.dmaCredit)
      (wpE_waitDma2_eq (defs := defs₀ (F := F)) 𝒱₀ (c : Thread nD τ) none Set.univ) (Set.mem_univ _) () (O := O) (W := W) (R := 0) (m := 0) (T := ∅)
      (by rw [Nat.zero_add, hcr, expect_zr])
  rw [hcr, rest_zr] at h
  exact h

end Recv

end Cert.KernelIdeal.Hand

end
-- ==== Proof.Slots.lean ====
import proofs.«900476_g7700000000000477_dist_rsdw_v7x_xyz2x2x2_y_m512_d512_f2048_f32_1_alg».proof.Proof.Protocol
import Idealize.ShloMosaic.Rules.PointsTo

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## A buffer of eight slots is its eight slots

Slot `i` of an `[8,128,256]` buffer is the elements whose first coordinate is `i`; the eight are pairwise disjoint and
together are every element. -/

abbrev slotRect (i : Fin 8) : Rect S8x128x256 := Rect.unit (s := S8x128x256) ![i.val, 0, 0] S1x128x256.size (slot_inb i)

theorem mem_slotRect {i : Fin 8} {j : S8x128x256.Idx} : j ∈ (slotRect i).set ↔ (j 0).val = i.val := by
  rw [Rect.mem_set_unit]
  have h0 : S1x128x256.size 0 = 1 := rfl
  have h1 : S1x128x256.size 1 = 128 := rfl
  have h2 : S1x128x256.size 2 = 256 := rfl
  constructor
  · intro h; have := h 0; simp only [Matrix.cons_val_zero] at this; omega
  · intro h a
    match a with
    | ⟨0, _⟩ => exact ⟨by show i.val ≤ (j 0).val; omega, by show (j 0).val < i.val + S1x128x256.size 0; omega⟩
    | ⟨1, _⟩ => exact ⟨Nat.zero_le _, by show (j 1).val < 0 + S1x128x256.size 1; have : (j 1).val < 128 := (j 1).isLt; omega⟩
    | ⟨2, _⟩ => exact ⟨Nat.zero_le _, by show (j 2).val < 0 + S1x128x256.size 2; have : (j 2).val < 256 := (j 2).isLt; omega⟩

/-- Slot `i`'s elements, as elements of the whole buffer's location. -/
def slotSet (M : Memref sig .tc .vmem S8x128x256 .bf16) (c : Dev nD) (i : Fin 8) : Finset (Idx (M.view.loc (c : Thread nD τ))) :=
  (slotRect i).set.map M.view.emb

theorem slot_view_set (M : Memref sig .tc .vmem S8x128x256 .bf16) (c : Dev nD) (i : Fin 8) :
    (slotM M i).view.set = slotSet M c i := by
  show ((M.view.slice (slotRect i)).reshape S128x256 _).set = _
  rw [View.set_reshape, View.set_slice]; rfl

theorem slot_disjoint (M : Memref sig .tc .vmem S8x128x256 .bf16) (c : Dev nD) (i i' : Fin 8) (h : i ≠ i') :
    Disjoint (slotSet M c i) (slotSet M c i') := by
  unfold slotSet
  rw [Finset.disjoint_map, Finset.disjoint_left]
  intro j hj hj'
  exact h (Fin.ext ((mem_slotRect.mp hj).symm.trans (mem_slotRect.mp hj')))

theorem slot_cover (M : Memref sig .tc .vmem S8x128x256 .bf16) (c : Dev nD) :
    (Finset.univ : Finset (Fin 8)).biUnion (slotSet M c) = M.view.set := by
  ext x
  simp only [Finset.mem_biUnion, Finset.mem_univ, true_and, slotSet, Finset.mem_map]
  constructor
  · rintro ⟨i, j, _, rfl⟩; exact Finset.mem_map.mpr ⟨j, Finset.mem_univ _, rfl⟩
  · intro hx
    obtain ⟨j, _, rfl⟩ := Finset.mem_map.mp hx
    exact ⟨⟨(j 0).val, (j 0).isLt⟩, j, mem_slotRect.mpr rfl, rfl⟩

/-- A whole buffer held is its eight slots held, at the same contents. -/
theorem split8 (M : Memref sig .tc .vmem S8x128x256 .bf16) (c : Dev nD) (q : PosShare TreeShare) (f : Buf (Elt F) (M.view.loc (c : Thread nD τ))) :
    (M.view.loc (c : Thread nD τ) ↦[M.view.set]{q} f : sProp 𝕄)
      = bigSep Finset.univ fun i : Fin 8 => (M.view.loc (c : Thread nD τ) ↦[slotSet M c i]{q} f) := by
  rw [← slot_cover M c]
  exact pointsTo_biUnion Finset.univ (slotSet M c) fun i _ i' _ h => slot_disjoint M c i i' h

omit [FloatOps F] in
theorem bigSep_fin8 (Φ : Fin 8 → sProp 𝕄) : bigSep Finset.univ Φ = all8 Φ := by
  rw [bigSep_univ_eq_bigSepL [0, 1, 2, 3, 4, 5, 6, 7] (by decide) (by decide)]
  rfl

/-- The same with each slot named through its own memref, the form the transfers and the accesses take it in. -/
theorem split8' (M : Memref sig .tc .vmem S8x128x256 .bf16) (hM : M.view.set = Finset.univ) (c : Dev nD) (q : PosShare TreeShare)
    (f : Buf (Elt F) (M.view.loc (c : Thread nD τ))) :
    (M.view.loc (c : Thread nD τ) ↦{q} f : sProp 𝕄)
      = all8 fun i : Fin 8 => ((slotM M i).view.loc (c : Thread nD τ) ↦[(slotM M i).view.set]{q} f) := by
  rw [← bigSep_fin8]
  have := split8 (F := F) M c q f
  rw [hM] at this
  rw [this]
  refine bigSep_congr fun i _ => ?_
  rw [slot_view_set M c i]
  rfl

/-- Eight slots held, each at its own contents, are the whole buffer held at some contents. -/
theorem join8 (M : Memref sig .tc .vmem S8x128x256 .bf16) (hM : M.view.set = Finset.univ) (c : Dev nD)
    (fs : Fin 8 → Buf (Elt F) (M.view.loc (c : Thread nD τ))) :
    (all8 fun i : Fin 8 => ((slotM M i).view.loc (c : Thread nD τ) ↦[(slotM M i).view.set]{fullShare} fs i) : sProp 𝕄)
      ⊢ iprop(∃ g, M.view.loc (c : Thread nD τ) ↦{fullShare} g) := by
  rw [← bigSep_fin8]
  have hc : (bigSep Finset.univ fun i : Fin 8 => ((slotM M i).view.loc (c : Thread nD τ) ↦[(slotM M i).view.set]{fullShare} fs i) : sProp 𝕄)
      = bigSep Finset.univ fun i : Fin 8 => (M.view.loc (c : Thread nD τ) ↦[slotSet M c i]{fullShare} fs i) :=
    bigSep_congr fun i _ => by rw [slot_view_set M c i]; rfl
  rw [hc]
  iintro H
  ihave H' := (pointsTo_biUnion_join (q := fullShare) Finset.univ (slotSet M c) fs (fs 0) fun i _ i' _ h => slot_disjoint M c i i' h) $$ H
  icases H' with ⟨%g, -, Hg⟩
  iexists g
  rw [slot_cover M c, hM]
  iexact Hg

/-- A `[1,128,256]` vector read as the `[128,256]` one with the same elements in the same order, and back. -/
def sqz {α : Type} (w : S1x128x256.Idx → α) : S128x256.Idx → α := fun j => w (Shape.reshapeEquiv (squeezes_S1x128x256_S128x256).numel_eq j)
def unsqz {α : Type} (w : S128x256.Idx → α) : S1x128x256.Idx → α := fun j => w ((Shape.reshapeEquiv (squeezes_S1x128x256_S128x256).numel_eq).symm j)

theorem unsqz_sqz {α : Type} (w : S1x128x256.Idx → α) : unsqz (sqz w) = w := by
  funext j; unfold unsqz sqz; rw [Equiv.apply_symm_apply]

/-- Slot `i`, read right after the `[1,128,256]` vector `w` was stored over it, holds `w`. -/
theorem slot_read_store (M : Memref sig .tc .vmem S8x128x256 .bf16) (i : Fin 8) (f : BufTy.Contents (Elt F) M.view.ty) (w : S1x128x256.Idx → Elt F .bf16) :
    (slotM M i).view.read (Elt F) (View.write (Elt F) (M.access (slotRect i)) f w Finset.univ) = sqz w := by
  funext j
  show (M.view.slice (slotRect i)).read (Elt F) _ (Shape.reshapeEquiv _ j) = _
  rw [View.read_write_univ]; rfl

/-- Slot `i` loaded through the whole buffer is the slot's contents as a `[1,128,256]` vector. -/
theorem slot_load (M : Memref sig .tc .vmem S8x128x256 .bf16) (i : Fin 8) (G : BufTy.Contents (Elt F) M.view.ty) :
    View.readAt (Elt F) M.view (slotRect i).toLoadRect G = unsqz ((slotM M i).view.read (Elt F) G) := by
  funext j
  show (M.view.slice (slotRect i)).read (Elt F) G j = (M.view.slice (slotRect i)).read (Elt F) G (Shape.reshapeEquiv _ ((Shape.reshapeEquiv _).symm j))
  rw [Equiv.apply_symm_apply]

end Cert.KernelIdeal.Hand

end
-- ==== Proof.Contents.lean ====
import proofs.«900476_g7700000000000477_dist_rsdw_v7x_xyz2x2x2_y_m512_d512_f2048_f32_1_alg».proof.Proof.Slots
import proofs.«900476_g7700000000000477_dist_rsdw_v7x_xyz2x2x2_y_m512_d512_f2048_f32_1_alg».proof.Proof.Gen.KernelIdeal.Skeleton
import Idealize.ShloMosaic.Lib.ValueIdx

set_option maxRecDepth 16384

noncomputable section

namespace Cert.KernelIdeal.Hand

open Cert.KernelIdeal Cert.KernelIdeal.Gen

open Idealize.ShloMosaic
open Idealize.ShloMosaic.TcCoe
open Idealize.SL Idealize.SL.Sem

variable {F : FTy → Type} [FloatOps F]

/-! ## What each device computes, as functions of its two blocks

`fx` is the device's block of x as staged, `fdy` its block of dy. The columns of x taken for the partner along y and for
the device itself are transposed into two `[128,512]` operands; chunk `i` of dy is its columns `256·i …`. -/

abbrev X0 : Memref sig .tc .vmem S512x512 .f32 := Memref.whole cc0_stg0_0
abbrev DYV : Memref sig .tc .vmem S512x2048 .f32 := Memref.whole cc0_scratch0

/-- The transposed columns of x that go to the partner along y; -/
def xsV (c : Dev nD) (fx : BufTy.Contents (Elt F) X0.view.ty) : FVec F S128x512 .f32 :=
  k0_pay4 (k0_pay2 (k0_pay1 (View.readAt (Elt F) X0.view (Rect.unit (s := S512x512) (k0_off1 c) S512x128.size (k0_off1_inb c)).toLoadRect fx)))
/-- and the device's own. -/
def xoV (c : Dev nD) (fx : BufTy.Contents (Elt F) X0.view.ty) : FVec F S128x512 .f32 :=
  k0_pay5 (k0_pay3 (View.readAt (Elt F) X0.view (Rect.unit (s := S512x512) (k0_off2 c) S512x128.size (k0_off2_inb c)).toLoadRect fx))

theorem chunk_inb (i : Fin 8) : ∀ a, (![0, 256 * i.val] : Fin 2 → Nat) a + S512x256.size a ≤ S512x2048.size a := by revert i; decide

/-- Column chunk `i` of the dy block. -/
def dyChunk (fdy : BufTy.Contents (Elt F) DYV.view.ty) (i : Fin 8) : Vec F S512x256 .f32 :=
  View.readAt (Elt F) DYV.view (Rect.unit (s := S512x2048) ![0, 256 * i.val] S512x256.size (chunk_inb i)).toLoadRect fdy

/-- A `[128,512]` operand times a chunk, as the `[1,128,256]` bf16 vector stored for sending. -/
def prodU (xs : FVec F S128x512 .f32) (d : Vec F S512x256 .f32) : FVec F S128x256 .f32 :=
  matmul dot_S128x512_S512x256_S128x256_1_0_0_1_n_n none xs d (constant S128x256 .f32 0x00000000#32)
def psU (xs : FVec F S128x512 .f32) (d : Vec F S512x256 .f32) : FVec F S1x128x256 .bf16 :=
  shapeCast S1x128x256 (truncf .bf16 (prodU xs d) bitsLt_bf16_f32) shapeCasts_S128x256_S1x128x256
/-- The own product plus what arrived along y. -/
def redU (xo : FVec F S128x512 .f32) (d : Vec F S512x256 .f32) (r : Vec F S1x128x256 .bf16) : FVec F S128x256 .f32 :=
  addf (prodU xo d) (extf .f32 (shapeCast S128x256 r shapeCasts_S1x128x256_S128x256) bitsLt_bf16_f32)
def pzU (xo : FVec F S128x512 .f32) (d : Vec F S512x256 .f32) (r : Vec F S1x128x256 .bf16) : FVec F S1x128x256 .bf16 :=
  shapeCast S1x128x256 (truncf .bf16 (redU xo d r) bitsLt_bf16_f32) shapeCasts_S128x256_S1x128x256
def keepU (xo : FVec F S128x512 .f32) (d : Vec F S512x256 .f32) (r : Vec F S1x128x256 .bf16) : FVec F S1x128x256 .f32 :=
  shapeCast S1x128x256 (redU xo d r) shapeCasts_S128x256_S1x128x256
/-- What arrived along z, widened. -/
def widenU (r : Vec F S1x128x256 .bf16) : FVec F S1x128x256 .f32 :=
  shapeCast S1x128x256 (extf .f32 (shapeCast S128x256 r shapeCasts_S1x128x256_S128x256) bitsLt_bf16_f32) shapeCasts_S128x256_S1x128x256

example (a : Vec F S1x128x512 .f32) (b : Vec F S512x256 .f32) : k0_pay6 a b = psU (k0_pay4 a) b := rfl
example (a : FVec F S128x512 .f32) (b : Vec F S512x256 .f32) : k0_pay7 a b = psU a b := rfl
example (a : FVec F S128x512 .f32) (b : Vec F S512x256 .f32) : k0_pay8 a b (constant S128x256 .f32 0x00000000#32) = psU a b := rfl
example (a : FVec F S128x512 .f32) (b : Vec F S512x256 .f32) (r : Vec F S1x128x256 .bf16) : k0_pay16 a b (constant S128x256 .f32 0x00000000#32) r = pzU a b r := rfl
example (a : FVec F S128x512 .f32) (b : Vec F S512x256 .f32) (r : Vec F S1x128x256 .bf16) : k0_pay15 a b (constant S128x256 .f32 0x00000000#32) r = keepU a b r := rfl
example (a : FVec F S128x512 .f32) (b : Vec F S512x256 .f32) (r : Vec F S1x128x256 .bf16) : k0_pay20 (k0_pay17 a b) r = pzU a b r := rfl
example (r : Vec F S1x128x256 .bf16) : k0_pay42 r = widenU r := rfl
example (r : Vec F S1x128x256 .bf16) : k0_pay49 (k0_pay48 r) = widenU r := rfl

/-! ## Over the launch memory `m` -/

section Mem

variable (m : (ℓ : Loc nD τ sig) → Buf (Elt F) ℓ)

/-- Device `c`'s block of x, as its staging buffer holds it; -/
def xstg (c : Dev nD) : BufTy.Contents (Elt F) X0.view.ty :=
  (win0_0.blk (0 : Fin 1)).view.read (Elt F) (m ((c : Thread nD τ).loc main_arg0))
/-- and its block of dy. -/
def dyB (c : Dev nD) : BufTy.Contents (Elt F) DYV.view.ty := m ((c : Thread nD τ).loc main_arg1)

/-- What device `c` sends its partner along y for chunk `i`: the partner's rows, summed over `c`'s 512 rows of x and dy; -/
def PSm (c : Dev nD) (i : Fin 8) : S128x256.Idx → Elt F .bf16 :=
  sqz (psU (xsV c (xstg m c)) (dyChunk (dyB m c) i))
/-- what it keeps for chunk `i`: its own rows, its share plus the partner's; -/
def keepM (c : Dev nD) (i : Fin 8) : FVec F S1x128x256 .f32 :=
  keepU (xoV c (xstg m c)) (dyChunk (dyB m c) i) (unsqz (PSm m (yp c) i))
/-- what it sends its partner along z: the same, narrowed; -/
def PZm (c : Dev nD) (i : Fin 8) : S128x256.Idx → Elt F .bf16 :=
  sqz (pzU (xoV c (xstg m c)) (dyChunk (dyB m c) i) (unsqz (PSm m (yp c) i)))
/-- and what it receives from there, widened. -/
def otherM (c : Dev nD) (i : Fin 8) : FVec F S1x128x256 .f32 := widenU (unsqz (PZm m (zp c) i))

/-- The device's result block `[256, 2048]`: row `p`, column `q` lies in column chunk `q / 256`; rows `128·z …` (`z` the
    device's position along z, the low bit of its id) are what it kept, the other 128 rows what its partner along z sent. -/
def outM (c : Dev nD) : S256x2048.Idx → Elt F .f32 := fun idx =>
  let i : Fin 8 := ⟨(idx 1).val / 256, by have : (idx 1).val < 2048 := (idx 1).isLt; omega⟩
  let j : S1x128x256.Idx := ValueIdx.ix3 (0 : Fin 1) (⟨(idx 0).val % 128, Nat.mod_lt _ (by decide)⟩ : Fin 128) (⟨(idx 1).val % 256, Nat.mod_lt _ (by decide)⟩ : Fin 256)
  if (idx 0).val / 128 = c.val % 2 then keepM m c i j else otherM m c i j

end Mem

end Cert.KernelIdeal.Hand

end
-- ==== Proof.BodyDefs.lean ====
import proofs.«900476_g7700000000000477_dist_rsdw_v7x_xyz2x2x2_y_m512_d512_f2048_f32_1_alg».proof.Proof.Steps
import proofs.«900476_g7700000000000477_dist_rsdw_v7x_xyz2x2x2_y_m512_d512_f2048_f32_1_alg».proof.Proof.Contents
import proofs.«900476_g7700000000000477_dist_rsdw_v7x_xyz2x2x2_y_m512_d512_f2048_f32_1_alg».proof.Proof.Gen.KernelIdeal.Launch
import proofs.«900476_g7700000000000477_dist_rsdw_v7x_xyz2x2x2_y_m512_d512_f2048_f32_1_alg».proof.Proof.Gen.KernelIdeal.Points

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

instance all8_persistent (Φ : Fin 8 → sProp 𝕄) [∀ i, BI.Persistent (Φ i)] : BI.Persistent (all8 Φ) := by unfold all8; infer_instance

section Ghost

variable (PS PZ : Dev nD → Fin 8 → S128x256.Idx → Elt F .bf16)

/-- What device `c` knows for good: the invariants of its own cells and of the cells it pays, and the rounds it knows reached. -/
def invsG (K : GSem nD τ sig → ℕ) (c : Dev nD) : sProp 𝕄 :=
  iprop(cellInv ER (sched PS PZ) (K (barCell c)) (barCell c) ∗ cellInv ER (sched PS PZ) (K (barCell (yp c))) (barCell (yp c))
    ∗ cellInv ER (sched PS PZ) (K (barCell (zp c))) (barCell (zp c))
    ∗ (all8 fun i => cellInv ER (sched PS PZ) (K (ysCell c i)) (ysCell c i)) ∗ (all8 fun i => cellInv ER (sched PS PZ) (K (yrCell c i)) (yrCell c i))
    ∗ (all8 fun i => cellInv ER (sched PS PZ) (K (zsCell c i)) (zsCell c i)) ∗ (all8 fun i => cellInv ER (sched PS PZ) (K (zrCell c i)) (zrCell c i))
    ∗ (all8 fun i => cellInv ER (sched PS PZ) (K (yrCell (yp c) i)) (yrCell (yp c) i)) ∗ (all8 fun i => cellInv ER (sched PS PZ) (K (zrCell (zp c) i)) (zrCell (zp c) i))
    ∗ reached ER (barCell (yp c)) 0 ∗ reached ER (barCell (zp c)) 0
    ∗ (all8 fun i => reached ER (ysCell c i) 0) ∗ (all8 fun i => reached ER (yrCell c i) 0)
    ∗ (all8 fun i => reached ER (zsCell c i) 0) ∗ (all8 fun i => reached ER (zrCell c i) 0))

instance invsG_persistent (K : GSem nD τ sig → ℕ) (c : Dev nD) : BI.Persistent (invsG PS PZ K c) := by unfold invsG; infer_instance

/-- Its positions at its own cells and the tokens of the duties it pays; -/
def posToks (c : Dev nD) : sProp 𝕄 :=
  iprop(atPos ER (barCell c) 0 ∅ 0
    ∗ (all8 fun i => atPos ER (ysCell c i) 0 ∅ 0) ∗ (all8 fun i => atPos ER (yrCell c i) 0 ∅ 0)
    ∗ (all8 fun i => atPos ER (zsCell c i) 0 ∅ 0) ∗ (all8 fun i => atPos ER (zrCell c i) 0 ∅ 0)
    ∗ dutyTok ER (barCell (yp c)) 0 false ∗ dutyTok ER (barCell (zp c)) 0 true
    ∗ (all8 fun i => dutyTok ER (ysCell c i) 0 false) ∗ (all8 fun i => dutyTok ER (zsCell c i) 0 false)
    ∗ (all8 fun i => dutyTok ER (yrCell (yp c) i) 0 false) ∗ (all8 fun i => dutyTok ER (zrCell (zp c) i) 0 false))

/-- the launch credit of the cells others pay: its barrier's two units and each receive cell's landing. -/
def creds (c : Dev nD) : sProp 𝕄 :=
  iprop(cred (tallyAt (barCell c) () 2)
    ∗ (all8 fun i => cred (tallyAt (yrCell c i) () N)) ∗ (all8 fun i => cred (tallyAt (zrCell c i) () N)))

/-- The seventeen semaphores of its local copies (the dy block; the sixteen pieces of the result), at zero. -/
def localSems (c : Dev nD) : sProp 𝕄 :=
  iprop(semVal ((c : Thread nD τ), .dma (1 : DmaSem sig)) 0
    ∗ semVal ((c : Thread nD τ), .dma (2 : DmaSem sig)) 0 ∗ semVal ((c : Thread nD τ), .dma (3 : DmaSem sig)) 0
    ∗ semVal ((c : Thread nD τ), .dma (4 : DmaSem sig)) 0 ∗ semVal ((c : Thread nD τ), .dma (5 : DmaSem sig)) 0
    ∗ semVal ((c : Thread nD τ), .dma (6 : DmaSem sig)) 0 ∗ semVal ((c : Thread nD τ), .dma (7 : DmaSem sig)) 0
    ∗ semVal ((c : Thread nD τ), .dma (8 : DmaSem sig)) 0 ∗ semVal ((c : Thread nD τ), .dma (9 : DmaSem sig)) 0
    ∗ semVal ((c : Thread nD τ), .dma (10 : DmaSem sig)) 0 ∗ semVal ((c : Thread nD τ), .dma (11 : DmaSem sig)) 0
    ∗ semVal ((c : Thread nD τ), .dma (12 : DmaSem sig)) 0 ∗ semVal ((c : Thread nD τ), .dma (13 : DmaSem sig)) 0
    ∗ semVal ((c : Thread nD τ), .dma (14 : DmaSem sig)) 0 ∗ semVal ((c : Thread nD τ), .dma (15 : DmaSem sig)) 0
    ∗ semVal ((c : Thread nD τ), .dma (16 : DmaSem sig)) 0 ∗ semVal ((c : Thread nD τ), .dma (17 : DmaSem sig)) 0)

/-- Its thirty-two transfer cells closed: their counters at zero, its own again. -/
def closedSems (c : Dev nD) : sProp 𝕄 :=
  iprop((all8 fun i => semVal (ysCell c i) 0) ∗ (all8 fun i => semVal (yrCell c i) 0)
    ∗ (all8 fun i => semVal (zsCell c i) 0) ∗ (all8 fun i => semVal (zrCell c i) 0))

/-- The eight scratch buffers, each whole at some contents. -/
def scratches (c : Dev nD) : sProp 𝕄 :=
  iprop((∃ f, (Memref.whole cc0_scratch0).view.loc (c : Thread nD τ) ↦{fullShare} f) ∗ (∃ f, (Memref.whole cc0_scratch1).view.loc (c : Thread nD τ) ↦{fullShare} f)
    ∗ (∃ f, (Memref.whole cc0_scratch2).view.loc (c : Thread nD τ) ↦{fullShare} f) ∗ (∃ f, (Memref.whole cc0_scratch3).view.loc (c : Thread nD τ) ↦{fullShare} f)
    ∗ (∃ f, (Memref.whole cc0_scratch4).view.loc (c : Thread nD τ) ↦{fullShare} f) ∗ (∃ f, (Memref.whole cc0_scratch5).view.loc (c : Thread nD τ) ↦{fullShare} f)
    ∗ (∃ f, (Memref.whole cc0_scratch6).view.loc (c : Thread nD τ) ↦{fullShare} f) ∗ (∃ f, (Memref.whole cc0_scratch7).view.loc (c : Thread nD τ) ↦{fullShare} f))

end Ghost

/-! ## The pipeline's proof data -/

section Data

variable (m : (ℓ : Loc nD τ sig) → Buf (Elt F) ℓ) (ρ : Dev nD → PrngReg)

/-- What device `c`'s body starts from, the scratch buffers aside: its ghost state at some names, the levels, its launch credit, its local
    semaphores, and its dy block and result buffer as launched. -/
def start (c : Dev nD) : sProp 𝕄 :=
  iprop((∃ K, invsG (PSm m) (PZm m) K c) ∗ levAts L lv ∗ posToks c ∗ creds c ∗ localSems c
    ∗ ((Memref.whole main_arg1).view.loc (c : Thread nD τ) ↦{fullShare} m ((c : Thread nD τ).loc main_arg1))
    ∗ ((Memref.whole main_v1).view.loc (c : Thread nD τ) ↦{fullShare} m ((c : Thread nD τ).loc main_v1)))

def Φ₀ (c : Dev nD) : sProp 𝕄 := iprop(start m c ∗ scratches c)

/-- After the point: the dy block as it was, the result block holding its rows of the product, every semaphore of the kernel's own at zero,
    the scratch buffers at something. -/
def Φ₁ (c : Dev nD) : sProp 𝕄 :=
  iprop(((Memref.whole main_arg1).view.loc (c : Thread nD τ) ↦{fullShare} m ((c : Thread nD τ).loc main_arg1))
    ∗ ((Memref.whole main_v1).view.loc (c : Thread nD τ) ↦{fullShare} outM m c)
    ∗ localSems c ∗ closedSems c ∗ scratches c)

def dats (_ : Fin 1) (c : Dev nD) : Dat τ (Elt F) Unit ℕ UU ℕ cfg0 c where
  A w := m ((cfg0.win w).arr.view.loc (c : Thread nD τ))
  after w _ := match w with
    | ⟨0, _⟩ => xstg m c
  Φ t := match t with
    | ⟨0, _⟩ => Φ₀ m c
    | ⟨_ + 1, _⟩ => Φ₁ m c
  q _ := fullShare
  owed t := match t with
    | ⟨0, _⟩ => owed₀ c
    | ⟨_ + 1, _⟩ => 0

end Data

end Cert.KernelIdeal.Hand

end
-- ==== Proof.OutChain.lean ====
import proofs.«900476_g7700000000000477_dist_rsdw_v7x_xyz2x2x2_y_m512_d512_f2048_f32_1_alg».proof.Proof.Contents

set_option maxRecDepth 16384

noncomputable section

namespace Cert.KernelIdeal.Hand

open Cert.KernelIdeal Cert.KernelIdeal.Gen

open Idealize.ShloMosaic
open Idealize.ShloMosaic.TcCoe
open Idealize.SL Idealize.SL.Sem

variable {F : FTy → Type} [FloatOps F]

variable (m : (ℓ : Loc nD τ sig) → Buf (Elt F) ℓ)

/-- What the device keeps for chunk `i`, and what it receives along z, as the `[128,256]` pieces copied into the result block. -/
def keepS (c : Dev nD) (i : Fin 8) : S128x256.Idx → Elt F .f32 := shapeCast S128x256 (keepM m c i) shapeCasts_S1x128x256_S128x256
def otherS (c : Dev nD) (i : Fin 8) : S128x256.Idx → Elt F .f32 := shapeCast S128x256 (otherM m c i) shapeCasts_S1x128x256_S128x256

/-- The result block as the sixteen copies leave it: over what the buffer held, the eight kept pieces at rows `128·z`, columns `256·i`,
    then the eight received ones at rows `128 - 128·z`. -/
def outChain (c : Dev nD) : BufTy.Contents (Elt F) (Memref.whole main_v1).view.ty :=
  View.write (Elt F) ((Memref.whole main_v1).slice (Rect.unit (s := S256x2048) (k0_off18 c) S128x256.size (k0_off18_inb c)) (fun _ => rfl)).view
    (View.write (Elt F) ((Memref.whole main_v1).slice (Rect.unit (s := S256x2048) (k0_off17 c) S128x256.size (k0_off17_inb c)) (fun _ => rfl)).view
    (View.write (Elt F) ((Memref.whole main_v1).slice (Rect.unit (s := S256x2048) (k0_off16 c) S128x256.size (k0_off16_inb c)) (fun _ => rfl)).view
    (View.write (Elt F) ((Memref.whole main_v1).slice (Rect.unit (s := S256x2048) (k0_off15 c) S128x256.size (k0_off15_inb c)) (fun _ => rfl)).view
    (View.write (Elt F) ((Memref.whole main_v1).slice (Rect.unit (s := S256x2048) (k0_off14 c) S128x256.size (k0_off14_inb c)) (fun _ => rfl)).view
    (View.write (Elt F) ((Memref.whole main_v1).slice (Rect.unit (s := S256x2048) (k0_off13 c) S128x256.size (k0_off13_inb c)) (fun _ => rfl)).view
    (View.write (Elt F) ((Memref.whole main_v1).slice (Rect.unit (s := S256x2048) (k0_off12 c) S128x256.size (k0_off12_inb c)) (fun _ => rfl)).view
    (View.write (Elt F) ((Memref.whole main_v1).slice (Rect.unit (s := S256x2048) (k0_off11 c) S128x256.size (k0_off11_inb c)) (fun _ => rfl)).view
    (View.write (Elt F) ((Memref.whole main_v1).slice (Rect.unit (s := S256x2048) (k0_off10 c) S128x256.size (k0_off10_inb c)) (fun _ => rfl)).view
    (View.write (Elt F) ((Memref.whole main_v1).slice (Rect.unit (s := S256x2048) (k0_off9 c) S128x256.size (k0_off9_inb c)) (fun _ => rfl)).view
    (View.write (Elt F) ((Memref.whole main_v1).slice (Rect.unit (s := S256x2048) (k0_off8 c) S128x256.size (k0_off8_inb c)) (fun _ => rfl)).view
    (View.write (Elt F) ((Memref.whole main_v1).slice (Rect.unit (s := S256x2048) (k0_off7 c) S128x256.size (k0_off7_inb c)) (fun _ => rfl)).view
    (View.write (Elt F) ((Memref.whole main_v1).slice (Rect.unit (s := S256x2048) (k0_off6 c) S128x256.size (k0_off6_inb c)) (fun _ => rfl)).view
    (View.write (Elt F) ((Memref.whole main_v1).slice (Rect.unit (s := S256x2048) (k0_off5 c) S128x256.size (k0_off5_inb c)) (fun _ => rfl)).view
    (View.write (Elt F) ((Memref.whole main_v1).slice (Rect.unit (s := S256x2048) (k0_off4 c) S128x256.size (k0_off4_inb c)) (fun _ => rfl)).view
    (View.write (Elt F) ((Memref.whole main_v1).slice (Rect.unit (s := S256x2048) (k0_off3 c) S128x256.size (k0_off3_inb c)) (fun _ => rfl)).view
    (m ((c : Thread nD τ).loc main_v1))
    (keepS m c 0) Finset.univ)
    (keepS m c 1) Finset.univ)
    (keepS m c 2) Finset.univ)
    (keepS m c 3) Finset.univ)
    (keepS m c 4) Finset.univ)
    (keepS m c 5) Finset.univ)
    (keepS m c 6) Finset.univ)
    (keepS m c 7) Finset.univ)
    (otherS m c 0) Finset.univ)
    (otherS m c 1) Finset.univ)
    (otherS m c 2) Finset.univ)
    (otherS m c 3) Finset.univ)
    (otherS m c 4) Finset.univ)
    (otherS m c 5) Finset.univ)
    (otherS m c 6) Finset.univ)
    (otherS m c 7) Finset.univ

end Cert.KernelIdeal.Hand

end
-- ==== Proof.OutEq.lean ====
import proofs.«900476_g7700000000000477_dist_rsdw_v7x_xyz2x2x2_y_m512_d512_f2048_f32_1_alg».proof.Proof.OutChain
import Idealize.ShloMosaic.Lib.Pipeline.Value
import Idealize.ShloMosaic.Lib.ValueIdx

set_option maxRecDepth 16384

noncomputable section

namespace Cert.KernelIdeal.Hand

open Cert.KernelIdeal Cert.KernelIdeal.Gen

open Idealize.ShloMosaic
open Idealize.ShloMosaic.TcCoe
open Idealize.SL Idealize.SL.Sem

variable {F : FTy → Type} [FloatOps F]

/-- A `[128,256]` rectangle inside the `[256,2048]` block. -/
theorem slices_piece (off : Fin 2 → Nat) (inb : ∀ a, off a + S128x256.size a ≤ S256x2048.size a) :
    S256x2048.Slices off S128x256 := ⟨rfl, inb⟩

/-- One copy of a `[128,256]` piece into the block is `updateSlice` at the copy's offsets. -/
theorem write_piece (off : Fin 2 → Nat) (inb : ∀ a, off a + S128x256.size a ≤ S256x2048.size a)
    (f : S256x2048.Idx → Elt F .f32) (w : S128x256.Idx → Elt F .f32) :
    View.write (Elt F) ((Memref.whole main_v1).slice (Rect.unit (s := S256x2048) off S128x256.size inb) (fun _ => rfl)).view f w Finset.univ
      = updateSlice (α := Elt F .f32) (s := S256x2048) (u := S128x256) f w off (slices_piece off inb) :=
  View.write_whole_slice_unit main_v1 off S128x256.size inb f w

/-- A piece put at rows `128·a`, columns `256·b`: row `p`, column `q` of the result is the piece's entry
    `(p % 128, q % 256)` when `p / 128 = a` and `q / 256 = b`, and the block's own entry otherwise. -/
theorem updateSlice_at {α : Type} (x : S256x2048.Idx → α) (w : S128x256.Idx → α) (off : Fin 2 → Nat)
    (h : S256x2048.Slices off S128x256) (a b : Nat) (h0 : off 0 = 128 * a) (h1 : off 1 = 256 * b)
    (p : Fin 256) (q : Fin 2048) :
    updateSlice x w off h (ValueIdx.ix2 p q)
      = if p.val / 128 = a ∧ q.val / 256 = b then
          w (ValueIdx.ix2 (⟨p.val % 128, Nat.mod_lt _ (by decide)⟩ : Fin 128) (⟨q.val % 256, Nat.mod_lt _ (by decide)⟩ : Fin 256))
        else x (ValueIdx.ix2 p q) := by
  have hp := p.isLt
  have hq := q.isLt
  unfold updateSlice
  by_cases hc : p.val / 128 = a ∧ q.val / 256 = b
  · rw [if_pos hc]
    have hin : ∀ d : Fin 2, off d ≤ ((ValueIdx.ix2 p q : S256x2048.Idx) d).val ∧ ((ValueIdx.ix2 p q : S256x2048.Idx) d).val < off d + S128x256.size (d.cast h.1.symm) := by
      rw [Fin.forall_fin_two]
      refine ⟨?_, ?_⟩
      · show off 0 ≤ p.val ∧ p.val < off 0 + 128
        omega
      · show off 1 ≤ q.val ∧ q.val < off 1 + 256
        omega
    rw [dif_pos hin]
    congr 1
    funext d
    match d with
    | ⟨0, _⟩ => apply Fin.ext; show p.val - off 0 = p.val % 128; omega
    | ⟨1, _⟩ => apply Fin.ext; show q.val - off 1 = q.val % 256; omega
  · rw [if_neg hc]
    have hout : ¬ ∀ d : Fin 2, off d ≤ ((ValueIdx.ix2 p q : S256x2048.Idx) d).val ∧ ((ValueIdx.ix2 p q : S256x2048.Idx) d).val < off d + S128x256.size (d.cast h.1.symm) := by
      rw [Fin.forall_fin_two]
      intro hh
      have e0 : off 0 ≤ p.val ∧ p.val < off 0 + 128 := hh.1
      have e1 : off 1 ≤ q.val ∧ q.val < off 1 + 256 := hh.2
      apply hc
      omega
    rw [dif_neg hout]

/-- A `[1,128,256]` vector with its unit axis dropped reads `(r, s)` at `(0, r, s)`. -/
theorem dropUnit_at {α : Type} (v : S1x128x256.Idx → α) (r : Fin 128) (s : Fin 256) :
    shapeCast S128x256 v shapeCasts_S1x128x256_S128x256 (ValueIdx.ix2 r s) = v (ValueIdx.ix3 (0 : Fin 1) r s) := by
  have e := shapeCast_dropUnit_apply (n := 2) ![128, 256] v shapeCasts_S1x128x256_S128x256 (ValueIdx.ix2 r s)
  rw [e]
  congr 1
  funext d
  match d with
  | ⟨0, _⟩ => rfl
  | ⟨1, _⟩ => rfl
  | ⟨2, _⟩ => rfl

/-- Sixteen tests in the order of the copies, the last copy first: of the row halves `a` and the column chunks `b`,
    exactly one test holds, the kept piece `b` when `a = z` and the received piece `b` otherwise. -/
theorem chain_pick {α : Type} (K O : Fin 8 → α) (x : α) (a z : Nat) (ha : a < 2) (hz : z < 2) (b : Fin 8) :
    (if a = 1 - z ∧ b.val = 7 then O 7 else if a = 1 - z ∧ b.val = 6 then O 6 else if a = 1 - z ∧ b.val = 5 then O 5 else if a = 1 - z ∧ b.val = 4 then O 4 else if a = 1 - z ∧ b.val = 3 then O 3 else if a = 1 - z ∧ b.val = 2 then O 2 else if a = 1 - z ∧ b.val = 1 then O 1 else if a = 1 - z ∧ b.val = 0 then O 0 else if a = z ∧ b.val = 7 then K 7 else if a = z ∧ b.val = 6 then K 6 else if a = z ∧ b.val = 5 then K 5 else if a = z ∧ b.val = 4 then K 4 else if a = z ∧ b.val = 3 then K 3 else if a = z ∧ b.val = 2 then K 2 else if a = z ∧ b.val = 1 then K 1 else if a = z ∧ b.val = 0 then K 0 else x)
      = if a = z then K b else O b := by
  interval_cases z <;> interval_cases a <;> fin_cases b <;> simp

/-- The sixteen rectangles `[128·z + r, 256·i + s]` and `[128 - 128·z + r, 256·i + s]` (`z` the low bit of the device's id,
    `i < 8`, `r < 128`, `s < 256`) are pairwise disjoint and cover the block, so every entry is written exactly once: row `p`,
    column `q` holds the kept piece `q / 256` at `(p % 128, q % 256)` when `p / 128 = z`, the received piece there otherwise. -/
theorem outChain_eq_outM (m : (ℓ : Loc nD τ sig) → Buf (Elt F) ℓ) (c : Dev nD) : outChain m c = outM m c := by
  funext idx
  obtain ⟨p, q, rfl⟩ : ∃ p q, idx = ValueIdx.ix2 p q := ⟨idx 0, idx 1, ValueIdx.eq_ix2 idx⟩
  unfold outChain
  -- each copy is an `updateSlice` …
  rw [write_piece, write_piece, write_piece, write_piece, write_piece, write_piece, write_piece, write_piece, write_piece, write_piece, write_piece, write_piece, write_piece, write_piece, write_piece, write_piece]
  -- … read at `(p, q)`, the last copy first: one test on `p / 128` and `q / 256` per copy
  rw [updateSlice_at _ _ _ _ (1 - c.val % 2) 7 (by rw [k0_off18_eq]; show 128 - 128 * (c.val % 2) = 128 * (1 - c.val % 2); omega) (by rw [k0_off18_eq]; rfl)]
  rw [updateSlice_at _ _ _ _ (1 - c.val % 2) 6 (by rw [k0_off17_eq]; show 128 - 128 * (c.val % 2) = 128 * (1 - c.val % 2); omega) (by rw [k0_off17_eq]; rfl)]
  rw [updateSlice_at _ _ _ _ (1 - c.val % 2) 5 (by rw [k0_off16_eq]; show 128 - 128 * (c.val % 2) = 128 * (1 - c.val % 2); omega) (by rw [k0_off16_eq]; rfl)]
  rw [updateSlice_at _ _ _ _ (1 - c.val % 2) 4 (by rw [k0_off15_eq]; show 128 - 128 * (c.val % 2) = 128 * (1 - c.val % 2); omega) (by rw [k0_off15_eq]; rfl)]
  rw [updateSlice_at _ _ _ _ (1 - c.val % 2) 3 (by rw [k0_off14_eq]; show 128 - 128 * (c.val % 2) = 128 * (1 - c.val % 2); omega) (by rw [k0_off14_eq]; rfl)]
  rw [updateSlice_at _ _ _ _ (1 - c.val % 2) 2 (by rw [k0_off13_eq]; show 128 - 128 * (c.val % 2) = 128 * (1 - c.val % 2); omega) (by rw [k0_off13_eq]; rfl)]
  rw [updateSlice_at _ _ _ _ (1 - c.val % 2) 1 (by rw [k0_off12_eq]; show 128 - 128 * (c.val % 2) = 128 * (1 - c.val % 2); omega) (by rw [k0_off12_eq]; rfl)]
  rw [updateSlice_at _ _ _ _ (1 - c.val % 2) 0 (by rw [k0_off11_eq]; show 128 - 128 * (c.val % 2) = 128 * (1 - c.val % 2); omega) (by rw [k0_off11_eq]; rfl)]
  rw [updateSlice_at _ _ _ _ (c.val % 2) 7 (by rw [k0_off10_eq]; rfl) (by rw [k0_off10_eq]; rfl)]
  rw [updateSlice_at _ _ _ _ (c.val % 2) 6 (by rw [k0_off9_eq]; rfl) (by rw [k0_off9_eq]; rfl)]
  rw [updateSlice_at _ _ _ _ (c.val % 2) 5 (by rw [k0_off8_eq]; rfl) (by rw [k0_off8_eq]; rfl)]
  rw [updateSlice_at _ _ _ _ (c.val % 2) 4 (by rw [k0_off7_eq]; rfl) (by rw [k0_off7_eq]; rfl)]
  rw [updateSlice_at _ _ _ _ (c.val % 2) 3 (by rw [k0_off6_eq]; rfl) (by rw [k0_off6_eq]; rfl)]
  rw [updateSlice_at _ _ _ _ (c.val % 2) 2 (by rw [k0_off5_eq]; rfl) (by rw [k0_off5_eq]; rfl)]
  rw [updateSlice_at _ _ _ _ (c.val % 2) 1 (by rw [k0_off4_eq]; rfl) (by rw [k0_off4_eq]; rfl)]
  rw [updateSlice_at _ _ _ _ (c.val % 2) 0 (by rw [k0_off3_eq]; rfl) (by rw [k0_off3_eq]; rfl)]
  -- the pieces are the `[1,128,256]` vectors read at `(0, p % 128, q % 256)`
  unfold keepS otherS
  simp only [dropUnit_at]
  have hp := p.isLt
  have hq := q.isLt
  exact chain_pick
    (fun i => keepM m c i (ValueIdx.ix3 (0 : Fin 1) (⟨p.val % 128, Nat.mod_lt _ (by decide)⟩ : Fin 128) (⟨q.val % 256, Nat.mod_lt _ (by decide)⟩ : Fin 256)))
    (fun i => otherM m c i (ValueIdx.ix3 (0 : Fin 1) (⟨p.val % 128, Nat.mod_lt _ (by decide)⟩ : Fin 128) (⟨q.val % 256, Nat.mod_lt _ (by decide)⟩ : Fin 256)))
    (m ((c : Thread nD τ).loc main_v1) (ValueIdx.ix2 p q)) (p.val / 128) (c.val % 2) (by omega) (Nat.mod_lt _ (by decide))
    (⟨q.val / 256, by omega⟩ : Fin 8)

end Cert.KernelIdeal.Hand

end
-- ==== Proof.Body.lean ====
import proofs.«900476_g7700000000000477_dist_rsdw_v7x_xyz2x2x2_y_m512_d512_f2048_f32_1_alg».proof.Proof.BodyDefs
import proofs.«900476_g7700000000000477_dist_rsdw_v7x_xyz2x2x2_y_m512_d512_f2048_f32_1_alg».proof.Proof.OutChain
import proofs.«900476_g7700000000000477_dist_rsdw_v7x_xyz2x2x2_y_m512_d512_f2048_f32_1_alg».proof.Proof.OutEq
import Idealize.ShloMosaic.Lib.Writes
import Idealize.ShloMosaic.Lib.Pipeline.FrameBody
import Idealize.ShloMosaic.Lib.Pipeline.Value
import proofs.«900476_g7700000000000477_dist_rsdw_v7x_xyz2x2x2_y_m512_d512_f2048_f32_1_alg».proof.Proof.Gen.KernelIdeal.Skeleton
import Idealize.ShloMosaic.Lib.Tactic

set_option maxRecDepth 16384

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The schedule's tables in the form the symbolic run rewrites by -/

section Tables

variable (PS PZ : Dev nD → Fin 8 → S128x256.Idx → Elt F .bf16)

omit [FloatOps F] in
theorem payload_bar_yp (c : Dev nD) : (sched (F := F) PS PZ).payload (barCell (yp c)) 0 false
    = iprop((∃ f, (YR.view.loc (c : Thread nD τ)) ↦{fullShare} f) ∗ reached ER (yrCell c 0) 0 ∗ reached ER (yrCell c 1) 0 ∗ reached ER (yrCell c 2) 0 ∗ reached ER (yrCell c 3) 0 ∗ reached ER (yrCell c 4) 0 ∗ reached ER (yrCell c 5) 0 ∗ reached ER (yrCell c 6) 0 ∗ reached ER (yrCell c 7) 0) := by
  rw [payload_bar_false]; unfold barPayY all8; rw [yp_yp]
omit [FloatOps F] in
theorem payload_bar_zp (c : Dev nD) : (sched (F := F) PS PZ).payload (barCell (zp c)) 0 true
    = iprop((∃ f, (ZR.view.loc (c : Thread nD τ)) ↦{fullShare} f) ∗ reached ER (zrCell c 0) 0 ∗ reached ER (zrCell c 1) 0 ∗ reached ER (zrCell c 2) 0 ∗ reached ER (zrCell c 3) 0 ∗ reached ER (zrCell c 4) 0 ∗ reached ER (zrCell c 5) 0 ∗ reached ER (zrCell c 6) 0 ∗ reached ER (zrCell c 7) 0) := by
  rw [payload_bar_true]; unfold barPayZ all8; rw [zp_zp]

omit [FloatOps F] in
theorem payload_ys' (c : Dev nD) (i : Fin 8) (d : Bool) : (sched (F := F) PS PZ).payload (ysCell c i) 0 d
    = iprop(∃ f, (slotM YS i).view.loc (c : Thread nD τ) ↦[(slotM YS i).view.set]{fullShare} f) := by rw [payload_ys]; rfl
omit [FloatOps F] in
theorem payload_zs' (c : Dev nD) (i : Fin 8) (d : Bool) : (sched (F := F) PS PZ).payload (zsCell c i) 0 d
    = iprop(∃ f, (slotM ZS i).view.loc (c : Thread nD τ) ↦[(slotM ZS i).view.set]{fullShare} f) := by rw [payload_zs]; rfl
omit [FloatOps F] in
theorem payload_yrp (c : Dev nD) (i : Fin 8) (d : Bool) : (sched (F := F) PS PZ).payload (yrCell (yp c) i) 0 d
    = iprop(∃ G, ⌜(slotM YR i).view.read (Elt F) G = PS c i⌝ ∗ ((slotM YR i).view.loc (yp c : Thread nD τ) ↦[(slotM YR i).view.set]{fullShare} G)) := by
  rw [payload_yr, yp_yp]; rfl
omit [FloatOps F] in
theorem payload_zrp (c : Dev nD) (i : Fin 8) (d : Bool) : (sched (F := F) PS PZ).payload (zrCell (zp c) i) 0 d
    = iprop(∃ G, ⌜(slotM ZR i).view.read (Elt F) G = PZ c i⌝ ∗ ((slotM ZR i).view.loc (zp c : Thread nD τ) ↦[(slotM ZR i).view.set]{fullShare} G)) := by
  rw [payload_zr, zp_zp]; rfl

omit [FloatOps F] in
theorem bar_payloads (c : Dev nD) : bigSep Finset.univ (fun d : Bool => (sched (F := F) PS PZ).payload (barCell c) 0 d) = iprop(barPayY c ∗ barPayZ c) := by
  rw [bigSep_univ_eq_bigSepL [false, true] (by decide) (by decide), bigSepL_cons_cons, bigSepL_singleton, payload_bar_false, payload_bar_true]
  rfl

end Tables

attribute [local sl_rounds] payload_ys' payload_zs' payload_yrp payload_zrp payload_bar_yp payload_bar_zp duties_bar amount_bar expect_bar
  duties_ys duties_yr duties_zs duties_zr amount_ys amount_yr amount_zs amount_zr expect_ys expect_yr expect_zs expect_zr
  rest_ys rest_zs

/-! ## The program's slots and semaphores by their names -/

theorem canon_YS0 (h : ∀ a, (Rect.unit (s := S8x128x256) ![0, 0, 0] S1x128x256.size inb_S8x128x256_S1x128x256_0_0_0).stride a = 1) :
    ((Memref.whole cc0_scratch2).slice (Rect.unit (s := S8x128x256) ![0, 0, 0] S1x128x256.size inb_S8x128x256_S1x128x256_0_0_0) h).squeeze S128x256 squeezes_S1x128x256_S128x256 = slotM YS 0 := rfl
theorem canon_YS1 (h : ∀ a, (Rect.unit (s := S8x128x256) ![1, 0, 0] S1x128x256.size inb_S8x128x256_S1x128x256_1_0_0).stride a = 1) :
    ((Memref.whole cc0_scratch2).slice (Rect.unit (s := S8x128x256) ![1, 0, 0] S1x128x256.size inb_S8x128x256_S1x128x256_1_0_0) h).squeeze S128x256 squeezes_S1x128x256_S128x256 = slotM YS 1 := rfl
theorem canon_YS2 (h : ∀ a, (Rect.unit (s := S8x128x256) ![2, 0, 0] S1x128x256.size inb_S8x128x256_S1x128x256_2_0_0).stride a = 1) :
    ((Memref.whole cc0_scratch2).slice (Rect.unit (s := S8x128x256) ![2, 0, 0] S1x128x256.size inb_S8x128x256_S1x128x256_2_0_0) h).squeeze S128x256 squeezes_S1x128x256_S128x256 = slotM YS 2 := rfl
theorem canon_YS3 (h : ∀ a, (Rect.unit (s := S8x128x256) ![3, 0, 0] S1x128x256.size inb_S8x128x256_S1x128x256_3_0_0).stride a = 1) :
    ((Memref.whole cc0_scratch2).slice (Rect.unit (s := S8x128x256) ![3, 0, 0] S1x128x256.size inb_S8x128x256_S1x128x256_3_0_0) h).squeeze S128x256 squeezes_S1x128x256_S128x256 = slotM YS 3 := rfl
theorem canon_YS4 (h : ∀ a, (Rect.unit (s := S8x128x256) ![4, 0, 0] S1x128x256.size inb_S8x128x256_S1x128x256_4_0_0).stride a = 1) :
    ((Memref.whole cc0_scratch2).slice (Rect.unit (s := S8x128x256) ![4, 0, 0] S1x128x256.size inb_S8x128x256_S1x128x256_4_0_0) h).squeeze S128x256 squeezes_S1x128x256_S128x256 = slotM YS 4 := rfl
theorem canon_YS5 (h : ∀ a, (Rect.unit (s := S8x128x256) ![5, 0, 0] S1x128x256.size inb_S8x128x256_S1x128x256_5_0_0).stride a = 1) :
    ((Memref.whole cc0_scratch2).slice (Rect.unit (s := S8x128x256) ![5, 0, 0] S1x128x256.size inb_S8x128x256_S1x128x256_5_0_0) h).squeeze S128x256 squeezes_S1x128x256_S128x256 = slotM YS 5 := rfl
theorem canon_YS6 (h : ∀ a, (Rect.unit (s := S8x128x256) ![6, 0, 0] S1x128x256.size inb_S8x128x256_S1x128x256_6_0_0).stride a = 1) :
    ((Memref.whole cc0_scratch2).slice (Rect.unit (s := S8x128x256) ![6, 0, 0] S1x128x256.size inb_S8x128x256_S1x128x256_6_0_0) h).squeeze S128x256 squeezes_S1x128x256_S128x256 = slotM YS 6 := rfl
theorem canon_YS7 (h : ∀ a, (Rect.unit (s := S8x128x256) ![7, 0, 0] S1x128x256.size inb_S8x128x256_S1x128x256_7_0_0).stride a = 1) :
    ((Memref.whole cc0_scratch2).slice (Rect.unit (s := S8x128x256) ![7, 0, 0] S1x128x256.size inb_S8x128x256_S1x128x256_7_0_0) h).squeeze S128x256 squeezes_S1x128x256_S128x256 = slotM YS 7 := rfl
theorem canon_YR0 (h : ∀ a, (Rect.unit (s := S8x128x256) ![0, 0, 0] S1x128x256.size inb_S8x128x256_S1x128x256_0_0_0).stride a = 1) :
    ((Memref.whole cc0_scratch3).slice (Rect.unit (s := S8x128x256) ![0, 0, 0] S1x128x256.size inb_S8x128x256_S1x128x256_0_0_0) h).squeeze S128x256 squeezes_S1x128x256_S128x256 = slotM YR 0 := rfl
theorem canon_YR1 (h : ∀ a, (Rect.unit (s := S8x128x256) ![1, 0, 0] S1x128x256.size inb_S8x128x256_S1x128x256_1_0_0).stride a = 1) :
    ((Memref.whole cc0_scratch3).slice (Rect.unit (s := S8x128x256) ![1, 0, 0] S1x128x256.size inb_S8x128x256_S1x128x256_1_0_0) h).squeeze S128x256 squeezes_S1x128x256_S128x256 = slotM YR 1 := rfl
theorem canon_YR2 (h : ∀ a, (Rect.unit (s := S8x128x256) ![2, 0, 0] S1x128x256.size inb_S8x128x256_S1x128x256_2_0_0).stride a = 1) :
    ((Memref.whole cc0_scratch3).slice (Rect.unit (s := S8x128x256) ![2, 0, 0] S1x128x256.size inb_S8x128x256_S1x128x256_2_0_0) h).squeeze S128x256 squeezes_S1x128x256_S128x256 = slotM YR 2 := rfl
theorem canon_YR3 (h : ∀ a, (Rect.unit (s := S8x128x256) ![3, 0, 0] S1x128x256.size inb_S8x128x256_S1x128x256_3_0_0).stride a = 1) :
    ((Memref.whole cc0_scratch3).slice (Rect.unit (s := S8x128x256) ![3, 0, 0] S1x128x256.size inb_S8x128x256_S1x128x256_3_0_0) h).squeeze S128x256 squeezes_S1x128x256_S128x256 = slotM YR 3 := rfl
theorem canon_YR4 (h : ∀ a, (Rect.unit (s := S8x128x256) ![4, 0, 0] S1x128x256.size inb_S8x128x256_S1x128x256_4_0_0).stride a = 1) :
    ((Memref.whole cc0_scratch3).slice (Rect.unit (s := S8x128x256) ![4, 0, 0] S1x128x256.size inb_S8x128x256_S1x128x256_4_0_0) h).squeeze S128x256 squeezes_S1x128x256_S128x256 = slotM YR 4 := rfl
theorem canon_YR5 (h : ∀ a, (Rect.unit (s := S8x128x256) ![5, 0, 0] S1x128x256.size inb_S8x128x256_S1x128x256_5_0_0).stride a = 1) :
    ((Memref.whole cc0_scratch3).slice (Rect.unit (s := S8x128x256) ![5, 0, 0] S1x128x256.size inb_S8x128x256_S1x128x256_5_0_0) h).squeeze S128x256 squeezes_S1x128x256_S128x256 = slotM YR 5 := rfl
theorem canon_YR6 (h : ∀ a, (Rect.unit (s := S8x128x256) ![6, 0, 0] S1x128x256.size inb_S8x128x256_S1x128x256_6_0_0).stride a = 1) :
    ((Memref.whole cc0_scratch3).slice (Rect.unit (s := S8x128x256) ![6, 0, 0] S1x128x256.size inb_S8x128x256_S1x128x256_6_0_0) h).squeeze S128x256 squeezes_S1x128x256_S128x256 = slotM YR 6 := rfl
theorem canon_YR7 (h : ∀ a, (Rect.unit (s := S8x128x256) ![7, 0, 0] S1x128x256.size inb_S8x128x256_S1x128x256_7_0_0).stride a = 1) :
    ((Memref.whole cc0_scratch3).slice (Rect.unit (s := S8x128x256) ![7, 0, 0] S1x128x256.size inb_S8x128x256_S1x128x256_7_0_0) h).squeeze S128x256 squeezes_S1x128x256_S128x256 = slotM YR 7 := rfl
theorem canon_ZS0 (h : ∀ a, (Rect.unit (s := S8x128x256) ![0, 0, 0] S1x128x256.size inb_S8x128x256_S1x128x256_0_0_0).stride a = 1) :
    ((Memref.whole cc0_scratch4).slice (Rect.unit (s := S8x128x256) ![0, 0, 0] S1x128x256.size inb_S8x128x256_S1x128x256_0_0_0) h).squeeze S128x256 squeezes_S1x128x256_S128x256 = slotM ZS 0 := rfl
theorem canon_ZS1 (h : ∀ a, (Rect.unit (s := S8x128x256) ![1, 0, 0] S1x128x256.size inb_S8x128x256_S1x128x256_1_0_0).stride a = 1) :
    ((Memref.whole cc0_scratch4).slice (Rect.unit (s := S8x128x256) ![1, 0, 0] S1x128x256.size inb_S8x128x256_S1x128x256_1_0_0) h).squeeze S128x256 squeezes_S1x128x256_S128x256 = slotM ZS 1 := rfl
theorem canon_ZS2 (h : ∀ a, (Rect.unit (s := S8x128x256) ![2, 0, 0] S1x128x256.size inb_S8x128x256_S1x128x256_2_0_0).stride a = 1) :
    ((Memref.whole cc0_scratch4).slice (Rect.unit (s := S8x128x256) ![2, 0, 0] S1x128x256.size inb_S8x128x256_S1x128x256_2_0_0) h).squeeze S128x256 squeezes_S1x128x256_S128x256 = slotM ZS 2 := rfl
theorem canon_ZS3 (h : ∀ a, (Rect.unit (s := S8x128x256) ![3, 0, 0] S1x128x256.size inb_S8x128x256_S1x128x256_3_0_0).stride a = 1) :
    ((Memref.whole cc0_scratch4).slice (Rect.unit (s := S8x128x256) ![3, 0, 0] S1x128x256.size inb_S8x128x256_S1x128x256_3_0_0) h).squeeze S128x256 squeezes_S1x128x256_S128x256 = slotM ZS 3 := rfl
theorem canon_ZS4 (h : ∀ a, (Rect.unit (s := S8x128x256) ![4, 0, 0] S1x128x256.size inb_S8x128x256_S1x128x256_4_0_0).stride a = 1) :
    ((Memref.whole cc0_scratch4).slice (Rect.unit (s := S8x128x256) ![4, 0, 0] S1x128x256.size inb_S8x128x256_S1x128x256_4_0_0) h).squeeze S128x256 squeezes_S1x128x256_S128x256 = slotM ZS 4 := rfl
theorem canon_ZS5 (h : ∀ a, (Rect.unit (s := S8x128x256) ![5, 0, 0] S1x128x256.size inb_S8x128x256_S1x128x256_5_0_0).stride a = 1) :
    ((Memref.whole cc0_scratch4).slice (Rect.unit (s := S8x128x256) ![5, 0, 0] S1x128x256.size inb_S8x128x256_S1x128x256_5_0_0) h).squeeze S128x256 squeezes_S1x128x256_S128x256 = slotM ZS 5 := rfl
theorem canon_ZS6 (h : ∀ a, (Rect.unit (s := S8x128x256) ![6, 0, 0] S1x128x256.size inb_S8x128x256_S1x128x256_6_0_0).stride a = 1) :
    ((Memref.whole cc0_scratch4).slice (Rect.unit (s := S8x128x256) ![6, 0, 0] S1x128x256.size inb_S8x128x256_S1x128x256_6_0_0) h).squeeze S128x256 squeezes_S1x128x256_S128x256 = slotM ZS 6 := rfl
theorem canon_ZS7 (h : ∀ a, (Rect.unit (s := S8x128x256) ![7, 0, 0] S1x128x256.size inb_S8x128x256_S1x128x256_7_0_0).stride a = 1) :
    ((Memref.whole cc0_scratch4).slice (Rect.unit (s := S8x128x256) ![7, 0, 0] S1x128x256.size inb_S8x128x256_S1x128x256_7_0_0) h).squeeze S128x256 squeezes_S1x128x256_S128x256 = slotM ZS 7 := rfl
theorem canon_ZR0 (h : ∀ a, (Rect.unit (s := S8x128x256) ![0, 0, 0] S1x128x256.size inb_S8x128x256_S1x128x256_0_0_0).stride a = 1) :
    ((Memref.whole cc0_scratch5).slice (Rect.unit (s := S8x128x256) ![0, 0, 0] S1x128x256.size inb_S8x128x256_S1x128x256_0_0_0) h).squeeze S128x256 squeezes_S1x128x256_S128x256 = slotM ZR 0 := rfl
theorem canon_ZR1 (h : ∀ a, (Rect.unit (s := S8x128x256) ![1, 0, 0] S1x128x256.size inb_S8x128x256_S1x128x256_1_0_0).stride a = 1) :
    ((Memref.whole cc0_scratch5).slice (Rect.unit (s := S8x128x256) ![1, 0, 0] S1x128x256.size inb_S8x128x256_S1x128x256_1_0_0) h).squeeze S128x256 squeezes_S1x128x256_S128x256 = slotM ZR 1 := rfl
theorem canon_ZR2 (h : ∀ a, (Rect.unit (s := S8x128x256) ![2, 0, 0] S1x128x256.size inb_S8x128x256_S1x128x256_2_0_0).stride a = 1) :
    ((Memref.whole cc0_scratch5).slice (Rect.unit (s := S8x128x256) ![2, 0, 0] S1x128x256.size inb_S8x128x256_S1x128x256_2_0_0) h).squeeze S128x256 squeezes_S1x128x256_S128x256 = slotM ZR 2 := rfl
theorem canon_ZR3 (h : ∀ a, (Rect.unit (s := S8x128x256) ![3, 0, 0] S1x128x256.size inb_S8x128x256_S1x128x256_3_0_0).stride a = 1) :
    ((Memref.whole cc0_scratch5).slice (Rect.unit (s := S8x128x256) ![3, 0, 0] S1x128x256.size inb_S8x128x256_S1x128x256_3_0_0) h).squeeze S128x256 squeezes_S1x128x256_S128x256 = slotM ZR 3 := rfl
theorem canon_ZR4 (h : ∀ a, (Rect.unit (s := S8x128x256) ![4, 0, 0] S1x128x256.size inb_S8x128x256_S1x128x256_4_0_0).stride a = 1) :
    ((Memref.whole cc0_scratch5).slice (Rect.unit (s := S8x128x256) ![4, 0, 0] S1x128x256.size inb_S8x128x256_S1x128x256_4_0_0) h).squeeze S128x256 squeezes_S1x128x256_S128x256 = slotM ZR 4 := rfl
theorem canon_ZR5 (h : ∀ a, (Rect.unit (s := S8x128x256) ![5, 0, 0] S1x128x256.size inb_S8x128x256_S1x128x256_5_0_0).stride a = 1) :
    ((Memref.whole cc0_scratch5).slice (Rect.unit (s := S8x128x256) ![5, 0, 0] S1x128x256.size inb_S8x128x256_S1x128x256_5_0_0) h).squeeze S128x256 squeezes_S1x128x256_S128x256 = slotM ZR 5 := rfl
theorem canon_ZR6 (h : ∀ a, (Rect.unit (s := S8x128x256) ![6, 0, 0] S1x128x256.size inb_S8x128x256_S1x128x256_6_0_0).stride a = 1) :
    ((Memref.whole cc0_scratch5).slice (Rect.unit (s := S8x128x256) ![6, 0, 0] S1x128x256.size inb_S8x128x256_S1x128x256_6_0_0) h).squeeze S128x256 squeezes_S1x128x256_S128x256 = slotM ZR 6 := rfl
theorem canon_ZR7 (h : ∀ a, (Rect.unit (s := S8x128x256) ![7, 0, 0] S1x128x256.size inb_S8x128x256_S1x128x256_7_0_0).stride a = 1) :
    ((Memref.whole cc0_scratch5).slice (Rect.unit (s := S8x128x256) ![7, 0, 0] S1x128x256.size inb_S8x128x256_S1x128x256_7_0_0) h).squeeze S128x256 squeezes_S1x128x256_S128x256 = slotM ZR 7 := rfl
theorem canon_ysSem0 : ((SemArray.slice cc0_scratch10 (Rect.unit (s := S8) ![0] S1.size inb_S8_S1_0)).squeeze S_ squeezes_S1_S_).sem = ysSem 0 := rfl
theorem canon_ysSem1 : ((SemArray.slice cc0_scratch10 (Rect.unit (s := S8) ![1] S1.size inb_S8_S1_1)).squeeze S_ squeezes_S1_S_).sem = ysSem 1 := rfl
theorem canon_ysSem2 : ((SemArray.slice cc0_scratch10 (Rect.unit (s := S8) ![2] S1.size inb_S8_S1_2)).squeeze S_ squeezes_S1_S_).sem = ysSem 2 := rfl
theorem canon_ysSem3 : ((SemArray.slice cc0_scratch10 (Rect.unit (s := S8) ![3] S1.size inb_S8_S1_3)).squeeze S_ squeezes_S1_S_).sem = ysSem 3 := rfl
theorem canon_ysSem4 : ((SemArray.slice cc0_scratch10 (Rect.unit (s := S8) ![4] S1.size inb_S8_S1_4)).squeeze S_ squeezes_S1_S_).sem = ysSem 4 := rfl
theorem canon_ysSem5 : ((SemArray.slice cc0_scratch10 (Rect.unit (s := S8) ![5] S1.size inb_S8_S1_5)).squeeze S_ squeezes_S1_S_).sem = ysSem 5 := rfl
theorem canon_ysSem6 : ((SemArray.slice cc0_scratch10 (Rect.unit (s := S8) ![6] S1.size inb_S8_S1_6)).squeeze S_ squeezes_S1_S_).sem = ysSem 6 := rfl
theorem canon_ysSem7 : ((SemArray.slice cc0_scratch10 (Rect.unit (s := S8) ![7] S1.size inb_S8_S1_7)).squeeze S_ squeezes_S1_S_).sem = ysSem 7 := rfl
theorem canon_yrSem0 : ((SemArray.slice cc0_scratch11 (Rect.unit (s := S8) ![0] S1.size inb_S8_S1_0)).squeeze S_ squeezes_S1_S_).sem = yrSem 0 := rfl
theorem canon_yrSem1 : ((SemArray.slice cc0_scratch11 (Rect.unit (s := S8) ![1] S1.size inb_S8_S1_1)).squeeze S_ squeezes_S1_S_).sem = yrSem 1 := rfl
theorem canon_yrSem2 : ((SemArray.slice cc0_scratch11 (Rect.unit (s := S8) ![2] S1.size inb_S8_S1_2)).squeeze S_ squeezes_S1_S_).sem = yrSem 2 := rfl
theorem canon_yrSem3 : ((SemArray.slice cc0_scratch11 (Rect.unit (s := S8) ![3] S1.size inb_S8_S1_3)).squeeze S_ squeezes_S1_S_).sem = yrSem 3 := rfl
theorem canon_yrSem4 : ((SemArray.slice cc0_scratch11 (Rect.unit (s := S8) ![4] S1.size inb_S8_S1_4)).squeeze S_ squeezes_S1_S_).sem = yrSem 4 := rfl
theorem canon_yrSem5 : ((SemArray.slice cc0_scratch11 (Rect.unit (s := S8) ![5] S1.size inb_S8_S1_5)).squeeze S_ squeezes_S1_S_).sem = yrSem 5 := rfl
theorem canon_yrSem6 : ((SemArray.slice cc0_scratch11 (Rect.unit (s := S8) ![6] S1.size inb_S8_S1_6)).squeeze S_ squeezes_S1_S_).sem = yrSem 6 := rfl
theorem canon_yrSem7 : ((SemArray.slice cc0_scratch11 (Rect.unit (s := S8) ![7] S1.size inb_S8_S1_7)).squeeze S_ squeezes_S1_S_).sem = yrSem 7 := rfl
theorem canon_zsSem0 : ((SemArray.slice cc0_scratch12 (Rect.unit (s := S8) ![0] S1.size inb_S8_S1_0)).squeeze S_ squeezes_S1_S_).sem = zsSem 0 := rfl
theorem canon_zsSem1 : ((SemArray.slice cc0_scratch12 (Rect.unit (s := S8) ![1] S1.size inb_S8_S1_1)).squeeze S_ squeezes_S1_S_).sem = zsSem 1 := rfl
theorem canon_zsSem2 : ((SemArray.slice cc0_scratch12 (Rect.unit (s := S8) ![2] S1.size inb_S8_S1_2)).squeeze S_ squeezes_S1_S_).sem = zsSem 2 := rfl
theorem canon_zsSem3 : ((SemArray.slice cc0_scratch12 (Rect.unit (s := S8) ![3] S1.size inb_S8_S1_3)).squeeze S_ squeezes_S1_S_).sem = zsSem 3 := rfl
theorem canon_zsSem4 : ((SemArray.slice cc0_scratch12 (Rect.unit (s := S8) ![4] S1.size inb_S8_S1_4)).squeeze S_ squeezes_S1_S_).sem = zsSem 4 := rfl
theorem canon_zsSem5 : ((SemArray.slice cc0_scratch12 (Rect.unit (s := S8) ![5] S1.size inb_S8_S1_5)).squeeze S_ squeezes_S1_S_).sem = zsSem 5 := rfl
theorem canon_zsSem6 : ((SemArray.slice cc0_scratch12 (Rect.unit (s := S8) ![6] S1.size inb_S8_S1_6)).squeeze S_ squeezes_S1_S_).sem = zsSem 6 := rfl
theorem canon_zsSem7 : ((SemArray.slice cc0_scratch12 (Rect.unit (s := S8) ![7] S1.size inb_S8_S1_7)).squeeze S_ squeezes_S1_S_).sem = zsSem 7 := rfl
theorem canon_zrSem0 : ((SemArray.slice cc0_scratch13 (Rect.unit (s := S8) ![0] S1.size inb_S8_S1_0)).squeeze S_ squeezes_S1_S_).sem = zrSem 0 := rfl
theorem canon_zrSem1 : ((SemArray.slice cc0_scratch13 (Rect.unit (s := S8) ![1] S1.size inb_S8_S1_1)).squeeze S_ squeezes_S1_S_).sem = zrSem 1 := rfl
theorem canon_zrSem2 : ((SemArray.slice cc0_scratch13 (Rect.unit (s := S8) ![2] S1.size inb_S8_S1_2)).squeeze S_ squeezes_S1_S_).sem = zrSem 2 := rfl
theorem canon_zrSem3 : ((SemArray.slice cc0_scratch13 (Rect.unit (s := S8) ![3] S1.size inb_S8_S1_3)).squeeze S_ squeezes_S1_S_).sem = zrSem 3 := rfl
theorem canon_zrSem4 : ((SemArray.slice cc0_scratch13 (Rect.unit (s := S8) ![4] S1.size inb_S8_S1_4)).squeeze S_ squeezes_S1_S_).sem = zrSem 4 := rfl
theorem canon_zrSem5 : ((SemArray.slice cc0_scratch13 (Rect.unit (s := S8) ![5] S1.size inb_S8_S1_5)).squeeze S_ squeezes_S1_S_).sem = zrSem 5 := rfl
theorem canon_zrSem6 : ((SemArray.slice cc0_scratch13 (Rect.unit (s := S8) ![6] S1.size inb_S8_S1_6)).squeeze S_ squeezes_S1_S_).sem = zrSem 6 := rfl
theorem canon_zrSem7 : ((SemArray.slice cc0_scratch13 (Rect.unit (s := S8) ![7] S1.size inb_S8_S1_7)).squeeze S_ squeezes_S1_S_).sem = zrSem 7 := rfl

attribute [local sl_canon] canon_YS0 canon_YS1 canon_YS2 canon_YS3 canon_YS4 canon_YS5 canon_YS6 canon_YS7 canon_YR0 canon_YR1 canon_YR2 canon_YR3 canon_YR4 canon_YR5 canon_YR6 canon_YR7 canon_ZS0 canon_ZS1 canon_ZS2 canon_ZS3 canon_ZS4 canon_ZS5 canon_ZS6 canon_ZS7 canon_ZR0 canon_ZR1 canon_ZR2 canon_ZR3 canon_ZR4 canon_ZR5 canon_ZR6 canon_ZR7 canon_ysSem0 canon_ysSem1 canon_ysSem2 canon_ysSem3 canon_ysSem4 canon_ysSem5 canon_ysSem6 canon_ysSem7 canon_yrSem0 canon_yrSem1 canon_yrSem2 canon_yrSem3 canon_yrSem4 canon_yrSem5 canon_yrSem6 canon_yrSem7 canon_zsSem0 canon_zsSem1 canon_zsSem2 canon_zsSem3 canon_zsSem4 canon_zsSem5 canon_zsSem6 canon_zsSem7 canon_zrSem0 canon_zrSem1 canon_zrSem2 canon_zrSem3 canon_zrSem4 canon_zrSem5 canon_zrSem6 canon_zrSem7

/-! ## The result's pieces lie apart -/

theorem out_disj {o o' : Fin 2 → Nat} {inb : ∀ a, o a + S128x256.size a ≤ S256x2048.size a} {inb' : ∀ a, o' a + S128x256.size a ≤ S256x2048.size a}
    {h1 : ∀ a, (Rect.unit (s := S256x2048) o S128x256.size inb).stride a = 1} {h2 : ∀ a, (Rect.unit (s := S256x2048) o' S128x256.size inb').stride a = 1}
    (h : o 0 + 128 ≤ o' 0 ∨ o' 0 + 128 ≤ o 0) :
    Disjoint ((Memref.whole main_v1).slice (Rect.unit (s := S256x2048) o S128x256.size inb) h1).view.set
      ((Memref.whole main_v1).slice (Rect.unit (s := S256x2048) o' S128x256.size inb') h2).view.set := by
  refine Finset.disjoint_left.mpr fun x hx hx' => ?_
  have hx1 : x ∈ (Rect.unit (s := S256x2048) o S128x256.size inb).set := by
    rw [← View.set_slice_whole main_v1]; exact hx
  have hx2 : x ∈ (Rect.unit (s := S256x2048) o' S128x256.size inb').set := by
    rw [← View.set_slice_whole main_v1]; exact hx'
  exact Finset.disjoint_left.mp (Rect.unit_disjoint 0 h) hx1 hx2

macro "disj_tac" : tactic => `(tactic| (apply out_disj; simp only [k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, Matrix.cons_val_zero]; omega))

open Lean Elab Tactic Meta in
/-- Unfold every auxiliary constant the symbolic run named (their names have the component `sl`). -/
elab "unfold_aux" : tactic => do
  let g ← getMainGoal
  let tgt ← instantiateMVars (← g.getType)
  let tgt' ← Lean.Meta.deltaExpand tgt (fun n => n.components.contains `sl)
  replaceMainGoal [← g.replaceTargetDefEq tgt']

/-! ## Reading back what was stored -/

abbrev XT : Memref sig .tc .vmem S2x128x512 .f32 := Memref.whole cc0_scratch1
abbrev xtR0 : Rect S2x128x512 := Rect.unit (s := S2x128x512) ![0, 0, 0] S1x128x512.size inb_S2x128x512_S1x128x512_0_0_0
abbrev xtR1 : Rect S2x128x512 := Rect.unit (s := S2x128x512) ![1, 0, 0] S1x128x512.size inb_S2x128x512_S1x128x512_1_0_0

set_option maxHeartbeats 1600000 in
/-- The second transposed operand, read back right after it was stored; -/
theorem xt_read1 (X : xtR1.shape.Idx → Elt F .f32) (L : List (View.Piece (Elt F) S2x128x512 .f32)) :
    XT.view.readCov (⟨xtR1, X⟩ :: L) xtR1.toLoadRect = X := View.readCov_cons_toLoadRect XT.view xtR1 X L
set_option maxHeartbeats 1600000 in
/-- and the first, stored before it in the other half. -/
theorem xt_read0 (X : xtR1.shape.Idx → Elt F .f32) (Y : xtR0.shape.Idx → Elt F .f32) (L : List (View.Piece (Elt F) S2x128x512 .f32)) :
    XT.view.readCov (⟨xtR1, X⟩ :: ⟨xtR0, Y⟩ :: L) xtR0.toLoadRect = Y :=
  (View.readCov_cons_of_disjoint XT.view ⟨xtR1, X⟩ (⟨xtR0, Y⟩ :: L) xtR0.toLoadRect (Rect.unit_disjoint (inb := inb_S2x128x512_S1x128x512_1_0_0) (inb' := inb_S2x128x512_S1x128x512_0_0_0) 0 (by decide))).trans (View.readCov_cons_toLoadRect XT.view xtR0 Y L)

/-- The dy block copied whole into its scratch buffer reads as the block itself. -/
theorem dyv_read (r : LoadRect S512x2048) (f0 : BufTy.Contents (Elt F) DYV.view.ty) (fdy : BufTy.Contents (Elt F) (Memref.whole main_arg1).view.ty) :
    View.readAt (Elt F) DYV.view r (View.write (Elt F) DYV.view f0 (ReadAs.same.apply ((Memref.whole main_arg1).view.read (Elt F) fdy)) Finset.univ)
      = View.readAt (Elt F) DYV.view r fdy := by
  congr 1
  show (View.whole cc0_scratch0).write (Elt F) f0 ((View.whole main_arg1).read (Elt F) fdy) Finset.univ = fdy
  rw [View.read_whole]
  exact View.write_whole_univ _ _ _

/-- A load through the rectangle of the newest write reads what was written. -/
theorem readAt_writes_head {κ : Kind} {sp : Space} {s : Shape} {e : EltTy} (v : View sig κ sp s e) (r : Rect s) (w : r.shape.Idx → Elt F e)
    (L : List (View.Piece (Elt F) s e)) (f : v.ty.Contents (Elt F)) :
    v.readAt (Elt F) r.toLoadRect (v.writes (Elt F) f (⟨r, w⟩ :: L)) = w :=
  funext fun j => View.read_writes_cons_emb v f r w L j

/-- Slot `i` of a `[8,128,256]` f32 buffer, read as a `[128,256]` piece right after `w` was stored over it. -/
theorem fslot_read (M : Memref sig .tc .vmem S8x128x256 .f32) (i : Fin 8) (h : ∀ a, (slotRect i).stride a = 1)
    (f : M.view.ty.Contents (Elt F)) (w : (slotRect i).shape.Idx → Elt F .f32) (L : List (View.Piece (Elt F) S8x128x256 .f32)) :
    ((M.slice (slotRect i) h).squeeze S128x256 squeezes_S1x128x256_S128x256).view.read (Elt F) (M.view.writes (Elt F) f (⟨slotRect i, w⟩ :: L))
      = shapeCast S128x256 w shapeCasts_S1x128x256_S128x256 := by
  rw [Memref.read_squeeze_slice M (slotRect i) h squeezes_S1x128x256_S128x256 shapeCasts_S1x128x256_S128x256]
  congr 1
  exact readAt_writes_head M.view (slotRect i) w L f

theorem readAs_same {s : Shape} {e : EltTy} (g : s.Idx → Elt F e) : (ReadAs.same : ReadAs (Elt F) s e s e).apply g = g := rfl

omit [FloatOps F] in
theorem pt_of_eq {ℓ : Loc nD τ sig} {q : PosShare TreeShare} (B : Buf (Elt F) ℓ) :
    (iprop(∃ g, ⌜g = B⌝ ∗ ℓ ↦{q} g) : sProp 𝕄) ⊢ ℓ ↦{q} B := by
  iintro ⟨%g, %hg, H⟩; subst hg; iexact H

/-- `join8` with the eight contents named one by one. -/
theorem join8' (M : Memref sig .tc .vmem S8x128x256 .bf16) (hM : M.view.set = Finset.univ) (c : Dev nD)
    (g0 g1 g2 g3 g4 g5 g6 g7 : Buf (Elt F) (M.view.loc (c : Thread nD τ))) :
    (iprop(((slotM M 0).view.loc (c : Thread nD τ) ↦[(slotM M 0).view.set]{fullShare} g0) ∗ ((slotM M 1).view.loc (c : Thread nD τ) ↦[(slotM M 1).view.set]{fullShare} g1)
        ∗ ((slotM M 2).view.loc (c : Thread nD τ) ↦[(slotM M 2).view.set]{fullShare} g2) ∗ ((slotM M 3).view.loc (c : Thread nD τ) ↦[(slotM M 3).view.set]{fullShare} g3)
        ∗ ((slotM M 4).view.loc (c : Thread nD τ) ↦[(slotM M 4).view.set]{fullShare} g4) ∗ ((slotM M 5).view.loc (c : Thread nD τ) ↦[(slotM M 5).view.set]{fullShare} g5)
        ∗ ((slotM M 6).view.loc (c : Thread nD τ) ↦[(slotM M 6).view.set]{fullShare} g6) ∗ ((slotM M 7).view.loc (c : Thread nD τ) ↦[(slotM M 7).view.set]{fullShare} g7)) : sProp 𝕄)
      ⊢ iprop(∃ g, M.view.loc (c : Thread nD τ) ↦{fullShare} g) :=
  join8 (F := F) M hM c ![g0, g1, g2, g3, g4, g5, g6, g7]

macro "val_norm" : tactic => `(tactic| (unfold_aux; repeat (first | rw [xt_read0] | rw [xt_read1] | rw [dyv_read])))

/-! ## The body -/

/-- What the body gives back: nothing owed any more, the staged x block as it was, and the state after the point. -/
def bodyPost (m : (ℓ : Loc nD τ sig) → Buf (Elt F) ℓ) (c : Dev nD) : sProp 𝕄 :=
  iprop((∃ W', owes (c : Thread nD τ) (0 : CellTallies nD τ sig Unit) W') ∗ (X0.view.loc (c : Thread nD τ) ↦{fullShare} xstg m c) ∗ Φ₁ m c)

set_option maxHeartbeats 8000000 in
theorem sound_body (m : (ℓ : Loc nD τ sig) → Buf (Elt F) ℓ) (K : GSem nD τ sig → ℕ) (c : Dev nD) (W : Waits sig Unit)
    (f0 : Buf (Elt F) ((Memref.whole cc0_scratch0).view.loc (c : Thread nD τ)))
    (f1 : Buf (Elt F) ((Memref.whole cc0_scratch1).view.loc (c : Thread nD τ)))
    (f2 : Buf (Elt F) ((Memref.whole cc0_scratch2).view.loc (c : Thread nD τ)))
    (f3 : Buf (Elt F) ((Memref.whole cc0_scratch3).view.loc (c : Thread nD τ)))
    (f4 : Buf (Elt F) ((Memref.whole cc0_scratch4).view.loc (c : Thread nD τ)))
    (f5 : Buf (Elt F) ((Memref.whole cc0_scratch5).view.loc (c : Thread nD τ)))
    (f6 : Buf (Elt F) ((Memref.whole cc0_scratch6).view.loc (c : Thread nD τ)))
    (f7 : Buf (Elt F) ((Memref.whole cc0_scratch7).view.loc (c : Thread nD τ)))
    (Kt : PUnit → sProp 𝕄) :
    iprop(invsG (PSm m) (PZm m) K c ∗ levAts L lv ∗ posToks c ∗ creds c ∗ localSems c ∗ owes (c : Thread nD τ) (owed₀ c) W
        ∗ (X0.view.loc (c : Thread nD τ) ↦{fullShare} xstg m c)
        ∗ ((Memref.whole main_arg1).view.loc (c : Thread nD τ) ↦{fullShare} m ((c : Thread nD τ).loc main_arg1))
        ∗ ((Memref.whole main_v1).view.loc (c : Thread nD τ) ↦{fullShare} m ((c : Thread nD τ).loc main_v1))
        ∗ ((Memref.whole cc0_scratch0).view.loc (c : Thread nD τ) ↦{fullShare} f0)
        ∗ ((Memref.whole cc0_scratch1).view.loc (c : Thread nD τ) ↦{fullShare} f1)
        ∗ ((Memref.whole cc0_scratch2).view.loc (c : Thread nD τ) ↦{fullShare} f2)
        ∗ ((Memref.whole cc0_scratch3).view.loc (c : Thread nD τ) ↦{fullShare} f3)
        ∗ ((Memref.whole cc0_scratch4).view.loc (c : Thread nD τ) ↦{fullShare} f4)
        ∗ ((Memref.whole cc0_scratch5).view.loc (c : Thread nD τ) ↦{fullShare} f5)
        ∗ ((Memref.whole cc0_scratch6).view.loc (c : Thread nD τ) ↦{fullShare} f6)
        ∗ ((Memref.whole cc0_scratch7).view.loc (c : Thread nD τ) ↦{fullShare} f7)
        ∗ (bodyPost m c -∗ Kt ⟨⟩))
      ⊢ wp frame (wpE (defs₀ (F := F)) 𝒱₀ c none) Set.univ (cc0_body (Memref.whole cc0_stg0_0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13) Kt := by
  unfold invsG posToks creds localSems all8
  beta_reduce
  iintro ⟨⟨#HIb, #HIby, #HIbz, ⟨#HIys0, #HIys1, #HIys2, #HIys3, #HIys4, #HIys5, #HIys6, #HIys7⟩, ⟨#HIyr0, #HIyr1, #HIyr2, #HIyr3, #HIyr4, #HIyr5, #HIyr6, #HIyr7⟩, ⟨#HIzs0, #HIzs1, #HIzs2, #HIzs3, #HIzs4, #HIzs5, #HIzs6, #HIzs7⟩, ⟨#HIzr0, #HIzr1, #HIzr2, #HIzr3, #HIzr4, #HIzr5, #HIzr6, #HIzr7⟩, ⟨#HIyrp0, #HIyrp1, #HIyrp2, #HIyrp3, #HIyrp4, #HIyrp5, #HIyrp6, #HIyrp7⟩, ⟨#HIzrp0, #HIzrp1, #HIzrp2, #HIzrp3, #HIzrp4, #HIzrp5, #HIzrp6, #HIzrp7⟩,
      #Hrby, #Hrbz, ⟨#Hrys0, #Hrys1, #Hrys2, #Hrys3, #Hrys4, #Hrys5, #Hrys6, #Hrys7⟩, ⟨#Hryr0, #Hryr1, #Hryr2, #Hryr3, #Hryr4, #Hryr5, #Hryr6, #Hryr7⟩, ⟨#Hrzs0, #Hrzs1, #Hrzs2, #Hrzs3, #Hrzs4, #Hrzs5, #Hrzs6, #Hrzs7⟩, ⟨#Hrzr0, #Hrzr1, #Hrzr2, #Hrzr3, #Hrzr4, #Hrzr5, #Hrzr6, #Hrzr7⟩⟩, #Hlev,
    ⟨Hatb, ⟨Hatys0, Hatys1, Hatys2, Hatys3, Hatys4, Hatys5, Hatys6, Hatys7⟩, ⟨Hatyr0, Hatyr1, Hatyr2, Hatyr3, Hatyr4, Hatyr5, Hatyr6, Hatyr7⟩, ⟨Hatzs0, Hatzs1, Hatzs2, Hatzs3, Hatzs4, Hatzs5, Hatzs6, Hatzs7⟩, ⟨Hatzr0, Hatzr1, Hatzr2, Hatzr3, Hatzr4, Hatzr5, Hatzr6, Hatzr7⟩, Htby, Htbz, ⟨Htys0, Htys1, Htys2, Htys3, Htys4, Htys5, Htys6, Htys7⟩, ⟨Htzs0, Htzs1, Htzs2, Htzs3, Htzs4, Htzs5, Htzs6, Htzs7⟩, ⟨Htyr0, Htyr1, Htyr2, Htyr3, Htyr4, Htyr5, Htyr6, Htyr7⟩, ⟨Htzr0, Htzr1, Htzr2, Htzr3, Htzr4, Htzr5, Htzr6, Htzr7⟩⟩,
    ⟨Hcb, ⟨Hcyr0, Hcyr1, Hcyr2, Hcyr3, Hcyr4, Hcyr5, Hcyr6, Hcyr7⟩, ⟨Hczr0, Hczr1, Hczr2, Hczr3, Hczr4, Hczr5, Hczr6, Hczr7⟩⟩,
    ⟨Hs1, Hs2, Hs3, Hs4, Hs5, Hs6, Hs7, Hs8, Hs9, Hs10, Hs11, Hs12, Hs13, Hs14, Hs15, Hs16, Hs17⟩,
    HO, Hx, Hdy, Hout, Hb0, Hb1, Hb2, Hb3, Hb4, Hb5, Hb6, Hb7, Hk⟩
  have hd1 : ∀ c : Dev nD, (⟨k0_dev1 c, k0_dev1_lt c⟩ : Dev nD) = yp c := dev1_eq
  have hd2 : ∀ c : Dev nD, (⟨k0_dev2 c, k0_dev2_lt c⟩ : Dev nD) = zp c := dev2_eq
  have hd3 : ∀ c : Dev nD, (⟨k0_dev3 c, k0_dev3_lt c⟩ : Dev nD) = yp c := fun c => Fin.ext (k0_dev3_eq c)
  have hd4 : ∀ c : Dev nD, (⟨k0_dev4 c, k0_dev4_lt c⟩ : Dev nD) = yp c := fun c => Fin.ext (k0_dev4_eq c)
  have hd5 : ∀ c : Dev nD, (⟨k0_dev5 c, k0_dev5_lt c⟩ : Dev nD) = yp c := fun c => Fin.ext (k0_dev5_eq c)
  have hd6 : ∀ c : Dev nD, (⟨k0_dev6 c, k0_dev6_lt c⟩ : Dev nD) = yp c := fun c => Fin.ext (k0_dev6_eq c)
  have hd7 : ∀ c : Dev nD, (⟨k0_dev7 c, k0_dev7_lt c⟩ : Dev nD) = yp c := fun c => Fin.ext (k0_dev7_eq c)
  have hd8 : ∀ c : Dev nD, (⟨k0_dev8 c, k0_dev8_lt c⟩ : Dev nD) = yp c := fun c => Fin.ext (k0_dev8_eq c)
  have hd9 : ∀ c : Dev nD, (⟨k0_dev9 c, k0_dev9_lt c⟩ : Dev nD) = yp c := fun c => Fin.ext (k0_dev9_eq c)
  have hd10 : ∀ c : Dev nD, (⟨k0_dev10 c, k0_dev10_lt c⟩ : Dev nD) = yp c := fun c => Fin.ext (k0_dev10_eq c)
  have hd11 : ∀ c : Dev nD, (⟨k0_dev11 c, k0_dev11_lt c⟩ : Dev nD) = zp c := fun c => Fin.ext (k0_dev11_eq c)
  have hd12 : ∀ c : Dev nD, (⟨k0_dev12 c, k0_dev12_lt c⟩ : Dev nD) = zp c := fun c => Fin.ext (k0_dev12_eq c)
  have hd13 : ∀ c : Dev nD, (⟨k0_dev13 c, k0_dev13_lt c⟩ : Dev nD) = zp c := fun c => Fin.ext (k0_dev13_eq c)
  have hd14 : ∀ c : Dev nD, (⟨k0_dev14 c, k0_dev14_lt c⟩ : Dev nD) = zp c := fun c => Fin.ext (k0_dev14_eq c)
  have hd15 : ∀ c : Dev nD, (⟨k0_dev15 c, k0_dev15_lt c⟩ : Dev nD) = zp c := fun c => Fin.ext (k0_dev15_eq c)
  have hd16 : ∀ c : Dev nD, (⟨k0_dev16 c, k0_dev16_lt c⟩ : Dev nD) = zp c := fun c => Fin.ext (k0_dev16_eq c)
  have hd17 : ∀ c : Dev nD, (⟨k0_dev17 c, k0_dev17_lt c⟩ : Dev nD) = zp c := fun c => Fin.ext (k0_dev17_eq c)
  have hd18 : ∀ c : Dev nD, (⟨k0_dev18 c, k0_dev18_lt c⟩ : Dev nD) = zp c := fun c => Fin.ext (k0_dev18_eq c)
  have hmw := mayWait_owedY (F := F) c (.reg barS) (le_refl _) 8
  have hmwd := mayWait_owedY (F := F) c (.dma (1 : DmaSem sig)) (Nat.zero_le 1) 8
  have hz2 : c.val % 2 < 2 := Nat.mod_lt _ (by decide)
  unfold owed₀ owed₁
  -- the two buffers sent from, slot by slot
  ihave Hys := (Entails.of_eq (split8' (F := F) YS (View.set_whole _) c fullShare f2)) $$ Hb2
  ihave Hzs := (Entails.of_eq (split8' (F := F) ZS (View.set_whole _) c fullShare f4)) $$ Hb4
  unfold all8
  icases Hys with ⟨HYS0, HYS1, HYS2, HYS3, HYS4, HYS5, HYS6, HYS7⟩
  icases Hzs with ⟨HZS0, HZS1, HZS2, HZS3, HZS4, HZS5, HZS6, HZS7⟩
  rw [cc0_body_eq_skeleton]; unfold cc0_body_skel
  sl_exec
  -- what the barrier's round handed over: each partner's receive buffer, and that it has opened its receive cells
  ihave Hp := (Entails.of_eq (bar_payloads (PSm m) (PZm m) c)) $$ Hatb_pay1
  unfold barPayY barPayZ all8
  icases Hp with ⟨⟨⟨%fyrp, Hyrp⟩, ⟨#Hryp0, #Hryp1, #Hryp2, #Hryp3, #Hryp4, #Hryp5, #Hryp6, #Hryp7⟩⟩, ⟨⟨%fzrp, Hzrp⟩, ⟨#Hrzp0, #Hrzp1, #Hrzp2, #Hrzp3, #Hrzp4, #Hrzp5, #Hrzp6, #Hrzp7⟩⟩⟩
  ihave Hyrp' := (Entails.of_eq (split8' (F := F) YR (View.set_whole _) (yp c) fullShare fyrp)) $$ Hyrp
  ihave Hzrp' := (Entails.of_eq (split8' (F := F) ZR (View.set_whole _) (zp c) fullShare fzrp)) $$ Hzrp
  unfold all8
  icases Hyrp' with ⟨HYRP0, HYRP1, HYRP2, HYRP3, HYRP4, HYRP5, HYRP6, HYRP7⟩
  icases Hzrp' with ⟨HZRP0, HZRP1, HZRP2, HZRP3, HZRP4, HZRP5, HZRP6, HZRP7⟩
  -- chunk 0 to the partner along y
  rw [show owedY c 8 = owedY c 7 + tallyAt (yrCell (yp c) 0) () N from rfl]
  iapply (send_y' (PSm m) (PZm m) K c (yp c) rfl 0 _ _ _ _) $$ [HO Htys0 Htyr0 HYS0 HYRP0]
  · isplitl [HO Htys0 Htyr0 HYS0 HYRP0]
    · isplitr; · iexact HIys0
      isplitr; · iexact HIyrp0
      isplitl [HYS0]; · iexact HYS0
      isplitl [HYRP0]; · iexact HYRP0
      isplitl [HO]; · iexact HO
      isplitl [Htys0]; · iexact Htys0
      isplitr; · iexact Hrys0
      isplitl [Htyr0]; · iexact Htyr0
      iexact Hryp0
    · ipureintro
      val_norm
      refine (slot_read_store (F := F) YS 0 _ _).trans ?_
      unfold PSm
      refine congrArg sqz ?_
      set_option maxHeartbeats 2000000 in rfl
  iintro ⟨Hcys0, HO⟩
  sl_exec
  -- chunk 1 to the partner along y
  rw [show owedY c 7 = owedY c 6 + tallyAt (yrCell (yp c) 1) () N from rfl]
  iapply (send_y' (PSm m) (PZm m) K c (yp c) rfl 1 _ _ _ _) $$ [HO Htys1 Htyr1 HYS1 HYRP1]
  · isplitl [HO Htys1 Htyr1 HYS1 HYRP1]
    · isplitr; · iexact HIys1
      isplitr; · iexact HIyrp1
      isplitl [HYS1]; · iexact HYS1
      isplitl [HYRP1]; · iexact HYRP1
      isplitl [HO]; · iexact HO
      isplitl [Htys1]; · iexact Htys1
      isplitr; · iexact Hrys1
      isplitl [Htyr1]; · iexact Htyr1
      iexact Hryp1
    · ipureintro
      val_norm
      refine (slot_read_store (F := F) YS 1 _ _).trans ?_
      unfold PSm
      refine congrArg sqz ?_
      set_option maxHeartbeats 2000000 in rfl
  iintro ⟨Hcys1, HO⟩
  sl_exec
  -- chunk 2 to the partner along y
  rw [show owedY c 6 = owedY c 5 + tallyAt (yrCell (yp c) 2) () N from rfl]
  iapply (send_y' (PSm m) (PZm m) K c (yp c) rfl 2 _ _ _ _) $$ [HO Htys2 Htyr2 HYS2 HYRP2]
  · isplitl [HO Htys2 Htyr2 HYS2 HYRP2]
    · isplitr; · iexact HIys2
      isplitr; · iexact HIyrp2
      isplitl [HYS2]; · iexact HYS2
      isplitl [HYRP2]; · iexact HYRP2
      isplitl [HO]; · iexact HO
      isplitl [Htys2]; · iexact Htys2
      isplitr; · iexact Hrys2
      isplitl [Htyr2]; · iexact Htyr2
      iexact Hryp2
    · ipureintro
      val_norm
      refine (slot_read_store (F := F) YS 2 _ _).trans ?_
      unfold PSm
      refine congrArg sqz ?_
      set_option maxHeartbeats 2000000 in rfl
  iintro ⟨Hcys2, HO⟩
  sl_exec
  -- chunk 3 to the partner along y
  rw [show owedY c 5 = owedY c 4 + tallyAt (yrCell (yp c) 3) () N from rfl]
  iapply (send_y' (PSm m) (PZm m) K c (yp c) rfl 3 _ _ _ _) $$ [HO Htys3 Htyr3 HYS3 HYRP3]
  · isplitl [HO Htys3 Htyr3 HYS3 HYRP3]
    · isplitr; · iexact HIys3
      isplitr; · iexact HIyrp3
      isplitl [HYS3]; · iexact HYS3
      isplitl [HYRP3]; · iexact HYRP3
      isplitl [HO]; · iexact HO
      isplitl [Htys3]; · iexact Htys3
      isplitr; · iexact Hrys3
      isplitl [Htyr3]; · iexact Htyr3
      iexact Hryp3
    · ipureintro
      val_norm
      refine (slot_read_store (F := F) YS 3 _ _).trans ?_
      unfold PSm
      refine congrArg sqz ?_
      set_option maxHeartbeats 2000000 in rfl
  iintro ⟨Hcys3, HO⟩
  sl_exec
  -- chunk 4 to the partner along y
  rw [show owedY c 4 = owedY c 3 + tallyAt (yrCell (yp c) 4) () N from rfl]
  iapply (send_y' (PSm m) (PZm m) K c (yp c) rfl 4 _ _ _ _) $$ [HO Htys4 Htyr4 HYS4 HYRP4]
  · isplitl [HO Htys4 Htyr4 HYS4 HYRP4]
    · isplitr; · iexact HIys4
      isplitr; · iexact HIyrp4
      isplitl [HYS4]; · iexact HYS4
      isplitl [HYRP4]; · iexact HYRP4
      isplitl [HO]; · iexact HO
      isplitl [Htys4]; · iexact Htys4
      isplitr; · iexact Hrys4
      isplitl [Htyr4]; · iexact Htyr4
      iexact Hryp4
    · ipureintro
      val_norm
      refine (slot_read_store (F := F) YS 4 _ _).trans ?_
      unfold PSm
      refine congrArg sqz ?_
      set_option maxHeartbeats 2000000 in rfl
  iintro ⟨Hcys4, HO⟩
  sl_exec
  -- chunk 5 to the partner along y
  rw [show owedY c 3 = owedY c 2 + tallyAt (yrCell (yp c) 5) () N from rfl]
  iapply (send_y' (PSm m) (PZm m) K c (yp c) rfl 5 _ _ _ _) $$ [HO Htys5 Htyr5 HYS5 HYRP5]
  · isplitl [HO Htys5 Htyr5 HYS5 HYRP5]
    · isplitr; · iexact HIys5
      isplitr; · iexact HIyrp5
      isplitl [HYS5]; · iexact HYS5
      isplitl [HYRP5]; · iexact HYRP5
      isplitl [HO]; · iexact HO
      isplitl [Htys5]; · iexact Htys5
      isplitr; · iexact Hrys5
      isplitl [Htyr5]; · iexact Htyr5
      iexact Hryp5
    · ipureintro
      val_norm
      refine (slot_read_store (F := F) YS 5 _ _).trans ?_
      unfold PSm
      refine congrArg sqz ?_
      set_option maxHeartbeats 2000000 in rfl
  iintro ⟨Hcys5, HO⟩
  sl_exec
  -- chunk 6 to the partner along y
  rw [show owedY c 2 = owedY c 1 + tallyAt (yrCell (yp c) 6) () N from rfl]
  iapply (send_y' (PSm m) (PZm m) K c (yp c) rfl 6 _ _ _ _) $$ [HO Htys6 Htyr6 HYS6 HYRP6]
  · isplitl [HO Htys6 Htyr6 HYS6 HYRP6]
    · isplitr; · iexact HIys6
      isplitr; · iexact HIyrp6
      isplitl [HYS6]; · iexact HYS6
      isplitl [HYRP6]; · iexact HYRP6
      isplitl [HO]; · iexact HO
      isplitl [Htys6]; · iexact Htys6
      isplitr; · iexact Hrys6
      isplitl [Htyr6]; · iexact Htyr6
      iexact Hryp6
    · ipureintro
      val_norm
      refine (slot_read_store (F := F) YS 6 _ _).trans ?_
      unfold PSm
      refine congrArg sqz ?_
      set_option maxHeartbeats 2000000 in rfl
  iintro ⟨Hcys6, HO⟩
  sl_exec
  -- chunk 7 to the partner along y
  rw [show owedY c 1 = owedY c 0 + tallyAt (yrCell (yp c) 7) () N from rfl]
  iapply (send_y' (PSm m) (PZm m) K c (yp c) rfl 7 _ _ _ _) $$ [HO Htys7 Htyr7 HYS7 HYRP7]
  · isplitl [HO Htys7 Htyr7 HYS7 HYRP7]
    · isplitr; · iexact HIys7
      isplitr; · iexact HIyrp7
      isplitl [HYS7]; · iexact HYS7
      isplitl [HYRP7]; · iexact HYRP7
      isplitl [HO]; · iexact HO
      isplitl [Htys7]; · iexact Htys7
      isplitr; · iexact Hrys7
      isplitl [Htyr7]; · iexact Htyr7
      iexact Hryp7
    · ipureintro
      val_norm
      refine (slot_read_store (F := F) YS 7 _ _).trans ?_
      unfold PSm
      refine congrArg sqz ?_
      set_option maxHeartbeats 2000000 in rfl
  iintro ⟨Hcys7, HO⟩
  sl_exec
  rw [show owedY c 0 = owedZ c 8 from rfl]
  -- chunk 0: what the partner along y sent
  iapply (recv_y (PSm m) (PZm m) K c 0 _ rfl (owedZ c 8) _) $$ [HO Hcyr0 Hatyr0]
  · isplitr; · iexact HIyr0
    isplitl [Hcyr0]; · iexact Hcyr0
    isplitl [HO]; · iexact HO
    isplitr; · iapply (mayWait_owedZ (F := F) c (.dma (yrSem 0)) (lv_yr c 0 ()).le 8); iexact Hlev
    iexact Hatyr0
  iintro ⟨HO, Hatyr0, #Hryr1_0, Hpay⟩
  unfold slotHas
  icases Hpay with ⟨%Gy0, %hGy0, HYR0⟩
  have ey0 : View.readAt (Elt F) YR.view (Rect.unit (s := S8x128x256) ![0, 0, 0] S1x128x256.size inb_S8x128x256_S1x128x256_0_0_0).toLoadRect Gy0 = unsqz (PSm m (yp c) 0) :=
    (slot_load (F := F) YR 0 Gy0).trans (congrArg unsqz hGy0)
  sl_exec
  -- the sum for chunk 0 to the partner along z
  rw [show owedZ c 8 = owedZ c 7 + tallyAt (zrCell (zp c) 0) () N from rfl]
  iapply (send_z' (PSm m) (PZm m) K c (zp c) rfl 0 _ _ _ _) $$ [HO Htzs0 Htzr0 HZS0 HZRP0]
  · isplitl [HO Htzs0 Htzr0 HZS0 HZRP0]
    · isplitr; · iexact HIzs0
      isplitr; · iexact HIzrp0
      isplitl [HZS0]; · iexact HZS0
      isplitl [HZRP0]; · iexact HZRP0
      isplitl [HO]; · iexact HO
      isplitl [Htzs0]; · iexact Htzs0
      isplitr; · iexact Hrzs0
      isplitl [Htzr0]; · iexact Htzr0
      iexact Hrzp0
    · ipureintro
      val_norm
      refine (slot_read_store (F := F) ZS 0 _ _).trans ?_
      unfold PZm
      refine congrArg sqz ?_
      set_option maxHeartbeats 2000000 in rfl
  iintro ⟨Hczs0, HO⟩
  sl_exec
  -- chunk 1: what the partner along y sent
  iapply (recv_y (PSm m) (PZm m) K c 1 _ rfl (owedZ c 7) _) $$ [HO Hcyr1 Hatyr1]
  · isplitr; · iexact HIyr1
    isplitl [Hcyr1]; · iexact Hcyr1
    isplitl [HO]; · iexact HO
    isplitr; · iapply (mayWait_owedZ (F := F) c (.dma (yrSem 1)) (lv_yr c 1 ()).le 7); iexact Hlev
    iexact Hatyr1
  iintro ⟨HO, Hatyr1, #Hryr1_1, Hpay⟩
  unfold slotHas
  icases Hpay with ⟨%Gy1, %hGy1, HYR1⟩
  have ey1 : View.readAt (Elt F) YR.view (Rect.unit (s := S8x128x256) ![1, 0, 0] S1x128x256.size inb_S8x128x256_S1x128x256_1_0_0).toLoadRect Gy1 = unsqz (PSm m (yp c) 1) :=
    (slot_load (F := F) YR 1 Gy1).trans (congrArg unsqz hGy1)
  sl_exec
  -- the sum for chunk 1 to the partner along z
  rw [show owedZ c 7 = owedZ c 6 + tallyAt (zrCell (zp c) 1) () N from rfl]
  iapply (send_z' (PSm m) (PZm m) K c (zp c) rfl 1 _ _ _ _) $$ [HO Htzs1 Htzr1 HZS1 HZRP1]
  · isplitl [HO Htzs1 Htzr1 HZS1 HZRP1]
    · isplitr; · iexact HIzs1
      isplitr; · iexact HIzrp1
      isplitl [HZS1]; · iexact HZS1
      isplitl [HZRP1]; · iexact HZRP1
      isplitl [HO]; · iexact HO
      isplitl [Htzs1]; · iexact Htzs1
      isplitr; · iexact Hrzs1
      isplitl [Htzr1]; · iexact Htzr1
      iexact Hrzp1
    · ipureintro
      val_norm
      refine (slot_read_store (F := F) ZS 1 _ _).trans ?_
      unfold PZm
      refine congrArg sqz ?_
      set_option maxHeartbeats 2000000 in rfl
  iintro ⟨Hczs1, HO⟩
  sl_exec
  -- chunk 2: what the partner along y sent
  iapply (recv_y (PSm m) (PZm m) K c 2 _ rfl (owedZ c 6) _) $$ [HO Hcyr2 Hatyr2]
  · isplitr; · iexact HIyr2
    isplitl [Hcyr2]; · iexact Hcyr2
    isplitl [HO]; · iexact HO
    isplitr; · iapply (mayWait_owedZ (F := F) c (.dma (yrSem 2)) (lv_yr c 2 ()).le 6); iexact Hlev
    iexact Hatyr2
  iintro ⟨HO, Hatyr2, #Hryr1_2, Hpay⟩
  unfold slotHas
  icases Hpay with ⟨%Gy2, %hGy2, HYR2⟩
  have ey2 : View.readAt (Elt F) YR.view (Rect.unit (s := S8x128x256) ![2, 0, 0] S1x128x256.size inb_S8x128x256_S1x128x256_2_0_0).toLoadRect Gy2 = unsqz (PSm m (yp c) 2) :=
    (slot_load (F := F) YR 2 Gy2).trans (congrArg unsqz hGy2)
  sl_exec
  -- the sum for chunk 2 to the partner along z
  rw [show owedZ c 6 = owedZ c 5 + tallyAt (zrCell (zp c) 2) () N from rfl]
  iapply (send_z' (PSm m) (PZm m) K c (zp c) rfl 2 _ _ _ _) $$ [HO Htzs2 Htzr2 HZS2 HZRP2]
  · isplitl [HO Htzs2 Htzr2 HZS2 HZRP2]
    · isplitr; · iexact HIzs2
      isplitr; · iexact HIzrp2
      isplitl [HZS2]; · iexact HZS2
      isplitl [HZRP2]; · iexact HZRP2
      isplitl [HO]; · iexact HO
      isplitl [Htzs2]; · iexact Htzs2
      isplitr; · iexact Hrzs2
      isplitl [Htzr2]; · iexact Htzr2
      iexact Hrzp2
    · ipureintro
      val_norm
      refine (slot_read_store (F := F) ZS 2 _ _).trans ?_
      unfold PZm
      refine congrArg sqz ?_
      set_option maxHeartbeats 2000000 in rfl
  iintro ⟨Hczs2, HO⟩
  sl_exec
  -- chunk 3: what the partner along y sent
  iapply (recv_y (PSm m) (PZm m) K c 3 _ rfl (owedZ c 5) _) $$ [HO Hcyr3 Hatyr3]
  · isplitr; · iexact HIyr3
    isplitl [Hcyr3]; · iexact Hcyr3
    isplitl [HO]; · iexact HO
    isplitr; · iapply (mayWait_owedZ (F := F) c (.dma (yrSem 3)) (lv_yr c 3 ()).le 5); iexact Hlev
    iexact Hatyr3
  iintro ⟨HO, Hatyr3, #Hryr1_3, Hpay⟩
  unfold slotHas
  icases Hpay with ⟨%Gy3, %hGy3, HYR3⟩
  have ey3 : View.readAt (Elt F) YR.view (Rect.unit (s := S8x128x256) ![3, 0, 0] S1x128x256.size inb_S8x128x256_S1x128x256_3_0_0).toLoadRect Gy3 = unsqz (PSm m (yp c) 3) :=
    (slot_load (F := F) YR 3 Gy3).trans (congrArg unsqz hGy3)
  sl_exec
  -- the sum for chunk 3 to the partner along z
  rw [show owedZ c 5 = owedZ c 4 + tallyAt (zrCell (zp c) 3) () N from rfl]
  iapply (send_z' (PSm m) (PZm m) K c (zp c) rfl 3 _ _ _ _) $$ [HO Htzs3 Htzr3 HZS3 HZRP3]
  · isplitl [HO Htzs3 Htzr3 HZS3 HZRP3]
    · isplitr; · iexact HIzs3
      isplitr; · iexact HIzrp3
      isplitl [HZS3]; · iexact HZS3
      isplitl [HZRP3]; · iexact HZRP3
      isplitl [HO]; · iexact HO
      isplitl [Htzs3]; · iexact Htzs3
      isplitr; · iexact Hrzs3
      isplitl [Htzr3]; · iexact Htzr3
      iexact Hrzp3
    · ipureintro
      val_norm
      refine (slot_read_store (F := F) ZS 3 _ _).trans ?_
      unfold PZm
      refine congrArg sqz ?_
      set_option maxHeartbeats 2000000 in rfl
  iintro ⟨Hczs3, HO⟩
  sl_exec
  -- chunk 4: what the partner along y sent
  iapply (recv_y (PSm m) (PZm m) K c 4 _ rfl (owedZ c 4) _) $$ [HO Hcyr4 Hatyr4]
  · isplitr; · iexact HIyr4
    isplitl [Hcyr4]; · iexact Hcyr4
    isplitl [HO]; · iexact HO
    isplitr; · iapply (mayWait_owedZ (F := F) c (.dma (yrSem 4)) (lv_yr c 4 ()).le 4); iexact Hlev
    iexact Hatyr4
  iintro ⟨HO, Hatyr4, #Hryr1_4, Hpay⟩
  unfold slotHas
  icases Hpay with ⟨%Gy4, %hGy4, HYR4⟩
  have ey4 : View.readAt (Elt F) YR.view (Rect.unit (s := S8x128x256) ![4, 0, 0] S1x128x256.size inb_S8x128x256_S1x128x256_4_0_0).toLoadRect Gy4 = unsqz (PSm m (yp c) 4) :=
    (slot_load (F := F) YR 4 Gy4).trans (congrArg unsqz hGy4)
  sl_exec
  -- the sum for chunk 4 to the partner along z
  rw [show owedZ c 4 = owedZ c 3 + tallyAt (zrCell (zp c) 4) () N from rfl]
  iapply (send_z' (PSm m) (PZm m) K c (zp c) rfl 4 _ _ _ _) $$ [HO Htzs4 Htzr4 HZS4 HZRP4]
  · isplitl [HO Htzs4 Htzr4 HZS4 HZRP4]
    · isplitr; · iexact HIzs4
      isplitr; · iexact HIzrp4
      isplitl [HZS4]; · iexact HZS4
      isplitl [HZRP4]; · iexact HZRP4
      isplitl [HO]; · iexact HO
      isplitl [Htzs4]; · iexact Htzs4
      isplitr; · iexact Hrzs4
      isplitl [Htzr4]; · iexact Htzr4
      iexact Hrzp4
    · ipureintro
      val_norm
      refine (slot_read_store (F := F) ZS 4 _ _).trans ?_
      unfold PZm
      refine congrArg sqz ?_
      set_option maxHeartbeats 2000000 in rfl
  iintro ⟨Hczs4, HO⟩
  sl_exec
  -- chunk 5: what the partner along y sent
  iapply (recv_y (PSm m) (PZm m) K c 5 _ rfl (owedZ c 3) _) $$ [HO Hcyr5 Hatyr5]
  · isplitr; · iexact HIyr5
    isplitl [Hcyr5]; · iexact Hcyr5
    isplitl [HO]; · iexact HO
    isplitr; · iapply (mayWait_owedZ (F := F) c (.dma (yrSem 5)) (lv_yr c 5 ()).le 3); iexact Hlev
    iexact Hatyr5
  iintro ⟨HO, Hatyr5, #Hryr1_5, Hpay⟩
  unfold slotHas
  icases Hpay with ⟨%Gy5, %hGy5, HYR5⟩
  have ey5 : View.readAt (Elt F) YR.view (Rect.unit (s := S8x128x256) ![5, 0, 0] S1x128x256.size inb_S8x128x256_S1x128x256_5_0_0).toLoadRect Gy5 = unsqz (PSm m (yp c) 5) :=
    (slot_load (F := F) YR 5 Gy5).trans (congrArg unsqz hGy5)
  sl_exec
  -- the sum for chunk 5 to the partner along z
  rw [show owedZ c 3 = owedZ c 2 + tallyAt (zrCell (zp c) 5) () N from rfl]
  iapply (send_z' (PSm m) (PZm m) K c (zp c) rfl 5 _ _ _ _) $$ [HO Htzs5 Htzr5 HZS5 HZRP5]
  · isplitl [HO Htzs5 Htzr5 HZS5 HZRP5]
    · isplitr; · iexact HIzs5
      isplitr; · iexact HIzrp5
      isplitl [HZS5]; · iexact HZS5
      isplitl [HZRP5]; · iexact HZRP5
      isplitl [HO]; · iexact HO
      isplitl [Htzs5]; · iexact Htzs5
      isplitr; · iexact Hrzs5
      isplitl [Htzr5]; · iexact Htzr5
      iexact Hrzp5
    · ipureintro
      val_norm
      refine (slot_read_store (F := F) ZS 5 _ _).trans ?_
      unfold PZm
      refine congrArg sqz ?_
      set_option maxHeartbeats 2000000 in rfl
  iintro ⟨Hczs5, HO⟩
  sl_exec
  -- chunk 6: what the partner along y sent
  iapply (recv_y (PSm m) (PZm m) K c 6 _ rfl (owedZ c 2) _) $$ [HO Hcyr6 Hatyr6]
  · isplitr; · iexact HIyr6
    isplitl [Hcyr6]; · iexact Hcyr6
    isplitl [HO]; · iexact HO
    isplitr; · iapply (mayWait_owedZ (F := F) c (.dma (yrSem 6)) (lv_yr c 6 ()).le 2); iexact Hlev
    iexact Hatyr6
  iintro ⟨HO, Hatyr6, #Hryr1_6, Hpay⟩
  unfold slotHas
  icases Hpay with ⟨%Gy6, %hGy6, HYR6⟩
  have ey6 : View.readAt (Elt F) YR.view (Rect.unit (s := S8x128x256) ![6, 0, 0] S1x128x256.size inb_S8x128x256_S1x128x256_6_0_0).toLoadRect Gy6 = unsqz (PSm m (yp c) 6) :=
    (slot_load (F := F) YR 6 Gy6).trans (congrArg unsqz hGy6)
  sl_exec
  -- the sum for chunk 6 to the partner along z
  rw [show owedZ c 2 = owedZ c 1 + tallyAt (zrCell (zp c) 6) () N from rfl]
  iapply (send_z' (PSm m) (PZm m) K c (zp c) rfl 6 _ _ _ _) $$ [HO Htzs6 Htzr6 HZS6 HZRP6]
  · isplitl [HO Htzs6 Htzr6 HZS6 HZRP6]
    · isplitr; · iexact HIzs6
      isplitr; · iexact HIzrp6
      isplitl [HZS6]; · iexact HZS6
      isplitl [HZRP6]; · iexact HZRP6
      isplitl [HO]; · iexact HO
      isplitl [Htzs6]; · iexact Htzs6
      isplitr; · iexact Hrzs6
      isplitl [Htzr6]; · iexact Htzr6
      iexact Hrzp6
    · ipureintro
      val_norm
      refine (slot_read_store (F := F) ZS 6 _ _).trans ?_
      unfold PZm
      refine congrArg sqz ?_
      set_option maxHeartbeats 2000000 in rfl
  iintro ⟨Hczs6, HO⟩
  sl_exec
  -- chunk 7: what the partner along y sent
  iapply (recv_y (PSm m) (PZm m) K c 7 _ rfl (owedZ c 1) _) $$ [HO Hcyr7 Hatyr7]
  · isplitr; · iexact HIyr7
    isplitl [Hcyr7]; · iexact Hcyr7
    isplitl [HO]; · iexact HO
    isplitr; · iapply (mayWait_owedZ (F := F) c (.dma (yrSem 7)) (lv_yr c 7 ()).le 1); iexact Hlev
    iexact Hatyr7
  iintro ⟨HO, Hatyr7, #Hryr1_7, Hpay⟩
  unfold slotHas
  icases Hpay with ⟨%Gy7, %hGy7, HYR7⟩
  have ey7 : View.readAt (Elt F) YR.view (Rect.unit (s := S8x128x256) ![7, 0, 0] S1x128x256.size inb_S8x128x256_S1x128x256_7_0_0).toLoadRect Gy7 = unsqz (PSm m (yp c) 7) :=
    (slot_load (F := F) YR 7 Gy7).trans (congrArg unsqz hGy7)
  sl_exec
  -- the sum for chunk 7 to the partner along z
  rw [show owedZ c 1 = owedZ c 0 + tallyAt (zrCell (zp c) 7) () N from rfl]
  iapply (send_z' (PSm m) (PZm m) K c (zp c) rfl 7 _ _ _ _) $$ [HO Htzs7 Htzr7 HZS7 HZRP7]
  · isplitl [HO Htzs7 Htzr7 HZS7 HZRP7]
    · isplitr; · iexact HIzs7
      isplitr; · iexact HIzrp7
      isplitl [HZS7]; · iexact HZS7
      isplitl [HZRP7]; · iexact HZRP7
      isplitl [HO]; · iexact HO
      isplitl [Htzs7]; · iexact Htzs7
      isplitr; · iexact Hrzs7
      isplitl [Htzr7]; · iexact Htzr7
      iexact Hrzp7
    · ipureintro
      val_norm
      refine (slot_read_store (F := F) ZS 7 _ _).trans ?_
      unfold PZm
      refine congrArg sqz ?_
      set_option maxHeartbeats 2000000 in rfl
  iintro ⟨Hczs7, HO⟩
  sl_exec
  rw [show owedZ c 0 = 0 from rfl]
  -- chunk 0: what the partner along z sent
  ihave Hp := (Entails.of_eq (payload_zr (PSm m) (PZm m) c 0 false)) $$ Hatzr0_pay1
  unfold slotHas
  icases Hp with ⟨%Gz0, %hGz0, HZR0⟩
  have ez0 : View.readAt (Elt F) ZR.view (Rect.unit (s := S8x128x256) ![0, 0, 0] S1x128x256.size inb_S8x128x256_S1x128x256_0_0_0).toLoadRect Gz0 = unsqz (PZm m (zp c) 0) :=
    (slot_load (F := F) ZR 0 Gz0).trans (congrArg unsqz hGz0)
  sl_exec (disch := disj_tac)
  -- chunk 1: what the partner along z sent
  ihave Hp := (Entails.of_eq (payload_zr (PSm m) (PZm m) c 1 false)) $$ Hatzr1_pay1
  unfold slotHas
  icases Hp with ⟨%Gz1, %hGz1, HZR1⟩
  have ez1 : View.readAt (Elt F) ZR.view (Rect.unit (s := S8x128x256) ![1, 0, 0] S1x128x256.size inb_S8x128x256_S1x128x256_1_0_0).toLoadRect Gz1 = unsqz (PZm m (zp c) 1) :=
    (slot_load (F := F) ZR 1 Gz1).trans (congrArg unsqz hGz1)
  sl_exec (disch := disj_tac)
  -- chunk 2: what the partner along z sent
  ihave Hp := (Entails.of_eq (payload_zr (PSm m) (PZm m) c 2 false)) $$ Hatzr2_pay1
  unfold slotHas
  icases Hp with ⟨%Gz2, %hGz2, HZR2⟩
  have ez2 : View.readAt (Elt F) ZR.view (Rect.unit (s := S8x128x256) ![2, 0, 0] S1x128x256.size inb_S8x128x256_S1x128x256_2_0_0).toLoadRect Gz2 = unsqz (PZm m (zp c) 2) :=
    (slot_load (F := F) ZR 2 Gz2).trans (congrArg unsqz hGz2)
  sl_exec (disch := disj_tac)
  -- chunk 3: what the partner along z sent
  ihave Hp := (Entails.of_eq (payload_zr (PSm m) (PZm m) c 3 false)) $$ Hatzr3_pay1
  unfold slotHas
  icases Hp with ⟨%Gz3, %hGz3, HZR3⟩
  have ez3 : View.readAt (Elt F) ZR.view (Rect.unit (s := S8x128x256) ![3, 0, 0] S1x128x256.size inb_S8x128x256_S1x128x256_3_0_0).toLoadRect Gz3 = unsqz (PZm m (zp c) 3) :=
    (slot_load (F := F) ZR 3 Gz3).trans (congrArg unsqz hGz3)
  sl_exec (disch := disj_tac)
  -- chunk 4: what the partner along z sent
  ihave Hp := (Entails.of_eq (payload_zr (PSm m) (PZm m) c 4 false)) $$ Hatzr4_pay1
  unfold slotHas
  icases Hp with ⟨%Gz4, %hGz4, HZR4⟩
  have ez4 : View.readAt (Elt F) ZR.view (Rect.unit (s := S8x128x256) ![4, 0, 0] S1x128x256.size inb_S8x128x256_S1x128x256_4_0_0).toLoadRect Gz4 = unsqz (PZm m (zp c) 4) :=
    (slot_load (F := F) ZR 4 Gz4).trans (congrArg unsqz hGz4)
  sl_exec (disch := disj_tac)
  -- chunk 5: what the partner along z sent
  ihave Hp := (Entails.of_eq (payload_zr (PSm m) (PZm m) c 5 false)) $$ Hatzr5_pay1
  unfold slotHas
  icases Hp with ⟨%Gz5, %hGz5, HZR5⟩
  have ez5 : View.readAt (Elt F) ZR.view (Rect.unit (s := S8x128x256) ![5, 0, 0] S1x128x256.size inb_S8x128x256_S1x128x256_5_0_0).toLoadRect Gz5 = unsqz (PZm m (zp c) 5) :=
    (slot_load (F := F) ZR 5 Gz5).trans (congrArg unsqz hGz5)
  sl_exec (disch := disj_tac)
  -- chunk 6: what the partner along z sent
  ihave Hp := (Entails.of_eq (payload_zr (PSm m) (PZm m) c 6 false)) $$ Hatzr6_pay1
  unfold slotHas
  icases Hp with ⟨%Gz6, %hGz6, HZR6⟩
  have ez6 : View.readAt (Elt F) ZR.view (Rect.unit (s := S8x128x256) ![6, 0, 0] S1x128x256.size inb_S8x128x256_S1x128x256_6_0_0).toLoadRect Gz6 = unsqz (PZm m (zp c) 6) :=
    (slot_load (F := F) ZR 6 Gz6).trans (congrArg unsqz hGz6)
  sl_exec (disch := disj_tac)
  -- chunk 7: what the partner along z sent
  ihave Hp := (Entails.of_eq (payload_zr (PSm m) (PZm m) c 7 false)) $$ Hatzr7_pay1
  unfold slotHas
  icases Hp with ⟨%Gz7, %hGz7, HZR7⟩
  have ez7 : View.readAt (Elt F) ZR.view (Rect.unit (s := S8x128x256) ![7, 0, 0] S1x128x256.size inb_S8x128x256_S1x128x256_7_0_0).toLoadRect Gz7 = unsqz (PZm m (zp c) 7) :=
    (slot_load (F := F) ZR 7 Gz7).trans (congrArg unsqz hGz7)
  sl_exec (disch := disj_tac)
  -- every transfer cell has been through its one round: closed, its counter at zero the device's own again
  imod (Rounds.cell_close ER (sched (PSm m) (PZm m)) (Set.mem_univ (K (ysCell c 0))) (fun h => h) (R := 0 + 1) (duties_later (PSm m) (PZm m) (ysCell c 0))) $$ [Hatys0] with Hzys0
  · isplitr; · iexact HIys0
    iexact Hatys0
  imod (Rounds.cell_close ER (sched (PSm m) (PZm m)) (Set.mem_univ (K (ysCell c 1))) (fun h => h) (R := 0 + 1) (duties_later (PSm m) (PZm m) (ysCell c 1))) $$ [Hatys1] with Hzys1
  · isplitr; · iexact HIys1
    iexact Hatys1
  imod (Rounds.cell_close ER (sched (PSm m) (PZm m)) (Set.mem_univ (K (ysCell c 2))) (fun h => h) (R := 0 + 1) (duties_later (PSm m) (PZm m) (ysCell c 2))) $$ [Hatys2] with Hzys2
  · isplitr; · iexact HIys2
    iexact Hatys2
  imod (Rounds.cell_close ER (sched (PSm m) (PZm m)) (Set.mem_univ (K (ysCell c 3))) (fun h => h) (R := 0 + 1) (duties_later (PSm m) (PZm m) (ysCell c 3))) $$ [Hatys3] with Hzys3
  · isplitr; · iexact HIys3
    iexact Hatys3
  imod (Rounds.cell_close ER (sched (PSm m) (PZm m)) (Set.mem_univ (K (ysCell c 4))) (fun h => h) (R := 0 + 1) (duties_later (PSm m) (PZm m) (ysCell c 4))) $$ [Hatys4] with Hzys4
  · isplitr; · iexact HIys4
    iexact Hatys4
  imod (Rounds.cell_close ER (sched (PSm m) (PZm m)) (Set.mem_univ (K (ysCell c 5))) (fun h => h) (R := 0 + 1) (duties_later (PSm m) (PZm m) (ysCell c 5))) $$ [Hatys5] with Hzys5
  · isplitr; · iexact HIys5
    iexact Hatys5
  imod (Rounds.cell_close ER (sched (PSm m) (PZm m)) (Set.mem_univ (K (ysCell c 6))) (fun h => h) (R := 0 + 1) (duties_later (PSm m) (PZm m) (ysCell c 6))) $$ [Hatys6] with Hzys6
  · isplitr; · iexact HIys6
    iexact Hatys6
  imod (Rounds.cell_close ER (sched (PSm m) (PZm m)) (Set.mem_univ (K (ysCell c 7))) (fun h => h) (R := 0 + 1) (duties_later (PSm m) (PZm m) (ysCell c 7))) $$ [Hatys7] with Hzys7
  · isplitr; · iexact HIys7
    iexact Hatys7
  imod (Rounds.cell_close ER (sched (PSm m) (PZm m)) (Set.mem_univ (K (yrCell c 0))) (fun h => h) (R := 0 + 1) (duties_later (PSm m) (PZm m) (yrCell c 0))) $$ [Hatyr0] with Hzyr0
  · isplitr; · iexact HIyr0
    iexact Hatyr0
  imod (Rounds.cell_close ER (sched (PSm m) (PZm m)) (Set.mem_univ (K (yrCell c 1))) (fun h => h) (R := 0 + 1) (duties_later (PSm m) (PZm m) (yrCell c 1))) $$ [Hatyr1] with Hzyr1
  · isplitr; · iexact HIyr1
    iexact Hatyr1
  imod (Rounds.cell_close ER (sched (PSm m) (PZm m)) (Set.mem_univ (K (yrCell c 2))) (fun h => h) (R := 0 + 1) (duties_later (PSm m) (PZm m) (yrCell c 2))) $$ [Hatyr2] with Hzyr2
  · isplitr; · iexact HIyr2
    iexact Hatyr2
  imod (Rounds.cell_close ER (sched (PSm m) (PZm m)) (Set.mem_univ (K (yrCell c 3))) (fun h => h) (R := 0 + 1) (duties_later (PSm m) (PZm m) (yrCell c 3))) $$ [Hatyr3] with Hzyr3
  · isplitr; · iexact HIyr3
    iexact Hatyr3
  imod (Rounds.cell_close ER (sched (PSm m) (PZm m)) (Set.mem_univ (K (yrCell c 4))) (fun h => h) (R := 0 + 1) (duties_later (PSm m) (PZm m) (yrCell c 4))) $$ [Hatyr4] with Hzyr4
  · isplitr; · iexact HIyr4
    iexact Hatyr4
  imod (Rounds.cell_close ER (sched (PSm m) (PZm m)) (Set.mem_univ (K (yrCell c 5))) (fun h => h) (R := 0 + 1) (duties_later (PSm m) (PZm m) (yrCell c 5))) $$ [Hatyr5] with Hzyr5
  · isplitr; · iexact HIyr5
    iexact Hatyr5
  imod (Rounds.cell_close ER (sched (PSm m) (PZm m)) (Set.mem_univ (K (yrCell c 6))) (fun h => h) (R := 0 + 1) (duties_later (PSm m) (PZm m) (yrCell c 6))) $$ [Hatyr6] with Hzyr6
  · isplitr; · iexact HIyr6
    iexact Hatyr6
  imod (Rounds.cell_close ER (sched (PSm m) (PZm m)) (Set.mem_univ (K (yrCell c 7))) (fun h => h) (R := 0 + 1) (duties_later (PSm m) (PZm m) (yrCell c 7))) $$ [Hatyr7] with Hzyr7
  · isplitr; · iexact HIyr7
    iexact Hatyr7
  imod (Rounds.cell_close ER (sched (PSm m) (PZm m)) (Set.mem_univ (K (zsCell c 0))) (fun h => h) (R := 0 + 1) (duties_later (PSm m) (PZm m) (zsCell c 0))) $$ [Hatzs0] with Hzzs0
  · isplitr; · iexact HIzs0
    iexact Hatzs0
  imod (Rounds.cell_close ER (sched (PSm m) (PZm m)) (Set.mem_univ (K (zsCell c 1))) (fun h => h) (R := 0 + 1) (duties_later (PSm m) (PZm m) (zsCell c 1))) $$ [Hatzs1] with Hzzs1
  · isplitr; · iexact HIzs1
    iexact Hatzs1
  imod (Rounds.cell_close ER (sched (PSm m) (PZm m)) (Set.mem_univ (K (zsCell c 2))) (fun h => h) (R := 0 + 1) (duties_later (PSm m) (PZm m) (zsCell c 2))) $$ [Hatzs2] with Hzzs2
  · isplitr; · iexact HIzs2
    iexact Hatzs2
  imod (Rounds.cell_close ER (sched (PSm m) (PZm m)) (Set.mem_univ (K (zsCell c 3))) (fun h => h) (R := 0 + 1) (duties_later (PSm m) (PZm m) (zsCell c 3))) $$ [Hatzs3] with Hzzs3
  · isplitr; · iexact HIzs3
    iexact Hatzs3
  imod (Rounds.cell_close ER (sched (PSm m) (PZm m)) (Set.mem_univ (K (zsCell c 4))) (fun h => h) (R := 0 + 1) (duties_later (PSm m) (PZm m) (zsCell c 4))) $$ [Hatzs4] with Hzzs4
  · isplitr; · iexact HIzs4
    iexact Hatzs4
  imod (Rounds.cell_close ER (sched (PSm m) (PZm m)) (Set.mem_univ (K (zsCell c 5))) (fun h => h) (R := 0 + 1) (duties_later (PSm m) (PZm m) (zsCell c 5))) $$ [Hatzs5] with Hzzs5
  · isplitr; · iexact HIzs5
    iexact Hatzs5
  imod (Rounds.cell_close ER (sched (PSm m) (PZm m)) (Set.mem_univ (K (zsCell c 6))) (fun h => h) (R := 0 + 1) (duties_later (PSm m) (PZm m) (zsCell c 6))) $$ [Hatzs6] with Hzzs6
  · isplitr; · iexact HIzs6
    iexact Hatzs6
  imod (Rounds.cell_close ER (sched (PSm m) (PZm m)) (Set.mem_univ (K (zsCell c 7))) (fun h => h) (R := 0 + 1) (duties_later (PSm m) (PZm m) (zsCell c 7))) $$ [Hatzs7] with Hzzs7
  · isplitr; · iexact HIzs7
    iexact Hatzs7
  imod (Rounds.cell_close ER (sched (PSm m) (PZm m)) (Set.mem_univ (K (zrCell c 0))) (fun h => h) (R := 0 + 1) (duties_later (PSm m) (PZm m) (zrCell c 0))) $$ [Hatzr0] with Hzzr0
  · isplitr; · iexact HIzr0
    iexact Hatzr0
  imod (Rounds.cell_close ER (sched (PSm m) (PZm m)) (Set.mem_univ (K (zrCell c 1))) (fun h => h) (R := 0 + 1) (duties_later (PSm m) (PZm m) (zrCell c 1))) $$ [Hatzr1] with Hzzr1
  · isplitr; · iexact HIzr1
    iexact Hatzr1
  imod (Rounds.cell_close ER (sched (PSm m) (PZm m)) (Set.mem_univ (K (zrCell c 2))) (fun h => h) (R := 0 + 1) (duties_later (PSm m) (PZm m) (zrCell c 2))) $$ [Hatzr2] with Hzzr2
  · isplitr; · iexact HIzr2
    iexact Hatzr2
  imod (Rounds.cell_close ER (sched (PSm m) (PZm m)) (Set.mem_univ (K (zrCell c 3))) (fun h => h) (R := 0 + 1) (duties_later (PSm m) (PZm m) (zrCell c 3))) $$ [Hatzr3] with Hzzr3
  · isplitr; · iexact HIzr3
    iexact Hatzr3
  imod (Rounds.cell_close ER (sched (PSm m) (PZm m)) (Set.mem_univ (K (zrCell c 4))) (fun h => h) (R := 0 + 1) (duties_later (PSm m) (PZm m) (zrCell c 4))) $$ [Hatzr4] with Hzzr4
  · isplitr; · iexact HIzr4
    iexact Hatzr4
  imod (Rounds.cell_close ER (sched (PSm m) (PZm m)) (Set.mem_univ (K (zrCell c 5))) (fun h => h) (R := 0 + 1) (duties_later (PSm m) (PZm m) (zrCell c 5))) $$ [Hatzr5] with Hzzr5
  · isplitr; · iexact HIzr5
    iexact Hatzr5
  imod (Rounds.cell_close ER (sched (PSm m) (PZm m)) (Set.mem_univ (K (zrCell c 6))) (fun h => h) (R := 0 + 1) (duties_later (PSm m) (PZm m) (zrCell c 6))) $$ [Hatzr6] with Hzzr6
  · isplitr; · iexact HIzr6
    iexact Hatzr6
  imod (Rounds.cell_close ER (sched (PSm m) (PZm m)) (Set.mem_univ (K (zrCell c 7))) (fun h => h) (R := 0 + 1) (duties_later (PSm m) (PZm m) (zrCell c 7))) $$ [Hatzr7] with Hzzr7
  · isplitr; · iexact HIzr7
    iexact Hatzr7
  rw [wp_ret]; imodintro
  iapply Hk
  unfold bodyPost Φ₁ closedSems localSems scratches all8
  beta_reduce
  isplitl [HO]; · iexists _; iexact HO
  isplitl [Hx]; · iexact Hx
  isplitl [Hdy]; · iexact Hdy
  isplitl [Hout]
  · -- the sixteen pieces copied into the result block are what was kept and what arrived along z
    iapply (pt_of_eq (F := F) (outM m c))
    iexists _
    isplitr [Hout]; swap
    · iexact Hout
    ipureintro
    have fs6_0 : ∀ (f : (Memref.whole cc0_scratch6).view.ty.Contents (Elt F)) (w : (Rect.unit (s := S8x128x256) ![0, 0, 0] S1x128x256.size inb_S8x128x256_S1x128x256_0_0_0).shape.Idx → Elt F .f32) (L : List (View.Piece (Elt F) S8x128x256 .f32)),
        (((Memref.whole cc0_scratch6).slice (Rect.unit (s := S8x128x256) ![0, 0, 0] S1x128x256.size inb_S8x128x256_S1x128x256_0_0_0) (fun _ => rfl)).squeeze S128x256 squeezes_S1x128x256_S128x256).view.read (Elt F) ((Memref.whole cc0_scratch6).view.writes (Elt F) f (⟨(Rect.unit (s := S8x128x256) ![0, 0, 0] S1x128x256.size inb_S8x128x256_S1x128x256_0_0_0), w⟩ :: L)) = shapeCast S128x256 w shapeCasts_S1x128x256_S128x256 :=
      fun f w L => fslot_read (F := F) (Memref.whole cc0_scratch6) 0 (fun _ => rfl) f w L
    have fs7_0 : ∀ (f : (Memref.whole cc0_scratch7).view.ty.Contents (Elt F)) (w : (Rect.unit (s := S8x128x256) ![0, 0, 0] S1x128x256.size inb_S8x128x256_S1x128x256_0_0_0).shape.Idx → Elt F .f32) (L : List (View.Piece (Elt F) S8x128x256 .f32)),
        (((Memref.whole cc0_scratch7).slice (Rect.unit (s := S8x128x256) ![0, 0, 0] S1x128x256.size inb_S8x128x256_S1x128x256_0_0_0) (fun _ => rfl)).squeeze S128x256 squeezes_S1x128x256_S128x256).view.read (Elt F) ((Memref.whole cc0_scratch7).view.writes (Elt F) f (⟨(Rect.unit (s := S8x128x256) ![0, 0, 0] S1x128x256.size inb_S8x128x256_S1x128x256_0_0_0), w⟩ :: L)) = shapeCast S128x256 w shapeCasts_S1x128x256_S128x256 :=
      fun f w L => fslot_read (F := F) (Memref.whole cc0_scratch7) 0 (fun _ => rfl) f w L
    have fs6_1 : ∀ (f : (Memref.whole cc0_scratch6).view.ty.Contents (Elt F)) (w : (Rect.unit (s := S8x128x256) ![1, 0, 0] S1x128x256.size inb_S8x128x256_S1x128x256_1_0_0).shape.Idx → Elt F .f32) (L : List (View.Piece (Elt F) S8x128x256 .f32)),
        (((Memref.whole cc0_scratch6).slice (Rect.unit (s := S8x128x256) ![1, 0, 0] S1x128x256.size inb_S8x128x256_S1x128x256_1_0_0) (fun _ => rfl)).squeeze S128x256 squeezes_S1x128x256_S128x256).view.read (Elt F) ((Memref.whole cc0_scratch6).view.writes (Elt F) f (⟨(Rect.unit (s := S8x128x256) ![1, 0, 0] S1x128x256.size inb_S8x128x256_S1x128x256_1_0_0), w⟩ :: L)) = shapeCast S128x256 w shapeCasts_S1x128x256_S128x256 :=
      fun f w L => fslot_read (F := F) (Memref.whole cc0_scratch6) 1 (fun _ => rfl) f w L
    have fs7_1 : ∀ (f : (Memref.whole cc0_scratch7).view.ty.Contents (Elt F)) (w : (Rect.unit (s := S8x128x256) ![1, 0, 0] S1x128x256.size inb_S8x128x256_S1x128x256_1_0_0).shape.Idx → Elt F .f32) (L : List (View.Piece (Elt F) S8x128x256 .f32)),
        (((Memref.whole cc0_scratch7).slice (Rect.unit (s := S8x128x256) ![1, 0, 0] S1x128x256.size inb_S8x128x256_S1x128x256_1_0_0) (fun _ => rfl)).squeeze S128x256 squeezes_S1x128x256_S128x256).view.read (Elt F) ((Memref.whole cc0_scratch7).view.writes (Elt F) f (⟨(Rect.unit (s := S8x128x256) ![1, 0, 0] S1x128x256.size inb_S8x128x256_S1x128x256_1_0_0), w⟩ :: L)) = shapeCast S128x256 w shapeCasts_S1x128x256_S128x256 :=
      fun f w L => fslot_read (F := F) (Memref.whole cc0_scratch7) 1 (fun _ => rfl) f w L
    have fs6_2 : ∀ (f : (Memref.whole cc0_scratch6).view.ty.Contents (Elt F)) (w : (Rect.unit (s := S8x128x256) ![2, 0, 0] S1x128x256.size inb_S8x128x256_S1x128x256_2_0_0).shape.Idx → Elt F .f32) (L : List (View.Piece (Elt F) S8x128x256 .f32)),
        (((Memref.whole cc0_scratch6).slice (Rect.unit (s := S8x128x256) ![2, 0, 0] S1x128x256.size inb_S8x128x256_S1x128x256_2_0_0) (fun _ => rfl)).squeeze S128x256 squeezes_S1x128x256_S128x256).view.read (Elt F) ((Memref.whole cc0_scratch6).view.writes (Elt F) f (⟨(Rect.unit (s := S8x128x256) ![2, 0, 0] S1x128x256.size inb_S8x128x256_S1x128x256_2_0_0), w⟩ :: L)) = shapeCast S128x256 w shapeCasts_S1x128x256_S128x256 :=
      fun f w L => fslot_read (F := F) (Memref.whole cc0_scratch6) 2 (fun _ => rfl) f w L
    have fs7_2 : ∀ (f : (Memref.whole cc0_scratch7).view.ty.Contents (Elt F)) (w : (Rect.unit (s := S8x128x256) ![2, 0, 0] S1x128x256.size inb_S8x128x256_S1x128x256_2_0_0).shape.Idx → Elt F .f32) (L : List (View.Piece (Elt F) S8x128x256 .f32)),
        (((Memref.whole cc0_scratch7).slice (Rect.unit (s := S8x128x256) ![2, 0, 0] S1x128x256.size inb_S8x128x256_S1x128x256_2_0_0) (fun _ => rfl)).squeeze S128x256 squeezes_S1x128x256_S128x256).view.read (Elt F) ((Memref.whole cc0_scratch7).view.writes (Elt F) f (⟨(Rect.unit (s := S8x128x256) ![2, 0, 0] S1x128x256.size inb_S8x128x256_S1x128x256_2_0_0), w⟩ :: L)) = shapeCast S128x256 w shapeCasts_S1x128x256_S128x256 :=
      fun f w L => fslot_read (F := F) (Memref.whole cc0_scratch7) 2 (fun _ => rfl) f w L
    have fs6_3 : ∀ (f : (Memref.whole cc0_scratch6).view.ty.Contents (Elt F)) (w : (Rect.unit (s := S8x128x256) ![3, 0, 0] S1x128x256.size inb_S8x128x256_S1x128x256_3_0_0).shape.Idx → Elt F .f32) (L : List (View.Piece (Elt F) S8x128x256 .f32)),
        (((Memref.whole cc0_scratch6).slice (Rect.unit (s := S8x128x256) ![3, 0, 0] S1x128x256.size inb_S8x128x256_S1x128x256_3_0_0) (fun _ => rfl)).squeeze S128x256 squeezes_S1x128x256_S128x256).view.read (Elt F) ((Memref.whole cc0_scratch6).view.writes (Elt F) f (⟨(Rect.unit (s := S8x128x256) ![3, 0, 0] S1x128x256.size inb_S8x128x256_S1x128x256_3_0_0), w⟩ :: L)) = shapeCast S128x256 w shapeCasts_S1x128x256_S128x256 :=
      fun f w L => fslot_read (F := F) (Memref.whole cc0_scratch6) 3 (fun _ => rfl) f w L
    have fs7_3 : ∀ (f : (Memref.whole cc0_scratch7).view.ty.Contents (Elt F)) (w : (Rect.unit (s := S8x128x256) ![3, 0, 0] S1x128x256.size inb_S8x128x256_S1x128x256_3_0_0).shape.Idx → Elt F .f32) (L : List (View.Piece (Elt F) S8x128x256 .f32)),
        (((Memref.whole cc0_scratch7).slice (Rect.unit (s := S8x128x256) ![3, 0, 0] S1x128x256.size inb_S8x128x256_S1x128x256_3_0_0) (fun _ => rfl)).squeeze S128x256 squeezes_S1x128x256_S128x256).view.read (Elt F) ((Memref.whole cc0_scratch7).view.writes (Elt F) f (⟨(Rect.unit (s := S8x128x256) ![3, 0, 0] S1x128x256.size inb_S8x128x256_S1x128x256_3_0_0), w⟩ :: L)) = shapeCast S128x256 w shapeCasts_S1x128x256_S128x256 :=
      fun f w L => fslot_read (F := F) (Memref.whole cc0_scratch7) 3 (fun _ => rfl) f w L
    have fs6_4 : ∀ (f : (Memref.whole cc0_scratch6).view.ty.Contents (Elt F)) (w : (Rect.unit (s := S8x128x256) ![4, 0, 0] S1x128x256.size inb_S8x128x256_S1x128x256_4_0_0).shape.Idx → Elt F .f32) (L : List (View.Piece (Elt F) S8x128x256 .f32)),
        (((Memref.whole cc0_scratch6).slice (Rect.unit (s := S8x128x256) ![4, 0, 0] S1x128x256.size inb_S8x128x256_S1x128x256_4_0_0) (fun _ => rfl)).squeeze S128x256 squeezes_S1x128x256_S128x256).view.read (Elt F) ((Memref.whole cc0_scratch6).view.writes (Elt F) f (⟨(Rect.unit (s := S8x128x256) ![4, 0, 0] S1x128x256.size inb_S8x128x256_S1x128x256_4_0_0), w⟩ :: L)) = shapeCast S128x256 w shapeCasts_S1x128x256_S128x256 :=
      fun f w L => fslot_read (F := F) (Memref.whole cc0_scratch6) 4 (fun _ => rfl) f w L
    have fs7_4 : ∀ (f : (Memref.whole cc0_scratch7).view.ty.Contents (Elt F)) (w : (Rect.unit (s := S8x128x256) ![4, 0, 0] S1x128x256.size inb_S8x128x256_S1x128x256_4_0_0).shape.Idx → Elt F .f32) (L : List (View.Piece (Elt F) S8x128x256 .f32)),
        (((Memref.whole cc0_scratch7).slice (Rect.unit (s := S8x128x256) ![4, 0, 0] S1x128x256.size inb_S8x128x256_S1x128x256_4_0_0) (fun _ => rfl)).squeeze S128x256 squeezes_S1x128x256_S128x256).view.read (Elt F) ((Memref.whole cc0_scratch7).view.writes (Elt F) f (⟨(Rect.unit (s := S8x128x256) ![4, 0, 0] S1x128x256.size inb_S8x128x256_S1x128x256_4_0_0), w⟩ :: L)) = shapeCast S128x256 w shapeCasts_S1x128x256_S128x256 :=
      fun f w L => fslot_read (F := F) (Memref.whole cc0_scratch7) 4 (fun _ => rfl) f w L
    have fs6_5 : ∀ (f : (Memref.whole cc0_scratch6).view.ty.Contents (Elt F)) (w : (Rect.unit (s := S8x128x256) ![5, 0, 0] S1x128x256.size inb_S8x128x256_S1x128x256_5_0_0).shape.Idx → Elt F .f32) (L : List (View.Piece (Elt F) S8x128x256 .f32)),
        (((Memref.whole cc0_scratch6).slice (Rect.unit (s := S8x128x256) ![5, 0, 0] S1x128x256.size inb_S8x128x256_S1x128x256_5_0_0) (fun _ => rfl)).squeeze S128x256 squeezes_S1x128x256_S128x256).view.read (Elt F) ((Memref.whole cc0_scratch6).view.writes (Elt F) f (⟨(Rect.unit (s := S8x128x256) ![5, 0, 0] S1x128x256.size inb_S8x128x256_S1x128x256_5_0_0), w⟩ :: L)) = shapeCast S128x256 w shapeCasts_S1x128x256_S128x256 :=
      fun f w L => fslot_read (F := F) (Memref.whole cc0_scratch6) 5 (fun _ => rfl) f w L
    have fs7_5 : ∀ (f : (Memref.whole cc0_scratch7).view.ty.Contents (Elt F)) (w : (Rect.unit (s := S8x128x256) ![5, 0, 0] S1x128x256.size inb_S8x128x256_S1x128x256_5_0_0).shape.Idx → Elt F .f32) (L : List (View.Piece (Elt F) S8x128x256 .f32)),
        (((Memref.whole cc0_scratch7).slice (Rect.unit (s := S8x128x256) ![5, 0, 0] S1x128x256.size inb_S8x128x256_S1x128x256_5_0_0) (fun _ => rfl)).squeeze S128x256 squeezes_S1x128x256_S128x256).view.read (Elt F) ((Memref.whole cc0_scratch7).view.writes (Elt F) f (⟨(Rect.unit (s := S8x128x256) ![5, 0, 0] S1x128x256.size inb_S8x128x256_S1x128x256_5_0_0), w⟩ :: L)) = shapeCast S128x256 w shapeCasts_S1x128x256_S128x256 :=
      fun f w L => fslot_read (F := F) (Memref.whole cc0_scratch7) 5 (fun _ => rfl) f w L
    have fs6_6 : ∀ (f : (Memref.whole cc0_scratch6).view.ty.Contents (Elt F)) (w : (Rect.unit (s := S8x128x256) ![6, 0, 0] S1x128x256.size inb_S8x128x256_S1x128x256_6_0_0).shape.Idx → Elt F .f32) (L : List (View.Piece (Elt F) S8x128x256 .f32)),
        (((Memref.whole cc0_scratch6).slice (Rect.unit (s := S8x128x256) ![6, 0, 0] S1x128x256.size inb_S8x128x256_S1x128x256_6_0_0) (fun _ => rfl)).squeeze S128x256 squeezes_S1x128x256_S128x256).view.read (Elt F) ((Memref.whole cc0_scratch6).view.writes (Elt F) f (⟨(Rect.unit (s := S8x128x256) ![6, 0, 0] S1x128x256.size inb_S8x128x256_S1x128x256_6_0_0), w⟩ :: L)) = shapeCast S128x256 w shapeCasts_S1x128x256_S128x256 :=
      fun f w L => fslot_read (F := F) (Memref.whole cc0_scratch6) 6 (fun _ => rfl) f w L
    have fs7_6 : ∀ (f : (Memref.whole cc0_scratch7).view.ty.Contents (Elt F)) (w : (Rect.unit (s := S8x128x256) ![6, 0, 0] S1x128x256.size inb_S8x128x256_S1x128x256_6_0_0).shape.Idx → Elt F .f32) (L : List (View.Piece (Elt F) S8x128x256 .f32)),
        (((Memref.whole cc0_scratch7).slice (Rect.unit (s := S8x128x256) ![6, 0, 0] S1x128x256.size inb_S8x128x256_S1x128x256_6_0_0) (fun _ => rfl)).squeeze S128x256 squeezes_S1x128x256_S128x256).view.read (Elt F) ((Memref.whole cc0_scratch7).view.writes (Elt F) f (⟨(Rect.unit (s := S8x128x256) ![6, 0, 0] S1x128x256.size inb_S8x128x256_S1x128x256_6_0_0), w⟩ :: L)) = shapeCast S128x256 w shapeCasts_S1x128x256_S128x256 :=
      fun f w L => fslot_read (F := F) (Memref.whole cc0_scratch7) 6 (fun _ => rfl) f w L
    have fs6_7 : ∀ (f : (Memref.whole cc0_scratch6).view.ty.Contents (Elt F)) (w : (Rect.unit (s := S8x128x256) ![7, 0, 0] S1x128x256.size inb_S8x128x256_S1x128x256_7_0_0).shape.Idx → Elt F .f32) (L : List (View.Piece (Elt F) S8x128x256 .f32)),
        (((Memref.whole cc0_scratch6).slice (Rect.unit (s := S8x128x256) ![7, 0, 0] S1x128x256.size inb_S8x128x256_S1x128x256_7_0_0) (fun _ => rfl)).squeeze S128x256 squeezes_S1x128x256_S128x256).view.read (Elt F) ((Memref.whole cc0_scratch6).view.writes (Elt F) f (⟨(Rect.unit (s := S8x128x256) ![7, 0, 0] S1x128x256.size inb_S8x128x256_S1x128x256_7_0_0), w⟩ :: L)) = shapeCast S128x256 w shapeCasts_S1x128x256_S128x256 :=
      fun f w L => fslot_read (F := F) (Memref.whole cc0_scratch6) 7 (fun _ => rfl) f w L
    have fs7_7 : ∀ (f : (Memref.whole cc0_scratch7).view.ty.Contents (Elt F)) (w : (Rect.unit (s := S8x128x256) ![7, 0, 0] S1x128x256.size inb_S8x128x256_S1x128x256_7_0_0).shape.Idx → Elt F .f32) (L : List (View.Piece (Elt F) S8x128x256 .f32)),
        (((Memref.whole cc0_scratch7).slice (Rect.unit (s := S8x128x256) ![7, 0, 0] S1x128x256.size inb_S8x128x256_S1x128x256_7_0_0) (fun _ => rfl)).squeeze S128x256 squeezes_S1x128x256_S128x256).view.read (Elt F) ((Memref.whole cc0_scratch7).view.writes (Elt F) f (⟨(Rect.unit (s := S8x128x256) ![7, 0, 0] S1x128x256.size inb_S8x128x256_S1x128x256_7_0_0), w⟩ :: L)) = shapeCast S128x256 w shapeCasts_S1x128x256_S128x256 :=
      fun f w L => fslot_read (F := F) (Memref.whole cc0_scratch7) 7 (fun _ => rfl) f w L
    val_norm
    rw [fs6_0, fs7_0, fs6_1, fs7_1, fs6_2, fs7_2, fs6_3, fs7_3, fs6_4, fs7_4, fs6_5, fs7_5, fs6_6, fs7_6, fs6_7, fs7_7]
    rw [← outChain_eq_outM m c]
    set_option maxHeartbeats 4000000 in rfl
  isplitl [Hs1 Hs2 Hs3 Hs4 Hs5 Hs6 Hs7 Hs8 Hs9 Hs10 Hs11 Hs12 Hs13 Hs14 Hs15 Hs16 Hs17]
  · isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    iexact Hs17
  isplitl [Hzys0 Hzys1 Hzys2 Hzys3 Hzys4 Hzys5 Hzys6 Hzys7 Hzyr0 Hzyr1 Hzyr2 Hzyr3 Hzyr4 Hzyr5 Hzyr6 Hzyr7 Hzzs0 Hzzs1 Hzzs2 Hzzs3 Hzzs4 Hzzs5 Hzzs6 Hzzs7 Hzzr0 Hzzr1 Hzzr2 Hzzr3 Hzzr4 Hzzr5 Hzzr6 Hzzr7]
  · isplitl [Hzys0 Hzys1 Hzys2 Hzys3 Hzys4 Hzys5 Hzys6 Hzys7]
    · isplitl [Hzys0]; · iexact Hzys0
      isplitl [Hzys1]; · iexact Hzys1
      isplitl [Hzys2]; · iexact Hzys2
      isplitl [Hzys3]; · iexact Hzys3
      isplitl [Hzys4]; · iexact Hzys4
      isplitl [Hzys5]; · iexact Hzys5
      isplitl [Hzys6]; · iexact Hzys6
      iexact Hzys7
    isplitl [Hzyr0 Hzyr1 Hzyr2 Hzyr3 Hzyr4 Hzyr5 Hzyr6 Hzyr7]
    · isplitl [Hzyr0]; · iexact Hzyr0
      isplitl [Hzyr1]; · iexact Hzyr1
      isplitl [Hzyr2]; · iexact Hzyr2
      isplitl [Hzyr3]; · iexact Hzyr3
      isplitl [Hzyr4]; · iexact Hzyr4
      isplitl [Hzyr5]; · iexact Hzyr5
      isplitl [Hzyr6]; · iexact Hzyr6
      iexact Hzyr7
    isplitl [Hzzs0 Hzzs1 Hzzs2 Hzzs3 Hzzs4 Hzzs5 Hzzs6 Hzzs7]
    · isplitl [Hzzs0]; · iexact Hzzs0
      isplitl [Hzzs1]; · iexact Hzzs1
      isplitl [Hzzs2]; · iexact Hzzs2
      isplitl [Hzzs3]; · iexact Hzzs3
      isplitl [Hzzs4]; · iexact Hzzs4
      isplitl [Hzzs5]; · iexact Hzzs5
      isplitl [Hzzs6]; · iexact Hzzs6
      iexact Hzzs7
    isplitl [Hzzr0]; · iexact Hzzr0
    isplitl [Hzzr1]; · iexact Hzzr1
    isplitl [Hzzr2]; · iexact Hzzr2
    isplitl [Hzzr3]; · iexact Hzzr3
    isplitl [Hzzr4]; · iexact Hzzr4
    isplitl [Hzzr5]; · iexact Hzzr5
    isplitl [Hzzr6]; · iexact Hzzr6
    iexact Hzzr7
  isplitl [Hb0]; · iexists _; iexact Hb0
  isplitl [Hb1]; · iexists _; iexact Hb1
  isplitl [Hatys0_pay1 Hatys1_pay1 Hatys2_pay1 Hatys3_pay1 Hatys4_pay1 Hatys5_pay1 Hatys6_pay1 Hatys7_pay1]
  · iapply (join8' (F := F) YS (View.set_whole _) c _ _ _ _ _ _ _ _)
    isplitl [Hatys0_pay1]; · iexact Hatys0_pay1
    isplitl [Hatys1_pay1]; · iexact Hatys1_pay1
    isplitl [Hatys2_pay1]; · iexact Hatys2_pay1
    isplitl [Hatys3_pay1]; · iexact Hatys3_pay1
    isplitl [Hatys4_pay1]; · iexact Hatys4_pay1
    isplitl [Hatys5_pay1]; · iexact Hatys5_pay1
    isplitl [Hatys6_pay1]; · iexact Hatys6_pay1
    iexact Hatys7_pay1
  isplitl [HYR0 HYR1 HYR2 HYR3 HYR4 HYR5 HYR6 HYR7]
  · iapply (join8' (F := F) YR (View.set_whole _) c _ _ _ _ _ _ _ _)
    isplitl [HYR0]; · iexact HYR0
    isplitl [HYR1]; · iexact HYR1
    isplitl [HYR2]; · iexact HYR2
    isplitl [HYR3]; · iexact HYR3
    isplitl [HYR4]; · iexact HYR4
    isplitl [HYR5]; · iexact HYR5
    isplitl [HYR6]; · iexact HYR6
    iexact HYR7
  isplitl [Hatzs0_pay1 Hatzs1_pay1 Hatzs2_pay1 Hatzs3_pay1 Hatzs4_pay1 Hatzs5_pay1 Hatzs6_pay1 Hatzs7_pay1]
  · iapply (join8' (F := F) ZS (View.set_whole _) c _ _ _ _ _ _ _ _)
    isplitl [Hatzs0_pay1]; · iexact Hatzs0_pay1
    isplitl [Hatzs1_pay1]; · iexact Hatzs1_pay1
    isplitl [Hatzs2_pay1]; · iexact Hatzs2_pay1
    isplitl [Hatzs3_pay1]; · iexact Hatzs3_pay1
    isplitl [Hatzs4_pay1]; · iexact Hatzs4_pay1
    isplitl [Hatzs5_pay1]; · iexact Hatzs5_pay1
    isplitl [Hatzs6_pay1]; · iexact Hatzs6_pay1
    iexact Hatzs7_pay1
  isplitl [HZR0 HZR1 HZR2 HZR3 HZR4 HZR5 HZR6 HZR7]
  · iapply (join8' (F := F) ZR (View.set_whole _) c _ _ _ _ _ _ _ _)
    isplitl [HZR0]; · iexact HZR0
    isplitl [HZR1]; · iexact HZR1
    isplitl [HZR2]; · iexact HZR2
    isplitl [HZR3]; · iexact HZR3
    isplitl [HZR4]; · iexact HZR4
    isplitl [HZR5]; · iexact HZR5
    isplitl [HZR6]; · iexact HZR6
    iexact HZR7
  isplitl [Hb6]; · iexists _; iexact Hb6
  iexists _; iexact Hb7

end Cert.KernelIdeal.Hand

end
-- ==== Proof.LaunchK.lean ====
import proofs.«900476_g7700000000000477_dist_rsdw_v7x_xyz2x2x2_y_m512_d512_f2048_f32_1_alg».proof.Proof.BodyDefs
import Idealize.ShloMosaic.Lib.Pipeline.Launch
import Idealize.ShloMosaic.Lib.Pipeline.Kit
import Idealize.ShloMosaic.Lib.Tactic

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The launch -/

/-- The kernel's own semaphores: every scoped DMA semaphore but the staging buffer's. -/
abbrev osem : Fin 49 → SemLoc sig := fun j => .dma ⟨j.val + 1, by have := j.isLt; show j.val + 1 < 50; omega⟩

theorem ownSemFacts : Pipeline.OwnSemFacts cfg0.spec osem := by decide

/-! ### The protocol's cells and tokens, device by device -/

/-- A device's 33 cells: the barrier, then the DMA semaphores 18 … 49. -/
def csem : Fin 33 → SemLoc sig := fun k => match k with
  | ⟨0, _⟩ => .reg barS
  | ⟨n + 1, h⟩ => .dma ⟨18 + n, by show 18 + n < 50; omega⟩
abbrev kcell (ck : Dev nD × Fin 33) : GSem nD τ sig := ((ck.1 : Thread nD τ), csem ck.2)

theorem csem_injective : Function.Injective csem := by decide

theorem kcell_injective : Function.Injective (kcell : Dev nD × Fin 33 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

/-- A device's own cells' duty tokens as minted: the barrier's two, then one per transfer cell. -/
def tsem : Fin 34 → SemLoc sig × Bool := fun j => match j with
  | ⟨0, _⟩ => (.reg barS, false)
  | ⟨1, _⟩ => (.reg barS, true)
  | ⟨n + 2, h⟩ => (.dma ⟨18 + n, by show 18 + n < 50; omega⟩, false)
abbrev tokOf (cj : Dev nD × Fin 34) : GSem nD τ sig × ℕ × Bool := (((cj.1 : Thread nD τ), (tsem cj.2).1), 0, (tsem cj.2).2)

theorem tsem_injective : Function.Injective tsem := by decide

theorem tokOf_injective : Function.Injective (tokOf : Dev nD × Fin 34 → GSem nD τ sig × ℕ × Bool) := by
  rintro ⟨c, j⟩ ⟨c', j'⟩ h
  have h1 : c = c' := by have := congrArg (fun x : GSem nD τ sig × ℕ × Bool => x.1.1.1) h; exact this
  subst h1
  have h2 : tsem j = tsem j' := Prod.ext (congrArg (fun x : GSem nD τ sig × ℕ × Bool => x.1.2) h) (congrArg (fun x : GSem nD τ sig × ℕ × Bool => x.2.2) h)
  rw [tsem_injective h2]
def ringToks : Finset (GSem nD τ sig × ℕ × Bool) := Finset.univ.map ⟨tokOf, tokOf_injective⟩

/-- The launch element: the pipeline's, the protocol's, and the unit of the counters. -/
def u₀ : UU :=
  (initOf (Pipeline.cells cfgs cellOf_inj) (Pipeline.launchToks cfgs cellOf_inj), (initOf ringCells ringToks, 1))

section Launch

variable (m : (ℓ : Loc nD τ sig) → Buf (Elt F) ℓ) (ρ : Dev nD → PrngReg)

/-- The duty tokens of device `c`'s own cells. -/
def toks (c : Dev nD) : sProp 𝕄 :=
  bigSep Finset.univ fun j : Fin 34 => dutyTok ER (tokOf (c, j)).1 (tokOf (c, j)).2.1 (tokOf (c, j)).2.2

/-- What the launch element deals device `c`. -/
def G (c : Dev nD) : sProp 𝕄 :=
  iprop((bigSep Finset.univ fun k : Fin 33 => roundState ER (sched (PSm m) (PZm m)) (kcell (c, k)) 0)
    ∗ (bigSep Finset.univ fun k : Fin 33 => iprop(atPos ER (kcell (c, k)) 0 ∅ 0 ∗ reached ER (kcell (c, k)) 0)) ∗ toks c)

/-- What the global step makes of it. -/
def G' (c : Dev nD) : sProp 𝕄 := iprop(∃ K, invsG (PSm m) (PZm m) K c ∗ posToks c ∗ localSems c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 33 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_prod]; rfl
  iintro HX
  imod (Rounds.fund ER (sched (PSm m) (PZm m)) ringCells ringToks) $$ HX with ⟨Hst, Hr, Hat, Htok⟩
  imodintro
  ihave Hst' := (Entails.of_eq (hX fun g => roundState ER (sched (PSm m) (PZm m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem hu₀ : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H2 := (own_pair_emb embR _ _) $$ HX
  icases H2 with ⟨HR, -⟩
  imod (fund_ring m) $$ HR with HG
  imodintro
  isplitl [HP] <;> iassumption

end Launch

/-! ### Finite conjunctions written out -/

omit [FloatOps F] in
theorem bigSep_fin33 (Φ : Fin 33 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32) :=
  bigSep_univ_eq_bigSepL [0, 1, 2, 3, 4, 5, 6, 7, 8, 9, 10, 11, 12, 13, 14, 15, 16, 17, 18, 19, 20, 21, 22, 23, 24, 25, 26, 27, 28, 29, 30, 31, 32] (by decide) (by decide) Φ
omit [FloatOps F] in
theorem bigSep_fin34 (Φ : Fin 34 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33) :=
  bigSep_univ_eq_bigSepL [0, 1, 2, 3, 4, 5, 6, 7, 8, 9, 10, 11, 12, 13, 14, 15, 16, 17, 18, 19, 20, 21, 22, 23, 24, 25, 26, 27, 28, 29, 30, 31, 32, 33] (by decide) (by decide) Φ

omit [FloatOps F] in
/-- A device's 33 cells by name. -/
theorem cells33 (Ψ : GSem nD τ sig → sProp 𝕄) (c : Dev nD) :
    (bigSep Finset.univ fun k : Fin 33 => Ψ (kcell (c, k)))
      = iprop(Ψ (barCell c) ∗ Ψ (ysCell c 0) ∗ Ψ (ysCell c 1) ∗ Ψ (ysCell c 2) ∗ Ψ (ysCell c 3) ∗ Ψ (ysCell c 4) ∗ Ψ (ysCell c 5) ∗ Ψ (ysCell c 6) ∗ Ψ (ysCell c 7) ∗ Ψ (yrCell c 0) ∗ Ψ (yrCell c 1) ∗ Ψ (yrCell c 2) ∗ Ψ (yrCell c 3) ∗ Ψ (yrCell c 4) ∗ Ψ (yrCell c 5) ∗ Ψ (yrCell c 6) ∗ Ψ (yrCell c 7) ∗ Ψ (zsCell c 0) ∗ Ψ (zsCell c 1) ∗ Ψ (zsCell c 2) ∗ Ψ (zsCell c 3) ∗ Ψ (zsCell c 4) ∗ Ψ (zsCell c 5) ∗ Ψ (zsCell c 6) ∗ Ψ (zsCell c 7) ∗ Ψ (zrCell c 0) ∗ Ψ (zrCell c 1) ∗ Ψ (zrCell c 2) ∗ Ψ (zrCell c 3) ∗ Ψ (zrCell c 4) ∗ Ψ (zrCell c 5) ∗ Ψ (zrCell c 6) ∗ Ψ (zrCell c 7)) := by
  rw [bigSep_fin33]; rfl

omit [FloatOps F] in
/-- Thirty-two in a row are four groups of eight, -/
theorem chain_all8 (X : sProp 𝕄) (a b d e : Fin 8 → sProp 𝕄) :
    iprop(X ∗ a 0 ∗ a 1 ∗ a 2 ∗ a 3 ∗ a 4 ∗ a 5 ∗ a 6 ∗ a 7 ∗ b 0 ∗ b 1 ∗ b 2 ∗ b 3 ∗ b 4 ∗ b 5 ∗ b 6 ∗ b 7 ∗ d 0 ∗ d 1 ∗ d 2 ∗ d 3 ∗ d 4 ∗ d 5 ∗ d 6 ∗ d 7 ∗ e 0 ∗ e 1 ∗ e 2 ∗ e 3 ∗ e 4 ∗ e 5 ∗ e 6 ∗ e 7)
      ⊢ iprop(X ∗ all8 a ∗ all8 b ∗ all8 d ∗ all8 e) := by
  unfold all8
  iintro ⟨HX, A0, A1, A2, A3, A4, A5, A6, A7, B0, B1, B2, B3, B4, B5, B6, B7, D0, D1, D2, D3, D4, D5, D6, D7, E0, E1, E2, E3, E4, E5, E6, E7⟩
  isplitl [HX]
  · iexact HX
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [B0 B1 B2 B3 B4 B5 B6 B7]
  · isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  isplitl [D0 D1 D2 D3 D4 D5 D6 D7]
  · isplitl [D0]; · iexact D0
    isplitl [D1]; · iexact D1
    isplitl [D2]; · iexact D2
    isplitl [D3]; · iexact D3
    isplitl [D4]; · iexact D4
    isplitl [D5]; · iexact D5
    isplitl [D6]; · iexact D6
    iexact D7
  isplitl [E0]; · iexact E0
  isplitl [E1]; · iexact E1
  isplitl [E2]; · iexact E2
  isplitl [E3]; · iexact E3
  isplitl [E4]; · iexact E4
  isplitl [E5]; · iexact E5
  isplitl [E6]; · iexact E6
  iexact E7

omit [FloatOps F] in
/-- and back. -/
theorem all8_chain (a b d e : Fin 8 → sProp 𝕄) :
    iprop(all8 a ∗ all8 b ∗ all8 d ∗ all8 e)
      ⊢ iprop(a 0 ∗ a 1 ∗ a 2 ∗ a 3 ∗ a 4 ∗ a 5 ∗ a 6 ∗ a 7 ∗ b 0 ∗ b 1 ∗ b 2 ∗ b 3 ∗ b 4 ∗ b 5 ∗ b 6 ∗ b 7 ∗ d 0 ∗ d 1 ∗ d 2 ∗ d 3 ∗ d 4 ∗ d 5 ∗ d 6 ∗ d 7 ∗ e 0 ∗ e 1 ∗ e 2 ∗ e 3 ∗ e 4 ∗ e 5 ∗ e 6 ∗ e 7) := by
  unfold all8
  iintro ⟨⟨A0, A1, A2, A3, A4, A5, A6, A7⟩, ⟨B0, B1, B2, B3, B4, B5, B6, B7⟩, ⟨D0, D1, D2, D3, D4, D5, D6, D7⟩, E0, E1, E2, E3, E4, E5, E6, E7⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [D0]; · iexact D0
  isplitl [D1]; · iexact D1
  isplitl [D2]; · iexact D2
  isplitl [D3]; · iexact D3
  isplitl [D4]; · iexact D4
  isplitl [D5]; · iexact D5
  isplitl [D6]; · iexact D6
  isplitl [D7]; · iexact D7
  isplitl [E0]; · iexact E0
  isplitl [E1]; · iexact E1
  isplitl [E2]; · iexact E2
  isplitl [E3]; · iexact E3
  isplitl [E4]; · iexact E4
  isplitl [E5]; · iexact E5
  isplitl [E6]; · iexact E6
  iexact E7

/-! ### The semaphores at launch -/

omit [FloatOps F] in
/-- The kernel's own 49 semaphores by name: the seventeen local ones, then the transfer cells'. -/
theorem ownSems0_eq (c : Dev nD) : (Pipeline.ownSems0 (Ix := Unit) (Name := ℕ) (U := UU) (Lvl := ℕ) (Val := Elt F) (τ := τ) osem c : sProp 𝕄)
    = iprop(semVal ((c : Thread nD τ), .dma (1 : DmaSem sig)) 0
      ∗ semVal ((c : Thread nD τ), .dma (2 : DmaSem sig)) 0
      ∗ semVal ((c : Thread nD τ), .dma (3 : DmaSem sig)) 0
      ∗ semVal ((c : Thread nD τ), .dma (4 : DmaSem sig)) 0
      ∗ semVal ((c : Thread nD τ), .dma (5 : DmaSem sig)) 0
      ∗ semVal ((c : Thread nD τ), .dma (6 : DmaSem sig)) 0
      ∗ semVal ((c : Thread nD τ), .dma (7 : DmaSem sig)) 0
      ∗ semVal ((c : Thread nD τ), .dma (8 : DmaSem sig)) 0
      ∗ semVal ((c : Thread nD τ), .dma (9 : DmaSem sig)) 0
      ∗ semVal ((c : Thread nD τ), .dma (10 : DmaSem sig)) 0
      ∗ semVal ((c : Thread nD τ), .dma (11 : DmaSem sig)) 0
      ∗ semVal ((c : Thread nD τ), .dma (12 : DmaSem sig)) 0
      ∗ semVal ((c : Thread nD τ), .dma (13 : DmaSem sig)) 0
      ∗ semVal ((c : Thread nD τ), .dma (14 : DmaSem sig)) 0
      ∗ semVal ((c : Thread nD τ), .dma (15 : DmaSem sig)) 0
      ∗ semVal ((c : Thread nD τ), .dma (16 : DmaSem sig)) 0
      ∗ semVal ((c : Thread nD τ), .dma (17 : DmaSem sig)) 0
      ∗ semVal (ysCell c 0) 0
      ∗ semVal (ysCell c 1) 0
      ∗ semVal (ysCell c 2) 0
      ∗ semVal (ysCell c 3) 0
      ∗ semVal (ysCell c 4) 0
      ∗ semVal (ysCell c 5) 0
      ∗ semVal (ysCell c 6) 0
      ∗ semVal (ysCell c 7) 0
      ∗ semVal (yrCell c 0) 0
      ∗ semVal (yrCell c 1) 0
      ∗ semVal (yrCell c 2) 0
      ∗ semVal (yrCell c 3) 0
      ∗ semVal (yrCell c 4) 0
      ∗ semVal (yrCell c 5) 0
      ∗ semVal (yrCell c 6) 0
      ∗ semVal (yrCell c 7) 0
      ∗ semVal (zsCell c 0) 0
      ∗ semVal (zsCell c 1) 0
      ∗ semVal (zsCell c 2) 0
      ∗ semVal (zsCell c 3) 0
      ∗ semVal (zsCell c 4) 0
      ∗ semVal (zsCell c 5) 0
      ∗ semVal (zsCell c 6) 0
      ∗ semVal (zsCell c 7) 0
      ∗ semVal (zrCell c 0) 0
      ∗ semVal (zrCell c 1) 0
      ∗ semVal (zrCell c 2) 0
      ∗ semVal (zrCell c 3) 0
      ∗ semVal (zrCell c 4) 0
      ∗ semVal (zrCell c 5) 0
      ∗ semVal (zrCell c 6) 0
      ∗ semVal (zrCell c 7) 0) := by
  rw [Pipeline.ownSems0_eq_of_list c osem [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48] (by decide) (by decide)]; rfl

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_split (c : Dev nD) :
    iprop(Pipeline.ownSems0 (Ix := Unit) (Name := ℕ) (U := UU) (Lvl := ℕ) (Val := Elt F) (τ := τ) osem c ∗ unscopedSems0 c)
      ⊢ iprop(localSems c ∗ (bigSep Finset.univ fun k : Fin 33 => semVal (kcell (c, k)) 0 : sProp 𝕄)) := by
  rw [ownSems0_eq, unscopedSems0_eq, cells33 (fun g => (semVal g 0 : sProp 𝕄))]
  unfold localSems
  iintro ⟨⟨H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49⟩, HB⟩
  isplitl [H1 H2 H3 H4 H5 H6 H7 H8 H9 H10 H11 H12 H13 H14 H15 H16 H17]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  isplitl [HB]; · iexact HB
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  iexact H49

omit [FloatOps F] in
theorem sems0_back (c : Dev nD) :
    iprop(localSems c ∗ closedSems c)
      ⊢ (Pipeline.ownSems0 (Ix := Unit) (Name := ℕ) (U := UU) (Lvl := ℕ) (Val := Elt F) (τ := τ) osem c : sProp 𝕄) := by
  rw [ownSems0_eq]
  unfold localSems closedSems
  iintro ⟨⟨H1, H2, H3, H4, H5, H6, H7, H8, H9, H10, H11, H12, H13, H14, H15, H16, H17⟩, HC⟩
  ihave HC' := (all8_chain _ _ _ _) $$ HC
  icases HC' with ⟨H18, H19, H20, H21, H22, H23, H24, H25, H26, H27, H28, H29, H30, H31, H32, H33, H34, H35, H36, H37, H38, H39, H40, H41, H42, H43, H44, H45, H46, H47, H48, H49⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  iexact H49

/-! ### The global step: every device's cells opened, the tokens dealt to the payers -/

section Glob

variable (m : (ℓ : Loc nD τ sig) → Buf (Elt F) ℓ)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 33 => iprop(∃ κ : ℕ, cellInv ER (sched (PSm m) (PZm m)) κ (kcell (c, k))))
          ∗ (bigSep Finset.univ fun k : Fin 33 => iprop(atPos ER (kcell (c, k)) 0 ∅ 0 ∗ reached ER (kcell (c, k)) 0)) ∗ toks c ∗ localSems c) := by
  unfold G
  iintro ⟨Hos, Hus, Hst, Hat, Htok⟩
  ihave Hv := (sems0_split (F := F) c) $$ [Hos Hus]
  · isplitl [Hos] <;> iassumption
  icases Hv with ⟨Hloc, Hv⟩
  imod (show iprop((bigSep Finset.univ fun k : Fin 33 => semVal (kcell (c, k)) 0) ∗ bigSep Finset.univ fun k : Fin 33 => roundState ER (sched (PSm m) (PZm m)) (kcell (c, k)) 0)
      ⊢ (|={Set.univ}=> bigSep Finset.univ fun k : Fin 33 => iprop(∃ κ : ℕ, cellInv ER (sched (PSm m) (PZm m)) κ (kcell (c, k))) : sProp 𝕄) from by
        rw [← bigSep_sep']
        exact (bigSep_mono fun k _ => (Rounds.body_intro ER (sched (PSm m) (PZm m)) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-- The index of a semaphore among a device's 33 cells (0 for one that is none of them), -/
def cidx : SemLoc sig → Fin 33 := fun s => match s with
  | .reg _ => 0
  | .dma n => if h : 18 ≤ n.val then ⟨n.val - 17, by have : n.val < 50 := n.isLt; omega⟩ else 0
theorem cidx_csem : ∀ k : Fin 33, cidx (csem k) = k := by decide
/-- and the name function on cells made of the per-index names. -/
def Kg (K : Dev nD × Fin 33 → ℕ) : GSem nD τ sig → ℕ := fun g => K (g.1.1, cidx g.2)
theorem Kg_kcell (K : Dev nD × Fin 33 → ℕ) (ck : Dev nD × Fin 33) : Kg K (kcell ck) = K ck := by
  show K (ck.1, cidx (csem ck.2)) = K ck
  rw [cidx_csem]

def records (K : Dev nD × Fin 33 → ℕ) : sProp 𝕄 :=
  iprop((bigSep Finset.univ fun ck : Dev nD × Fin 33 => cellInv ER (sched (PSm m) (PZm m)) (Kg K (kcell ck)) (kcell ck))
    ∗ bigSep Finset.univ fun ck : Dev nD × Fin 33 => reached ER (kcell ck) 0)

instance records_persistent (K : Dev nD × Fin 33 → ℕ) : BI.Persistent (records m K) := by unfold records; infer_instance

omit [FloatOps F] in
theorem at_k (Ψ : GSem nD τ sig → sProp 𝕄) (c' : Dev nD) (k : Fin 33) :
    (bigSep Finset.univ fun ck : Dev nD × Fin 33 => Ψ (kcell ck)) ⊢ Ψ (kcell (c', k)) :=
  bigSep_elim (Φ := fun ck : Dev nD × Fin 33 => Ψ (kcell ck)) (Finset.mem_univ (c', k))

omit [FloatOps F] in
theorem at_bar (Ψ : GSem nD τ sig → sProp 𝕄) (c' : Dev nD) :
    (bigSep Finset.univ fun ck : Dev nD × Fin 33 => Ψ (kcell ck)) ⊢ Ψ (barCell c') := at_k Ψ c' 0

omit [FloatOps F] in
theorem at_ys (Ψ : GSem nD τ sig → sProp 𝕄) [∀ g, BI.Persistent (Ψ g)] (c' : Dev nD) :
    (bigSep Finset.univ fun ck : Dev nD × Fin 33 => Ψ (kcell ck)) ⊢ all8 fun i => Ψ (ysCell c' i) := by
  show _ ⊢ iprop(Ψ (ysCell c' 0) ∗ Ψ (ysCell c' 1) ∗ Ψ (ysCell c' 2) ∗ Ψ (ysCell c' 3) ∗ Ψ (ysCell c' 4) ∗ Ψ (ysCell c' 5) ∗ Ψ (ysCell c' 6) ∗ Ψ (ysCell c' 7))
  iintro #H
  isplitr; · iapply (show (bigSep Finset.univ fun ck : Dev nD × Fin 33 => Ψ (kcell ck)) ⊢ Ψ (ysCell c' 0) from at_k Ψ c' 1); iexact H
  isplitr; · iapply (show (bigSep Finset.univ fun ck : Dev nD × Fin 33 => Ψ (kcell ck)) ⊢ Ψ (ysCell c' 1) from at_k Ψ c' 2); iexact H
  isplitr; · iapply (show (bigSep Finset.univ fun ck : Dev nD × Fin 33 => Ψ (kcell ck)) ⊢ Ψ (ysCell c' 2) from at_k Ψ c' 3); iexact H
  isplitr; · iapply (show (bigSep Finset.univ fun ck : Dev nD × Fin 33 => Ψ (kcell ck)) ⊢ Ψ (ysCell c' 3) from at_k Ψ c' 4); iexact H
  isplitr; · iapply (show (bigSep Finset.univ fun ck : Dev nD × Fin 33 => Ψ (kcell ck)) ⊢ Ψ (ysCell c' 4) from at_k Ψ c' 5); iexact H
  isplitr; · iapply (show (bigSep Finset.univ fun ck : Dev nD × Fin 33 => Ψ (kcell ck)) ⊢ Ψ (ysCell c' 5) from at_k Ψ c' 6); iexact H
  isplitr; · iapply (show (bigSep Finset.univ fun ck : Dev nD × Fin 33 => Ψ (kcell ck)) ⊢ Ψ (ysCell c' 6) from at_k Ψ c' 7); iexact H
  iapply (show (bigSep Finset.univ fun ck : Dev nD × Fin 33 => Ψ (kcell ck)) ⊢ Ψ (ysCell c' 7) from at_k Ψ c' 8); iexact H

omit [FloatOps F] in
theorem at_yr (Ψ : GSem nD τ sig → sProp 𝕄) [∀ g, BI.Persistent (Ψ g)] (c' : Dev nD) :
    (bigSep Finset.univ fun ck : Dev nD × Fin 33 => Ψ (kcell ck)) ⊢ all8 fun i => Ψ (yrCell c' i) := by
  show _ ⊢ iprop(Ψ (yrCell c' 0) ∗ Ψ (yrCell c' 1) ∗ Ψ (yrCell c' 2) ∗ Ψ (yrCell c' 3) ∗ Ψ (yrCell c' 4) ∗ Ψ (yrCell c' 5) ∗ Ψ (yrCell c' 6) ∗ Ψ (yrCell c' 7))
  iintro #H
  isplitr; · iapply (show (bigSep Finset.univ fun ck : Dev nD × Fin 33 => Ψ (kcell ck)) ⊢ Ψ (yrCell c' 0) from at_k Ψ c' 9); iexact H
  isplitr; · iapply (show (bigSep Finset.univ fun ck : Dev nD × Fin 33 => Ψ (kcell ck)) ⊢ Ψ (yrCell c' 1) from at_k Ψ c' 10); iexact H
  isplitr; · iapply (show (bigSep Finset.univ fun ck : Dev nD × Fin 33 => Ψ (kcell ck)) ⊢ Ψ (yrCell c' 2) from at_k Ψ c' 11); iexact H
  isplitr; · iapply (show (bigSep Finset.univ fun ck : Dev nD × Fin 33 => Ψ (kcell ck)) ⊢ Ψ (yrCell c' 3) from at_k Ψ c' 12); iexact H
  isplitr; · iapply (show (bigSep Finset.univ fun ck : Dev nD × Fin 33 => Ψ (kcell ck)) ⊢ Ψ (yrCell c' 4) from at_k Ψ c' 13); iexact H
  isplitr; · iapply (show (bigSep Finset.univ fun ck : Dev nD × Fin 33 => Ψ (kcell ck)) ⊢ Ψ (yrCell c' 5) from at_k Ψ c' 14); iexact H
  isplitr; · iapply (show (bigSep Finset.univ fun ck : Dev nD × Fin 33 => Ψ (kcell ck)) ⊢ Ψ (yrCell c' 6) from at_k Ψ c' 15); iexact H
  iapply (show (bigSep Finset.univ fun ck : Dev nD × Fin 33 => Ψ (kcell ck)) ⊢ Ψ (yrCell c' 7) from at_k Ψ c' 16); iexact H

omit [FloatOps F] in
theorem at_zs (Ψ : GSem nD τ sig → sProp 𝕄) [∀ g, BI.Persistent (Ψ g)] (c' : Dev nD) :
    (bigSep Finset.univ fun ck : Dev nD × Fin 33 => Ψ (kcell ck)) ⊢ all8 fun i => Ψ (zsCell c' i) := by
  show _ ⊢ iprop(Ψ (zsCell c' 0) ∗ Ψ (zsCell c' 1) ∗ Ψ (zsCell c' 2) ∗ Ψ (zsCell c' 3) ∗ Ψ (zsCell c' 4) ∗ Ψ (zsCell c' 5) ∗ Ψ (zsCell c' 6) ∗ Ψ (zsCell c' 7))
  iintro #H
  isplitr; · iapply (show (bigSep Finset.univ fun ck : Dev nD × Fin 33 => Ψ (kcell ck)) ⊢ Ψ (zsCell c' 0) from at_k Ψ c' 17); iexact H
  isplitr; · iapply (show (bigSep Finset.univ fun ck : Dev nD × Fin 33 => Ψ (kcell ck)) ⊢ Ψ (zsCell c' 1) from at_k Ψ c' 18); iexact H
  isplitr; · iapply (show (bigSep Finset.univ fun ck : Dev nD × Fin 33 => Ψ (kcell ck)) ⊢ Ψ (zsCell c' 2) from at_k Ψ c' 19); iexact H
  isplitr; · iapply (show (bigSep Finset.univ fun ck : Dev nD × Fin 33 => Ψ (kcell ck)) ⊢ Ψ (zsCell c' 3) from at_k Ψ c' 20); iexact H
  isplitr; · iapply (show (bigSep Finset.univ fun ck : Dev nD × Fin 33 => Ψ (kcell ck)) ⊢ Ψ (zsCell c' 4) from at_k Ψ c' 21); iexact H
  isplitr; · iapply (show (bigSep Finset.univ fun ck : Dev nD × Fin 33 => Ψ (kcell ck)) ⊢ Ψ (zsCell c' 5) from at_k Ψ c' 22); iexact H
  isplitr; · iapply (show (bigSep Finset.univ fun ck : Dev nD × Fin 33 => Ψ (kcell ck)) ⊢ Ψ (zsCell c' 6) from at_k Ψ c' 23); iexact H
  iapply (show (bigSep Finset.univ fun ck : Dev nD × Fin 33 => Ψ (kcell ck)) ⊢ Ψ (zsCell c' 7) from at_k Ψ c' 24); iexact H

omit [FloatOps F] in
theorem at_zr (Ψ : GSem nD τ sig → sProp 𝕄) [∀ g, BI.Persistent (Ψ g)] (c' : Dev nD) :
    (bigSep Finset.univ fun ck : Dev nD × Fin 33 => Ψ (kcell ck)) ⊢ all8 fun i => Ψ (zrCell c' i) := by
  show _ ⊢ iprop(Ψ (zrCell c' 0) ∗ Ψ (zrCell c' 1) ∗ Ψ (zrCell c' 2) ∗ Ψ (zrCell c' 3) ∗ Ψ (zrCell c' 4) ∗ Ψ (zrCell c' 5) ∗ Ψ (zrCell c' 6) ∗ Ψ (zrCell c' 7))
  iintro #H
  isplitr; · iapply (show (bigSep Finset.univ fun ck : Dev nD × Fin 33 => Ψ (kcell ck)) ⊢ Ψ (zrCell c' 0) from at_k Ψ c' 25); iexact H
  isplitr; · iapply (show (bigSep Finset.univ fun ck : Dev nD × Fin 33 => Ψ (kcell ck)) ⊢ Ψ (zrCell c' 1) from at_k Ψ c' 26); iexact H
  isplitr; · iapply (show (bigSep Finset.univ fun ck : Dev nD × Fin 33 => Ψ (kcell ck)) ⊢ Ψ (zrCell c' 2) from at_k Ψ c' 27); iexact H
  isplitr; · iapply (show (bigSep Finset.univ fun ck : Dev nD × Fin 33 => Ψ (kcell ck)) ⊢ Ψ (zrCell c' 3) from at_k Ψ c' 28); iexact H
  isplitr; · iapply (show (bigSep Finset.univ fun ck : Dev nD × Fin 33 => Ψ (kcell ck)) ⊢ Ψ (zrCell c' 4) from at_k Ψ c' 29); iexact H
  isplitr; · iapply (show (bigSep Finset.univ fun ck : Dev nD × Fin 33 => Ψ (kcell ck)) ⊢ Ψ (zrCell c' 5) from at_k Ψ c' 30); iexact H
  isplitr; · iapply (show (bigSep Finset.univ fun ck : Dev nD × Fin 33 => Ψ (kcell ck)) ⊢ Ψ (zrCell c' 6) from at_k Ψ c' 31); iexact H
  iapply (show (bigSep Finset.univ fun ck : Dev nD × Fin 33 => Ψ (kcell ck)) ⊢ Ψ (zrCell c' 7) from at_k Ψ c' 32); iexact H

/-- The tokens of the duties device `c` pays; -/
def payToks (c : Dev nD) : sProp 𝕄 :=
  iprop(dutyTok ER (barCell (yp c)) 0 false ∗ dutyTok ER (barCell (zp c)) 0 true
    ∗ (all8 fun i => dutyTok ER (ysCell c i) 0 false) ∗ (all8 fun i => dutyTok ER (zsCell c i) 0 false)
    ∗ (all8 fun i => dutyTok ER (yrCell (yp c) i) 0 false) ∗ (all8 fun i => dutyTok ER (zrCell (zp c) i) 0 false))
/-- what stays with it. -/
def linear (c : Dev nD) : sProp 𝕄 :=
  iprop((bigSep Finset.univ fun k : Fin 33 => atPos ER (kcell (c, k)) 0 ∅ 0) ∗ payToks c ∗ localSems c)

theorem ghost_intro (K : Dev nD × Fin 33 → ℕ) (c : Dev nD) : iprop(records m K ∗ linear c) ⊢ G' m c := by
  unfold records linear G'
  iintro ⟨⟨#HI, #HR⟩, Hat, Htk, Hloc⟩
  iexists (Kg K)
  have hb : ∀ c' : Dev nD, (bigSep Finset.univ fun ck : Dev nD × Fin 33 => (cellInv ER (sched (PSm m) (PZm m)) (Kg K (kcell ck)) (kcell ck) : sProp 𝕄)) ⊢ cellInv ER (sched (PSm m) (PZm m)) (Kg K (barCell c')) (barCell c') :=
    fun c' => at_bar (F := F) (fun g => cellInv ER (sched (PSm m) (PZm m)) (Kg K g) g) c'
  have hys : ∀ c' : Dev nD, (bigSep Finset.univ fun ck : Dev nD × Fin 33 => (cellInv ER (sched (PSm m) (PZm m)) (Kg K (kcell ck)) (kcell ck) : sProp 𝕄)) ⊢ all8 fun i => cellInv ER (sched (PSm m) (PZm m)) (Kg K (ysCell c' i)) (ysCell c' i) :=
    fun c' => at_ys (F := F) (fun g => cellInv ER (sched (PSm m) (PZm m)) (Kg K g) g) c'
  have hyr : ∀ c' : Dev nD, (bigSep Finset.univ fun ck : Dev nD × Fin 33 => (cellInv ER (sched (PSm m) (PZm m)) (Kg K (kcell ck)) (kcell ck) : sProp 𝕄)) ⊢ all8 fun i => cellInv ER (sched (PSm m) (PZm m)) (Kg K (yrCell c' i)) (yrCell c' i) :=
    fun c' => at_yr (F := F) (fun g => cellInv ER (sched (PSm m) (PZm m)) (Kg K g) g) c'
  have hzs : ∀ c' : Dev nD, (bigSep Finset.univ fun ck : Dev nD × Fin 33 => (cellInv ER (sched (PSm m) (PZm m)) (Kg K (kcell ck)) (kcell ck) : sProp 𝕄)) ⊢ all8 fun i => cellInv ER (sched (PSm m) (PZm m)) (Kg K (zsCell c' i)) (zsCell c' i) :=
    fun c' => at_zs (F := F) (fun g => cellInv ER (sched (PSm m) (PZm m)) (Kg K g) g) c'
  have hzr : ∀ c' : Dev nD, (bigSep Finset.univ fun ck : Dev nD × Fin 33 => (cellInv ER (sched (PSm m) (PZm m)) (Kg K (kcell ck)) (kcell ck) : sProp 𝕄)) ⊢ all8 fun i => cellInv ER (sched (PSm m) (PZm m)) (Kg K (zrCell c' i)) (zrCell c' i) :=
    fun c' => at_zr (F := F) (fun g => cellInv ER (sched (PSm m) (PZm m)) (Kg K g) g) c'
  have rb : ∀ c' : Dev nD, (bigSep Finset.univ fun ck : Dev nD × Fin 33 => (reached ER (kcell ck) 0 : sProp 𝕄)) ⊢ reached ER (barCell c') 0 :=
    fun c' => at_bar (F := F) (fun g => reached ER g 0) c'
  have rys : ∀ c' : Dev nD, (bigSep Finset.univ fun ck : Dev nD × Fin 33 => (reached ER (kcell ck) 0 : sProp 𝕄)) ⊢ all8 fun i => reached ER (ysCell c' i) 0 :=
    fun c' => at_ys (F := F) (fun g => reached ER g 0) c'
  have ryr : ∀ c' : Dev nD, (bigSep Finset.univ fun ck : Dev nD × Fin 33 => (reached ER (kcell ck) 0 : sProp 𝕄)) ⊢ all8 fun i => reached ER (yrCell c' i) 0 :=
    fun c' => at_yr (F := F) (fun g => reached ER g 0) c'
  have rzs : ∀ c' : Dev nD, (bigSep Finset.univ fun ck : Dev nD × Fin 33 => (reached ER (kcell ck) 0 : sProp 𝕄)) ⊢ all8 fun i => reached ER (zsCell c' i) 0 :=
    fun c' => at_zs (F := F) (fun g => reached ER g 0) c'
  have rzr : ∀ c' : Dev nD, (bigSep Finset.univ fun ck : Dev nD × Fin 33 => (reached ER (kcell ck) 0 : sProp 𝕄)) ⊢ all8 fun i => reached ER (zrCell c' i) 0 :=
    fun c' => at_zr (F := F) (fun g => reached ER g 0) c'
  isplitr
  · unfold invsG
    isplitr; · iapply (hb c); iexact HI
    isplitr; · iapply (hb (yp c)); iexact HI
    isplitr; · iapply (hb (zp c)); iexact HI
    isplitr; · iapply (hys c); iexact HI
    isplitr; · iapply (hyr c); iexact HI
    isplitr; · iapply (hzs c); iexact HI
    isplitr; · iapply (hzr c); iexact HI
    isplitr; · iapply (hyr (yp c)); iexact HI
    isplitr; · iapply (hzr (zp c)); iexact HI
    isplitr; · iapply (rb (yp c)); iexact HR
    isplitr; · iapply (rb (zp c)); iexact HR
    isplitr; · iapply (rys c); iexact HR
    isplitr; · iapply (ryr c); iexact HR
    isplitr; · iapply (rzs c); iexact HR
    iapply (rzr c); iexact HR
  isplitl [Hat Htk]
  · unfold posToks payToks
    ihave Hat' := (Entails.of_eq (cells33 (fun g => (atPos ER g 0 ∅ 0 : sProp 𝕄)) c)) $$ Hat
    ihave Hat'' := (chain_all8 (F := F) (atPos ER (barCell c) 0 ∅ 0) (fun i => atPos ER (ysCell c i) 0 ∅ 0) (fun i => atPos ER (yrCell c i) 0 ∅ 0) (fun i => atPos ER (zsCell c i) 0 ∅ 0) (fun i => atPos ER (zrCell c i) 0 ∅ 0)) $$ Hat'
    icases Hat'' with ⟨P0, P1, P2, P3, P4⟩
    icases Htk with ⟨T1, T2, T3, T4, T5, T6⟩
    isplitl [P0]; · iexact P0
    isplitl [P1]; · iexact P1
    isplitl [P2]; · iexact P2
    isplitl [P3]; · iexact P3
    isplitl [P4]; · iexact P4
    isplitl [T1]; · iexact T1
    isplitl [T2]; · iexact T2
    isplitl [T3]; · iexact T3
    isplitl [T4]; · iexact T4
    isplitl [T5]; · iexact T5
    iexact T6
  iexact Hloc

omit [FloatOps F] in
/-- A device's own cells' tokens by name. -/
theorem toks_named (c : Dev nD) : (toks c : sProp 𝕄)
    ⊢ iprop(dutyTok ER (barCell c) 0 false ∗ dutyTok ER (barCell c) 0 true
      ∗ (all8 fun i => dutyTok ER (ysCell c i) 0 false) ∗ (all8 fun i => dutyTok ER (yrCell c i) 0 false)
      ∗ (all8 fun i => dutyTok ER (zsCell c i) 0 false) ∗ (all8 fun i => dutyTok ER (zrCell c i) 0 false)) := by
  have e : (toks c : sProp 𝕄) = iprop(dutyTok ER (barCell c) 0 false ∗ dutyTok ER (barCell c) 0 true ∗ dutyTok ER (ysCell c 0) 0 false ∗ dutyTok ER (ysCell c 1) 0 false ∗ dutyTok ER (ysCell c 2) 0 false ∗ dutyTok ER (ysCell c 3) 0 false ∗ dutyTok ER (ysCell c 4) 0 false ∗ dutyTok ER (ysCell c 5) 0 false ∗ dutyTok ER (ysCell c 6) 0 false ∗ dutyTok ER (ysCell c 7) 0 false ∗ dutyTok ER (yrCell c 0) 0 false ∗ dutyTok ER (yrCell c 1) 0 false ∗ dutyTok ER (yrCell c 2) 0 false ∗ dutyTok ER (yrCell c 3) 0 false ∗ dutyTok ER (yrCell c 4) 0 false ∗ dutyTok ER (yrCell c 5) 0 false ∗ dutyTok ER (yrCell c 6) 0 false ∗ dutyTok ER (yrCell c 7) 0 false ∗ dutyTok ER (zsCell c 0) 0 false ∗ dutyTok ER (zsCell c 1) 0 false ∗ dutyTok ER (zsCell c 2) 0 false ∗ dutyTok ER (zsCell c 3) 0 false ∗ dutyTok ER (zsCell c 4) 0 false ∗ dutyTok ER (zsCell c 5) 0 false ∗ dutyTok ER (zsCell c 6) 0 false ∗ dutyTok ER (zsCell c 7) 0 false ∗ dutyTok ER (zrCell c 0) 0 false ∗ dutyTok ER (zrCell c 1) 0 false ∗ dutyTok ER (zrCell c 2) 0 false ∗ dutyTok ER (zrCell c 3) 0 false ∗ dutyTok ER (zrCell c 4) 0 false ∗ dutyTok ER (zrCell c 5) 0 false ∗ dutyTok ER (zrCell c 6) 0 false ∗ dutyTok ER (zrCell c 7) 0 false) := by
    unfold toks; rw [bigSep_fin34]; rfl
  rw [e]
  exact sep_mono_right (chain_all8 (F := F) (dutyTok ER (barCell c) 0 true) (fun i => dutyTok ER (ysCell c i) 0 false) (fun i => dutyTok ER (yrCell c i) 0 false) (fun i => dutyTok ER (zsCell c i) 0 false) (fun i => dutyTok ER (zrCell c i) 0 false))

def ypE : Dev nD ≃ Dev nD := ⟨yp, yp, yp_yp, yp_yp⟩
def zpE : Dev nD ≃ Dev nD := ⟨zp, zp, zp_zp, zp_zp⟩

omit [FloatOps F] in
/-- The tokens dealt along the two involutions: a barrier's `false` token and the receive tokens along y to the partner
    along y, the barrier's `true` token and the receive tokens along z to the partner along z. -/
theorem toks_around' : (bigSep Finset.univ fun c : Dev nD => (iprop(dutyTok ER (barCell c) 0 false ∗ dutyTok ER (barCell c) 0 true
      ∗ (all8 fun i => dutyTok ER (ysCell c i) 0 false) ∗ (all8 fun i => dutyTok ER (yrCell c i) 0 false)
      ∗ (all8 fun i => dutyTok ER (zsCell c i) 0 false) ∗ (all8 fun i => dutyTok ER (zrCell c i) 0 false)) : sProp 𝕄))
    ⊢ bigSep Finset.univ fun c : Dev nD => payToks c := by
  unfold payToks
  rw [bigSep_sep', bigSep_sep', bigSep_sep', bigSep_sep', bigSep_sep', bigSep_sep', bigSep_sep', bigSep_sep', bigSep_sep', bigSep_sep',
    bigSep_univ_equiv ypE (fun c : Dev nD => (dutyTok ER (barCell c) 0 false : sProp 𝕄)),
    bigSep_univ_equiv zpE (fun c : Dev nD => (dutyTok ER (barCell c) 0 true : sProp 𝕄)),
    bigSep_univ_equiv ypE (fun c : Dev nD => (all8 fun i => dutyTok ER (yrCell c i) 0 false : sProp 𝕄)),
    bigSep_univ_equiv zpE (fun c : Dev nD => (all8 fun i => dutyTok ER (zrCell c i) 0 false : sProp 𝕄))]
  iintro ⟨H1, H2, H3, H4, H5, H6⟩
  isplitl [H1]; · iexact H1
  isplitl [H2]; · iexact H2
  isplitl [H3]; · iexact H3
  isplitl [H5]; · iexact H5
  isplitl [H4]; · iexact H4
  iexact H6

omit [FloatOps F] in
theorem toks_around : (bigSep Finset.univ fun c : Dev nD => (toks c : sProp 𝕄)) ⊢ bigSep Finset.univ fun c : Dev nD => payToks c :=
  (bigSep_mono fun c _ => toks_named c).trans toks_around'

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 33 => iprop(∃ κ : ℕ, cellInv ER (sched (PSm m) (PZm m)) κ (kcell (c, k))))
          ∗ (bigSep Finset.univ fun k : Fin 33 => iprop(atPos ER (kcell (c, k)) 0 ∅ 0 ∗ reached ER (kcell (c, k)) 0)) ∗ toks c ∗ localSems c) : sProp 𝕄)
      ⊢ bigSep Finset.univ (G' m) := by
  rw [bigSep_sep', bigSep_sep', bigSep_sep', ← bigSep_univ_prod (fun ck : Dev nD × Fin 33 => iprop(∃ κ : ℕ, cellInv ER (sched (PSm m) (PZm m)) κ (kcell ck))),
    bigSep_congr (s := Finset.univ) (fun (c : Dev nD) _ => bigSep_sep' Finset.univ (fun k : Fin 33 => (atPos ER (kcell (c, k)) 0 ∅ 0 : sProp 𝕄)) (fun k => reached ER (kcell (c, k)) 0)),
    bigSep_sep', ← bigSep_univ_prod (fun ck : Dev nD × Fin 33 => (reached ER (kcell ck) 0 : sProp 𝕄))]
  iintro ⟨HI, ⟨Hat, #HR⟩, Htok, Hloc⟩
  ihave HK := (BI.bigSep_exists_pi Finset.univ (fun (ck : Dev nD × Fin 33) (κ : ℕ) => (cellInv ER (sched (PSm m) (PZm m)) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl
    · iapply (Entails.of_eq (bigSep_congr (s := Finset.univ) fun (ck : Dev nD × Fin 33) _ => show (cellInv ER (sched (PSm m) (PZm m)) (K ck) (kcell ck) : sProp 𝕄) = cellInv ER (sched (PSm m) (PZm m)) (Kg K (kcell ck)) (kcell ck) from by rw [Kg_kcell]))
      iexact HI
    iexact HR
  · rw [show (bigSep Finset.univ fun c : Dev nD => (linear c : sProp 𝕄))
        = iprop((bigSep Finset.univ fun c : Dev nD => bigSep Finset.univ fun k : Fin 33 => (atPos ER (kcell (c, k)) 0 ∅ 0 : sProp 𝕄))
          ∗ (bigSep Finset.univ fun c : Dev nD => payToks c) ∗ bigSep Finset.univ fun c : Dev nD => localSems c) from by
      unfold linear; rw [bigSep_sep', bigSep_sep']]
    isplitl [Hat]; · iexact Hat
    isplitl [Htk]; · iexact Htk
    iexact Hloc

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Glob

/-! ### The launch credit -/

section Cred

/-- The credit of a device's receive cells along z, in the order the partner pays them; -/
def credsZ (c : Dev nD) : ℕ → sProp 𝕄
  | 0 => iprop(emp)
  | n + 1 => iprop(credsZ c n ∗ cred (tallyAt (zrCell c (chunkRev n)) () N))
/-- then along y. -/
def credsY (c : Dev nD) : ℕ → sProp 𝕄
  | 0 => credsZ c 8
  | n + 1 => iprop(credsY c n ∗ cred (tallyAt (yrCell c (chunkRev n)) () N))

theorem cred_owedZ (c : Dev nD) : ∀ n, (Pipeline.launchCred (fun d => owedZ d n) c : sProp 𝕄) ⊢ credsZ (F := F) c n
  | 0 => Entails.of_eq (Pipeline.launchCred_zero c)
  | n + 1 => by
    show (Pipeline.launchCred (fun d => owedZ d n + tallyAt (zrCell (zp d) (chunkRev n)) () N) c : sProp 𝕄)
      ⊢ iprop(credsZ c n ∗ cred (tallyAt (zrCell c (chunkRev n)) () N))
    rw [Pipeline.launchCred_add]
    exact BIClass.sep_mono (cred_owedZ c n) (Pipeline.launchCred_tallyAt (.dma (zrSem (chunkRev n))) zp zp zp_zp zp_zp () N c)

theorem cred_owedY (c : Dev nD) : ∀ n, (Pipeline.launchCred (fun d => owedY d n) c : sProp 𝕄) ⊢ credsY (F := F) c n
  | 0 => cred_owedZ c 8
  | n + 1 => by
    show (Pipeline.launchCred (fun d => owedY d n + tallyAt (yrCell (yp d) (chunkRev n)) () N) c : sProp 𝕄)
      ⊢ iprop(credsY c n ∗ cred (tallyAt (yrCell c (chunkRev n)) () N))
    rw [Pipeline.launchCred_add]
    exact BIClass.sep_mono (cred_owedY c n) (Pipeline.launchCred_tallyAt (.dma (yrSem (chunkRev n))) yp yp yp_yp yp_yp () N c)

theorem credsY_all8 (c : Dev nD) : (credsY (F := F) c 8 : sProp 𝕄)
    ⊢ iprop((all8 fun i => cred (tallyAt (yrCell c i) () N)) ∗ (all8 fun i => cred (tallyAt (zrCell c i) () N))) := by
  show (iprop(((((((((((((((((emp ∗ cred (tallyAt (zrCell c 7) () N)) ∗ cred (tallyAt (zrCell c 6) () N)) ∗ cred (tallyAt (zrCell c 5) () N)) ∗ cred (tallyAt (zrCell c 4) () N)) ∗ cred (tallyAt (zrCell c 3) () N)) ∗ cred (tallyAt (zrCell c 2) () N)) ∗ cred (tallyAt (zrCell c 1) () N)) ∗ cred (tallyAt (zrCell c 0) () N)) ∗ cred (tallyAt (yrCell c 7) () N)) ∗ cred (tallyAt (yrCell c 6) () N)) ∗ cred (tallyAt (yrCell c 5) () N)) ∗ cred (tallyAt (yrCell c 4) () N)) ∗ cred (tallyAt (yrCell c 3) () N)) ∗ cred (tallyAt (yrCell c 2) () N)) ∗ cred (tallyAt (yrCell c 1) () N)) ∗ cred (tallyAt (yrCell c 0) () N))) : sProp 𝕄) ⊢ _
  unfold all8
  iintro ⟨⟨⟨⟨⟨⟨⟨⟨⟨⟨⟨⟨⟨⟨⟨⟨-, Z7⟩, Z6⟩, Z5⟩, Z4⟩, Z3⟩, Z2⟩, Z1⟩, Z0⟩, Y7⟩, Y6⟩, Y5⟩, Y4⟩, Y3⟩, Y2⟩, Y1⟩, Y0⟩
  isplitl [Y0 Y1 Y2 Y3 Y4 Y5 Y6 Y7]
  · isplitl [Y0]; · iexact Y0
    isplitl [Y1]; · iexact Y1
    isplitl [Y2]; · iexact Y2
    isplitl [Y3]; · iexact Y3
    isplitl [Y4]; · iexact Y4
    isplitl [Y5]; · iexact Y5
    isplitl [Y6]; · iexact Y6
    iexact Y7
  isplitl [Z0]; · iexact Z0
  isplitl [Z1]; · iexact Z1
  isplitl [Z2]; · iexact Z2
  isplitl [Z3]; · iexact Z3
  isplitl [Z4]; · iexact Z4
  isplitl [Z5]; · iexact Z5
  isplitl [Z6]; · iexact Z6
  iexact Z7

/-- The launch deals a device the credit of what its partners owe it: two units on its barrier cell, a landing on each
    receive cell. -/
theorem creds_intro (c : Dev nD) : (Pipeline.launchCred owed₀ c : sProp 𝕄) ⊢ creds (F := F) c := by
  have h0 : (Pipeline.launchCred owed₀ c : sProp 𝕄)
      ⊢ iprop((Pipeline.launchCred (fun d => owedY d 8) c ∗ Pipeline.launchCred (fun d => tallyAt (barCell (zp d)) () 1) c)
          ∗ Pipeline.launchCred (fun d => tallyAt (barCell (yp d)) () 1) c) := by
    show (Pipeline.launchCred (fun d => (owedY d 8 + tallyAt (barCell (zp d)) () 1) + tallyAt (barCell (yp d)) () 1) c : sProp 𝕄) ⊢ _
    rw [Pipeline.launchCred_add, Pipeline.launchCred_add]
  refine h0.trans ?_
  unfold creds
  have e2 : (tallyAt (barCell c) () 2 : CellTallies nD τ sig Unit) = tallyAt (barCell c) () 1 + tallyAt (barCell c) () 1 :=
    (tallyAt_add (barCell c) () 1 1).symm
  rw [e2]
  iintro ⟨⟨HY, HBz⟩, HBy⟩
  ihave HY1 := (cred_owedY (F := F) c 8) $$ HY
  ihave HY2 := (credsY_all8 (F := F) c) $$ HY1
  icases HY2 with ⟨HYr, HZr⟩
  ihave Bz := (Pipeline.launchCred_tallyAt (.reg barS) zp zp zp_zp zp_zp () 1 c) $$ HBz
  ihave By := (Pipeline.launchCred_tallyAt (.reg barS) yp yp yp_yp yp_yp () 1 c) $$ HBy
  isplitl [Bz By]
  · iapply (cred_add _ _).2
    isplitl [Bz] <;> iassumption
  isplitl [HYr]; · iexact HYr
  iexact HZr

end Cred

/-! ### The theorem's side conditions -/

section Side

variable (m : (ℓ : Loc nD τ sig) → Buf (Elt F) ℓ) (ρ : Dev nD → PrngReg)

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ |={Set.univ}=> iprop(start m c ∗ emp) := by
  rw [Pipeline.unscopedRestP_none, unscopedRest0_eq]
  iintro ⟨⟨Ha, Hv⟩, Hlev, Hcr, -, HG⟩
  ihave Hc := (creds_intro (F := F) c) $$ Hcr
  imodintro
  unfold start G'
  icases HG with ⟨%K, HI, Hpos, Hloc⟩
  isplitl
  · isplitl [HI]; · iexists K; iexact HI
    isplitl [Hlev]; · iexact Hlev
    isplitl [Hpos]; · iexact Hpos
    isplitl [Hc]; · iexact Hc
    isplitl [Hloc]; · iexact Hloc
    isplitl [Ha]; · iexact Ha
    iexact Hv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratches
  iintro ⟨Hs, -, Hr⟩
  isplitl [Hs]; · iexact Hs
  iexact Hr

/-- What the last point leaves of the unscoped buffers: the dy block as launched, the result block holding its rows of the product. -/
def Yc (c : Dev nD) : sProp 𝕄 :=
  iprop(((Memref.whole main_arg1).view.loc (c : Thread nD τ) ↦{fullShare} m ((c : Thread nD τ).loc main_arg1))
    ∗ ((Memref.whole main_v1).view.loc (c : Thread nD τ) ↦{fullShare} outM m c))

theorem phi1_exit (c : Dev nD) :
    (dats m 0 c).Φ (Fin.last cfg0.N) ⊢ iprop(Yc m c ∗ Pipeline.ownSems0 osem c ∗ Pipeline.scopedRest cfg0.spec c) := by
  rw [show (dats m 0 c).Φ (Fin.last cfg0.N) = Φ₁ m c from rfl, scopedRest0_eq]
  unfold Φ₁ Yc scratches
  iintro ⟨Ha, Hv, Hloc, Hcl, Hr⟩
  isplitl [Ha Hv]
  · isplitl [Ha] <;> iassumption
  isplitl [Hloc Hcl]
  · iapply (sems0_back (F := F) c)
    isplitl [Hloc] <;> iassumption
  iexact Hr

omit [FloatOps F] in
/-- Whatever a device owes at launch sits on a cell of level at least 1. -/
theorem owed₀_pos {c : Dev nD} {g : GSem nD τ sig} {u : Unit} (h : 0 < owed₀ c g u) : u ∈ L g ∧ 1 ≤ lv g u := by
  rcases Pipeline.add_pos_cases (show 0 < (owed₁ c + tallyAt (barCell (yp c)) () 1) g u from h) with h | h
  · rcases Pipeline.add_pos_cases (show 0 < (owedY c 8 + tallyAt (barCell (zp c)) () 1) g u from h) with h | h
    · rcases owedY_pos h with ⟨i, rfl⟩ | ⟨i, rfl⟩
      · exact ⟨by rw [L_tc]; exact Finset.mem_singleton_self _, by rw [lv_zr]; omega⟩
      · exact ⟨by rw [L_tc]; exact Finset.mem_singleton_self _, by rw [lv_yr]; omega⟩
    · rw [tallyAt_apply] at h
      by_cases hg : g = barCell (zp c) ∧ u = ()
      · rw [hg.1]; exact ⟨by rw [L_tc]; exact Finset.mem_singleton_self _, Nat.le_refl 1⟩
      · rw [if_neg hg] at h; exact absurd h (Nat.lt_irrefl 0)
  · rw [tallyAt_apply] at h
    by_cases hg : g = barCell (yp c) ∧ u = ()
    · rw [hg.1]; exact ⟨by rw [L_tc]; exact Finset.mem_singleton_self _, Nat.le_refl 1⟩
    · rw [if_neg hg] at h; exact absurd h (Nat.lt_irrefl 0)

omit [FloatOps F] in
/-- A wait on a cell of level 0 is allowed whatever of the launch dues is still owed. -/
theorem mayWait_stage (c : Dev nD) (q : DmaSem sig) (hq : q.val < 26) (O : CellTallies nD τ sig Unit) (hO : O = owed₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    obtain ⟨h1, h2⟩ := owed₀_pos hg
    refine ⟨h1, ?_⟩
    have h0 : lv ((c : Thread nD τ), .dma q) () = 0 := by
      show (if q.val < 26 then 0 else if q.val < 34 then 2 else if q.val < 42 then 0 else 3) = 0
      rw [if_pos hq]
    omega
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

end Side

/-! ### The run -/

section Run

variable (m : (ℓ : Loc nD τ sig) → Buf (Elt F) ℓ) (ρ : Dev nD → PrngReg)

set_option maxRecDepth 16384 in
/-- At the compiled mesh of eight devices, for any float values, from any memory with zero counters, given the body's obligation on
    every device: every weakly fair execution of @main terminates, and every final state has each device's result block at the
    rows the protocol computes for it and its two argument blocks unchanged. -/
theorem run_main (hbody : ∀ c : Dev nD, BodyObligation (dats (F := F) m 0 c) (defs₀ (F := F)) 𝒱₀ () Set.univ) :
    θ_run (defs (F := F)) (onTc (τ := τ) (main (F := F))) ⟨m, fun _ => 0, ρ⟩ (fun r => ∀ c : Dev nD,
      r.2.mem ((c.tc : Thread nD τ).loc main_v1) = outM m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m)
    (hdistinct := winFacts0.arr_inj)
    (O₀ := owed₀) (howed₀ := fun _ => rfl) (howedN := fun _ => rfl)
    (L := L) (lv := lv) (hL := L_of_ne) (hwaits := waits m)
    (G := G m) (G' := G' m) (u₀ := u₀)
    (hu₀ := hu₀ m)
    (hglob := glob m)
    (hA := fun _ _ => rfl) (hpf := fun _ k => k.elim0)
    (X := start m) (Y := Yc m) (Z := fun _ => iprop(emp))
    (hX := start_intro m ρ) (hin := phi0_intro m) (hout := phi1_exit m)
    (QY := fun c s => s.mem ((c.tc : Thread nD τ).loc main_v1) = outM m c
      ∧ s.mem ((c.tc : Thread nD τ).loc main_arg1) = m ((c.tc : Thread nD τ).loc main_arg1))
    (hY := fun c s' => by
      unfold Yc
      iintro ⟨⟨Ha, Hv⟩, -, HSI⟩
      icombine HSI Ha gives %ha
      icombine HSI Hv gives %hv
      imodintro
      isplitr; · ipureintro; exact ⟨Buf.eq_of_forall_mem_univ hv, Buf.eq_of_forall_mem_univ ha⟩
      iexact HSI)
    (hQ := fun s h c => ⟨(h c).2.2.1, ((h c).1 0).trans ((dats (F := F) m 0 c).arrAt_in 0 rfl _), (h c).2.2.2⟩)

/-- info: 'Cert.KernelIdeal.Hand.run_main' depends on axioms: [propext, Classical.choice, Quot.sound] -/
#guard_msgs in #print axioms run_main

end Run

end Cert.KernelIdeal.Hand

end
-- ==== Proof.Obligation.lean ====
import proofs.«900476_g7700000000000477_dist_rsdw_v7x_xyz2x2x2_y_m512_d512_f2048_f32_1_alg».proof.Proof.Body
import proofs.«900476_g7700000000000477_dist_rsdw_v7x_xyz2x2x2_y_m512_d512_f2048_f32_1_alg».proof.Proof.LaunchK
import Idealize.ShloMosaic.Lib.Pipeline.Launch
import Idealize.ShloMosaic.Lib.Pipeline.Kit
import Idealize.ShloMosaic.Lib.Tactic

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The body's obligation, and the run -/

omit [FloatOps F] in
/-- A whole buffer owned at contents `X` is the buffer held at contents equal to `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

section

variable (m : (ℓ : Loc nD τ sig) → Buf (Elt F) ℓ) (ρ : Dev nD → PrngReg)

/-- At the one point the staging buffer holds the device's block of x: the window is fetched there, and its one block is the whole array. -/
theorem before_eq (c : Dev nD) (d) : (dats (F := F) m 0 c).before 0 t0_0 d = xstg m c := by
  unfold Dat.before
  rw [if_pos (fetch0_0 t0_0)]
  rfl

set_option maxRecDepth 16384 in
/-- The library's body obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show iprop(Φ₀ m c ∗ (dats (F := F) m 0 c).owesAt () t0_0.castSucc
      ∗ ∃ d, ∃ f : Buf (Elt F) ((c : Thread nD τ).loc cc0_stg0_0), ⌜f = (dats (F := F) m 0 c).before 0 t0_0 d⌝ ∗ (((c : Thread nD τ).loc cc0_stg0_0) ↦{fullShare} f))
    ⊢ wp frame (wpE (defs₀ (F := F)) 𝒱₀ c none) Set.univ (cc0_body (Memref.whole cc0_stg0_0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13) (fun _ => iprop(Φ₁ m c ∗ (dats (F := F) m 0 c).owesAt () t0_0.succ ∗ ∃ f : Buf (Elt F) ((c : Thread nD τ).loc cc0_stg0_0), ⌜f = xstg m c⌝ ∗ (((c : Thread nD τ).loc cc0_stg0_0) ↦{fullShare} f)))
  unfold Φ₀ start scratches
  iintro ⟨⟨⟨⟨%K, HI⟩, Hlev, Hpos, Hcr, Hloc, Harg1, Hv1⟩, ⟨%f0, H0⟩, ⟨%f1, H1⟩, ⟨%f2, H2⟩, ⟨%f3, H3⟩, ⟨%f4, H4⟩, ⟨%f5, H5⟩, ⟨%f6, H6⟩, ⟨%f7, H7⟩⟩, ⟨%W, %hW, Ho⟩, ⟨%d, %f, %hf, Hx⟩⟩
  have hf' : f = xstg m c := hf.trans (before_eq m c d)
  subst hf'
  iapply (sound_body m K c W f0 f1 f2 f3 f4 f5 f6 f7 (fun _ => iprop(Φ₁ m c ∗ (dats (F := F) m 0 c).owesAt () t0_0.succ ∗ ∃ f : Buf (Elt F) ((c : Thread nD τ).loc cc0_stg0_0), ⌜f = xstg m c⌝ ∗ (((c : Thread nD τ).loc cc0_stg0_0) ↦{fullShare} f))))
  isplitl [HI]; · iexact HI
  isplitl [Hlev]; · iexact Hlev
  isplitl [Hpos]; · iexact Hpos
  isplitl [Hcr]; · iexact Hcr
  isplitl [Hloc]; · iexact Hloc
  isplitl [Ho]; · iexact Ho
  isplitl [Hx]; · iexact Hx
  isplitl [Harg1]; · iexact Harg1
  isplitl [Hv1]; · iexact Hv1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold bodyPost
  iintro ⟨⟨%W', Ho'⟩, Hx', HΦ⟩
  isplitl [HΦ]; · iexact HΦ
  isplitl [Ho']
  · iexists W'
    isplitr; · ipureintro; exact fun x _ => Or.inl (Set.mem_univ x)
    iexact Ho'
  iexists (xstg m c)
  isplitr; · ipureintro; rfl
  iexact Hx'

/-- At the compiled mesh of eight devices, for any float values, from any memory with zero counters: every weakly fair execution of
    @main terminates, each device's result block at the rows the protocol computes for it, its two argument blocks unchanged. -/
theorem run : θ_run (defs (F := F)) (onTc (τ := τ) (main (F := F))) ⟨m, fun _ => 0, ρ⟩ (fun r => ∀ c : Dev nD,
      r.2.mem ((c.tc : Thread nD τ).loc main_v1) = outM m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_main m ρ (body_obligation m)

end

end Cert.KernelIdeal.Hand

end
-- ==== Proof.WProtocol.lean ====
import proofs.«900476_g7700000000000477_dist_rsdw_v7x_xyz2x2x2_y_m512_d512_f2048_f32_1_alg».proof.Proof.Gen.Kernel
import proofs.«900476_g7700000000000477_dist_rsdw_v7x_xyz2x2x2_y_m512_d512_f2048_f32_1_alg».proof.Proof.Gen.Kernel.Launch
import Idealize.ShloMosaic.Lib.Pipeline.Launch
import Idealize.ShloMosaic.Lib.Pipeline.Kit
import Idealize.ShloMosaic.Lib.Transfers
import Idealize.ShloMosaic.Lib.Tactic

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The mesh: a device is (x, y, z) with id 4x + 2y + z; the partner along y flips bit 1, along z bit 0 -/

def yp (c : Dev nD) : Dev nD := ⟨(4 * (c.val / 4) + (c.val % 2) + 2) - 2 * ((c.val / 2) % 2), by revert c; decide⟩
def zp (c : Dev nD) : Dev nD := ⟨(4 * (c.val / 4) + 2 * ((c.val / 2) % 2) + 1) - (c.val % 2), by revert c; decide⟩

theorem yp_yp (c : Dev nD) : yp (yp c) = c := by revert c; decide
theorem zp_zp (c : Dev nD) : zp (zp c) = c := by revert c; decide
theorem yp_ne_zp (c : Dev nD) : yp c ≠ zp c := by revert c; decide
theorem yp_ne (c : Dev nD) : yp c ≠ c := by revert c; decide
theorem zp_ne (c : Dev nD) : zp c ≠ c := by revert c; decide

theorem dev1_eq (c : Dev nD) : (⟨k0_dev1 c, k0_dev1_lt c⟩ : Dev nD) = yp c := Fin.ext (k0_dev1_eq c)
theorem dev2_eq (c : Dev nD) : (⟨k0_dev2 c, k0_dev2_lt c⟩ : Dev nD) = zp c := Fin.ext (k0_dev2_eq c)

theorem routes_yp (c : Dev nD) : τ.routes (c : Thread nD τ) (yp c : Thread nD τ) = true := by revert c; decide
theorem routes_zp (c : Dev nD) : τ.routes (c : Thread nD τ) (zp c : Thread nD τ) = true := by revert c; decide

/-! ## The resource algebra: the pipeline library's copy, the protocol's rounds (duties `Bool`), the local transfers' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

/-! ## Cells and slots

Every device has a barrier cell and, per column chunk `i < 8`, four transfer cells: the send and the receive cell of the
exchange along `y` and those of the exchange along `z`. -/

abbrev barS : Sem sig := (SemArray.scalar (sig.barrier 0 rfl) : Sems sig S_).sem

def ysSem (i : Fin 8) : DmaSem sig := ⟨18 + i.val, by have := i.isLt; show 18 + i.val < 50; omega⟩
def yrSem (i : Fin 8) : DmaSem sig := ⟨26 + i.val, by have := i.isLt; show 26 + i.val < 50; omega⟩
def zsSem (i : Fin 8) : DmaSem sig := ⟨34 + i.val, by have := i.isLt; show 34 + i.val < 50; omega⟩
def zrSem (i : Fin 8) : DmaSem sig := ⟨42 + i.val, by have := i.isLt; show 42 + i.val < 50; omega⟩

abbrev barCell (c : Dev nD) : GSem nD τ sig := ((c : Thread nD τ), .reg barS)
abbrev ysCell (c : Dev nD) (i : Fin 8) : GSem nD τ sig := ((c : Thread nD τ), .dma (ysSem i))
abbrev yrCell (c : Dev nD) (i : Fin 8) : GSem nD τ sig := ((c : Thread nD τ), .dma (yrSem i))
abbrev zsCell (c : Dev nD) (i : Fin 8) : GSem nD τ sig := ((c : Thread nD τ), .dma (zsSem i))
abbrev zrCell (c : Dev nD) (i : Fin 8) : GSem nD τ sig := ((c : Thread nD τ), .dma (zrSem i))

theorem slot_inb (i : Fin 8) : ∀ a, (![i.val, 0, 0] : Fin 3 → Nat) a + S1x128x256.size a ≤ S8x128x256.size a := by
  revert i; decide

/-- Slot `i` of an `[8,128,256]` buffer, as the `[128,256]` memref a transfer names. -/
def slotM (M : Memref sig .tc .vmem S8x128x256 .bf16) (i : Fin 8) : Memref sig .tc .vmem S128x256 .bf16 :=
  (M.slice (Rect.unit (s := S8x128x256) ![i.val, 0, 0] S1x128x256.size (slot_inb i)) (fun _ => rfl)).squeeze S128x256 squeezes_S1x128x256_S128x256

/-- The four slotted buffers: what is sent along y, what arrives along y, what is sent along z, what arrives along z. -/
abbrev YS : Memref sig .tc .vmem S8x128x256 .bf16 := Memref.whole cc0_scratch2
abbrev YR : Memref sig .tc .vmem S8x128x256 .bf16 := Memref.whole cc0_scratch3
abbrev ZS : Memref sig .tc .vmem S8x128x256 .bf16 := Memref.whole cc0_scratch4
abbrev ZR : Memref sig .tc .vmem S8x128x256 .bf16 := Memref.whole cc0_scratch5

/-- A slot held at some contents; -/
def slotAny (M : Memref sig .tc .vmem S8x128x256 .bf16) (c : Dev nD) (i : Fin 8) : sProp 𝕄 :=
  iprop(∃ f, (slotM M i).view.loc (c : Thread nD τ) ↦[(slotM M i).view.set]{fullShare} f)
/-- and a slot held at contents that read `w` through the slot. -/
def slotHas (M : Memref sig .tc .vmem S8x128x256 .bf16) (c : Dev nD) (i : Fin 8) (w : S128x256.Idx → Elt F .bf16) : sProp 𝕄 :=
  iprop(∃ G, ⌜(slotM M i).view.read (Elt F) G = w⌝ ∗ ((slotM M i).view.loc (c : Thread nD τ) ↦[(slotM M i).view.set]{fullShare} G))

/-- One assertion per chunk. -/
def all8 (Φ : Fin 8 → sProp 𝕄) : sProp 𝕄 := iprop(Φ 0 ∗ Φ 1 ∗ Φ 2 ∗ Φ 3 ∗ Φ 4 ∗ Φ 5 ∗ Φ 6 ∗ Φ 7)

abbrev N : ℕ := (slotM YR 0).view.dmaCredit
theorem N_pos : 0 < N := View.dmaCredit_pos _ (by decide)

/-! ## The schedule: one round per cell

The barrier cell of device `c` has two duties of one unit each: `false`, paid by its partner along y, who hands over its
own buffer for what arrives along y and that it has opened its eight receive cells there; `true`, paid by its partner
along z, likewise for z. A send cell's one duty returns the slot that was read; a receive cell's one duty hands the owner
its slot holding what the partner computed for that chunk. -/

section Sched

variable (PS PZ : Dev nD → Fin 8 → S128x256.Idx → Elt F .bf16)

def barPayY (c : Dev nD) : sProp 𝕄 :=
  iprop((∃ f, (YR.view.loc (yp c : Thread nD τ)) ↦{fullShare} f) ∗ all8 fun i => reached ER (yrCell (yp c) i) 0)
def barPayZ (c : Dev nD) : sProp 𝕄 :=
  iprop((∃ f, (ZR.view.loc (zp c : Thread nD τ)) ↦{fullShare} f) ∗ all8 fun i => reached ER (zrCell (zp c) i) 0)

def chunkOf (n base : ℕ) : Fin 8 := ⟨(n - base) % 8, Nat.mod_lt _ (by decide)⟩

def sched : Rounds.Schedule (GSem nD τ sig) Bool 𝕄 where
  duties g r :=
    if r = 0 ∧ g.1.2 = .tc then
      (match g.2 with
        | .reg s => if s = barS then Finset.univ else ∅
        | .dma n => if 18 ≤ n.val then {false} else ∅)
    else ∅
  unitless _ := False
  amount g _ _ := match g.2 with | .reg _ => 1 | .dma _ => N
  payload g _ d := match g.2 with
    | .reg _ => if d then barPayZ g.1.1 else barPayY g.1.1
    | .dma n =>
      if n.val < 26 then slotAny YS g.1.1 (chunkOf n.val 18)
      else if n.val < 34 then slotHas YR g.1.1 (chunkOf n.val 26) (PS (yp g.1.1) (chunkOf n.val 26))
      else if n.val < 42 then slotAny ZS g.1.1 (chunkOf n.val 34)
      else slotHas ZR g.1.1 (chunkOf n.val 42) (PZ (zp g.1.1) (chunkOf n.val 42))
  amount_pos g _ _ _ := by
    cases g.2 with
    | reg _ => exact Nat.one_pos
    | dma _ => exact N_pos

instance all8_storable (Φ : Fin 8 → sProp 𝕄) [∀ i, BI.Storable (upEmb : UEmb _ 𝕄) (Φ i)] : BI.Storable (upEmb : UEmb _ 𝕄) (all8 Φ) := by
  unfold all8; infer_instance

instance sched_payload_storable (g : GSem nD τ sig) (r : ℕ) (d : Bool) :
    BI.Storable (upEmb : UEmb _ 𝕄) ((sched (F := F) PS PZ).payload g r d) := by
  show BI.Storable upEmb (match g.2 with
    | .reg _ => if d then barPayZ g.1.1 else barPayY g.1.1
    | .dma n =>
      if n.val < 26 then slotAny YS g.1.1 (chunkOf n.val 18)
      else if n.val < 34 then slotHas YR g.1.1 (chunkOf n.val 26) (PS (yp g.1.1) (chunkOf n.val 26))
      else if n.val < 42 then slotAny ZS g.1.1 (chunkOf n.val 34)
      else slotHas ZR g.1.1 (chunkOf n.val 42) (PZ (zp g.1.1) (chunkOf n.val 42)))
  unfold barPayY barPayZ slotAny slotHas
  (repeat' split) <;> infer_instance

end Sched

/-! ### The schedule's tables -/

section Tables

variable (PS PZ : Dev nD → Fin 8 → S128x256.Idx → Elt F .bf16) (c : Dev nD) (i : Fin 8)

theorem chunkOf_add (b : ℕ) : chunkOf (b + i.val) b = i := Fin.ext (by show (b + i.val - b) % 8 = i.val; have := i.isLt; omega)

omit [FloatOps F] in
theorem duties_bar : (sched (F := F) PS PZ).duties (barCell c) 0 = Finset.univ := by
  dsimp only [sched]; rw [if_pos ⟨rfl, rfl⟩]; exact if_pos rfl
omit [FloatOps F] in
theorem duties_ys : (sched (F := F) PS PZ).duties (ysCell c i) 0 = {false} := by
  dsimp only [sched]; rw [if_pos ⟨rfl, rfl⟩]; exact if_pos (by show 18 ≤ 18 + i.val; omega)
omit [FloatOps F] in
theorem duties_yr : (sched (F := F) PS PZ).duties (yrCell c i) 0 = {false} := by
  dsimp only [sched]; rw [if_pos ⟨rfl, rfl⟩]; exact if_pos (by show 18 ≤ 26 + i.val; omega)
omit [FloatOps F] in
theorem duties_zs : (sched (F := F) PS PZ).duties (zsCell c i) 0 = {false} := by
  dsimp only [sched]; rw [if_pos ⟨rfl, rfl⟩]; exact if_pos (by show 18 ≤ 34 + i.val; omega)
omit [FloatOps F] in
theorem duties_zr : (sched (F := F) PS PZ).duties (zrCell c i) 0 = {false} := by
  dsimp only [sched]; rw [if_pos ⟨rfl, rfl⟩]; exact if_pos (by show 18 ≤ 42 + i.val; omega)
omit [FloatOps F] in
theorem duties_later (g : GSem nD τ sig) : ∀ r, 1 ≤ r → (sched (F := F) PS PZ).duties g r = ∅ :=
  fun r hr => by dsimp only [sched]; rw [if_neg fun h => by omega]

omit [FloatOps F] in
theorem amount_bar (d : Bool) : (sched (F := F) PS PZ).amount (barCell c) 0 d = 1 := rfl
omit [FloatOps F] in
theorem amount_ys (d : Bool) : (sched (F := F) PS PZ).amount (ysCell c i) 0 d = N := rfl
omit [FloatOps F] in
theorem amount_yr (d : Bool) : (sched (F := F) PS PZ).amount (yrCell c i) 0 d = N := rfl
omit [FloatOps F] in
theorem amount_zs (d : Bool) : (sched (F := F) PS PZ).amount (zsCell c i) 0 d = N := rfl
omit [FloatOps F] in
theorem amount_zr (d : Bool) : (sched (F := F) PS PZ).amount (zrCell c i) 0 d = N := rfl

omit [FloatOps F] in
theorem expect_bar : (sched (F := F) PS PZ).expect (barCell c) 0 = 2 := by
  unfold Schedule.expect Schedule.amountOf
  rw [duties_bar, Finset.sum_congr rfl fun d _ => amount_bar PS PZ c d, Finset.sum_const, Finset.card_univ, Fintype.card_bool, smul_eq_mul]
omit [FloatOps F] in
theorem expect_ys : (sched (F := F) PS PZ).expect (ysCell c i) 0 = N := by
  unfold Schedule.expect Schedule.amountOf; rw [duties_ys, Finset.sum_singleton, amount_ys]
omit [FloatOps F] in
theorem expect_yr : (sched (F := F) PS PZ).expect (yrCell c i) 0 = N := by
  unfold Schedule.expect Schedule.amountOf; rw [duties_yr, Finset.sum_singleton, amount_yr]
omit [FloatOps F] in
theorem expect_zs : (sched (F := F) PS PZ).expect (zsCell c i) 0 = N := by
  unfold Schedule.expect Schedule.amountOf; rw [duties_zs, Finset.sum_singleton, amount_zs]
omit [FloatOps F] in
theorem expect_zr : (sched (F := F) PS PZ).expect (zrCell c i) 0 = N := by
  unfold Schedule.expect Schedule.amountOf; rw [duties_zr, Finset.sum_singleton, amount_zr]

omit [FloatOps F] in
theorem payload_bar_false : (sched (F := F) PS PZ).payload (barCell c) 0 false = barPayY c := by
  dsimp only [sched]; exact if_neg Bool.false_ne_true
omit [FloatOps F] in
theorem payload_bar_true : (sched (F := F) PS PZ).payload (barCell c) 0 true = barPayZ c := by
  dsimp only [sched]; exact if_pos rfl
omit [FloatOps F] in
theorem payload_ys (d : Bool) : (sched (F := F) PS PZ).payload (ysCell c i) 0 d = slotAny YS c i := by
  dsimp only [sched]
  rw [if_pos (show (ysSem i).val < 26 by show 18 + i.val < 26; have := i.isLt; omega)]
  show slotAny YS c (chunkOf (18 + i.val) 18) = _; rw [chunkOf_add]
omit [FloatOps F] in
theorem payload_yr (d : Bool) : (sched (F := F) PS PZ).payload (yrCell c i) 0 d = slotHas YR c i (PS (yp c) i) := by
  dsimp only [sched]
  rw [if_neg (show ¬ (yrSem i).val < 26 by show ¬ 26 + i.val < 26; omega), if_pos (show (yrSem i).val < 34 by show 26 + i.val < 34; have := i.isLt; omega)]
  show slotHas YR c (chunkOf (26 + i.val) 26) (PS (yp c) (chunkOf (26 + i.val) 26)) = _; rw [chunkOf_add]
omit [FloatOps F] in
theorem payload_zs (d : Bool) : (sched (F := F) PS PZ).payload (zsCell c i) 0 d = slotAny ZS c i := by
  dsimp only [sched]
  rw [if_neg (show ¬ (zsSem i).val < 26 by show ¬ 34 + i.val < 26; omega), if_neg (show ¬ (zsSem i).val < 34 by show ¬ 34 + i.val < 34; omega),
    if_pos (show (zsSem i).val < 42 by show 34 + i.val < 42; have := i.isLt; omega)]
  show slotAny ZS c (chunkOf (34 + i.val) 34) = _; rw [chunkOf_add]
omit [FloatOps F] in
theorem payload_zr (d : Bool) : (sched (F := F) PS PZ).payload (zrCell c i) 0 d = slotHas ZR c i (PZ (zp c) i) := by
  dsimp only [sched]
  rw [if_neg (show ¬ (zrSem i).val < 26 by show ¬ 42 + i.val < 26; omega), if_neg (show ¬ (zrSem i).val < 34 by show ¬ 42 + i.val < 34; omega),
    if_neg (show ¬ (zrSem i).val < 42 by show ¬ 42 + i.val < 42; omega)]
  show slotHas ZR c (chunkOf (42 + i.val) 42) (PZ (zp c) (chunkOf (42 + i.val) 42)) = _; rw [chunkOf_add]

omit [FloatOps F] in
/-- The whole of the barrier cell's round: both partners' buffers. -/
theorem rest_bar : bigSep ((sched (F := F) PS PZ).duties (barCell c) 0 \ ∅) (fun d => (sched (F := F) PS PZ).payload (barCell c) 0 d) = iprop(barPayY c ∗ barPayZ c) := by
  rw [Finset.sdiff_empty, duties_bar, bigSep_univ_eq_bigSepL [false, true] (by decide) (by decide), bigSepL_cons_cons, bigSepL_singleton,
    payload_bar_false, payload_bar_true]
  rfl
omit [FloatOps F] in
theorem rest_ys : bigSep ((sched (F := F) PS PZ).duties (ysCell c i) 0 \ ∅) (fun d => (sched (F := F) PS PZ).payload (ysCell c i) 0 d) = slotAny YS c i := by
  rw [Finset.sdiff_empty, duties_ys, bigSep_singleton, payload_ys]
omit [FloatOps F] in
theorem rest_yr : bigSep ((sched (F := F) PS PZ).duties (yrCell c i) 0 \ ∅) (fun d => (sched (F := F) PS PZ).payload (yrCell c i) 0 d) = slotHas YR c i (PS (yp c) i) := by
  rw [Finset.sdiff_empty, duties_yr, bigSep_singleton, payload_yr]
omit [FloatOps F] in
theorem rest_zs : bigSep ((sched (F := F) PS PZ).duties (zsCell c i) 0 \ ∅) (fun d => (sched (F := F) PS PZ).payload (zsCell c i) 0 d) = slotAny ZS c i := by
  rw [Finset.sdiff_empty, duties_zs, bigSep_singleton, payload_zs]
omit [FloatOps F] in
theorem rest_zr : bigSep ((sched (F := F) PS PZ).duties (zrCell c i) 0 \ ∅) (fun d => (sched (F := F) PS PZ).payload (zrCell c i) 0 d) = slotHas ZR c i (PZ (zp c) i) := by
  rw [Finset.sdiff_empty, duties_zr, bigSep_singleton, payload_zr]

end Tables

end Cert.Kernel.Hand

end
-- ==== Proof.WSteps.lean ====
import proofs.«900476_g7700000000000477_dist_rsdw_v7x_xyz2x2x2_y_m512_d512_f2048_f32_1_alg».proof.Proof.WProtocol

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What a device owes, in the order it pays

The last summand is paid first: the signal to the partner along y, the one to the partner along z, then the eight
landings along y (chunk 0 first), then the eight along z. `owedZ n` is what remains with the last `n` z-landings
unpaid, `owedY n` all z-landings and the last `n` y-landings. -/

def chunkRev (n : ℕ) : Fin 8 := ⟨(7 - n) % 8, Nat.mod_lt _ (by decide)⟩

def owedZ (c : Dev nD) : ℕ → CellTallies nD τ sig Unit
  | 0 => 0
  | n + 1 => owedZ c n + tallyAt (zrCell (zp c) (chunkRev n)) () N
def owedY (c : Dev nD) : ℕ → CellTallies nD τ sig Unit
  | 0 => owedZ c 8
  | n + 1 => owedY c n + tallyAt (yrCell (yp c) (chunkRev n)) () N
def owed₁ (c : Dev nD) : CellTallies nD τ sig Unit := owedY c 8 + tallyAt (barCell (zp c)) () 1
def owed₀ (c : Dev nD) : CellTallies nD τ sig Unit := owed₁ c + tallyAt (barCell (yp c)) () 1

/-- Levels: a barrier cell at 1, a y-receive cell at 2, a z-receive cell at 3, every other cell at 0. -/
def L (g : GSem nD τ sig) : Finset Unit := if g.1.2 = .tc then {()} else ∅
def lv (g : GSem nD τ sig) (_ : Unit) : ℕ :=
  match g.2 with
  | .reg _ => 1
  | .dma n => if n.val < 26 then 0 else if n.val < 34 then 2 else if n.val < 42 then 0 else 3

theorem L_of_ne (g : GSem nD τ sig) (h : g.1.2 ≠ .tc) : L g = ∅ := if_neg h
theorem L_tc (c : Dev nD) (sm : SemLoc sig) : L ((c : Thread nD τ), sm) = {()} := if_pos rfl

theorem owedZ_pos {c : Dev nD} {g : GSem nD τ sig} {u : Unit} : ∀ {n : ℕ}, 0 < owedZ c n g u → ∃ i, g = zrCell (zp c) i
  | 0, h => absurd h (Nat.lt_irrefl 0)
  | n + 1, h => by
    rcases Pipeline.add_pos_cases (show 0 < (owedZ c n + tallyAt (zrCell (zp c) (chunkRev n)) () N) g u from h) with h | h
    · exact owedZ_pos h
    · rw [tallyAt_apply] at h
      by_cases hg : g = zrCell (zp c) (chunkRev n) ∧ u = ()
      · exact ⟨_, hg.1⟩
      · rw [if_neg hg] at h; exact absurd h (Nat.lt_irrefl 0)

theorem owedY_pos {c : Dev nD} {g : GSem nD τ sig} {u : Unit} : ∀ {n : ℕ}, 0 < owedY c n g u → (∃ i, g = zrCell (zp c) i) ∨ ∃ i, g = yrCell (yp c) i
  | 0, h => Or.inl (owedZ_pos h)
  | n + 1, h => by
    rcases Pipeline.add_pos_cases (show 0 < (owedY c n + tallyAt (yrCell (yp c) (chunkRev n)) () N) g u from h) with h | h
    · exact owedY_pos h
    · rw [tallyAt_apply] at h
      by_cases hg : g = yrCell (yp c) (chunkRev n) ∧ u = ()
      · exact Or.inr ⟨_, hg.1⟩
      · rw [if_neg hg] at h; exact absurd h (Nat.lt_irrefl 0)

theorem lv_zr (c : Dev nD) (i : Fin 8) (u : Unit) : lv (zrCell c i) u = 3 := by
  have := i.isLt
  show (if (42 + i.val) < 26 then 0 else if (42 + i.val) < 34 then 2 else if (42 + i.val) < 42 then 0 else 3) = 3
  rw [if_neg (by omega), if_neg (by omega), if_neg (by omega)]
theorem lv_yr (c : Dev nD) (i : Fin 8) (u : Unit) : lv (yrCell c i) u = 2 := by
  have := i.isLt
  show (if (26 + i.val) < 26 then 0 else if (26 + i.val) < 34 then 2 else if (26 + i.val) < 42 then 0 else 3) = 2
  rw [if_neg (by omega), if_pos (by omega)]

omit [FloatOps F] in
/-- A wait on a cell of level at most 1 is allowed while only landings are owed. -/
theorem mayWait_owedY (c : Dev nD) (s : SemLoc sig) (hs : lv ((c : Thread nD τ), s) () ≤ 1) (n : ℕ) :
    (levAts L lv : sProp 𝕄) ⊢ MayWait (c : Thread nD τ) s () (owedY c n) :=
  Pipeline.mayWait_of_levAts (by rw [L_tc]; exact Finset.mem_singleton_self _) fun g u hg => by
    rcases owedY_pos hg with ⟨i, rfl⟩ | ⟨i, rfl⟩
    · exact ⟨by rw [L_tc]; exact Finset.mem_singleton_self _, by rw [lv_zr]; omega⟩
    · exact ⟨by rw [L_tc]; exact Finset.mem_singleton_self _, by rw [lv_yr]; omega⟩

omit [FloatOps F] in
/-- A wait on a cell of level at most 2 is allowed while only landings along z are owed. -/
theorem mayWait_owedZ (c : Dev nD) (s : SemLoc sig) (hs : lv ((c : Thread nD τ), s) () ≤ 2) (n : ℕ) :
    (levAts L lv : sProp 𝕄) ⊢ MayWait (c : Thread nD τ) s () (owedZ c n) :=
  Pipeline.mayWait_of_levAts (by rw [L_tc]; exact Finset.mem_singleton_self _) fun g u hg => by
    obtain ⟨i, rfl⟩ := owedZ_pos hg
    exact ⟨by rw [L_tc]; exact Finset.mem_singleton_self _, by rw [lv_zr]; omega⟩

/-! ## The addressed transfers and their receive waits, one lemma per kind, at any chunk -/

abbrev 𝒱₀ : Variants := Variants.none

section Xfer

variable (PS PZ : Dev nD → Fin 8 → S128x256.Idx → Elt F .bf16) (K : GSem nD τ sig → ℕ)

theorem amount_slot (M : Memref sig .tc .vmem S8x128x256 .bf16) (i : Fin 8) (s : DmaSem sig) : (slotM M i).view.amount (.dma s) = N := rfl

/-- The transfer of chunk `i` to the partner along y: the slot sent comes back with the send cell's round, the partner's
    slot, rewritten, is what its receive cell's round hands it. -/
theorem send_y (c n : Dev nD) (hn : n = yp c) (i : Fin 8)
    {hsc : ((slotM YR i) : Memref sig (Dev.tc n : Thread nD τ).2.kind .vmem S128x256 .bf16).view.ref.isScScratch = false}
    {hsrc : (slotM YS i).view.WordExact} {hdst : (slotM YR i).view.WordExact}
    {hsem : DmaTarget.Typed .vmem (.dma (yrSem i)) (.remote (Dev.tc n : Thread nD τ) (slotM YR i) (.dma (ysSem i)) hsc)}
    {α : Type} {Q : α → sProp 𝕄} {k : PUnit → Prog (TpuEff nD τ sig (Elt F) Λ₀ .tc) α}
    (fs : Buf (Elt F) ((slotM YS i).view.loc (c : Thread nD τ))) (fd : Buf (Elt F) ((slotM YR i).view.loc (yp c : Thread nD τ)))
    (hval : (slotM YS i).view.read (Elt F) fs = PS c i)
    (O : CellTallies nD τ sig Unit) (W : Waits sig Unit) :
    iprop(cellInv ER (sched PS PZ) (K (ysCell c i)) (ysCell c i) ∗ cellInv ER (sched PS PZ) (K (yrCell (yp c) i)) (yrCell (yp c) i)
        ∗ ((slotM YS i).view.loc (c : Thread nD τ) ↦[(slotM YS i).view.set]{fullShare} fs)
        ∗ ((slotM YR i).view.loc (yp c : Thread nD τ) ↦[(slotM YR i).view.set]{fullShare} fd)
        ∗ owes (c : Thread nD τ) (O + tallyAt (yrCell (yp c) i) () N) W
        ∗ dutyTok ER (ysCell c i) 0 false ∗ reached ER (ysCell c i) 0
        ∗ dutyTok ER (yrCell (yp c) i) 0 false ∗ reached ER (yrCell (yp c) i) 0)
      ⊢ iprop(((cred (tallyAt (ysCell c i) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM YS i) (.remote (Dev.tc n : Thread nD τ) (slotM YR i) (.dma (ysSem i)) hsc) (.dma (yrSem i)) hsrc hdst hsem) k) Q) := by
  subst hn
  exact Rounds.wp_send_pointsTo 𝒱₀ ER (sched PS PZ) (c : Thread nD τ) none (κ₁ := K (ysCell c i)) (κ₂ := K (yrCell (yp c) i))
    (c' := (yp c : Thread nD τ)) (src := slotM YS i) (dst := slotM YR i) (q := fullShare) (fs := fs)
    (r₁ := 0) (r₂ := 0) (d₁ := false) (d₂ := false) (fd := fd)
    (by rw [duties_ys]; exact Finset.mem_singleton_self _) (by rw [duties_yr]; exact Finset.mem_singleton_self _)
    () () N (amount_slot YR i _) (amount_ys PS PZ c i false) (amount_yr PS PZ (yp c) i false) O rfl (W := W)
    (by rw [payload_ys]; unfold slotAny; iintro H; iexists fs; iexact H)
    (by
      rw [payload_yr, yp_yp]; unfold slotHas
      iintro H; iexists ((slotM YR i).view.write (Elt F) fd ((slotM YS i).view.read (Elt F) fs) Finset.univ)
      isplitr
      · ipureintro; rw [View.read_write_univ]; exact hval
      · iexact H)
    (routes_yp c)

set_option maxHeartbeats 3200000 in
/-- The same along z. -/
theorem send_z (c n : Dev nD) (hn : n = zp c) (i : Fin 8)
    {hsc : ((slotM ZR i) : Memref sig (Dev.tc n : Thread nD τ).2.kind .vmem S128x256 .bf16).view.ref.isScScratch = false}
    {hsrc : (slotM ZS i).view.WordExact} {hdst : (slotM ZR i).view.WordExact}
    {hsem : DmaTarget.Typed .vmem (.dma (zrSem i)) (.remote (Dev.tc n : Thread nD τ) (slotM ZR i) (.dma (zsSem i)) hsc)}
    {α : Type} {Q : α → sProp 𝕄} {k : PUnit → Prog (TpuEff nD τ sig (Elt F) Λ₀ .tc) α}
    (fs : Buf (Elt F) ((slotM ZS i).view.loc (c : Thread nD τ))) (fd : Buf (Elt F) ((slotM ZR i).view.loc (zp c : Thread nD τ)))
    (hval : (slotM ZS i).view.read (Elt F) fs = PZ c i)
    (O : CellTallies nD τ sig Unit) (W : Waits sig Unit) :
    iprop(cellInv ER (sched PS PZ) (K (zsCell c i)) (zsCell c i) ∗ cellInv ER (sched PS PZ) (K (zrCell (zp c) i)) (zrCell (zp c) i)
        ∗ ((slotM ZS i).view.loc (c : Thread nD τ) ↦[(slotM ZS i).view.set]{fullShare} fs)
        ∗ ((slotM ZR i).view.loc (zp c : Thread nD τ) ↦[(slotM ZR i).view.set]{fullShare} fd)
        ∗ owes (c : Thread nD τ) (O + tallyAt (zrCell (zp c) i) () N) W
        ∗ dutyTok ER (zsCell c i) 0 false ∗ reached ER (zsCell c i) 0
        ∗ dutyTok ER (zrCell (zp c) i) 0 false ∗ reached ER (zrCell (zp c) i) 0)
      ⊢ iprop(((cred (tallyAt (zsCell c i) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM ZS i) (.remote (Dev.tc n : Thread nD τ) (slotM ZR i) (.dma (zsSem i)) hsc) (.dma (zrSem i)) hsrc hdst hsem) k) Q) := by
  subst hn
  exact Rounds.wp_send_pointsTo 𝒱₀ ER (sched PS PZ) (c : Thread nD τ) none (κ₁ := K (zsCell c i)) (κ₂ := K (zrCell (zp c) i))
    (c' := (zp c : Thread nD τ)) (src := slotM ZS i) (dst := slotM ZR i) (q := fullShare) (fs := fs)
    (r₁ := 0) (r₂ := 0) (d₁ := false) (d₂ := false) (fd := fd)
    (by rw [duties_zs]; exact Finset.mem_singleton_self _) (by rw [duties_zr]; exact Finset.mem_singleton_self _)
    () () N (amount_slot ZR i _) (amount_zs PS PZ c i false) (amount_zr PS PZ (zp c) i false) O rfl (W := W)
    (by rw [payload_zs]; unfold slotAny; iintro H; iexists fs; iexact H)
    (by
      rw [payload_zr, zp_zp]; unfold slotHas
      iintro H; iexists ((slotM ZR i).view.write (Elt F) fd ((slotM ZS i).view.read (Elt F) fs) Finset.univ)
      isplitr
      · ipureintro; rw [View.read_write_univ]; exact hval
      · iexact H)
    (routes_zp c)

set_option maxHeartbeats 3200000 in
/-- `send_y` with what the sent slot holds stated last, beside the resources. -/
theorem send_y' (c n : Dev nD) (hn : n = yp c) (i : Fin 8)
    {hsc : ((slotM YR i) : Memref sig (Dev.tc n : Thread nD τ).2.kind .vmem S128x256 .bf16).view.ref.isScScratch = false}
    {hsrc : (slotM YS i).view.WordExact} {hdst : (slotM YR i).view.WordExact}
    {hsem : DmaTarget.Typed .vmem (.dma (yrSem i)) (.remote (Dev.tc n : Thread nD τ) (slotM YR i) (.dma (ysSem i)) hsc)}
    {α : Type} {Q : α → sProp 𝕄} {k : PUnit → Prog (TpuEff nD τ sig (Elt F) Λ₀ .tc) α}
    (fs : Buf (Elt F) ((slotM YS i).view.loc (c : Thread nD τ))) (fd : Buf (Elt F) ((slotM YR i).view.loc (yp c : Thread nD τ)))
    (O : CellTallies nD τ sig Unit) (W : Waits sig Unit) :
    iprop((cellInv ER (sched PS PZ) (K (ysCell c i)) (ysCell c i) ∗ cellInv ER (sched PS PZ) (K (yrCell (yp c) i)) (yrCell (yp c) i)
        ∗ ((slotM YS i).view.loc (c : Thread nD τ) ↦[(slotM YS i).view.set]{fullShare} fs)
        ∗ ((slotM YR i).view.loc (yp c : Thread nD τ) ↦[(slotM YR i).view.set]{fullShare} fd)
        ∗ owes (c : Thread nD τ) (O + tallyAt (yrCell (yp c) i) () N) W
        ∗ dutyTok ER (ysCell c i) 0 false ∗ reached ER (ysCell c i) 0
        ∗ dutyTok ER (yrCell (yp c) i) 0 false ∗ reached ER (yrCell (yp c) i) 0)
        ∗ ⌜(slotM YS i).view.read (Elt F) fs = PS c i⌝)
      ⊢ iprop(((cred (tallyAt (ysCell c i) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM YS i) (.remote (Dev.tc n : Thread nD τ) (slotM YR i) (.dma (ysSem i)) hsc) (.dma (yrSem i)) hsrc hdst hsem) k) Q) := by
  iintro ⟨H, %hval⟩
  iapply (send_y PS PZ K c n hn i fs fd hval O W) $$ H

set_option maxHeartbeats 3200000 in
/-- The same along z. -/
theorem send_z' (c n : Dev nD) (hn : n = zp c) (i : Fin 8)
    {hsc : ((slotM ZR i) : Memref sig (Dev.tc n : Thread nD τ).2.kind .vmem S128x256 .bf16).view.ref.isScScratch = false}
    {hsrc : (slotM ZS i).view.WordExact} {hdst : (slotM ZR i).view.WordExact}
    {hsem : DmaTarget.Typed .vmem (.dma (zrSem i)) (.remote (Dev.tc n : Thread nD τ) (slotM ZR i) (.dma (zsSem i)) hsc)}
    {α : Type} {Q : α → sProp 𝕄} {k : PUnit → Prog (TpuEff nD τ sig (Elt F) Λ₀ .tc) α}
    (fs : Buf (Elt F) ((slotM ZS i).view.loc (c : Thread nD τ))) (fd : Buf (Elt F) ((slotM ZR i).view.loc (zp c : Thread nD τ)))
    (O : CellTallies nD τ sig Unit) (W : Waits sig Unit) :
    iprop((cellInv ER (sched PS PZ) (K (zsCell c i)) (zsCell c i) ∗ cellInv ER (sched PS PZ) (K (zrCell (zp c) i)) (zrCell (zp c) i)
        ∗ ((slotM ZS i).view.loc (c : Thread nD τ) ↦[(slotM ZS i).view.set]{fullShare} fs)
        ∗ ((slotM ZR i).view.loc (zp c : Thread nD τ) ↦[(slotM ZR i).view.set]{fullShare} fd)
        ∗ owes (c : Thread nD τ) (O + tallyAt (zrCell (zp c) i) () N) W
        ∗ dutyTok ER (zsCell c i) 0 false ∗ reached ER (zsCell c i) 0
        ∗ dutyTok ER (zrCell (zp c) i) 0 false ∗ reached ER (zrCell (zp c) i) 0)
        ∗ ⌜(slotM ZS i).view.read (Elt F) fs = PZ c i⌝)
      ⊢ iprop(((cred (tallyAt (zsCell c i) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM ZS i) (.remote (Dev.tc n : Thread nD τ) (slotM ZR i) (.dma (zsSem i)) hsc) (.dma (zrSem i)) hsrc hdst hsem) k) Q) := by
  iintro ⟨H, %hval⟩
  iapply (send_z PS PZ K c n hn i fs fd hval O W) $$ H

end Xfer

section Recv

variable (PS PZ : Dev nD → Fin 8 → S128x256.Idx → Elt F .bf16) (K : GSem nD τ sig → ℕ)

set_option maxHeartbeats 1600000 in
/-- The wait for what the partner along y sent for chunk `i`: the slot comes back holding it. -/
theorem recv_y (c : Dev nD) (i : Fin 8) (sem : DmaSem sig) (hs : sem = yrSem i)
    {sp' : Space} {s' : Shape} {e' : EltTy} {src : Memref sig .tc sp' s' e'}
    {hsrc : src.view.WordExact} {hdst : (slotM YR i).view.WordExact}
    {α : Type} {Q : α → sProp 𝕄} {k : PUnit → Prog (TpuEff nD τ sig (Elt F) Λ₀ .tc) α}
    (O : CellTallies nD τ sig Unit) (W : Waits sig Unit) :
    iprop(cellInv ER (sched PS PZ) (K (yrCell c i)) (yrCell c i) ∗ cred (tallyAt (yrCell c i) () N) ∗ owes (c : Thread nD τ) O W
        ∗ MayWait (c : Thread nD τ) (.dma (yrSem i)) () O ∗ atPos ER (yrCell c i) 0 ∅ 0)
      ⊢ iprop(((owes (c : Thread nD τ) O (insert (SemLoc.dma (yrSem i), ()) W) ∗ atPos ER (yrCell c i) 1 ∅ 0 ∗ reached ER (yrCell c i) 1
              ∗ slotHas YR c i (PS (yp c) i))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src (slotM YR i) hsrc hdst) k) Q) := by
  subst hs
  have hcr : (slotM YR i).view.dmaCredit = N := rfl
  have h := Rounds.wp_wait_rest_token (defs := defs₀ (F := F)) 𝒱₀ ER (sched PS PZ) (c : Thread nD τ) none (κ := K (yrCell c i)) (Q := Q) (k := k)
      (w := .waitDma2 (yrSem i) src (slotM YR i) hsrc hdst) (sm := .dma (yrSem i)) (k' := (slotM YR i).view.dmaCredit)
      (wpE_waitDma2_eq (defs := defs₀ (F := F)) 𝒱₀ (c : Thread nD τ) none Set.univ) (Set.mem_univ _) () (O := O) (W := W) (R := 0) (m := 0) (T := ∅)
      (by rw [Nat.zero_add, hcr, expect_yr])
  rw [hcr, rest_yr] at h
  exact h

set_option maxHeartbeats 1600000 in
/-- The same along z. -/
theorem recv_z (c : Dev nD) (i : Fin 8) (sem : DmaSem sig) (hs : sem = zrSem i)
    {sp' : Space} {s' : Shape} {e' : EltTy} {src : Memref sig .tc sp' s' e'}
    {hsrc : src.view.WordExact} {hdst : (slotM ZR i).view.WordExact}
    {α : Type} {Q : α → sProp 𝕄} {k : PUnit → Prog (TpuEff nD τ sig (Elt F) Λ₀ .tc) α}
    (O : CellTallies nD τ sig Unit) (W : Waits sig Unit) :
    iprop(cellInv ER (sched PS PZ) (K (zrCell c i)) (zrCell c i) ∗ cred (tallyAt (zrCell c i) () N) ∗ owes (c : Thread nD τ) O W
        ∗ MayWait (c : Thread nD τ) (.dma (zrSem i)) () O ∗ atPos ER (zrCell c i) 0 ∅ 0)
      ⊢ iprop(((owes (c : Thread nD τ) O (insert (SemLoc.dma (zrSem i), ()) W) ∗ atPos ER (zrCell c i) 1 ∅ 0 ∗ reached ER (zrCell c i) 1
              ∗ slotHas ZR c i (PZ (zp c) i))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src (slotM ZR i) hsrc hdst) k) Q) := by
  subst hs
  have hcr : (slotM ZR i).view.dmaCredit = N := rfl
  have h := Rounds.wp_wait_rest_token (defs := defs₀ (F := F)) 𝒱₀ ER (sched PS PZ) (c : Thread nD τ) none (κ := K (zrCell c i)) (Q := Q) (k := k)
      (w := .waitDma2 (zrSem i) src (slotM ZR i) hsrc hdst) (sm := .dma (zrSem i)) (k' := (slotM ZR i).view.dmaCredit)
      (wpE_waitDma2_eq (defs := defs₀ (F := F)) 𝒱₀ (c : Thread nD τ) none Set.univ) (Set.mem_univ _) () (O := O) (W := W) (R := 0) (m := 0) (T := ∅)
      (by rw [Nat.zero_add, hcr, expect_zr])
  rw [hcr, rest_zr] at h
  exact h

end Recv

end Cert.Kernel.Hand

end
-- ==== Proof.WSlots.lean ====
import proofs.«900476_g7700000000000477_dist_rsdw_v7x_xyz2x2x2_y_m512_d512_f2048_f32_1_alg».proof.Proof.WProtocol
import Idealize.ShloMosaic.Rules.PointsTo

set_option maxRecDepth 16384

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## A buffer of eight slots is its eight slots

Slot `i` of an `[8,128,256]` buffer is the elements whose first coordinate is `i`; the eight are pairwise disjoint and
together are every element. -/

abbrev slotRect (i : Fin 8) : Rect S8x128x256 := Rect.unit (s := S8x128x256) ![i.val, 0, 0] S1x128x256.size (slot_inb i)

theorem mem_slotRect {i : Fin 8} {j : S8x128x256.Idx} : j ∈ (slotRect i).set ↔ (j 0).val = i.val := by
  rw [Rect.mem_set_unit]
  have h0 : S1x128x256.size 0 = 1 := rfl
  have h1 : S1x128x256.size 1 = 128 := rfl
  have h2 : S1x128x256.size 2 = 256 := rfl
  constructor
  · intro h; have := h 0; simp only [Matrix.cons_val_zero] at this; omega
  · intro h a
    match a with
    | ⟨0, _⟩ => exact ⟨by show i.val ≤ (j 0).val; omega, by show (j 0).val < i.val + S1x128x256.size 0; omega⟩
    | ⟨1, _⟩ => exact ⟨Nat.zero_le _, by show (j 1).val < 0 + S1x128x256.size 1; have : (j 1).val < 128 := (j 1).isLt; omega⟩
    | ⟨2, _⟩ => exact ⟨Nat.zero_le _, by show (j 2).val < 0 + S1x128x256.size 2; have : (j 2).val < 256 := (j 2).isLt; omega⟩

/-- Slot `i`'s elements, as elements of the whole buffer's location. -/
def slotSet (M : Memref sig .tc .vmem S8x128x256 .bf16) (c : Dev nD) (i : Fin 8) : Finset (Idx (M.view.loc (c : Thread nD τ))) :=
  (slotRect i).set.map M.view.emb

theorem slot_view_set (M : Memref sig .tc .vmem S8x128x256 .bf16) (c : Dev nD) (i : Fin 8) :
    (slotM M i).view.set = slotSet M c i := by
  show ((M.view.slice (slotRect i)).reshape S128x256 _).set = _
  rw [View.set_reshape, View.set_slice]; rfl

theorem slot_disjoint (M : Memref sig .tc .vmem S8x128x256 .bf16) (c : Dev nD) (i i' : Fin 8) (h : i ≠ i') :
    Disjoint (slotSet M c i) (slotSet M c i') := by
  unfold slotSet
  rw [Finset.disjoint_map, Finset.disjoint_left]
  intro j hj hj'
  exact h (Fin.ext ((mem_slotRect.mp hj).symm.trans (mem_slotRect.mp hj')))

theorem slot_cover (M : Memref sig .tc .vmem S8x128x256 .bf16) (c : Dev nD) :
    (Finset.univ : Finset (Fin 8)).biUnion (slotSet M c) = M.view.set := by
  ext x
  simp only [Finset.mem_biUnion, Finset.mem_univ, true_and, slotSet, Finset.mem_map]
  constructor
  · rintro ⟨i, j, _, rfl⟩; exact Finset.mem_map.mpr ⟨j, Finset.mem_univ _, rfl⟩
  · intro hx
    obtain ⟨j, _, rfl⟩ := Finset.mem_map.mp hx
    exact ⟨⟨(j 0).val, (j 0).isLt⟩, j, mem_slotRect.mpr rfl, rfl⟩

/-- A whole buffer held is its eight slots held, at the same contents. -/
theorem split8 (M : Memref sig .tc .vmem S8x128x256 .bf16) (c : Dev nD) (q : PosShare TreeShare) (f : Buf (Elt F) (M.view.loc (c : Thread nD τ))) :
    (M.view.loc (c : Thread nD τ) ↦[M.view.set]{q} f : sProp 𝕄)
      = bigSep Finset.univ fun i : Fin 8 => (M.view.loc (c : Thread nD τ) ↦[slotSet M c i]{q} f) := by
  rw [← slot_cover M c]
  exact pointsTo_biUnion Finset.univ (slotSet M c) fun i _ i' _ h => slot_disjoint M c i i' h

omit [FloatOps F] in
theorem bigSep_fin8 (Φ : Fin 8 → sProp 𝕄) : bigSep Finset.univ Φ = all8 Φ := by
  rw [bigSep_univ_eq_bigSepL [0, 1, 2, 3, 4, 5, 6, 7] (by decide) (by decide)]
  rfl

/-- The same with each slot named through its own memref, the form the transfers and the accesses take it in. -/
theorem split8' (M : Memref sig .tc .vmem S8x128x256 .bf16) (hM : M.view.set = Finset.univ) (c : Dev nD) (q : PosShare TreeShare)
    (f : Buf (Elt F) (M.view.loc (c : Thread nD τ))) :
    (M.view.loc (c : Thread nD τ) ↦{q} f : sProp 𝕄)
      = all8 fun i : Fin 8 => ((slotM M i).view.loc (c : Thread nD τ) ↦[(slotM M i).view.set]{q} f) := by
  rw [← bigSep_fin8]
  have := split8 (F := F) M c q f
  rw [hM] at this
  rw [this]
  refine bigSep_congr fun i _ => ?_
  rw [slot_view_set M c i]
  rfl

/-- Eight slots held, each at its own contents, are the whole buffer held at some contents. -/
theorem join8 (M : Memref sig .tc .vmem S8x128x256 .bf16) (hM : M.view.set = Finset.univ) (c : Dev nD)
    (fs : Fin 8 → Buf (Elt F) (M.view.loc (c : Thread nD τ))) :
    (all8 fun i : Fin 8 => ((slotM M i).view.loc (c : Thread nD τ) ↦[(slotM M i).view.set]{fullShare} fs i) : sProp 𝕄)
      ⊢ iprop(∃ g, M.view.loc (c : Thread nD τ) ↦{fullShare} g) := by
  rw [← bigSep_fin8]
  have hc : (bigSep Finset.univ fun i : Fin 8 => ((slotM M i).view.loc (c : Thread nD τ) ↦[(slotM M i).view.set]{fullShare} fs i) : sProp 𝕄)
      = bigSep Finset.univ fun i : Fin 8 => (M.view.loc (c : Thread nD τ) ↦[slotSet M c i]{fullShare} fs i) :=
    bigSep_congr fun i _ => by rw [slot_view_set M c i]; rfl
  rw [hc]
  iintro H
  ihave H' := (pointsTo_biUnion_join (q := fullShare) Finset.univ (slotSet M c) fs (fs 0) fun i _ i' _ h => slot_disjoint M c i i' h) $$ H
  icases H' with ⟨%g, -, Hg⟩
  iexists g
  rw [slot_cover M c, hM]
  iexact Hg

/-- A `[1,128,256]` vector read as the `[128,256]` one with the same elements in the same order, and back. -/
def sqz {α : Type} (w : S1x128x256.Idx → α) : S128x256.Idx → α := fun j => w (Shape.reshapeEquiv (squeezes_S1x128x256_S128x256).numel_eq j)
def unsqz {α : Type} (w : S128x256.Idx → α) : S1x128x256.Idx → α := fun j => w ((Shape.reshapeEquiv (squeezes_S1x128x256_S128x256).numel_eq).symm j)

theorem unsqz_sqz {α : Type} (w : S1x128x256.Idx → α) : unsqz (sqz w) = w := by
  funext j; unfold unsqz sqz; rw [Equiv.apply_symm_apply]

/-- Slot `i`, read right after the `[1,128,256]` vector `w` was stored over it, holds `w`. -/
theorem slot_read_store (M : Memref sig .tc .vmem S8x128x256 .bf16) (i : Fin 8) (f : BufTy.Contents (Elt F) M.view.ty) (w : S1x128x256.Idx → Elt F .bf16) :
    (slotM M i).view.read (Elt F) (View.write (Elt F) (M.access (slotRect i)) f w Finset.univ) = sqz w := by
  funext j
  show (M.view.slice (slotRect i)).read (Elt F) _ (Shape.reshapeEquiv _ j) = _
  rw [View.read_write_univ]; rfl

/-- Slot `i` loaded through the whole buffer is the slot's contents as a `[1,128,256]` vector. -/
theorem slot_load (M : Memref sig .tc .vmem S8x128x256 .bf16) (i : Fin 8) (G : BufTy.Contents (Elt F) M.view.ty) :
    View.readAt (Elt F) M.view (slotRect i).toLoadRect G = unsqz ((slotM M i).view.read (Elt F) G) := by
  funext j
  show (M.view.slice (slotRect i)).read (Elt F) G j = (M.view.slice (slotRect i)).read (Elt F) G (Shape.reshapeEquiv _ ((Shape.reshapeEquiv _).symm j))
  rw [Equiv.apply_symm_apply]

end Cert.Kernel.Hand

end
-- ==== Proof.WContents.lean ====
import proofs.«900476_g7700000000000477_dist_rsdw_v7x_xyz2x2x2_y_m512_d512_f2048_f32_1_alg».proof.Proof.WSlots
import proofs.«900476_g7700000000000477_dist_rsdw_v7x_xyz2x2x2_y_m512_d512_f2048_f32_1_alg».proof.Proof.Gen.Kernel.Skeleton
import Idealize.ShloMosaic.Lib.ValueIdx

set_option maxRecDepth 16384

noncomputable section

namespace Cert.Kernel.Hand

open Cert.Kernel Cert.Kernel.Gen

open Idealize.ShloMosaic
open Idealize.ShloMosaic.TcCoe
open Idealize.SL Idealize.SL.Sem

variable {F : FTy → Type} [FloatOps F]

/-! ## What each device computes, as functions of its two blocks

`fx` is the device's block of x as staged, `fdy` its block of dy. The columns of x taken for the partner along y and for
the device itself are transposed into two `[128,512]` operands; chunk `i` of dy is its columns `256·i …`. -/

abbrev X0 : Memref sig .tc .vmem S512x512 .f32 := Memref.whole cc0_stg0_0
abbrev DYV : Memref sig .tc .vmem S512x2048 .f32 := Memref.whole cc0_scratch0

/-- The transposed columns of x that go to the partner along y; -/
def xsV (c : Dev nD) (fx : BufTy.Contents (Elt F) X0.view.ty) : FVec F S128x512 .f32 :=
  k0_pay4 (k0_pay2 (k0_pay1 (View.readAt (Elt F) X0.view (Rect.unit (s := S512x512) (k0_off1 c) S512x128.size (k0_off1_inb c)).toLoadRect fx)))
/-- and the device's own. -/
def xoV (c : Dev nD) (fx : BufTy.Contents (Elt F) X0.view.ty) : FVec F S128x512 .f32 :=
  k0_pay5 (k0_pay3 (View.readAt (Elt F) X0.view (Rect.unit (s := S512x512) (k0_off2 c) S512x128.size (k0_off2_inb c)).toLoadRect fx))

theorem chunk_inb (i : Fin 8) : ∀ a, (![0, 256 * i.val] : Fin 2 → Nat) a + S512x256.size a ≤ S512x2048.size a := by revert i; decide

/-- Column chunk `i` of the dy block. -/
def dyChunk (fdy : BufTy.Contents (Elt F) DYV.view.ty) (i : Fin 8) : Vec F S512x256 .f32 :=
  View.readAt (Elt F) DYV.view (Rect.unit (s := S512x2048) ![0, 256 * i.val] S512x256.size (chunk_inb i)).toLoadRect fdy

/-- A `[128,512]` operand times a chunk, as the `[1,128,256]` bf16 vector stored for sending. -/
def prodU (xs : FVec F S128x512 .f32) (d : Vec F S512x256 .f32) : FVec F S128x256 .f32 :=
  matmul dot_S128x512_S512x256_S128x256_1_0_0_1_n_n none xs d (constant S128x256 .f32 0x00000000#32)
def psU (xs : FVec F S128x512 .f32) (d : Vec F S512x256 .f32) : FVec F S1x128x256 .bf16 :=
  shapeCast S1x128x256 (truncf .bf16 (prodU xs d) bitsLt_bf16_f32) shapeCasts_S128x256_S1x128x256
/-- The own product plus what arrived along y. -/
def redU (xo : FVec F S128x512 .f32) (d : Vec F S512x256 .f32) (r : Vec F S1x128x256 .bf16) : FVec F S128x256 .f32 :=
  addf (prodU xo d) (extf .f32 (shapeCast S128x256 r shapeCasts_S1x128x256_S128x256) bitsLt_bf16_f32)
def pzU (xo : FVec F S128x512 .f32) (d : Vec F S512x256 .f32) (r : Vec F S1x128x256 .bf16) : FVec F S1x128x256 .bf16 :=
  shapeCast S1x128x256 (truncf .bf16 (redU xo d r) bitsLt_bf16_f32) shapeCasts_S128x256_S1x128x256
def keepU (xo : FVec F S128x512 .f32) (d : Vec F S512x256 .f32) (r : Vec F S1x128x256 .bf16) : FVec F S1x128x256 .f32 :=
  shapeCast S1x128x256 (redU xo d r) shapeCasts_S128x256_S1x128x256
/-- What arrived along z, widened. -/
def widenU (r : Vec F S1x128x256 .bf16) : FVec F S1x128x256 .f32 :=
  shapeCast S1x128x256 (extf .f32 (shapeCast S128x256 r shapeCasts_S1x128x256_S128x256) bitsLt_bf16_f32) shapeCasts_S128x256_S1x128x256

example (a : Vec F S1x128x512 .f32) (b : Vec F S512x256 .f32) : k0_pay6 a b = psU (k0_pay4 a) b := rfl
example (a : FVec F S128x512 .f32) (b : Vec F S512x256 .f32) : k0_pay7 a b = psU a b := rfl
example (a : FVec F S128x512 .f32) (b : Vec F S512x256 .f32) : k0_pay8 a b (constant S128x256 .f32 0x00000000#32) = psU a b := rfl
example (a : FVec F S128x512 .f32) (b : Vec F S512x256 .f32) (r : Vec F S1x128x256 .bf16) : k0_pay16 a b (constant S128x256 .f32 0x00000000#32) r = pzU a b r := rfl
example (a : FVec F S128x512 .f32) (b : Vec F S512x256 .f32) (r : Vec F S1x128x256 .bf16) : k0_pay15 a b (constant S128x256 .f32 0x00000000#32) r = keepU a b r := rfl
example (a : FVec F S128x512 .f32) (b : Vec F S512x256 .f32) (r : Vec F S1x128x256 .bf16) : k0_pay20 (k0_pay17 a b) r = pzU a b r := rfl
example (r : Vec F S1x128x256 .bf16) : k0_pay42 r = widenU r := rfl
example (r : Vec F S1x128x256 .bf16) : k0_pay49 (k0_pay48 r) = widenU r := rfl

/-! ## Over the launch memory `m` -/

section Mem

variable (m : (ℓ : Loc nD τ sig) → Buf (Elt F) ℓ)

/-- Device `c`'s block of x, as its staging buffer holds it; -/
def xstg (c : Dev nD) : BufTy.Contents (Elt F) X0.view.ty :=
  (win0_0.blk (0 : Fin 1)).view.read (Elt F) (m ((c : Thread nD τ).loc main_arg0))
/-- and its block of dy. -/
def dyB (c : Dev nD) : BufTy.Contents (Elt F) DYV.view.ty := m ((c : Thread nD τ).loc main_arg1)

/-- What device `c` sends its partner along y for chunk `i`: the partner's rows, summed over `c`'s 512 rows of x and dy; -/
def PSm (c : Dev nD) (i : Fin 8) : S128x256.Idx → Elt F .bf16 :=
  sqz (psU (xsV c (xstg m c)) (dyChunk (dyB m c) i))
/-- what it keeps for chunk `i`: its own rows, its share plus the partner's; -/
def keepM (c : Dev nD) (i : Fin 8) : FVec F S1x128x256 .f32 :=
  keepU (xoV c (xstg m c)) (dyChunk (dyB m c) i) (unsqz (PSm m (yp c) i))
/-- what it sends its partner along z: the same, narrowed; -/
def PZm (c : Dev nD) (i : Fin 8) : S128x256.Idx → Elt F .bf16 :=
  sqz (pzU (xoV c (xstg m c)) (dyChunk (dyB m c) i) (unsqz (PSm m (yp c) i)))
/-- and what it receives from there, widened. -/
def otherM (c : Dev nD) (i : Fin 8) : FVec F S1x128x256 .f32 := widenU (unsqz (PZm m (zp c) i))

/-- The device's result block `[256, 2048]`: row `p`, column `q` lies in column chunk `q / 256`; rows `128·z …` (`z` the
    device's position along z, the low bit of its id) are what it kept, the other 128 rows what its partner along z sent. -/
def outM (c : Dev nD) : S256x2048.Idx → Elt F .f32 := fun idx =>
  let i : Fin 8 := ⟨(idx 1).val / 256, by have : (idx 1).val < 2048 := (idx 1).isLt; omega⟩
  let j : S1x128x256.Idx := ValueIdx.ix3 (0 : Fin 1) (⟨(idx 0).val % 128, Nat.mod_lt _ (by decide)⟩ : Fin 128) (⟨(idx 1).val % 256, Nat.mod_lt _ (by decide)⟩ : Fin 256)
  if (idx 0).val / 128 = c.val % 2 then keepM m c i j else otherM m c i j

end Mem

end Cert.Kernel.Hand

end
-- ==== Proof.WBodyDefs.lean ====
import proofs.«900476_g7700000000000477_dist_rsdw_v7x_xyz2x2x2_y_m512_d512_f2048_f32_1_alg».proof.Proof.WSteps
import proofs.«900476_g7700000000000477_dist_rsdw_v7x_xyz2x2x2_y_m512_d512_f2048_f32_1_alg».proof.Proof.WContents
import proofs.«900476_g7700000000000477_dist_rsdw_v7x_xyz2x2x2_y_m512_d512_f2048_f32_1_alg».proof.Proof.Gen.Kernel.Launch
import proofs.«900476_g7700000000000477_dist_rsdw_v7x_xyz2x2x2_y_m512_d512_f2048_f32_1_alg».proof.Proof.Gen.Kernel.Points

set_option maxRecDepth 16384

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

instance all8_persistent (Φ : Fin 8 → sProp 𝕄) [∀ i, BI.Persistent (Φ i)] : BI.Persistent (all8 Φ) := by unfold all8; infer_instance

section Ghost

variable (PS PZ : Dev nD → Fin 8 → S128x256.Idx → Elt F .bf16)

/-- What device `c` knows for good: the invariants of its own cells and of the cells it pays, and the rounds it knows reached. -/
def invsG (K : GSem nD τ sig → ℕ) (c : Dev nD) : sProp 𝕄 :=
  iprop(cellInv ER (sched PS PZ) (K (barCell c)) (barCell c) ∗ cellInv ER (sched PS PZ) (K (barCell (yp c))) (barCell (yp c))
    ∗ cellInv ER (sched PS PZ) (K (barCell (zp c))) (barCell (zp c))
    ∗ (all8 fun i => cellInv ER (sched PS PZ) (K (ysCell c i)) (ysCell c i)) ∗ (all8 fun i => cellInv ER (sched PS PZ) (K (yrCell c i)) (yrCell c i))
    ∗ (all8 fun i => cellInv ER (sched PS PZ) (K (zsCell c i)) (zsCell c i)) ∗ (all8 fun i => cellInv ER (sched PS PZ) (K (zrCell c i)) (zrCell c i))
    ∗ (all8 fun i => cellInv ER (sched PS PZ) (K (yrCell (yp c) i)) (yrCell (yp c) i)) ∗ (all8 fun i => cellInv ER (sched PS PZ) (K (zrCell (zp c) i)) (zrCell (zp c) i))
    ∗ reached ER (barCell (yp c)) 0 ∗ reached ER (barCell (zp c)) 0
    ∗ (all8 fun i => reached ER (ysCell c i) 0) ∗ (all8 fun i => reached ER (yrCell c i) 0)
    ∗ (all8 fun i => reached ER (zsCell c i) 0) ∗ (all8 fun i => reached ER (zrCell c i) 0))

instance invsG_persistent (K : GSem nD τ sig → ℕ) (c : Dev nD) : BI.Persistent (invsG PS PZ K c) := by unfold invsG; infer_instance

/-- Its positions at its own cells and the tokens of the duties it pays; -/
def posToks (c : Dev nD) : sProp 𝕄 :=
  iprop(atPos ER (barCell c) 0 ∅ 0
    ∗ (all8 fun i => atPos ER (ysCell c i) 0 ∅ 0) ∗ (all8 fun i => atPos ER (yrCell c i) 0 ∅ 0)
    ∗ (all8 fun i => atPos ER (zsCell c i) 0 ∅ 0) ∗ (all8 fun i => atPos ER (zrCell c i) 0 ∅ 0)
    ∗ dutyTok ER (barCell (yp c)) 0 false ∗ dutyTok ER (barCell (zp c)) 0 true
    ∗ (all8 fun i => dutyTok ER (ysCell c i) 0 false) ∗ (all8 fun i => dutyTok ER (zsCell c i) 0 false)
    ∗ (all8 fun i => dutyTok ER (yrCell (yp c) i) 0 false) ∗ (all8 fun i => dutyTok ER (zrCell (zp c) i) 0 false))

/-- the launch credit of the cells others pay: its barrier's two units and each receive cell's landing. -/
def creds (c : Dev nD) : sProp 𝕄 :=
  iprop(cred (tallyAt (barCell c) () 2)
    ∗ (all8 fun i => cred (tallyAt (yrCell c i) () N)) ∗ (all8 fun i => cred (tallyAt (zrCell c i) () N)))

/-- The seventeen semaphores of its local copies (the dy block; the sixteen pieces of the result), at zero. -/
def localSems (c : Dev nD) : sProp 𝕄 :=
  iprop(semVal ((c : Thread nD τ), .dma (1 : DmaSem sig)) 0
    ∗ semVal ((c : Thread nD τ), .dma (2 : DmaSem sig)) 0 ∗ semVal ((c : Thread nD τ), .dma (3 : DmaSem sig)) 0
    ∗ semVal ((c : Thread nD τ), .dma (4 : DmaSem sig)) 0 ∗ semVal ((c : Thread nD τ), .dma (5 : DmaSem sig)) 0
    ∗ semVal ((c : Thread nD τ), .dma (6 : DmaSem sig)) 0 ∗ semVal ((c : Thread nD τ), .dma (7 : DmaSem sig)) 0
    ∗ semVal ((c : Thread nD τ), .dma (8 : DmaSem sig)) 0 ∗ semVal ((c : Thread nD τ), .dma (9 : DmaSem sig)) 0
    ∗ semVal ((c : Thread nD τ), .dma (10 : DmaSem sig)) 0 ∗ semVal ((c : Thread nD τ), .dma (11 : DmaSem sig)) 0
    ∗ semVal ((c : Thread nD τ), .dma (12 : DmaSem sig)) 0 ∗ semVal ((c : Thread nD τ), .dma (13 : DmaSem sig)) 0
    ∗ semVal ((c : Thread nD τ), .dma (14 : DmaSem sig)) 0 ∗ semVal ((c : Thread nD τ), .dma (15 : DmaSem sig)) 0
    ∗ semVal ((c : Thread nD τ), .dma (16 : DmaSem sig)) 0 ∗ semVal ((c : Thread nD τ), .dma (17 : DmaSem sig)) 0)

/-- Its thirty-two transfer cells closed: their counters at zero, its own again. -/
def closedSems (c : Dev nD) : sProp 𝕄 :=
  iprop((all8 fun i => semVal (ysCell c i) 0) ∗ (all8 fun i => semVal (yrCell c i) 0)
    ∗ (all8 fun i => semVal (zsCell c i) 0) ∗ (all8 fun i => semVal (zrCell c i) 0))

/-- The eight scratch buffers, each whole at some contents. -/
def scratches (c : Dev nD) : sProp 𝕄 :=
  iprop((∃ f, (Memref.whole cc0_scratch0).view.loc (c : Thread nD τ) ↦{fullShare} f) ∗ (∃ f, (Memref.whole cc0_scratch1).view.loc (c : Thread nD τ) ↦{fullShare} f)
    ∗ (∃ f, (Memref.whole cc0_scratch2).view.loc (c : Thread nD τ) ↦{fullShare} f) ∗ (∃ f, (Memref.whole cc0_scratch3).view.loc (c : Thread nD τ) ↦{fullShare} f)
    ∗ (∃ f, (Memref.whole cc0_scratch4).view.loc (c : Thread nD τ) ↦{fullShare} f) ∗ (∃ f, (Memref.whole cc0_scratch5).view.loc (c : Thread nD τ) ↦{fullShare} f)
    ∗ (∃ f, (Memref.whole cc0_scratch6).view.loc (c : Thread nD τ) ↦{fullShare} f) ∗ (∃ f, (Memref.whole cc0_scratch7).view.loc (c : Thread nD τ) ↦{fullShare} f))

end Ghost

/-! ## The pipeline's proof data -/

section Data

variable (m : (ℓ : Loc nD τ sig) → Buf (Elt F) ℓ) (ρ : Dev nD → PrngReg)

/-- What device `c`'s body starts from, the scratch buffers aside: its ghost state at some names, the levels, its launch credit, its local
    semaphores, and its dy block and result buffer as launched. -/
def start (c : Dev nD) : sProp 𝕄 :=
  iprop((∃ K, invsG (PSm m) (PZm m) K c) ∗ levAts L lv ∗ posToks c ∗ creds c ∗ localSems c
    ∗ ((Memref.whole main_arg1).view.loc (c : Thread nD τ) ↦{fullShare} m ((c : Thread nD τ).loc main_arg1))
    ∗ ((Memref.whole main_v1).view.loc (c : Thread nD τ) ↦{fullShare} m ((c : Thread nD τ).loc main_v1)))

def Φ₀ (c : Dev nD) : sProp 𝕄 := iprop(start m c ∗ scratches c)

/-- After the point: the dy block as it was, the result block holding its rows of the product, every semaphore of the kernel's own at zero,
    the scratch buffers at something. -/
def Φ₁ (c : Dev nD) : sProp 𝕄 :=
  iprop(((Memref.whole main_arg1).view.loc (c : Thread nD τ) ↦{fullShare} m ((c : Thread nD τ).loc main_arg1))
    ∗ ((Memref.whole main_v1).view.loc (c : Thread nD τ) ↦{fullShare} outM m c)
    ∗ localSems c ∗ closedSems c ∗ scratches c)

def dats (_ : Fin 1) (c : Dev nD) : Dat τ (Elt F) Unit ℕ UU ℕ cfg0 c where
  A w := m ((cfg0.win w).arr.view.loc (c : Thread nD τ))
  after w _ := match w with
    | ⟨0, _⟩ => xstg m c
  Φ t := match t with
    | ⟨0, _⟩ => Φ₀ m c
    | ⟨_ + 1, _⟩ => Φ₁ m c
  q _ := fullShare
  owed t := match t with
    | ⟨0, _⟩ => owed₀ c
    | ⟨_ + 1, _⟩ => 0

end Data

end Cert.Kernel.Hand

end
-- ==== Proof.WOutChain.lean ====
import proofs.«900476_g7700000000000477_dist_rsdw_v7x_xyz2x2x2_y_m512_d512_f2048_f32_1_alg».proof.Proof.WContents

set_option maxRecDepth 16384

noncomputable section

namespace Cert.Kernel.Hand

open Cert.Kernel Cert.Kernel.Gen

open Idealize.ShloMosaic
open Idealize.ShloMosaic.TcCoe
open Idealize.SL Idealize.SL.Sem

variable {F : FTy → Type} [FloatOps F]

variable (m : (ℓ : Loc nD τ sig) → Buf (Elt F) ℓ)

/-- What the device keeps for chunk `i`, and what it receives along z, as the `[128,256]` pieces copied into the result block. -/
def keepS (c : Dev nD) (i : Fin 8) : S128x256.Idx → Elt F .f32 := shapeCast S128x256 (keepM m c i) shapeCasts_S1x128x256_S128x256
def otherS (c : Dev nD) (i : Fin 8) : S128x256.Idx → Elt F .f32 := shapeCast S128x256 (otherM m c i) shapeCasts_S1x128x256_S128x256

/-- The result block as the sixteen copies leave it: over what the buffer held, the eight kept pieces at rows `128·z`, columns `256·i`,
    then the eight received ones at rows `128 - 128·z`. -/
def outChain (c : Dev nD) : BufTy.Contents (Elt F) (Memref.whole main_v1).view.ty :=
  View.write (Elt F) ((Memref.whole main_v1).slice (Rect.unit (s := S256x2048) (k0_off18 c) S128x256.size (k0_off18_inb c)) (fun _ => rfl)).view
    (View.write (Elt F) ((Memref.whole main_v1).slice (Rect.unit (s := S256x2048) (k0_off17 c) S128x256.size (k0_off17_inb c)) (fun _ => rfl)).view
    (View.write (Elt F) ((Memref.whole main_v1).slice (Rect.unit (s := S256x2048) (k0_off16 c) S128x256.size (k0_off16_inb c)) (fun _ => rfl)).view
    (View.write (Elt F) ((Memref.whole main_v1).slice (Rect.unit (s := S256x2048) (k0_off15 c) S128x256.size (k0_off15_inb c)) (fun _ => rfl)).view
    (View.write (Elt F) ((Memref.whole main_v1).slice (Rect.unit (s := S256x2048) (k0_off14 c) S128x256.size (k0_off14_inb c)) (fun _ => rfl)).view
    (View.write (Elt F) ((Memref.whole main_v1).slice (Rect.unit (s := S256x2048) (k0_off13 c) S128x256.size (k0_off13_inb c)) (fun _ => rfl)).view
    (View.write (Elt F) ((Memref.whole main_v1).slice (Rect.unit (s := S256x2048) (k0_off12 c) S128x256.size (k0_off12_inb c)) (fun _ => rfl)).view
    (View.write (Elt F) ((Memref.whole main_v1).slice (Rect.unit (s := S256x2048) (k0_off11 c) S128x256.size (k0_off11_inb c)) (fun _ => rfl)).view
    (View.write (Elt F) ((Memref.whole main_v1).slice (Rect.unit (s := S256x2048) (k0_off10 c) S128x256.size (k0_off10_inb c)) (fun _ => rfl)).view
    (View.write (Elt F) ((Memref.whole main_v1).slice (Rect.unit (s := S256x2048) (k0_off9 c) S128x256.size (k0_off9_inb c)) (fun _ => rfl)).view
    (View.write (Elt F) ((Memref.whole main_v1).slice (Rect.unit (s := S256x2048) (k0_off8 c) S128x256.size (k0_off8_inb c)) (fun _ => rfl)).view
    (View.write (Elt F) ((Memref.whole main_v1).slice (Rect.unit (s := S256x2048) (k0_off7 c) S128x256.size (k0_off7_inb c)) (fun _ => rfl)).view
    (View.write (Elt F) ((Memref.whole main_v1).slice (Rect.unit (s := S256x2048) (k0_off6 c) S128x256.size (k0_off6_inb c)) (fun _ => rfl)).view
    (View.write (Elt F) ((Memref.whole main_v1).slice (Rect.unit (s := S256x2048) (k0_off5 c) S128x256.size (k0_off5_inb c)) (fun _ => rfl)).view
    (View.write (Elt F) ((Memref.whole main_v1).slice (Rect.unit (s := S256x2048) (k0_off4 c) S128x256.size (k0_off4_inb c)) (fun _ => rfl)).view
    (View.write (Elt F) ((Memref.whole main_v1).slice (Rect.unit (s := S256x2048) (k0_off3 c) S128x256.size (k0_off3_inb c)) (fun _ => rfl)).view
    (m ((c : Thread nD τ).loc main_v1))
    (keepS m c 0) Finset.univ)
    (keepS m c 1) Finset.univ)
    (keepS m c 2) Finset.univ)
    (keepS m c 3) Finset.univ)
    (keepS m c 4) Finset.univ)
    (keepS m c 5) Finset.univ)
    (keepS m c 6) Finset.univ)
    (keepS m c 7) Finset.univ)
    (otherS m c 0) Finset.univ)
    (otherS m c 1) Finset.univ)
    (otherS m c 2) Finset.univ)
    (otherS m c 3) Finset.univ)
    (otherS m c 4) Finset.univ)
    (otherS m c 5) Finset.univ)
    (otherS m c 6) Finset.univ)
    (otherS m c 7) Finset.univ

end Cert.Kernel.Hand

end
-- ==== Proof.WOutEq.lean ====
import proofs.«900476_g7700000000000477_dist_rsdw_v7x_xyz2x2x2_y_m512_d512_f2048_f32_1_alg».proof.Proof.WOutChain
import Idealize.ShloMosaic.Lib.Pipeline.Value
import Idealize.ShloMosaic.Lib.ValueIdx

set_option maxRecDepth 16384

noncomputable section

namespace Cert.Kernel.Hand

open Cert.Kernel Cert.Kernel.Gen

open Idealize.ShloMosaic
open Idealize.ShloMosaic.TcCoe
open Idealize.SL Idealize.SL.Sem

variable {F : FTy → Type} [FloatOps F]

/-- A `[128,256]` rectangle inside the `[256,2048]` block. -/
theorem slices_piece (off : Fin 2 → Nat) (inb : ∀ a, off a + S128x256.size a ≤ S256x2048.size a) :
    S256x2048.Slices off S128x256 := ⟨rfl, inb⟩

/-- One copy of a `[128,256]` piece into the block is `updateSlice` at the copy's offsets. -/
theorem write_piece (off : Fin 2 → Nat) (inb : ∀ a, off a + S128x256.size a ≤ S256x2048.size a)
    (f : S256x2048.Idx → Elt F .f32) (w : S128x256.Idx → Elt F .f32) :
    View.write (Elt F) ((Memref.whole main_v1).slice (Rect.unit (s := S256x2048) off S128x256.size inb) (fun _ => rfl)).view f w Finset.univ
      = updateSlice (α := Elt F .f32) (s := S256x2048) (u := S128x256) f w off (slices_piece off inb) :=
  View.write_whole_slice_unit main_v1 off S128x256.size inb f w

/-- A piece put at rows `128·a`, columns `256·b`: row `p`, column `q` of the result is the piece's entry
    `(p % 128, q % 256)` when `p / 128 = a` and `q / 256 = b`, and the block's own entry otherwise. -/
theorem updateSlice_at {α : Type} (x : S256x2048.Idx → α) (w : S128x256.Idx → α) (off : Fin 2 → Nat)
    (h : S256x2048.Slices off S128x256) (a b : Nat) (h0 : off 0 = 128 * a) (h1 : off 1 = 256 * b)
    (p : Fin 256) (q : Fin 2048) :
    updateSlice x w off h (ValueIdx.ix2 p q)
      = if p.val / 128 = a ∧ q.val / 256 = b then
          w (ValueIdx.ix2 (⟨p.val % 128, Nat.mod_lt _ (by decide)⟩ : Fin 128) (⟨q.val % 256, Nat.mod_lt _ (by decide)⟩ : Fin 256))
        else x (ValueIdx.ix2 p q) := by
  have hp := p.isLt
  have hq := q.isLt
  unfold updateSlice
  by_cases hc : p.val / 128 = a ∧ q.val / 256 = b
  · rw [if_pos hc]
    have hin : ∀ d : Fin 2, off d ≤ ((ValueIdx.ix2 p q : S256x2048.Idx) d).val ∧ ((ValueIdx.ix2 p q : S256x2048.Idx) d).val < off d + S128x256.size (d.cast h.1.symm) := by
      rw [Fin.forall_fin_two]
      refine ⟨?_, ?_⟩
      · show off 0 ≤ p.val ∧ p.val < off 0 + 128
        omega
      · show off 1 ≤ q.val ∧ q.val < off 1 + 256
        omega
    rw [dif_pos hin]
    congr 1
    funext d
    match d with
    | ⟨0, _⟩ => apply Fin.ext; show p.val - off 0 = p.val % 128; omega
    | ⟨1, _⟩ => apply Fin.ext; show q.val - off 1 = q.val % 256; omega
  · rw [if_neg hc]
    have hout : ¬ ∀ d : Fin 2, off d ≤ ((ValueIdx.ix2 p q : S256x2048.Idx) d).val ∧ ((ValueIdx.ix2 p q : S256x2048.Idx) d).val < off d + S128x256.size (d.cast h.1.symm) := by
      rw [Fin.forall_fin_two]
      intro hh
      have e0 : off 0 ≤ p.val ∧ p.val < off 0 + 128 := hh.1
      have e1 : off 1 ≤ q.val ∧ q.val < off 1 + 256 := hh.2
      apply hc
      omega
    rw [dif_neg hout]

/-- A `[1,128,256]` vector with its unit axis dropped reads `(r, s)` at `(0, r, s)`. -/
theorem dropUnit_at {α : Type} (v : S1x128x256.Idx → α) (r : Fin 128) (s : Fin 256) :
    shapeCast S128x256 v shapeCasts_S1x128x256_S128x256 (ValueIdx.ix2 r s) = v (ValueIdx.ix3 (0 : Fin 1) r s) := by
  have e := shapeCast_dropUnit_apply (n := 2) ![128, 256] v shapeCasts_S1x128x256_S128x256 (ValueIdx.ix2 r s)
  rw [e]
  congr 1
  funext d
  match d with
  | ⟨0, _⟩ => rfl
  | ⟨1, _⟩ => rfl
  | ⟨2, _⟩ => rfl

/-- Sixteen tests in the order of the copies, the last copy first: of the row halves `a` and the column chunks `b`,
    exactly one test holds, the kept piece `b` when `a = z` and the received piece `b` otherwise. -/
theorem chain_pick {α : Type} (K O : Fin 8 → α) (x : α) (a z : Nat) (ha : a < 2) (hz : z < 2) (b : Fin 8) :
    (if a = 1 - z ∧ b.val = 7 then O 7 else if a = 1 - z ∧ b.val = 6 then O 6 else if a = 1 - z ∧ b.val = 5 then O 5 else if a = 1 - z ∧ b.val = 4 then O 4 else if a = 1 - z ∧ b.val = 3 then O 3 else if a = 1 - z ∧ b.val = 2 then O 2 else if a = 1 - z ∧ b.val = 1 then O 1 else if a = 1 - z ∧ b.val = 0 then O 0 else if a = z ∧ b.val = 7 then K 7 else if a = z ∧ b.val = 6 then K 6 else if a = z ∧ b.val = 5 then K 5 else if a = z ∧ b.val = 4 then K 4 else if a = z ∧ b.val = 3 then K 3 else if a = z ∧ b.val = 2 then K 2 else if a = z ∧ b.val = 1 then K 1 else if a = z ∧ b.val = 0 then K 0 else x)
      = if a = z then K b else O b := by
  interval_cases z <;> interval_cases a <;> fin_cases b <;> simp

/-- The sixteen rectangles `[128·z + r, 256·i + s]` and `[128 - 128·z + r, 256·i + s]` (`z` the low bit of the device's id,
    `i < 8`, `r < 128`, `s < 256`) are pairwise disjoint and cover the block, so every entry is written exactly once: row `p`,
    column `q` holds the kept piece `q / 256` at `(p % 128, q % 256)` when `p / 128 = z`, the received piece there otherwise. -/
theorem outChain_eq_outM (m : (ℓ : Loc nD τ sig) → Buf (Elt F) ℓ) (c : Dev nD) : outChain m c = outM m c := by
  funext idx
  obtain ⟨p, q, rfl⟩ : ∃ p q, idx = ValueIdx.ix2 p q := ⟨idx 0, idx 1, ValueIdx.eq_ix2 idx⟩
  unfold outChain
  -- each copy is an `updateSlice` …
  rw [write_piece, write_piece, write_piece, write_piece, write_piece, write_piece, write_piece, write_piece, write_piece, write_piece, write_piece, write_piece, write_piece, write_piece, write_piece, write_piece]
  -- … read at `(p, q)`, the last copy first: one test on `p / 128` and `q / 256` per copy
  rw [updateSlice_at _ _ _ _ (1 - c.val % 2) 7 (by rw [k0_off18_eq]; show 128 - 128 * (c.val % 2) = 128 * (1 - c.val % 2); omega) (by rw [k0_off18_eq]; rfl)]
  rw [updateSlice_at _ _ _ _ (1 - c.val % 2) 6 (by rw [k0_off17_eq]; show 128 - 128 * (c.val % 2) = 128 * (1 - c.val % 2); omega) (by rw [k0_off17_eq]; rfl)]
  rw [updateSlice_at _ _ _ _ (1 - c.val % 2) 5 (by rw [k0_off16_eq]; show 128 - 128 * (c.val % 2) = 128 * (1 - c.val % 2); omega) (by rw [k0_off16_eq]; rfl)]
  rw [updateSlice_at _ _ _ _ (1 - c.val % 2) 4 (by rw [k0_off15_eq]; show 128 - 128 * (c.val % 2) = 128 * (1 - c.val % 2); omega) (by rw [k0_off15_eq]; rfl)]
  rw [updateSlice_at _ _ _ _ (1 - c.val % 2) 3 (by rw [k0_off14_eq]; show 128 - 128 * (c.val % 2) = 128 * (1 - c.val % 2); omega) (by rw [k0_off14_eq]; rfl)]
  rw [updateSlice_at _ _ _ _ (1 - c.val % 2) 2 (by rw [k0_off13_eq]; show 128 - 128 * (c.val % 2) = 128 * (1 - c.val % 2); omega) (by rw [k0_off13_eq]; rfl)]
  rw [updateSlice_at _ _ _ _ (1 - c.val % 2) 1 (by rw [k0_off12_eq]; show 128 - 128 * (c.val % 2) = 128 * (1 - c.val % 2); omega) (by rw [k0_off12_eq]; rfl)]
  rw [updateSlice_at _ _ _ _ (1 - c.val % 2) 0 (by rw [k0_off11_eq]; show 128 - 128 * (c.val % 2) = 128 * (1 - c.val % 2); omega) (by rw [k0_off11_eq]; rfl)]
  rw [updateSlice_at _ _ _ _ (c.val % 2) 7 (by rw [k0_off10_eq]; rfl) (by rw [k0_off10_eq]; rfl)]
  rw [updateSlice_at _ _ _ _ (c.val % 2) 6 (by rw [k0_off9_eq]; rfl) (by rw [k0_off9_eq]; rfl)]
  rw [updateSlice_at _ _ _ _ (c.val % 2) 5 (by rw [k0_off8_eq]; rfl) (by rw [k0_off8_eq]; rfl)]
  rw [updateSlice_at _ _ _ _ (c.val % 2) 4 (by rw [k0_off7_eq]; rfl) (by rw [k0_off7_eq]; rfl)]
  rw [updateSlice_at _ _ _ _ (c.val % 2) 3 (by rw [k0_off6_eq]; rfl) (by rw [k0_off6_eq]; rfl)]
  rw [updateSlice_at _ _ _ _ (c.val % 2) 2 (by rw [k0_off5_eq]; rfl) (by rw [k0_off5_eq]; rfl)]
  rw [updateSlice_at _ _ _ _ (c.val % 2) 1 (by rw [k0_off4_eq]; rfl) (by rw [k0_off4_eq]; rfl)]
  rw [updateSlice_at _ _ _ _ (c.val % 2) 0 (by rw [k0_off3_eq]; rfl) (by rw [k0_off3_eq]; rfl)]
  -- the pieces are the `[1,128,256]` vectors read at `(0, p % 128, q % 256)`
  unfold keepS otherS
  simp only [dropUnit_at]
  have hp := p.isLt
  have hq := q.isLt
  exact chain_pick
    (fun i => keepM m c i (ValueIdx.ix3 (0 : Fin 1) (⟨p.val % 128, Nat.mod_lt _ (by decide)⟩ : Fin 128) (⟨q.val % 256, Nat.mod_lt _ (by decide)⟩ : Fin 256)))
    (fun i => otherM m c i (ValueIdx.ix3 (0 : Fin 1) (⟨p.val % 128, Nat.mod_lt _ (by decide)⟩ : Fin 128) (⟨q.val % 256, Nat.mod_lt _ (by decide)⟩ : Fin 256)))
    (m ((c : Thread nD τ).loc main_v1) (ValueIdx.ix2 p q)) (p.val / 128) (c.val % 2) (by omega) (Nat.mod_lt _ (by decide))
    (⟨q.val / 256, by omega⟩ : Fin 8)

end Cert.Kernel.Hand

end
-- ==== Proof.WBody.lean ====
import proofs.«900476_g7700000000000477_dist_rsdw_v7x_xyz2x2x2_y_m512_d512_f2048_f32_1_alg».proof.Proof.WBodyDefs
import proofs.«900476_g7700000000000477_dist_rsdw_v7x_xyz2x2x2_y_m512_d512_f2048_f32_1_alg».proof.Proof.WOutChain
import proofs.«900476_g7700000000000477_dist_rsdw_v7x_xyz2x2x2_y_m512_d512_f2048_f32_1_alg».proof.Proof.WOutEq
import Idealize.ShloMosaic.Lib.Writes
import Idealize.ShloMosaic.Lib.Pipeline.FrameBody
import Idealize.ShloMosaic.Lib.Pipeline.Value
import proofs.«900476_g7700000000000477_dist_rsdw_v7x_xyz2x2x2_y_m512_d512_f2048_f32_1_alg».proof.Proof.Gen.Kernel.Skeleton
import Idealize.ShloMosaic.Lib.Tactic

set_option maxRecDepth 16384

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The schedule's tables in the form the symbolic run rewrites by -/

section Tables

variable (PS PZ : Dev nD → Fin 8 → S128x256.Idx → Elt F .bf16)

omit [FloatOps F] in
theorem payload_bar_yp (c : Dev nD) : (sched (F := F) PS PZ).payload (barCell (yp c)) 0 false
    = iprop((∃ f, (YR.view.loc (c : Thread nD τ)) ↦{fullShare} f) ∗ reached ER (yrCell c 0) 0 ∗ reached ER (yrCell c 1) 0 ∗ reached ER (yrCell c 2) 0 ∗ reached ER (yrCell c 3) 0 ∗ reached ER (yrCell c 4) 0 ∗ reached ER (yrCell c 5) 0 ∗ reached ER (yrCell c 6) 0 ∗ reached ER (yrCell c 7) 0) := by
  rw [payload_bar_false]; unfold barPayY all8; rw [yp_yp]
omit [FloatOps F] in
theorem payload_bar_zp (c : Dev nD) : (sched (F := F) PS PZ).payload (barCell (zp c)) 0 true
    = iprop((∃ f, (ZR.view.loc (c : Thread nD τ)) ↦{fullShare} f) ∗ reached ER (zrCell c 0) 0 ∗ reached ER (zrCell c 1) 0 ∗ reached ER (zrCell c 2) 0 ∗ reached ER (zrCell c 3) 0 ∗ reached ER (zrCell c 4) 0 ∗ reached ER (zrCell c 5) 0 ∗ reached ER (zrCell c 6) 0 ∗ reached ER (zrCell c 7) 0) := by
  rw [payload_bar_true]; unfold barPayZ all8; rw [zp_zp]

omit [FloatOps F] in
theorem payload_ys' (c : Dev nD) (i : Fin 8) (d : Bool) : (sched (F := F) PS PZ).payload (ysCell c i) 0 d
    = iprop(∃ f, (slotM YS i).view.loc (c : Thread nD τ) ↦[(slotM YS i).view.set]{fullShare} f) := by rw [payload_ys]; rfl
omit [FloatOps F] in
theorem payload_zs' (c : Dev nD) (i : Fin 8) (d : Bool) : (sched (F := F) PS PZ).payload (zsCell c i) 0 d
    = iprop(∃ f, (slotM ZS i).view.loc (c : Thread nD τ) ↦[(slotM ZS i).view.set]{fullShare} f) := by rw [payload_zs]; rfl
omit [FloatOps F] in
theorem payload_yrp (c : Dev nD) (i : Fin 8) (d : Bool) : (sched (F := F) PS PZ).payload (yrCell (yp c) i) 0 d
    = iprop(∃ G, ⌜(slotM YR i).view.read (Elt F) G = PS c i⌝ ∗ ((slotM YR i).view.loc (yp c : Thread nD τ) ↦[(slotM YR i).view.set]{fullShare} G)) := by
  rw [payload_yr, yp_yp]; rfl
omit [FloatOps F] in
theorem payload_zrp (c : Dev nD) (i : Fin 8) (d : Bool) : (sched (F := F) PS PZ).payload (zrCell (zp c) i) 0 d
    = iprop(∃ G, ⌜(slotM ZR i).view.read (Elt F) G = PZ c i⌝ ∗ ((slotM ZR i).view.loc (zp c : Thread nD τ) ↦[(slotM ZR i).view.set]{fullShare} G)) := by
  rw [payload_zr, zp_zp]; rfl

omit [FloatOps F] in
theorem bar_payloads (c : Dev nD) : bigSep Finset.univ (fun d : Bool => (sched (F := F) PS PZ).payload (barCell c) 0 d) = iprop(barPayY c ∗ barPayZ c) := by
  rw [bigSep_univ_eq_bigSepL [false, true] (by decide) (by decide), bigSepL_cons_cons, bigSepL_singleton, payload_bar_false, payload_bar_true]
  rfl

end Tables

attribute [local sl_rounds] payload_ys' payload_zs' payload_yrp payload_zrp payload_bar_yp payload_bar_zp duties_bar amount_bar expect_bar
  duties_ys duties_yr duties_zs duties_zr amount_ys amount_yr amount_zs amount_zr expect_ys expect_yr expect_zs expect_zr
  rest_ys rest_zs

/-! ## The program's slots and semaphores by their names -/

theorem canon_YS0 (h : ∀ a, (Rect.unit (s := S8x128x256) ![0, 0, 0] S1x128x256.size inb_S8x128x256_S1x128x256_0_0_0).stride a = 1) :
    ((Memref.whole cc0_scratch2).slice (Rect.unit (s := S8x128x256) ![0, 0, 0] S1x128x256.size inb_S8x128x256_S1x128x256_0_0_0) h).squeeze S128x256 squeezes_S1x128x256_S128x256 = slotM YS 0 := rfl
theorem canon_YS1 (h : ∀ a, (Rect.unit (s := S8x128x256) ![1, 0, 0] S1x128x256.size inb_S8x128x256_S1x128x256_1_0_0).stride a = 1) :
    ((Memref.whole cc0_scratch2).slice (Rect.unit (s := S8x128x256) ![1, 0, 0] S1x128x256.size inb_S8x128x256_S1x128x256_1_0_0) h).squeeze S128x256 squeezes_S1x128x256_S128x256 = slotM YS 1 := rfl
theorem canon_YS2 (h : ∀ a, (Rect.unit (s := S8x128x256) ![2, 0, 0] S1x128x256.size inb_S8x128x256_S1x128x256_2_0_0).stride a = 1) :
    ((Memref.whole cc0_scratch2).slice (Rect.unit (s := S8x128x256) ![2, 0, 0] S1x128x256.size inb_S8x128x256_S1x128x256_2_0_0) h).squeeze S128x256 squeezes_S1x128x256_S128x256 = slotM YS 2 := rfl
theorem canon_YS3 (h : ∀ a, (Rect.unit (s := S8x128x256) ![3, 0, 0] S1x128x256.size inb_S8x128x256_S1x128x256_3_0_0).stride a = 1) :
    ((Memref.whole cc0_scratch2).slice (Rect.unit (s := S8x128x256) ![3, 0, 0] S1x128x256.size inb_S8x128x256_S1x128x256_3_0_0) h).squeeze S128x256 squeezes_S1x128x256_S128x256 = slotM YS 3 := rfl
theorem canon_YS4 (h : ∀ a, (Rect.unit (s := S8x128x256) ![4, 0, 0] S1x128x256.size inb_S8x128x256_S1x128x256_4_0_0).stride a = 1) :
    ((Memref.whole cc0_scratch2).slice (Rect.unit (s := S8x128x256) ![4, 0, 0] S1x128x256.size inb_S8x128x256_S1x128x256_4_0_0) h).squeeze S128x256 squeezes_S1x128x256_S128x256 = slotM YS 4 := rfl
theorem canon_YS5 (h : ∀ a, (Rect.unit (s := S8x128x256) ![5, 0, 0] S1x128x256.size inb_S8x128x256_S1x128x256_5_0_0).stride a = 1) :
    ((Memref.whole cc0_scratch2).slice (Rect.unit (s := S8x128x256) ![5, 0, 0] S1x128x256.size inb_S8x128x256_S1x128x256_5_0_0) h).squeeze S128x256 squeezes_S1x128x256_S128x256 = slotM YS 5 := rfl
theorem canon_YS6 (h : ∀ a, (Rect.unit (s := S8x128x256) ![6, 0, 0] S1x128x256.size inb_S8x128x256_S1x128x256_6_0_0).stride a = 1) :
    ((Memref.whole cc0_scratch2).slice (Rect.unit (s := S8x128x256) ![6, 0, 0] S1x128x256.size inb_S8x128x256_S1x128x256_6_0_0) h).squeeze S128x256 squeezes_S1x128x256_S128x256 = slotM YS 6 := rfl
theorem canon_YS7 (h : ∀ a, (Rect.unit (s := S8x128x256) ![7, 0, 0] S1x128x256.size inb_S8x128x256_S1x128x256_7_0_0).stride a = 1) :
    ((Memref.whole cc0_scratch2).slice (Rect.unit (s := S8x128x256) ![7, 0, 0] S1x128x256.size inb_S8x128x256_S1x128x256_7_0_0) h).squeeze S128x256 squeezes_S1x128x256_S128x256 = slotM YS 7 := rfl
theorem canon_YR0 (h : ∀ a, (Rect.unit (s := S8x128x256) ![0, 0, 0] S1x128x256.size inb_S8x128x256_S1x128x256_0_0_0).stride a = 1) :
    ((Memref.whole cc0_scratch3).slice (Rect.unit (s := S8x128x256) ![0, 0, 0] S1x128x256.size inb_S8x128x256_S1x128x256_0_0_0) h).squeeze S128x256 squeezes_S1x128x256_S128x256 = slotM YR 0 := rfl
theorem canon_YR1 (h : ∀ a, (Rect.unit (s := S8x128x256) ![1, 0, 0] S1x128x256.size inb_S8x128x256_S1x128x256_1_0_0).stride a = 1) :
    ((Memref.whole cc0_scratch3).slice (Rect.unit (s := S8x128x256) ![1, 0, 0] S1x128x256.size inb_S8x128x256_S1x128x256_1_0_0) h).squeeze S128x256 squeezes_S1x128x256_S128x256 = slotM YR 1 := rfl
theorem canon_YR2 (h : ∀ a, (Rect.unit (s := S8x128x256) ![2, 0, 0] S1x128x256.size inb_S8x128x256_S1x128x256_2_0_0).stride a = 1) :
    ((Memref.whole cc0_scratch3).slice (Rect.unit (s := S8x128x256) ![2, 0, 0] S1x128x256.size inb_S8x128x256_S1x128x256_2_0_0) h).squeeze S128x256 squeezes_S1x128x256_S128x256 = slotM YR 2 := rfl
theorem canon_YR3 (h : ∀ a, (Rect.unit (s := S8x128x256) ![3, 0, 0] S1x128x256.size inb_S8x128x256_S1x128x256_3_0_0).stride a = 1) :
    ((Memref.whole cc0_scratch3).slice (Rect.unit (s := S8x128x256) ![3, 0, 0] S1x128x256.size inb_S8x128x256_S1x128x256_3_0_0) h).squeeze S128x256 squeezes_S1x128x256_S128x256 = slotM YR 3 := rfl
theorem canon_YR4 (h : ∀ a, (Rect.unit (s := S8x128x256) ![4, 0, 0] S1x128x256.size inb_S8x128x256_S1x128x256_4_0_0).stride a = 1) :
    ((Memref.whole cc0_scratch3).slice (Rect.unit (s := S8x128x256) ![4, 0, 0] S1x128x256.size inb_S8x128x256_S1x128x256_4_0_0) h).squeeze S128x256 squeezes_S1x128x256_S128x256 = slotM YR 4 := rfl
theorem canon_YR5 (h : ∀ a, (Rect.unit (s := S8x128x256) ![5, 0, 0] S1x128x256.size inb_S8x128x256_S1x128x256_5_0_0).stride a = 1) :
    ((Memref.whole cc0_scratch3).slice (Rect.unit (s := S8x128x256) ![5, 0, 0] S1x128x256.size inb_S8x128x256_S1x128x256_5_0_0) h).squeeze S128x256 squeezes_S1x128x256_S128x256 = slotM YR 5 := rfl
theorem canon_YR6 (h : ∀ a, (Rect.unit (s := S8x128x256) ![6, 0, 0] S1x128x256.size inb_S8x128x256_S1x128x256_6_0_0).stride a = 1) :
    ((Memref.whole cc0_scratch3).slice (Rect.unit (s := S8x128x256) ![6, 0, 0] S1x128x256.size inb_S8x128x256_S1x128x256_6_0_0) h).squeeze S128x256 squeezes_S1x128x256_S128x256 = slotM YR 6 := rfl
theorem canon_YR7 (h : ∀ a, (Rect.unit (s := S8x128x256) ![7, 0, 0] S1x128x256.size inb_S8x128x256_S1x128x256_7_0_0).stride a = 1) :
    ((Memref.whole cc0_scratch3).slice (Rect.unit (s := S8x128x256) ![7, 0, 0] S1x128x256.size inb_S8x128x256_S1x128x256_7_0_0) h).squeeze S128x256 squeezes_S1x128x256_S128x256 = slotM YR 7 := rfl
theorem canon_ZS0 (h : ∀ a, (Rect.unit (s := S8x128x256) ![0, 0, 0] S1x128x256.size inb_S8x128x256_S1x128x256_0_0_0).stride a = 1) :
    ((Memref.whole cc0_scratch4).slice (Rect.unit (s := S8x128x256) ![0, 0, 0] S1x128x256.size inb_S8x128x256_S1x128x256_0_0_0) h).squeeze S128x256 squeezes_S1x128x256_S128x256 = slotM ZS 0 := rfl
theorem canon_ZS1 (h : ∀ a, (Rect.unit (s := S8x128x256) ![1, 0, 0] S1x128x256.size inb_S8x128x256_S1x128x256_1_0_0).stride a = 1) :
    ((Memref.whole cc0_scratch4).slice (Rect.unit (s := S8x128x256) ![1, 0, 0] S1x128x256.size inb_S8x128x256_S1x128x256_1_0_0) h).squeeze S128x256 squeezes_S1x128x256_S128x256 = slotM ZS 1 := rfl
theorem canon_ZS2 (h : ∀ a, (Rect.unit (s := S8x128x256) ![2, 0, 0] S1x128x256.size inb_S8x128x256_S1x128x256_2_0_0).stride a = 1) :
    ((Memref.whole cc0_scratch4).slice (Rect.unit (s := S8x128x256) ![2, 0, 0] S1x128x256.size inb_S8x128x256_S1x128x256_2_0_0) h).squeeze S128x256 squeezes_S1x128x256_S128x256 = slotM ZS 2 := rfl
theorem canon_ZS3 (h : ∀ a, (Rect.unit (s := S8x128x256) ![3, 0, 0] S1x128x256.size inb_S8x128x256_S1x128x256_3_0_0).stride a = 1) :
    ((Memref.whole cc0_scratch4).slice (Rect.unit (s := S8x128x256) ![3, 0, 0] S1x128x256.size inb_S8x128x256_S1x128x256_3_0_0) h).squeeze S128x256 squeezes_S1x128x256_S128x256 = slotM ZS 3 := rfl
theorem canon_ZS4 (h : ∀ a, (Rect.unit (s := S8x128x256) ![4, 0, 0] S1x128x256.size inb_S8x128x256_S1x128x256_4_0_0).stride a = 1) :
    ((Memref.whole cc0_scratch4).slice (Rect.unit (s := S8x128x256) ![4, 0, 0] S1x128x256.size inb_S8x128x256_S1x128x256_4_0_0) h).squeeze S128x256 squeezes_S1x128x256_S128x256 = slotM ZS 4 := rfl
theorem canon_ZS5 (h : ∀ a, (Rect.unit (s := S8x128x256) ![5, 0, 0] S1x128x256.size inb_S8x128x256_S1x128x256_5_0_0).stride a = 1) :
    ((Memref.whole cc0_scratch4).slice (Rect.unit (s := S8x128x256) ![5, 0, 0] S1x128x256.size inb_S8x128x256_S1x128x256_5_0_0) h).squeeze S128x256 squeezes_S1x128x256_S128x256 = slotM ZS 5 := rfl
theorem canon_ZS6 (h : ∀ a, (Rect.unit (s := S8x128x256) ![6, 0, 0] S1x128x256.size inb_S8x128x256_S1x128x256_6_0_0).stride a = 1) :
    ((Memref.whole cc0_scratch4).slice (Rect.unit (s := S8x128x256) ![6, 0, 0] S1x128x256.size inb_S8x128x256_S1x128x256_6_0_0) h).squeeze S128x256 squeezes_S1x128x256_S128x256 = slotM ZS 6 := rfl
theorem canon_ZS7 (h : ∀ a, (Rect.unit (s := S8x128x256) ![7, 0, 0] S1x128x256.size inb_S8x128x256_S1x128x256_7_0_0).stride a = 1) :
    ((Memref.whole cc0_scratch4).slice (Rect.unit (s := S8x128x256) ![7, 0, 0] S1x128x256.size inb_S8x128x256_S1x128x256_7_0_0) h).squeeze S128x256 squeezes_S1x128x256_S128x256 = slotM ZS 7 := rfl
theorem canon_ZR0 (h : ∀ a, (Rect.unit (s := S8x128x256) ![0, 0, 0] S1x128x256.size inb_S8x128x256_S1x128x256_0_0_0).stride a = 1) :
    ((Memref.whole cc0_scratch5).slice (Rect.unit (s := S8x128x256) ![0, 0, 0] S1x128x256.size inb_S8x128x256_S1x128x256_0_0_0) h).squeeze S128x256 squeezes_S1x128x256_S128x256 = slotM ZR 0 := rfl
theorem canon_ZR1 (h : ∀ a, (Rect.unit (s := S8x128x256) ![1, 0, 0] S1x128x256.size inb_S8x128x256_S1x128x256_1_0_0).stride a = 1) :
    ((Memref.whole cc0_scratch5).slice (Rect.unit (s := S8x128x256) ![1, 0, 0] S1x128x256.size inb_S8x128x256_S1x128x256_1_0_0) h).squeeze S128x256 squeezes_S1x128x256_S128x256 = slotM ZR 1 := rfl
theorem canon_ZR2 (h : ∀ a, (Rect.unit (s := S8x128x256) ![2, 0, 0] S1x128x256.size inb_S8x128x256_S1x128x256_2_0_0).stride a = 1) :
    ((Memref.whole cc0_scratch5).slice (Rect.unit (s := S8x128x256) ![2, 0, 0] S1x128x256.size inb_S8x128x256_S1x128x256_2_0_0) h).squeeze S128x256 squeezes_S1x128x256_S128x256 = slotM ZR 2 := rfl
theorem canon_ZR3 (h : ∀ a, (Rect.unit (s := S8x128x256) ![3, 0, 0] S1x128x256.size inb_S8x128x256_S1x128x256_3_0_0).stride a = 1) :
    ((Memref.whole cc0_scratch5).slice (Rect.unit (s := S8x128x256) ![3, 0, 0] S1x128x256.size inb_S8x128x256_S1x128x256_3_0_0) h).squeeze S128x256 squeezes_S1x128x256_S128x256 = slotM ZR 3 := rfl
theorem canon_ZR4 (h : ∀ a, (Rect.unit (s := S8x128x256) ![4, 0, 0] S1x128x256.size inb_S8x128x256_S1x128x256_4_0_0).stride a = 1) :
    ((Memref.whole cc0_scratch5).slice (Rect.unit (s := S8x128x256) ![4, 0, 0] S1x128x256.size inb_S8x128x256_S1x128x256_4_0_0) h).squeeze S128x256 squeezes_S1x128x256_S128x256 = slotM ZR 4 := rfl
theorem canon_ZR5 (h : ∀ a, (Rect.unit (s := S8x128x256) ![5, 0, 0] S1x128x256.size inb_S8x128x256_S1x128x256_5_0_0).stride a = 1) :
    ((Memref.whole cc0_scratch5).slice (Rect.unit (s := S8x128x256) ![5, 0, 0] S1x128x256.size inb_S8x128x256_S1x128x256_5_0_0) h).squeeze S128x256 squeezes_S1x128x256_S128x256 = slotM ZR 5 := rfl
theorem canon_ZR6 (h : ∀ a, (Rect.unit (s := S8x128x256) ![6, 0, 0] S1x128x256.size inb_S8x128x256_S1x128x256_6_0_0).stride a = 1) :
    ((Memref.whole cc0_scratch5).slice (Rect.unit (s := S8x128x256) ![6, 0, 0] S1x128x256.size inb_S8x128x256_S1x128x256_6_0_0) h).squeeze S128x256 squeezes_S1x128x256_S128x256 = slotM ZR 6 := rfl
theorem canon_ZR7 (h : ∀ a, (Rect.unit (s := S8x128x256) ![7, 0, 0] S1x128x256.size inb_S8x128x256_S1x128x256_7_0_0).stride a = 1) :
    ((Memref.whole cc0_scratch5).slice (Rect.unit (s := S8x128x256) ![7, 0, 0] S1x128x256.size inb_S8x128x256_S1x128x256_7_0_0) h).squeeze S128x256 squeezes_S1x128x256_S128x256 = slotM ZR 7 := rfl
theorem canon_ysSem0 : ((SemArray.slice cc0_scratch10 (Rect.unit (s := S8) ![0] S1.size inb_S8_S1_0)).squeeze S_ squeezes_S1_S_).sem = ysSem 0 := rfl
theorem canon_ysSem1 : ((SemArray.slice cc0_scratch10 (Rect.unit (s := S8) ![1] S1.size inb_S8_S1_1)).squeeze S_ squeezes_S1_S_).sem = ysSem 1 := rfl
theorem canon_ysSem2 : ((SemArray.slice cc0_scratch10 (Rect.unit (s := S8) ![2] S1.size inb_S8_S1_2)).squeeze S_ squeezes_S1_S_).sem = ysSem 2 := rfl
theorem canon_ysSem3 : ((SemArray.slice cc0_scratch10 (Rect.unit (s := S8) ![3] S1.size inb_S8_S1_3)).squeeze S_ squeezes_S1_S_).sem = ysSem 3 := rfl
theorem canon_ysSem4 : ((SemArray.slice cc0_scratch10 (Rect.unit (s := S8) ![4] S1.size inb_S8_S1_4)).squeeze S_ squeezes_S1_S_).sem = ysSem 4 := rfl
theorem canon_ysSem5 : ((SemArray.slice cc0_scratch10 (Rect.unit (s := S8) ![5] S1.size inb_S8_S1_5)).squeeze S_ squeezes_S1_S_).sem = ysSem 5 := rfl
theorem canon_ysSem6 : ((SemArray.slice cc0_scratch10 (Rect.unit (s := S8) ![6] S1.size inb_S8_S1_6)).squeeze S_ squeezes_S1_S_).sem = ysSem 6 := rfl
theorem canon_ysSem7 : ((SemArray.slice cc0_scratch10 (Rect.unit (s := S8) ![7] S1.size inb_S8_S1_7)).squeeze S_ squeezes_S1_S_).sem = ysSem 7 := rfl
theorem canon_yrSem0 : ((SemArray.slice cc0_scratch11 (Rect.unit (s := S8) ![0] S1.size inb_S8_S1_0)).squeeze S_ squeezes_S1_S_).sem = yrSem 0 := rfl
theorem canon_yrSem1 : ((SemArray.slice cc0_scratch11 (Rect.unit (s := S8) ![1] S1.size inb_S8_S1_1)).squeeze S_ squeezes_S1_S_).sem = yrSem 1 := rfl
theorem canon_yrSem2 : ((SemArray.slice cc0_scratch11 (Rect.unit (s := S8) ![2] S1.size inb_S8_S1_2)).squeeze S_ squeezes_S1_S_).sem = yrSem 2 := rfl
theorem canon_yrSem3 : ((SemArray.slice cc0_scratch11 (Rect.unit (s := S8) ![3] S1.size inb_S8_S1_3)).squeeze S_ squeezes_S1_S_).sem = yrSem 3 := rfl
theorem canon_yrSem4 : ((SemArray.slice cc0_scratch11 (Rect.unit (s := S8) ![4] S1.size inb_S8_S1_4)).squeeze S_ squeezes_S1_S_).sem = yrSem 4 := rfl
theorem canon_yrSem5 : ((SemArray.slice cc0_scratch11 (Rect.unit (s := S8) ![5] S1.size inb_S8_S1_5)).squeeze S_ squeezes_S1_S_).sem = yrSem 5 := rfl
theorem canon_yrSem6 : ((SemArray.slice cc0_scratch11 (Rect.unit (s := S8) ![6] S1.size inb_S8_S1_6)).squeeze S_ squeezes_S1_S_).sem = yrSem 6 := rfl
theorem canon_yrSem7 : ((SemArray.slice cc0_scratch11 (Rect.unit (s := S8) ![7] S1.size inb_S8_S1_7)).squeeze S_ squeezes_S1_S_).sem = yrSem 7 := rfl
theorem canon_zsSem0 : ((SemArray.slice cc0_scratch12 (Rect.unit (s := S8) ![0] S1.size inb_S8_S1_0)).squeeze S_ squeezes_S1_S_).sem = zsSem 0 := rfl
theorem canon_zsSem1 : ((SemArray.slice cc0_scratch12 (Rect.unit (s := S8) ![1] S1.size inb_S8_S1_1)).squeeze S_ squeezes_S1_S_).sem = zsSem 1 := rfl
theorem canon_zsSem2 : ((SemArray.slice cc0_scratch12 (Rect.unit (s := S8) ![2] S1.size inb_S8_S1_2)).squeeze S_ squeezes_S1_S_).sem = zsSem 2 := rfl
theorem canon_zsSem3 : ((SemArray.slice cc0_scratch12 (Rect.unit (s := S8) ![3] S1.size inb_S8_S1_3)).squeeze S_ squeezes_S1_S_).sem = zsSem 3 := rfl
theorem canon_zsSem4 : ((SemArray.slice cc0_scratch12 (Rect.unit (s := S8) ![4] S1.size inb_S8_S1_4)).squeeze S_ squeezes_S1_S_).sem = zsSem 4 := rfl
theorem canon_zsSem5 : ((SemArray.slice cc0_scratch12 (Rect.unit (s := S8) ![5] S1.size inb_S8_S1_5)).squeeze S_ squeezes_S1_S_).sem = zsSem 5 := rfl
theorem canon_zsSem6 : ((SemArray.slice cc0_scratch12 (Rect.unit (s := S8) ![6] S1.size inb_S8_S1_6)).squeeze S_ squeezes_S1_S_).sem = zsSem 6 := rfl
theorem canon_zsSem7 : ((SemArray.slice cc0_scratch12 (Rect.unit (s := S8) ![7] S1.size inb_S8_S1_7)).squeeze S_ squeezes_S1_S_).sem = zsSem 7 := rfl
theorem canon_zrSem0 : ((SemArray.slice cc0_scratch13 (Rect.unit (s := S8) ![0] S1.size inb_S8_S1_0)).squeeze S_ squeezes_S1_S_).sem = zrSem 0 := rfl
theorem canon_zrSem1 : ((SemArray.slice cc0_scratch13 (Rect.unit (s := S8) ![1] S1.size inb_S8_S1_1)).squeeze S_ squeezes_S1_S_).sem = zrSem 1 := rfl
theorem canon_zrSem2 : ((SemArray.slice cc0_scratch13 (Rect.unit (s := S8) ![2] S1.size inb_S8_S1_2)).squeeze S_ squeezes_S1_S_).sem = zrSem 2 := rfl
theorem canon_zrSem3 : ((SemArray.slice cc0_scratch13 (Rect.unit (s := S8) ![3] S1.size inb_S8_S1_3)).squeeze S_ squeezes_S1_S_).sem = zrSem 3 := rfl
theorem canon_zrSem4 : ((SemArray.slice cc0_scratch13 (Rect.unit (s := S8) ![4] S1.size inb_S8_S1_4)).squeeze S_ squeezes_S1_S_).sem = zrSem 4 := rfl
theorem canon_zrSem5 : ((SemArray.slice cc0_scratch13 (Rect.unit (s := S8) ![5] S1.size inb_S8_S1_5)).squeeze S_ squeezes_S1_S_).sem = zrSem 5 := rfl
theorem canon_zrSem6 : ((SemArray.slice cc0_scratch13 (Rect.unit (s := S8) ![6] S1.size inb_S8_S1_6)).squeeze S_ squeezes_S1_S_).sem = zrSem 6 := rfl
theorem canon_zrSem7 : ((SemArray.slice cc0_scratch13 (Rect.unit (s := S8) ![7] S1.size inb_S8_S1_7)).squeeze S_ squeezes_S1_S_).sem = zrSem 7 := rfl

attribute [local sl_canon] canon_YS0 canon_YS1 canon_YS2 canon_YS3 canon_YS4 canon_YS5 canon_YS6 canon_YS7 canon_YR0 canon_YR1 canon_YR2 canon_YR3 canon_YR4 canon_YR5 canon_YR6 canon_YR7 canon_ZS0 canon_ZS1 canon_ZS2 canon_ZS3 canon_ZS4 canon_ZS5 canon_ZS6 canon_ZS7 canon_ZR0 canon_ZR1 canon_ZR2 canon_ZR3 canon_ZR4 canon_ZR5 canon_ZR6 canon_ZR7 canon_ysSem0 canon_ysSem1 canon_ysSem2 canon_ysSem3 canon_ysSem4 canon_ysSem5 canon_ysSem6 canon_ysSem7 canon_yrSem0 canon_yrSem1 canon_yrSem2 canon_yrSem3 canon_yrSem4 canon_yrSem5 canon_yrSem6 canon_yrSem7 canon_zsSem0 canon_zsSem1 canon_zsSem2 canon_zsSem3 canon_zsSem4 canon_zsSem5 canon_zsSem6 canon_zsSem7 canon_zrSem0 canon_zrSem1 canon_zrSem2 canon_zrSem3 canon_zrSem4 canon_zrSem5 canon_zrSem6 canon_zrSem7

/-! ## The result's pieces lie apart -/

theorem out_disj {o o' : Fin 2 → Nat} {inb : ∀ a, o a + S128x256.size a ≤ S256x2048.size a} {inb' : ∀ a, o' a + S128x256.size a ≤ S256x2048.size a}
    {h1 : ∀ a, (Rect.unit (s := S256x2048) o S128x256.size inb).stride a = 1} {h2 : ∀ a, (Rect.unit (s := S256x2048) o' S128x256.size inb').stride a = 1}
    (h : o 0 + 128 ≤ o' 0 ∨ o' 0 + 128 ≤ o 0) :
    Disjoint ((Memref.whole main_v1).slice (Rect.unit (s := S256x2048) o S128x256.size inb) h1).view.set
      ((Memref.whole main_v1).slice (Rect.unit (s := S256x2048) o' S128x256.size inb') h2).view.set := by
  refine Finset.disjoint_left.mpr fun x hx hx' => ?_
  have hx1 : x ∈ (Rect.unit (s := S256x2048) o S128x256.size inb).set := by
    rw [← View.set_slice_whole main_v1]; exact hx
  have hx2 : x ∈ (Rect.unit (s := S256x2048) o' S128x256.size inb').set := by
    rw [← View.set_slice_whole main_v1]; exact hx'
  exact Finset.disjoint_left.mp (Rect.unit_disjoint 0 h) hx1 hx2

macro "disj_tac" : tactic => `(tactic| (apply out_disj; simp only [k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, Matrix.cons_val_zero]; omega))

open Lean Elab Tactic Meta in
/-- Unfold every auxiliary constant the symbolic run named (their names have the component `sl`). -/
elab "unfold_aux" : tactic => do
  let g ← getMainGoal
  let tgt ← instantiateMVars (← g.getType)
  let tgt' ← Lean.Meta.deltaExpand tgt (fun n => n.components.contains `sl)
  replaceMainGoal [← g.replaceTargetDefEq tgt']

/-! ## Reading back what was stored -/

abbrev XT : Memref sig .tc .vmem S2x128x512 .f32 := Memref.whole cc0_scratch1
abbrev xtR0 : Rect S2x128x512 := Rect.unit (s := S2x128x512) ![0, 0, 0] S1x128x512.size inb_S2x128x512_S1x128x512_0_0_0
abbrev xtR1 : Rect S2x128x512 := Rect.unit (s := S2x128x512) ![1, 0, 0] S1x128x512.size inb_S2x128x512_S1x128x512_1_0_0

set_option maxHeartbeats 1600000 in
/-- The second transposed operand, read back right after it was stored; -/
theorem xt_read1 (X : xtR1.shape.Idx → Elt F .f32) (L : List (View.Piece (Elt F) S2x128x512 .f32)) :
    XT.view.readCov (⟨xtR1, X⟩ :: L) xtR1.toLoadRect = X := View.readCov_cons_toLoadRect XT.view xtR1 X L
set_option maxHeartbeats 1600000 in
/-- and the first, stored before it in the other half. -/
theorem xt_read0 (X : xtR1.shape.Idx → Elt F .f32) (Y : xtR0.shape.Idx → Elt F .f32) (L : List (View.Piece (Elt F) S2x128x512 .f32)) :
    XT.view.readCov (⟨xtR1, X⟩ :: ⟨xtR0, Y⟩ :: L) xtR0.toLoadRect = Y :=
  (View.readCov_cons_of_disjoint XT.view ⟨xtR1, X⟩ (⟨xtR0, Y⟩ :: L) xtR0.toLoadRect (Rect.unit_disjoint (inb := inb_S2x128x512_S1x128x512_1_0_0) (inb' := inb_S2x128x512_S1x128x512_0_0_0) 0 (by decide))).trans (View.readCov_cons_toLoadRect XT.view xtR0 Y L)

/-- The dy block copied whole into its scratch buffer reads as the block itself. -/
theorem dyv_read (r : LoadRect S512x2048) (f0 : BufTy.Contents (Elt F) DYV.view.ty) (fdy : BufTy.Contents (Elt F) (Memref.whole main_arg1).view.ty) :
    View.readAt (Elt F) DYV.view r (View.write (Elt F) DYV.view f0 (ReadAs.same.apply ((Memref.whole main_arg1).view.read (Elt F) fdy)) Finset.univ)
      = View.readAt (Elt F) DYV.view r fdy := by
  congr 1
  show (View.whole cc0_scratch0).write (Elt F) f0 ((View.whole main_arg1).read (Elt F) fdy) Finset.univ = fdy
  rw [View.read_whole]
  exact View.write_whole_univ _ _ _

/-- A load through the rectangle of the newest write reads what was written. -/
theorem readAt_writes_head {κ : Kind} {sp : Space} {s : Shape} {e : EltTy} (v : View sig κ sp s e) (r : Rect s) (w : r.shape.Idx → Elt F e)
    (L : List (View.Piece (Elt F) s e)) (f : v.ty.Contents (Elt F)) :
    v.readAt (Elt F) r.toLoadRect (v.writes (Elt F) f (⟨r, w⟩ :: L)) = w :=
  funext fun j => View.read_writes_cons_emb v f r w L j

/-- Slot `i` of a `[8,128,256]` f32 buffer, read as a `[128,256]` piece right after `w` was stored over it. -/
theorem fslot_read (M : Memref sig .tc .vmem S8x128x256 .f32) (i : Fin 8) (h : ∀ a, (slotRect i).stride a = 1)
    (f : M.view.ty.Contents (Elt F)) (w : (slotRect i).shape.Idx → Elt F .f32) (L : List (View.Piece (Elt F) S8x128x256 .f32)) :
    ((M.slice (slotRect i) h).squeeze S128x256 squeezes_S1x128x256_S128x256).view.read (Elt F) (M.view.writes (Elt F) f (⟨slotRect i, w⟩ :: L))
      = shapeCast S128x256 w shapeCasts_S1x128x256_S128x256 := by
  rw [Memref.read_squeeze_slice M (slotRect i) h squeezes_S1x128x256_S128x256 shapeCasts_S1x128x256_S128x256]
  congr 1
  exact readAt_writes_head M.view (slotRect i) w L f

theorem readAs_same {s : Shape} {e : EltTy} (g : s.Idx → Elt F e) : (ReadAs.same : ReadAs (Elt F) s e s e).apply g = g := rfl

omit [FloatOps F] in
theorem pt_of_eq {ℓ : Loc nD τ sig} {q : PosShare TreeShare} (B : Buf (Elt F) ℓ) :
    (iprop(∃ g, ⌜g = B⌝ ∗ ℓ ↦{q} g) : sProp 𝕄) ⊢ ℓ ↦{q} B := by
  iintro ⟨%g, %hg, H⟩; subst hg; iexact H

/-- `join8` with the eight contents named one by one. -/
theorem join8' (M : Memref sig .tc .vmem S8x128x256 .bf16) (hM : M.view.set = Finset.univ) (c : Dev nD)
    (g0 g1 g2 g3 g4 g5 g6 g7 : Buf (Elt F) (M.view.loc (c : Thread nD τ))) :
    (iprop(((slotM M 0).view.loc (c : Thread nD τ) ↦[(slotM M 0).view.set]{fullShare} g0) ∗ ((slotM M 1).view.loc (c : Thread nD τ) ↦[(slotM M 1).view.set]{fullShare} g1)
        ∗ ((slotM M 2).view.loc (c : Thread nD τ) ↦[(slotM M 2).view.set]{fullShare} g2) ∗ ((slotM M 3).view.loc (c : Thread nD τ) ↦[(slotM M 3).view.set]{fullShare} g3)
        ∗ ((slotM M 4).view.loc (c : Thread nD τ) ↦[(slotM M 4).view.set]{fullShare} g4) ∗ ((slotM M 5).view.loc (c : Thread nD τ) ↦[(slotM M 5).view.set]{fullShare} g5)
        ∗ ((slotM M 6).view.loc (c : Thread nD τ) ↦[(slotM M 6).view.set]{fullShare} g6) ∗ ((slotM M 7).view.loc (c : Thread nD τ) ↦[(slotM M 7).view.set]{fullShare} g7)) : sProp 𝕄)
      ⊢ iprop(∃ g, M.view.loc (c : Thread nD τ) ↦{fullShare} g) :=
  join8 (F := F) M hM c ![g0, g1, g2, g3, g4, g5, g6, g7]

macro "val_norm" : tactic => `(tactic| (unfold_aux; repeat (first | rw [xt_read0] | rw [xt_read1] | rw [dyv_read])))

/-! ## The body -/

/-- What the body gives back: nothing owed any more, the staged x block as it was, and the state after the point. -/
def bodyPost (m : (ℓ : Loc nD τ sig) → Buf (Elt F) ℓ) (c : Dev nD) : sProp 𝕄 :=
  iprop((∃ W', owes (c : Thread nD τ) (0 : CellTallies nD τ sig Unit) W') ∗ (X0.view.loc (c : Thread nD τ) ↦{fullShare} xstg m c) ∗ Φ₁ m c)

set_option maxHeartbeats 8000000 in
theorem sound_body (m : (ℓ : Loc nD τ sig) → Buf (Elt F) ℓ) (K : GSem nD τ sig → ℕ) (c : Dev nD) (W : Waits sig Unit)
    (f0 : Buf (Elt F) ((Memref.whole cc0_scratch0).view.loc (c : Thread nD τ)))
    (f1 : Buf (Elt F) ((Memref.whole cc0_scratch1).view.loc (c : Thread nD τ)))
    (f2 : Buf (Elt F) ((Memref.whole cc0_scratch2).view.loc (c : Thread nD τ)))
    (f3 : Buf (Elt F) ((Memref.whole cc0_scratch3).view.loc (c : Thread nD τ)))
    (f4 : Buf (Elt F) ((Memref.whole cc0_scratch4).view.loc (c : Thread nD τ)))
    (f5 : Buf (Elt F) ((Memref.whole cc0_scratch5).view.loc (c : Thread nD τ)))
    (f6 : Buf (Elt F) ((Memref.whole cc0_scratch6).view.loc (c : Thread nD τ)))
    (f7 : Buf (Elt F) ((Memref.whole cc0_scratch7).view.loc (c : Thread nD τ)))
    (Kt : PUnit → sProp 𝕄) :
    iprop(invsG (PSm m) (PZm m) K c ∗ levAts L lv ∗ posToks c ∗ creds c ∗ localSems c ∗ owes (c : Thread nD τ) (owed₀ c) W
        ∗ (X0.view.loc (c : Thread nD τ) ↦{fullShare} xstg m c)
        ∗ ((Memref.whole main_arg1).view.loc (c : Thread nD τ) ↦{fullShare} m ((c : Thread nD τ).loc main_arg1))
        ∗ ((Memref.whole main_v1).view.loc (c : Thread nD τ) ↦{fullShare} m ((c : Thread nD τ).loc main_v1))
        ∗ ((Memref.whole cc0_scratch0).view.loc (c : Thread nD τ) ↦{fullShare} f0)
        ∗ ((Memref.whole cc0_scratch1).view.loc (c : Thread nD τ) ↦{fullShare} f1)
        ∗ ((Memref.whole cc0_scratch2).view.loc (c : Thread nD τ) ↦{fullShare} f2)
        ∗ ((Memref.whole cc0_scratch3).view.loc (c : Thread nD τ) ↦{fullShare} f3)
        ∗ ((Memref.whole cc0_scratch4).view.loc (c : Thread nD τ) ↦{fullShare} f4)
        ∗ ((Memref.whole cc0_scratch5).view.loc (c : Thread nD τ) ↦{fullShare} f5)
        ∗ ((Memref.whole cc0_scratch6).view.loc (c : Thread nD τ) ↦{fullShare} f6)
        ∗ ((Memref.whole cc0_scratch7).view.loc (c : Thread nD τ) ↦{fullShare} f7)
        ∗ (bodyPost m c -∗ Kt ⟨⟩))
      ⊢ wp frame (wpE (defs₀ (F := F)) 𝒱₀ c none) Set.univ (cc0_body (Memref.whole cc0_stg0_0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13) Kt := by
  unfold invsG posToks creds localSems all8
  beta_reduce
  iintro ⟨⟨#HIb, #HIby, #HIbz, ⟨#HIys0, #HIys1, #HIys2, #HIys3, #HIys4, #HIys5, #HIys6, #HIys7⟩, ⟨#HIyr0, #HIyr1, #HIyr2, #HIyr3, #HIyr4, #HIyr5, #HIyr6, #HIyr7⟩, ⟨#HIzs0, #HIzs1, #HIzs2, #HIzs3, #HIzs4, #HIzs5, #HIzs6, #HIzs7⟩, ⟨#HIzr0, #HIzr1, #HIzr2, #HIzr3, #HIzr4, #HIzr5, #HIzr6, #HIzr7⟩, ⟨#HIyrp0, #HIyrp1, #HIyrp2, #HIyrp3, #HIyrp4, #HIyrp5, #HIyrp6, #HIyrp7⟩, ⟨#HIzrp0, #HIzrp1, #HIzrp2, #HIzrp3, #HIzrp4, #HIzrp5, #HIzrp6, #HIzrp7⟩,
      #Hrby, #Hrbz, ⟨#Hrys0, #Hrys1, #Hrys2, #Hrys3, #Hrys4, #Hrys5, #Hrys6, #Hrys7⟩, ⟨#Hryr0, #Hryr1, #Hryr2, #Hryr3, #Hryr4, #Hryr5, #Hryr6, #Hryr7⟩, ⟨#Hrzs0, #Hrzs1, #Hrzs2, #Hrzs3, #Hrzs4, #Hrzs5, #Hrzs6, #Hrzs7⟩, ⟨#Hrzr0, #Hrzr1, #Hrzr2, #Hrzr3, #Hrzr4, #Hrzr5, #Hrzr6, #Hrzr7⟩⟩, #Hlev,
    ⟨Hatb, ⟨Hatys0, Hatys1, Hatys2, Hatys3, Hatys4, Hatys5, Hatys6, Hatys7⟩, ⟨Hatyr0, Hatyr1, Hatyr2, Hatyr3, Hatyr4, Hatyr5, Hatyr6, Hatyr7⟩, ⟨Hatzs0, Hatzs1, Hatzs2, Hatzs3, Hatzs4, Hatzs5, Hatzs6, Hatzs7⟩, ⟨Hatzr0, Hatzr1, Hatzr2, Hatzr3, Hatzr4, Hatzr5, Hatzr6, Hatzr7⟩, Htby, Htbz, ⟨Htys0, Htys1, Htys2, Htys3, Htys4, Htys5, Htys6, Htys7⟩, ⟨Htzs0, Htzs1, Htzs2, Htzs3, Htzs4, Htzs5, Htzs6, Htzs7⟩, ⟨Htyr0, Htyr1, Htyr2, Htyr3, Htyr4, Htyr5, Htyr6, Htyr7⟩, ⟨Htzr0, Htzr1, Htzr2, Htzr3, Htzr4, Htzr5, Htzr6, Htzr7⟩⟩,
    ⟨Hcb, ⟨Hcyr0, Hcyr1, Hcyr2, Hcyr3, Hcyr4, Hcyr5, Hcyr6, Hcyr7⟩, ⟨Hczr0, Hczr1, Hczr2, Hczr3, Hczr4, Hczr5, Hczr6, Hczr7⟩⟩,
    ⟨Hs1, Hs2, Hs3, Hs4, Hs5, Hs6, Hs7, Hs8, Hs9, Hs10, Hs11, Hs12, Hs13, Hs14, Hs15, Hs16, Hs17⟩,
    HO, Hx, Hdy, Hout, Hb0, Hb1, Hb2, Hb3, Hb4, Hb5, Hb6, Hb7, Hk⟩
  have hd1 : ∀ c : Dev nD, (⟨k0_dev1 c, k0_dev1_lt c⟩ : Dev nD) = yp c := dev1_eq
  have hd2 : ∀ c : Dev nD, (⟨k0_dev2 c, k0_dev2_lt c⟩ : Dev nD) = zp c := dev2_eq
  have hd3 : ∀ c : Dev nD, (⟨k0_dev3 c, k0_dev3_lt c⟩ : Dev nD) = yp c := fun c => Fin.ext (k0_dev3_eq c)
  have hd4 : ∀ c : Dev nD, (⟨k0_dev4 c, k0_dev4_lt c⟩ : Dev nD) = yp c := fun c => Fin.ext (k0_dev4_eq c)
  have hd5 : ∀ c : Dev nD, (⟨k0_dev5 c, k0_dev5_lt c⟩ : Dev nD) = yp c := fun c => Fin.ext (k0_dev5_eq c)
  have hd6 : ∀ c : Dev nD, (⟨k0_dev6 c, k0_dev6_lt c⟩ : Dev nD) = yp c := fun c => Fin.ext (k0_dev6_eq c)
  have hd7 : ∀ c : Dev nD, (⟨k0_dev7 c, k0_dev7_lt c⟩ : Dev nD) = yp c := fun c => Fin.ext (k0_dev7_eq c)
  have hd8 : ∀ c : Dev nD, (⟨k0_dev8 c, k0_dev8_lt c⟩ : Dev nD) = yp c := fun c => Fin.ext (k0_dev8_eq c)
  have hd9 : ∀ c : Dev nD, (⟨k0_dev9 c, k0_dev9_lt c⟩ : Dev nD) = yp c := fun c => Fin.ext (k0_dev9_eq c)
  have hd10 : ∀ c : Dev nD, (⟨k0_dev10 c, k0_dev10_lt c⟩ : Dev nD) = yp c := fun c => Fin.ext (k0_dev10_eq c)
  have hd11 : ∀ c : Dev nD, (⟨k0_dev11 c, k0_dev11_lt c⟩ : Dev nD) = zp c := fun c => Fin.ext (k0_dev11_eq c)
  have hd12 : ∀ c : Dev nD, (⟨k0_dev12 c, k0_dev12_lt c⟩ : Dev nD) = zp c := fun c => Fin.ext (k0_dev12_eq c)
  have hd13 : ∀ c : Dev nD, (⟨k0_dev13 c, k0_dev13_lt c⟩ : Dev nD) = zp c := fun c => Fin.ext (k0_dev13_eq c)
  have hd14 : ∀ c : Dev nD, (⟨k0_dev14 c, k0_dev14_lt c⟩ : Dev nD) = zp c := fun c => Fin.ext (k0_dev14_eq c)
  have hd15 : ∀ c : Dev nD, (⟨k0_dev15 c, k0_dev15_lt c⟩ : Dev nD) = zp c := fun c => Fin.ext (k0_dev15_eq c)
  have hd16 : ∀ c : Dev nD, (⟨k0_dev16 c, k0_dev16_lt c⟩ : Dev nD) = zp c := fun c => Fin.ext (k0_dev16_eq c)
  have hd17 : ∀ c : Dev nD, (⟨k0_dev17 c, k0_dev17_lt c⟩ : Dev nD) = zp c := fun c => Fin.ext (k0_dev17_eq c)
  have hd18 : ∀ c : Dev nD, (⟨k0_dev18 c, k0_dev18_lt c⟩ : Dev nD) = zp c := fun c => Fin.ext (k0_dev18_eq c)
  have hmw := mayWait_owedY (F := F) c (.reg barS) (le_refl _) 8
  have hmwd := mayWait_owedY (F := F) c (.dma (1 : DmaSem sig)) (Nat.zero_le 1) 8
  have hz2 : c.val % 2 < 2 := Nat.mod_lt _ (by decide)
  unfold owed₀ owed₁
  -- the two buffers sent from, slot by slot
  ihave Hys := (Entails.of_eq (split8' (F := F) YS (View.set_whole _) c fullShare f2)) $$ Hb2
  ihave Hzs := (Entails.of_eq (split8' (F := F) ZS (View.set_whole _) c fullShare f4)) $$ Hb4
  unfold all8
  icases Hys with ⟨HYS0, HYS1, HYS2, HYS3, HYS4, HYS5, HYS6, HYS7⟩
  icases Hzs with ⟨HZS0, HZS1, HZS2, HZS3, HZS4, HZS5, HZS6, HZS7⟩
  rw [cc0_body_eq_skeleton]; unfold cc0_body_skel
  sl_exec
  -- what the barrier's round handed over: each partner's receive buffer, and that it has opened its receive cells
  ihave Hp := (Entails.of_eq (bar_payloads (PSm m) (PZm m) c)) $$ Hatb_pay1
  unfold barPayY barPayZ all8
  icases Hp with ⟨⟨⟨%fyrp, Hyrp⟩, ⟨#Hryp0, #Hryp1, #Hryp2, #Hryp3, #Hryp4, #Hryp5, #Hryp6, #Hryp7⟩⟩, ⟨⟨%fzrp, Hzrp⟩, ⟨#Hrzp0, #Hrzp1, #Hrzp2, #Hrzp3, #Hrzp4, #Hrzp5, #Hrzp6, #Hrzp7⟩⟩⟩
  ihave Hyrp' := (Entails.of_eq (split8' (F := F) YR (View.set_whole _) (yp c) fullShare fyrp)) $$ Hyrp
  ihave Hzrp' := (Entails.of_eq (split8' (F := F) ZR (View.set_whole _) (zp c) fullShare fzrp)) $$ Hzrp
  unfold all8
  icases Hyrp' with ⟨HYRP0, HYRP1, HYRP2, HYRP3, HYRP4, HYRP5, HYRP6, HYRP7⟩
  icases Hzrp' with ⟨HZRP0, HZRP1, HZRP2, HZRP3, HZRP4, HZRP5, HZRP6, HZRP7⟩
  -- chunk 0 to the partner along y
  rw [show owedY c 8 = owedY c 7 + tallyAt (yrCell (yp c) 0) () N from rfl]
  iapply (send_y' (PSm m) (PZm m) K c (yp c) rfl 0 _ _ _ _) $$ [HO Htys0 Htyr0 HYS0 HYRP0]
  · isplitl [HO Htys0 Htyr0 HYS0 HYRP0]
    · isplitr; · iexact HIys0
      isplitr; · iexact HIyrp0
      isplitl [HYS0]; · iexact HYS0
      isplitl [HYRP0]; · iexact HYRP0
      isplitl [HO]; · iexact HO
      isplitl [Htys0]; · iexact Htys0
      isplitr; · iexact Hrys0
      isplitl [Htyr0]; · iexact Htyr0
      iexact Hryp0
    · ipureintro
      val_norm
      refine (slot_read_store (F := F) YS 0 _ _).trans ?_
      unfold PSm
      refine congrArg sqz ?_
      set_option maxHeartbeats 2000000 in rfl
  iintro ⟨Hcys0, HO⟩
  sl_exec
  -- chunk 1 to the partner along y
  rw [show owedY c 7 = owedY c 6 + tallyAt (yrCell (yp c) 1) () N from rfl]
  iapply (send_y' (PSm m) (PZm m) K c (yp c) rfl 1 _ _ _ _) $$ [HO Htys1 Htyr1 HYS1 HYRP1]
  · isplitl [HO Htys1 Htyr1 HYS1 HYRP1]
    · isplitr; · iexact HIys1
      isplitr; · iexact HIyrp1
      isplitl [HYS1]; · iexact HYS1
      isplitl [HYRP1]; · iexact HYRP1
      isplitl [HO]; · iexact HO
      isplitl [Htys1]; · iexact Htys1
      isplitr; · iexact Hrys1
      isplitl [Htyr1]; · iexact Htyr1
      iexact Hryp1
    · ipureintro
      val_norm
      refine (slot_read_store (F := F) YS 1 _ _).trans ?_
      unfold PSm
      refine congrArg sqz ?_
      set_option maxHeartbeats 2000000 in rfl
  iintro ⟨Hcys1, HO⟩
  sl_exec
  -- chunk 2 to the partner along y
  rw [show owedY c 6 = owedY c 5 + tallyAt (yrCell (yp c) 2) () N from rfl]
  iapply (send_y' (PSm m) (PZm m) K c (yp c) rfl 2 _ _ _ _) $$ [HO Htys2 Htyr2 HYS2 HYRP2]
  · isplitl [HO Htys2 Htyr2 HYS2 HYRP2]
    · isplitr; · iexact HIys2
      isplitr; · iexact HIyrp2
      isplitl [HYS2]; · iexact HYS2
      isplitl [HYRP2]; · iexact HYRP2
      isplitl [HO]; · iexact HO
      isplitl [Htys2]; · iexact Htys2
      isplitr; · iexact Hrys2
      isplitl [Htyr2]; · iexact Htyr2
      iexact Hryp2
    · ipureintro
      val_norm
      refine (slot_read_store (F := F) YS 2 _ _).trans ?_
      unfold PSm
      refine congrArg sqz ?_
      set_option maxHeartbeats 2000000 in rfl
  iintro ⟨Hcys2, HO⟩
  sl_exec
  -- chunk 3 to the partner along y
  rw [show owedY c 5 = owedY c 4 + tallyAt (yrCell (yp c) 3) () N from rfl]
  iapply (send_y' (PSm m) (PZm m) K c (yp c) rfl 3 _ _ _ _) $$ [HO Htys3 Htyr3 HYS3 HYRP3]
  · isplitl [HO Htys3 Htyr3 HYS3 HYRP3]
    · isplitr; · iexact HIys3
      isplitr; · iexact HIyrp3
      isplitl [HYS3]; · iexact HYS3
      isplitl [HYRP3]; · iexact HYRP3
      isplitl [HO]; · iexact HO
      isplitl [Htys3]; · iexact Htys3
      isplitr; · iexact Hrys3
      isplitl [Htyr3]; · iexact Htyr3
      iexact Hryp3
    · ipureintro
      val_norm
      refine (slot_read_store (F := F) YS 3 _ _).trans ?_
      unfold PSm
      refine congrArg sqz ?_
      set_option maxHeartbeats 2000000 in rfl
  iintro ⟨Hcys3, HO⟩
  sl_exec
  -- chunk 4 to the partner along y
  rw [show owedY c 4 = owedY c 3 + tallyAt (yrCell (yp c) 4) () N from rfl]
  iapply (send_y' (PSm m) (PZm m) K c (yp c) rfl 4 _ _ _ _) $$ [HO Htys4 Htyr4 HYS4 HYRP4]
  · isplitl [HO Htys4 Htyr4 HYS4 HYRP4]
    · isplitr; · iexact HIys4
      isplitr; · iexact HIyrp4
      isplitl [HYS4]; · iexact HYS4
      isplitl [HYRP4]; · iexact HYRP4
      isplitl [HO]; · iexact HO
      isplitl [Htys4]; · iexact Htys4
      isplitr; · iexact Hrys4
      isplitl [Htyr4]; · iexact Htyr4
      iexact Hryp4
    · ipureintro
      val_norm
      refine (slot_read_store (F := F) YS 4 _ _).trans ?_
      unfold PSm
      refine congrArg sqz ?_
      set_option maxHeartbeats 2000000 in rfl
  iintro ⟨Hcys4, HO⟩
  sl_exec
  -- chunk 5 to the partner along y
  rw [show owedY c 3 = owedY c 2 + tallyAt (yrCell (yp c) 5) () N from rfl]
  iapply (send_y' (PSm m) (PZm m) K c (yp c) rfl 5 _ _ _ _) $$ [HO Htys5 Htyr5 HYS5 HYRP5]
  · isplitl [HO Htys5 Htyr5 HYS5 HYRP5]
    · isplitr; · iexact HIys5
      isplitr; · iexact HIyrp5
      isplitl [HYS5]; · iexact HYS5
      isplitl [HYRP5]; · iexact HYRP5
      isplitl [HO]; · iexact HO
      isplitl [Htys5]; · iexact Htys5
      isplitr; · iexact Hrys5
      isplitl [Htyr5]; · iexact Htyr5
      iexact Hryp5
    · ipureintro
      val_norm
      refine (slot_read_store (F := F) YS 5 _ _).trans ?_
      unfold PSm
      refine congrArg sqz ?_
      set_option maxHeartbeats 2000000 in rfl
  iintro ⟨Hcys5, HO⟩
  sl_exec
  -- chunk 6 to the partner along y
  rw [show owedY c 2 = owedY c 1 + tallyAt (yrCell (yp c) 6) () N from rfl]
  iapply (send_y' (PSm m) (PZm m) K c (yp c) rfl 6 _ _ _ _) $$ [HO Htys6 Htyr6 HYS6 HYRP6]
  · isplitl [HO Htys6 Htyr6 HYS6 HYRP6]
    · isplitr; · iexact HIys6
      isplitr; · iexact HIyrp6
      isplitl [HYS6]; · iexact HYS6
      isplitl [HYRP6]; · iexact HYRP6
      isplitl [HO]; · iexact HO
      isplitl [Htys6]; · iexact Htys6
      isplitr; · iexact Hrys6
      isplitl [Htyr6]; · iexact Htyr6
      iexact Hryp6
    · ipureintro
      val_norm
      refine (slot_read_store (F := F) YS 6 _ _).trans ?_
      unfold PSm
      refine congrArg sqz ?_
      set_option maxHeartbeats 2000000 in rfl
  iintro ⟨Hcys6, HO⟩
  sl_exec
  -- chunk 7 to the partner along y
  rw [show owedY c 1 = owedY c 0 + tallyAt (yrCell (yp c) 7) () N from rfl]
  iapply (send_y' (PSm m) (PZm m) K c (yp c) rfl 7 _ _ _ _) $$ [HO Htys7 Htyr7 HYS7 HYRP7]
  · isplitl [HO Htys7 Htyr7 HYS7 HYRP7]
    · isplitr; · iexact HIys7
      isplitr; · iexact HIyrp7
      isplitl [HYS7]; · iexact HYS7
      isplitl [HYRP7]; · iexact HYRP7
      isplitl [HO]; · iexact HO
      isplitl [Htys7]; · iexact Htys7
      isplitr; · iexact Hrys7
      isplitl [Htyr7]; · iexact Htyr7
      iexact Hryp7
    · ipureintro
      val_norm
      refine (slot_read_store (F := F) YS 7 _ _).trans ?_
      unfold PSm
      refine congrArg sqz ?_
      set_option maxHeartbeats 2000000 in rfl
  iintro ⟨Hcys7, HO⟩
  sl_exec
  rw [show owedY c 0 = owedZ c 8 from rfl]
  -- chunk 0: what the partner along y sent
  iapply (recv_y (PSm m) (PZm m) K c 0 _ rfl (owedZ c 8) _) $$ [HO Hcyr0 Hatyr0]
  · isplitr; · iexact HIyr0
    isplitl [Hcyr0]; · iexact Hcyr0
    isplitl [HO]; · iexact HO
    isplitr; · iapply (mayWait_owedZ (F := F) c (.dma (yrSem 0)) (lv_yr c 0 ()).le 8); iexact Hlev
    iexact Hatyr0
  iintro ⟨HO, Hatyr0, #Hryr1_0, Hpay⟩
  unfold slotHas
  icases Hpay with ⟨%Gy0, %hGy0, HYR0⟩
  have ey0 : View.readAt (Elt F) YR.view (Rect.unit (s := S8x128x256) ![0, 0, 0] S1x128x256.size inb_S8x128x256_S1x128x256_0_0_0).toLoadRect Gy0 = unsqz (PSm m (yp c) 0) :=
    (slot_load (F := F) YR 0 Gy0).trans (congrArg unsqz hGy0)
  sl_exec
  -- the sum for chunk 0 to the partner along z
  rw [show owedZ c 8 = owedZ c 7 + tallyAt (zrCell (zp c) 0) () N from rfl]
  iapply (send_z' (PSm m) (PZm m) K c (zp c) rfl 0 _ _ _ _) $$ [HO Htzs0 Htzr0 HZS0 HZRP0]
  · isplitl [HO Htzs0 Htzr0 HZS0 HZRP0]
    · isplitr; · iexact HIzs0
      isplitr; · iexact HIzrp0
      isplitl [HZS0]; · iexact HZS0
      isplitl [HZRP0]; · iexact HZRP0
      isplitl [HO]; · iexact HO
      isplitl [Htzs0]; · iexact Htzs0
      isplitr; · iexact Hrzs0
      isplitl [Htzr0]; · iexact Htzr0
      iexact Hrzp0
    · ipureintro
      val_norm
      refine (slot_read_store (F := F) ZS 0 _ _).trans ?_
      unfold PZm
      refine congrArg sqz ?_
      set_option maxHeartbeats 2000000 in rfl
  iintro ⟨Hczs0, HO⟩
  sl_exec
  -- chunk 1: what the partner along y sent
  iapply (recv_y (PSm m) (PZm m) K c 1 _ rfl (owedZ c 7) _) $$ [HO Hcyr1 Hatyr1]
  · isplitr; · iexact HIyr1
    isplitl [Hcyr1]; · iexact Hcyr1
    isplitl [HO]; · iexact HO
    isplitr; · iapply (mayWait_owedZ (F := F) c (.dma (yrSem 1)) (lv_yr c 1 ()).le 7); iexact Hlev
    iexact Hatyr1
  iintro ⟨HO, Hatyr1, #Hryr1_1, Hpay⟩
  unfold slotHas
  icases Hpay with ⟨%Gy1, %hGy1, HYR1⟩
  have ey1 : View.readAt (Elt F) YR.view (Rect.unit (s := S8x128x256) ![1, 0, 0] S1x128x256.size inb_S8x128x256_S1x128x256_1_0_0).toLoadRect Gy1 = unsqz (PSm m (yp c) 1) :=
    (slot_load (F := F) YR 1 Gy1).trans (congrArg unsqz hGy1)
  sl_exec
  -- the sum for chunk 1 to the partner along z
  rw [show owedZ c 7 = owedZ c 6 + tallyAt (zrCell (zp c) 1) () N from rfl]
  iapply (send_z' (PSm m) (PZm m) K c (zp c) rfl 1 _ _ _ _) $$ [HO Htzs1 Htzr1 HZS1 HZRP1]
  · isplitl [HO Htzs1 Htzr1 HZS1 HZRP1]
    · isplitr; · iexact HIzs1
      isplitr; · iexact HIzrp1
      isplitl [HZS1]; · iexact HZS1
      isplitl [HZRP1]; · iexact HZRP1
      isplitl [HO]; · iexact HO
      isplitl [Htzs1]; · iexact Htzs1
      isplitr; · iexact Hrzs1
      isplitl [Htzr1]; · iexact Htzr1
      iexact Hrzp1
    · ipureintro
      val_norm
      refine (slot_read_store (F := F) ZS 1 _ _).trans ?_
      unfold PZm
      refine congrArg sqz ?_
      set_option maxHeartbeats 2000000 in rfl
  iintro ⟨Hczs1, HO⟩
  sl_exec
  -- chunk 2: what the partner along y sent
  iapply (recv_y (PSm m) (PZm m) K c 2 _ rfl (owedZ c 6) _) $$ [HO Hcyr2 Hatyr2]
  · isplitr; · iexact HIyr2
    isplitl [Hcyr2]; · iexact Hcyr2
    isplitl [HO]; · iexact HO
    isplitr; · iapply (mayWait_owedZ (F := F) c (.dma (yrSem 2)) (lv_yr c 2 ()).le 6); iexact Hlev
    iexact Hatyr2
  iintro ⟨HO, Hatyr2, #Hryr1_2, Hpay⟩
  unfold slotHas
  icases Hpay with ⟨%Gy2, %hGy2, HYR2⟩
  have ey2 : View.readAt (Elt F) YR.view (Rect.unit (s := S8x128x256) ![2, 0, 0] S1x128x256.size inb_S8x128x256_S1x128x256_2_0_0).toLoadRect Gy2 = unsqz (PSm m (yp c) 2) :=
    (slot_load (F := F) YR 2 Gy2).trans (congrArg unsqz hGy2)
  sl_exec
  -- the sum for chunk 2 to the partner along z
  rw [show owedZ c 6 = owedZ c 5 + tallyAt (zrCell (zp c) 2) () N from rfl]
  iapply (send_z' (PSm m) (PZm m) K c (zp c) rfl 2 _ _ _ _) $$ [HO Htzs2 Htzr2 HZS2 HZRP2]
  · isplitl [HO Htzs2 Htzr2 HZS2 HZRP2]
    · isplitr; · iexact HIzs2
      isplitr; · iexact HIzrp2
      isplitl [HZS2]; · iexact HZS2
      isplitl [HZRP2]; · iexact HZRP2
      isplitl [HO]; · iexact HO
      isplitl [Htzs2]; · iexact Htzs2
      isplitr; · iexact Hrzs2
      isplitl [Htzr2]; · iexact Htzr2
      iexact Hrzp2
    · ipureintro
      val_norm
      refine (slot_read_store (F := F) ZS 2 _ _).trans ?_
      unfold PZm
      refine congrArg sqz ?_
      set_option maxHeartbeats 2000000 in rfl
  iintro ⟨Hczs2, HO⟩
  sl_exec
  -- chunk 3: what the partner along y sent
  iapply (recv_y (PSm m) (PZm m) K c 3 _ rfl (owedZ c 5) _) $$ [HO Hcyr3 Hatyr3]
  · isplitr; · iexact HIyr3
    isplitl [Hcyr3]; · iexact Hcyr3
    isplitl [HO]; · iexact HO
    isplitr; · iapply (mayWait_owedZ (F := F) c (.dma (yrSem 3)) (lv_yr c 3 ()).le 5); iexact Hlev
    iexact Hatyr3
  iintro ⟨HO, Hatyr3, #Hryr1_3, Hpay⟩
  unfold slotHas
  icases Hpay with ⟨%Gy3, %hGy3, HYR3⟩
  have ey3 : View.readAt (Elt F) YR.view (Rect.unit (s := S8x128x256) ![3, 0, 0] S1x128x256.size inb_S8x128x256_S1x128x256_3_0_0).toLoadRect Gy3 = unsqz (PSm m (yp c) 3) :=
    (slot_load (F := F) YR 3 Gy3).trans (congrArg unsqz hGy3)
  sl_exec
  -- the sum for chunk 3 to the partner along z
  rw [show owedZ c 5 = owedZ c 4 + tallyAt (zrCell (zp c) 3) () N from rfl]
  iapply (send_z' (PSm m) (PZm m) K c (zp c) rfl 3 _ _ _ _) $$ [HO Htzs3 Htzr3 HZS3 HZRP3]
  · isplitl [HO Htzs3 Htzr3 HZS3 HZRP3]
    · isplitr; · iexact HIzs3
      isplitr; · iexact HIzrp3
      isplitl [HZS3]; · iexact HZS3
      isplitl [HZRP3]; · iexact HZRP3
      isplitl [HO]; · iexact HO
      isplitl [Htzs3]; · iexact Htzs3
      isplitr; · iexact Hrzs3
      isplitl [Htzr3]; · iexact Htzr3
      iexact Hrzp3
    · ipureintro
      val_norm
      refine (slot_read_store (F := F) ZS 3 _ _).trans ?_
      unfold PZm
      refine congrArg sqz ?_
      set_option maxHeartbeats 2000000 in rfl
  iintro ⟨Hczs3, HO⟩
  sl_exec
  -- chunk 4: what the partner along y sent
  iapply (recv_y (PSm m) (PZm m) K c 4 _ rfl (owedZ c 4) _) $$ [HO Hcyr4 Hatyr4]
  · isplitr; · iexact HIyr4
    isplitl [Hcyr4]; · iexact Hcyr4
    isplitl [HO]; · iexact HO
    isplitr; · iapply (mayWait_owedZ (F := F) c (.dma (yrSem 4)) (lv_yr c 4 ()).le 4); iexact Hlev
    iexact Hatyr4
  iintro ⟨HO, Hatyr4, #Hryr1_4, Hpay⟩
  unfold slotHas
  icases Hpay with ⟨%Gy4, %hGy4, HYR4⟩
  have ey4 : View.readAt (Elt F) YR.view (Rect.unit (s := S8x128x256) ![4, 0, 0] S1x128x256.size inb_S8x128x256_S1x128x256_4_0_0).toLoadRect Gy4 = unsqz (PSm m (yp c) 4) :=
    (slot_load (F := F) YR 4 Gy4).trans (congrArg unsqz hGy4)
  sl_exec
  -- the sum for chunk 4 to the partner along z
  rw [show owedZ c 4 = owedZ c 3 + tallyAt (zrCell (zp c) 4) () N from rfl]
  iapply (send_z' (PSm m) (PZm m) K c (zp c) rfl 4 _ _ _ _) $$ [HO Htzs4 Htzr4 HZS4 HZRP4]
  · isplitl [HO Htzs4 Htzr4 HZS4 HZRP4]
    · isplitr; · iexact HIzs4
      isplitr; · iexact HIzrp4
      isplitl [HZS4]; · iexact HZS4
      isplitl [HZRP4]; · iexact HZRP4
      isplitl [HO]; · iexact HO
      isplitl [Htzs4]; · iexact Htzs4
      isplitr; · iexact Hrzs4
      isplitl [Htzr4]; · iexact Htzr4
      iexact Hrzp4
    · ipureintro
      val_norm
      refine (slot_read_store (F := F) ZS 4 _ _).trans ?_
      unfold PZm
      refine congrArg sqz ?_
      set_option maxHeartbeats 2000000 in rfl
  iintro ⟨Hczs4, HO⟩
  sl_exec
  -- chunk 5: what the partner along y sent
  iapply (recv_y (PSm m) (PZm m) K c 5 _ rfl (owedZ c 3) _) $$ [HO Hcyr5 Hatyr5]
  · isplitr; · iexact HIyr5
    isplitl [Hcyr5]; · iexact Hcyr5
    isplitl [HO]; · iexact HO
    isplitr; · iapply (mayWait_owedZ (F := F) c (.dma (yrSem 5)) (lv_yr c 5 ()).le 3); iexact Hlev
    iexact Hatyr5
  iintro ⟨HO, Hatyr5, #Hryr1_5, Hpay⟩
  unfold slotHas
  icases Hpay with ⟨%Gy5, %hGy5, HYR5⟩
  have ey5 : View.readAt (Elt F) YR.view (Rect.unit (s := S8x128x256) ![5, 0, 0] S1x128x256.size inb_S8x128x256_S1x128x256_5_0_0).toLoadRect Gy5 = unsqz (PSm m (yp c) 5) :=
    (slot_load (F := F) YR 5 Gy5).trans (congrArg unsqz hGy5)
  sl_exec
  -- the sum for chunk 5 to the partner along z
  rw [show owedZ c 3 = owedZ c 2 + tallyAt (zrCell (zp c) 5) () N from rfl]
  iapply (send_z' (PSm m) (PZm m) K c (zp c) rfl 5 _ _ _ _) $$ [HO Htzs5 Htzr5 HZS5 HZRP5]
  · isplitl [HO Htzs5 Htzr5 HZS5 HZRP5]
    · isplitr; · iexact HIzs5
      isplitr; · iexact HIzrp5
      isplitl [HZS5]; · iexact HZS5
      isplitl [HZRP5]; · iexact HZRP5
      isplitl [HO]; · iexact HO
      isplitl [Htzs5]; · iexact Htzs5
      isplitr; · iexact Hrzs5
      isplitl [Htzr5]; · iexact Htzr5
      iexact Hrzp5
    · ipureintro
      val_norm
      refine (slot_read_store (F := F) ZS 5 _ _).trans ?_
      unfold PZm
      refine congrArg sqz ?_
      set_option maxHeartbeats 2000000 in rfl
  iintro ⟨Hczs5, HO⟩
  sl_exec
  -- chunk 6: what the partner along y sent
  iapply (recv_y (PSm m) (PZm m) K c 6 _ rfl (owedZ c 2) _) $$ [HO Hcyr6 Hatyr6]
  · isplitr; · iexact HIyr6
    isplitl [Hcyr6]; · iexact Hcyr6
    isplitl [HO]; · iexact HO
    isplitr; · iapply (mayWait_owedZ (F := F) c (.dma (yrSem 6)) (lv_yr c 6 ()).le 2); iexact Hlev
    iexact Hatyr6
  iintro ⟨HO, Hatyr6, #Hryr1_6, Hpay⟩
  unfold slotHas
  icases Hpay with ⟨%Gy6, %hGy6, HYR6⟩
  have ey6 : View.readAt (Elt F) YR.view (Rect.unit (s := S8x128x256) ![6, 0, 0] S1x128x256.size inb_S8x128x256_S1x128x256_6_0_0).toLoadRect Gy6 = unsqz (PSm m (yp c) 6) :=
    (slot_load (F := F) YR 6 Gy6).trans (congrArg unsqz hGy6)
  sl_exec
  -- the sum for chunk 6 to the partner along z
  rw [show owedZ c 2 = owedZ c 1 + tallyAt (zrCell (zp c) 6) () N from rfl]
  iapply (send_z' (PSm m) (PZm m) K c (zp c) rfl 6 _ _ _ _) $$ [HO Htzs6 Htzr6 HZS6 HZRP6]
  · isplitl [HO Htzs6 Htzr6 HZS6 HZRP6]
    · isplitr; · iexact HIzs6
      isplitr; · iexact HIzrp6
      isplitl [HZS6]; · iexact HZS6
      isplitl [HZRP6]; · iexact HZRP6
      isplitl [HO]; · iexact HO
      isplitl [Htzs6]; · iexact Htzs6
      isplitr; · iexact Hrzs6
      isplitl [Htzr6]; · iexact Htzr6
      iexact Hrzp6
    · ipureintro
      val_norm
      refine (slot_read_store (F := F) ZS 6 _ _).trans ?_
      unfold PZm
      refine congrArg sqz ?_
      set_option maxHeartbeats 2000000 in rfl
  iintro ⟨Hczs6, HO⟩
  sl_exec
  -- chunk 7: what the partner along y sent
  iapply (recv_y (PSm m) (PZm m) K c 7 _ rfl (owedZ c 1) _) $$ [HO Hcyr7 Hatyr7]
  · isplitr; · iexact HIyr7
    isplitl [Hcyr7]; · iexact Hcyr7
    isplitl [HO]; · iexact HO
    isplitr; · iapply (mayWait_owedZ (F := F) c (.dma (yrSem 7)) (lv_yr c 7 ()).le 1); iexact Hlev
    iexact Hatyr7
  iintro ⟨HO, Hatyr7, #Hryr1_7, Hpay⟩
  unfold slotHas
  icases Hpay with ⟨%Gy7, %hGy7, HYR7⟩
  have ey7 : View.readAt (Elt F) YR.view (Rect.unit (s := S8x128x256) ![7, 0, 0] S1x128x256.size inb_S8x128x256_S1x128x256_7_0_0).toLoadRect Gy7 = unsqz (PSm m (yp c) 7) :=
    (slot_load (F := F) YR 7 Gy7).trans (congrArg unsqz hGy7)
  sl_exec
  -- the sum for chunk 7 to the partner along z
  rw [show owedZ c 1 = owedZ c 0 + tallyAt (zrCell (zp c) 7) () N from rfl]
  iapply (send_z' (PSm m) (PZm m) K c (zp c) rfl 7 _ _ _ _) $$ [HO Htzs7 Htzr7 HZS7 HZRP7]
  · isplitl [HO Htzs7 Htzr7 HZS7 HZRP7]
    · isplitr; · iexact HIzs7
      isplitr; · iexact HIzrp7
      isplitl [HZS7]; · iexact HZS7
      isplitl [HZRP7]; · iexact HZRP7
      isplitl [HO]; · iexact HO
      isplitl [Htzs7]; · iexact Htzs7
      isplitr; · iexact Hrzs7
      isplitl [Htzr7]; · iexact Htzr7
      iexact Hrzp7
    · ipureintro
      val_norm
      refine (slot_read_store (F := F) ZS 7 _ _).trans ?_
      unfold PZm
      refine congrArg sqz ?_
      set_option maxHeartbeats 2000000 in rfl
  iintro ⟨Hczs7, HO⟩
  sl_exec
  rw [show owedZ c 0 = 0 from rfl]
  -- chunk 0: what the partner along z sent
  ihave Hp := (Entails.of_eq (payload_zr (PSm m) (PZm m) c 0 false)) $$ Hatzr0_pay1
  unfold slotHas
  icases Hp with ⟨%Gz0, %hGz0, HZR0⟩
  have ez0 : View.readAt (Elt F) ZR.view (Rect.unit (s := S8x128x256) ![0, 0, 0] S1x128x256.size inb_S8x128x256_S1x128x256_0_0_0).toLoadRect Gz0 = unsqz (PZm m (zp c) 0) :=
    (slot_load (F := F) ZR 0 Gz0).trans (congrArg unsqz hGz0)
  sl_exec (disch := disj_tac)
  -- chunk 1: what the partner along z sent
  ihave Hp := (Entails.of_eq (payload_zr (PSm m) (PZm m) c 1 false)) $$ Hatzr1_pay1
  unfold slotHas
  icases Hp with ⟨%Gz1, %hGz1, HZR1⟩
  have ez1 : View.readAt (Elt F) ZR.view (Rect.unit (s := S8x128x256) ![1, 0, 0] S1x128x256.size inb_S8x128x256_S1x128x256_1_0_0).toLoadRect Gz1 = unsqz (PZm m (zp c) 1) :=
    (slot_load (F := F) ZR 1 Gz1).trans (congrArg unsqz hGz1)
  sl_exec (disch := disj_tac)
  -- chunk 2: what the partner along z sent
  ihave Hp := (Entails.of_eq (payload_zr (PSm m) (PZm m) c 2 false)) $$ Hatzr2_pay1
  unfold slotHas
  icases Hp with ⟨%Gz2, %hGz2, HZR2⟩
  have ez2 : View.readAt (Elt F) ZR.view (Rect.unit (s := S8x128x256) ![2, 0, 0] S1x128x256.size inb_S8x128x256_S1x128x256_2_0_0).toLoadRect Gz2 = unsqz (PZm m (zp c) 2) :=
    (slot_load (F := F) ZR 2 Gz2).trans (congrArg unsqz hGz2)
  sl_exec (disch := disj_tac)
  -- chunk 3: what the partner along z sent
  ihave Hp := (Entails.of_eq (payload_zr (PSm m) (PZm m) c 3 false)) $$ Hatzr3_pay1
  unfold slotHas
  icases Hp with ⟨%Gz3, %hGz3, HZR3⟩
  have ez3 : View.readAt (Elt F) ZR.view (Rect.unit (s := S8x128x256) ![3, 0, 0] S1x128x256.size inb_S8x128x256_S1x128x256_3_0_0).toLoadRect Gz3 = unsqz (PZm m (zp c) 3) :=
    (slot_load (F := F) ZR 3 Gz3).trans (congrArg unsqz hGz3)
  sl_exec (disch := disj_tac)
  -- chunk 4: what the partner along z sent
  ihave Hp := (Entails.of_eq (payload_zr (PSm m) (PZm m) c 4 false)) $$ Hatzr4_pay1
  unfold slotHas
  icases Hp with ⟨%Gz4, %hGz4, HZR4⟩
  have ez4 : View.readAt (Elt F) ZR.view (Rect.unit (s := S8x128x256) ![4, 0, 0] S1x128x256.size inb_S8x128x256_S1x128x256_4_0_0).toLoadRect Gz4 = unsqz (PZm m (zp c) 4) :=
    (slot_load (F := F) ZR 4 Gz4).trans (congrArg unsqz hGz4)
  sl_exec (disch := disj_tac)
  -- chunk 5: what the partner along z sent
  ihave Hp := (Entails.of_eq (payload_zr (PSm m) (PZm m) c 5 false)) $$ Hatzr5_pay1
  unfold slotHas
  icases Hp with ⟨%Gz5, %hGz5, HZR5⟩
  have ez5 : View.readAt (Elt F) ZR.view (Rect.unit (s := S8x128x256) ![5, 0, 0] S1x128x256.size inb_S8x128x256_S1x128x256_5_0_0).toLoadRect Gz5 = unsqz (PZm m (zp c) 5) :=
    (slot_load (F := F) ZR 5 Gz5).trans (congrArg unsqz hGz5)
  sl_exec (disch := disj_tac)
  -- chunk 6: what the partner along z sent
  ihave Hp := (Entails.of_eq (payload_zr (PSm m) (PZm m) c 6 false)) $$ Hatzr6_pay1
  unfold slotHas
  icases Hp with ⟨%Gz6, %hGz6, HZR6⟩
  have ez6 : View.readAt (Elt F) ZR.view (Rect.unit (s := S8x128x256) ![6, 0, 0] S1x128x256.size inb_S8x128x256_S1x128x256_6_0_0).toLoadRect Gz6 = unsqz (PZm m (zp c) 6) :=
    (slot_load (F := F) ZR 6 Gz6).trans (congrArg unsqz hGz6)
  sl_exec (disch := disj_tac)
  -- chunk 7: what the partner along z sent
  ihave Hp := (Entails.of_eq (payload_zr (PSm m) (PZm m) c 7 false)) $$ Hatzr7_pay1
  unfold slotHas
  icases Hp with ⟨%Gz7, %hGz7, HZR7⟩
  have ez7 : View.readAt (Elt F) ZR.view (Rect.unit (s := S8x128x256) ![7, 0, 0] S1x128x256.size inb_S8x128x256_S1x128x256_7_0_0).toLoadRect Gz7 = unsqz (PZm m (zp c) 7) :=
    (slot_load (F := F) ZR 7 Gz7).trans (congrArg unsqz hGz7)
  sl_exec (disch := disj_tac)
  -- every transfer cell has been through its one round: closed, its counter at zero the device's own again
  imod (Rounds.cell_close ER (sched (PSm m) (PZm m)) (Set.mem_univ (K (ysCell c 0))) (fun h => h) (R := 0 + 1) (duties_later (PSm m) (PZm m) (ysCell c 0))) $$ [Hatys0] with Hzys0
  · isplitr; · iexact HIys0
    iexact Hatys0
  imod (Rounds.cell_close ER (sched (PSm m) (PZm m)) (Set.mem_univ (K (ysCell c 1))) (fun h => h) (R := 0 + 1) (duties_later (PSm m) (PZm m) (ysCell c 1))) $$ [Hatys1] with Hzys1
  · isplitr; · iexact HIys1
    iexact Hatys1
  imod (Rounds.cell_close ER (sched (PSm m) (PZm m)) (Set.mem_univ (K (ysCell c 2))) (fun h => h) (R := 0 + 1) (duties_later (PSm m) (PZm m) (ysCell c 2))) $$ [Hatys2] with Hzys2
  · isplitr; · iexact HIys2
    iexact Hatys2
  imod (Rounds.cell_close ER (sched (PSm m) (PZm m)) (Set.mem_univ (K (ysCell c 3))) (fun h => h) (R := 0 + 1) (duties_later (PSm m) (PZm m) (ysCell c 3))) $$ [Hatys3] with Hzys3
  · isplitr; · iexact HIys3
    iexact Hatys3
  imod (Rounds.cell_close ER (sched (PSm m) (PZm m)) (Set.mem_univ (K (ysCell c 4))) (fun h => h) (R := 0 + 1) (duties_later (PSm m) (PZm m) (ysCell c 4))) $$ [Hatys4] with Hzys4
  · isplitr; · iexact HIys4
    iexact Hatys4
  imod (Rounds.cell_close ER (sched (PSm m) (PZm m)) (Set.mem_univ (K (ysCell c 5))) (fun h => h) (R := 0 + 1) (duties_later (PSm m) (PZm m) (ysCell c 5))) $$ [Hatys5] with Hzys5
  · isplitr; · iexact HIys5
    iexact Hatys5
  imod (Rounds.cell_close ER (sched (PSm m) (PZm m)) (Set.mem_univ (K (ysCell c 6))) (fun h => h) (R := 0 + 1) (duties_later (PSm m) (PZm m) (ysCell c 6))) $$ [Hatys6] with Hzys6
  · isplitr; · iexact HIys6
    iexact Hatys6
  imod (Rounds.cell_close ER (sched (PSm m) (PZm m)) (Set.mem_univ (K (ysCell c 7))) (fun h => h) (R := 0 + 1) (duties_later (PSm m) (PZm m) (ysCell c 7))) $$ [Hatys7] with Hzys7
  · isplitr; · iexact HIys7
    iexact Hatys7
  imod (Rounds.cell_close ER (sched (PSm m) (PZm m)) (Set.mem_univ (K (yrCell c 0))) (fun h => h) (R := 0 + 1) (duties_later (PSm m) (PZm m) (yrCell c 0))) $$ [Hatyr0] with Hzyr0
  · isplitr; · iexact HIyr0
    iexact Hatyr0
  imod (Rounds.cell_close ER (sched (PSm m) (PZm m)) (Set.mem_univ (K (yrCell c 1))) (fun h => h) (R := 0 + 1) (duties_later (PSm m) (PZm m) (yrCell c 1))) $$ [Hatyr1] with Hzyr1
  · isplitr; · iexact HIyr1
    iexact Hatyr1
  imod (Rounds.cell_close ER (sched (PSm m) (PZm m)) (Set.mem_univ (K (yrCell c 2))) (fun h => h) (R := 0 + 1) (duties_later (PSm m) (PZm m) (yrCell c 2))) $$ [Hatyr2] with Hzyr2
  · isplitr; · iexact HIyr2
    iexact Hatyr2
  imod (Rounds.cell_close ER (sched (PSm m) (PZm m)) (Set.mem_univ (K (yrCell c 3))) (fun h => h) (R := 0 + 1) (duties_later (PSm m) (PZm m) (yrCell c 3))) $$ [Hatyr3] with Hzyr3
  · isplitr; · iexact HIyr3
    iexact Hatyr3
  imod (Rounds.cell_close ER (sched (PSm m) (PZm m)) (Set.mem_univ (K (yrCell c 4))) (fun h => h) (R := 0 + 1) (duties_later (PSm m) (PZm m) (yrCell c 4))) $$ [Hatyr4] with Hzyr4
  · isplitr; · iexact HIyr4
    iexact Hatyr4
  imod (Rounds.cell_close ER (sched (PSm m) (PZm m)) (Set.mem_univ (K (yrCell c 5))) (fun h => h) (R := 0 + 1) (duties_later (PSm m) (PZm m) (yrCell c 5))) $$ [Hatyr5] with Hzyr5
  · isplitr; · iexact HIyr5
    iexact Hatyr5
  imod (Rounds.cell_close ER (sched (PSm m) (PZm m)) (Set.mem_univ (K (yrCell c 6))) (fun h => h) (R := 0 + 1) (duties_later (PSm m) (PZm m) (yrCell c 6))) $$ [Hatyr6] with Hzyr6
  · isplitr; · iexact HIyr6
    iexact Hatyr6
  imod (Rounds.cell_close ER (sched (PSm m) (PZm m)) (Set.mem_univ (K (yrCell c 7))) (fun h => h) (R := 0 + 1) (duties_later (PSm m) (PZm m) (yrCell c 7))) $$ [Hatyr7] with Hzyr7
  · isplitr; · iexact HIyr7
    iexact Hatyr7
  imod (Rounds.cell_close ER (sched (PSm m) (PZm m)) (Set.mem_univ (K (zsCell c 0))) (fun h => h) (R := 0 + 1) (duties_later (PSm m) (PZm m) (zsCell c 0))) $$ [Hatzs0] with Hzzs0
  · isplitr; · iexact HIzs0
    iexact Hatzs0
  imod (Rounds.cell_close ER (sched (PSm m) (PZm m)) (Set.mem_univ (K (zsCell c 1))) (fun h => h) (R := 0 + 1) (duties_later (PSm m) (PZm m) (zsCell c 1))) $$ [Hatzs1] with Hzzs1
  · isplitr; · iexact HIzs1
    iexact Hatzs1
  imod (Rounds.cell_close ER (sched (PSm m) (PZm m)) (Set.mem_univ (K (zsCell c 2))) (fun h => h) (R := 0 + 1) (duties_later (PSm m) (PZm m) (zsCell c 2))) $$ [Hatzs2] with Hzzs2
  · isplitr; · iexact HIzs2
    iexact Hatzs2
  imod (Rounds.cell_close ER (sched (PSm m) (PZm m)) (Set.mem_univ (K (zsCell c 3))) (fun h => h) (R := 0 + 1) (duties_later (PSm m) (PZm m) (zsCell c 3))) $$ [Hatzs3] with Hzzs3
  · isplitr; · iexact HIzs3
    iexact Hatzs3
  imod (Rounds.cell_close ER (sched (PSm m) (PZm m)) (Set.mem_univ (K (zsCell c 4))) (fun h => h) (R := 0 + 1) (duties_later (PSm m) (PZm m) (zsCell c 4))) $$ [Hatzs4] with Hzzs4
  · isplitr; · iexact HIzs4
    iexact Hatzs4
  imod (Rounds.cell_close ER (sched (PSm m) (PZm m)) (Set.mem_univ (K (zsCell c 5))) (fun h => h) (R := 0 + 1) (duties_later (PSm m) (PZm m) (zsCell c 5))) $$ [Hatzs5] with Hzzs5
  · isplitr; · iexact HIzs5
    iexact Hatzs5
  imod (Rounds.cell_close ER (sched (PSm m) (PZm m)) (Set.mem_univ (K (zsCell c 6))) (fun h => h) (R := 0 + 1) (duties_later (PSm m) (PZm m) (zsCell c 6))) $$ [Hatzs6] with Hzzs6
  · isplitr; · iexact HIzs6
    iexact Hatzs6
  imod (Rounds.cell_close ER (sched (PSm m) (PZm m)) (Set.mem_univ (K (zsCell c 7))) (fun h => h) (R := 0 + 1) (duties_later (PSm m) (PZm m) (zsCell c 7))) $$ [Hatzs7] with Hzzs7
  · isplitr; · iexact HIzs7
    iexact Hatzs7
  imod (Rounds.cell_close ER (sched (PSm m) (PZm m)) (Set.mem_univ (K (zrCell c 0))) (fun h => h) (R := 0 + 1) (duties_later (PSm m) (PZm m) (zrCell c 0))) $$ [Hatzr0] with Hzzr0
  · isplitr; · iexact HIzr0
    iexact Hatzr0
  imod (Rounds.cell_close ER (sched (PSm m) (PZm m)) (Set.mem_univ (K (zrCell c 1))) (fun h => h) (R := 0 + 1) (duties_later (PSm m) (PZm m) (zrCell c 1))) $$ [Hatzr1] with Hzzr1
  · isplitr; · iexact HIzr1
    iexact Hatzr1
  imod (Rounds.cell_close ER (sched (PSm m) (PZm m)) (Set.mem_univ (K (zrCell c 2))) (fun h => h) (R := 0 + 1) (duties_later (PSm m) (PZm m) (zrCell c 2))) $$ [Hatzr2] with Hzzr2
  · isplitr; · iexact HIzr2
    iexact Hatzr2
  imod (Rounds.cell_close ER (sched (PSm m) (PZm m)) (Set.mem_univ (K (zrCell c 3))) (fun h => h) (R := 0 + 1) (duties_later (PSm m) (PZm m) (zrCell c 3))) $$ [Hatzr3] with Hzzr3
  · isplitr; · iexact HIzr3
    iexact Hatzr3
  imod (Rounds.cell_close ER (sched (PSm m) (PZm m)) (Set.mem_univ (K (zrCell c 4))) (fun h => h) (R := 0 + 1) (duties_later (PSm m) (PZm m) (zrCell c 4))) $$ [Hatzr4] with Hzzr4
  · isplitr; · iexact HIzr4
    iexact Hatzr4
  imod (Rounds.cell_close ER (sched (PSm m) (PZm m)) (Set.mem_univ (K (zrCell c 5))) (fun h => h) (R := 0 + 1) (duties_later (PSm m) (PZm m) (zrCell c 5))) $$ [Hatzr5] with Hzzr5
  · isplitr; · iexact HIzr5
    iexact Hatzr5
  imod (Rounds.cell_close ER (sched (PSm m) (PZm m)) (Set.mem_univ (K (zrCell c 6))) (fun h => h) (R := 0 + 1) (duties_later (PSm m) (PZm m) (zrCell c 6))) $$ [Hatzr6] with Hzzr6
  · isplitr; · iexact HIzr6
    iexact Hatzr6
  imod (Rounds.cell_close ER (sched (PSm m) (PZm m)) (Set.mem_univ (K (zrCell c 7))) (fun h => h) (R := 0 + 1) (duties_later (PSm m) (PZm m) (zrCell c 7))) $$ [Hatzr7] with Hzzr7
  · isplitr; · iexact HIzr7
    iexact Hatzr7
  rw [wp_ret]; imodintro
  iapply Hk
  unfold bodyPost Φ₁ closedSems localSems scratches all8
  beta_reduce
  isplitl [HO]; · iexists _; iexact HO
  isplitl [Hx]; · iexact Hx
  isplitl [Hdy]; · iexact Hdy
  isplitl [Hout]
  · -- the sixteen pieces copied into the result block are what was kept and what arrived along z
    iapply (pt_of_eq (F := F) (outM m c))
    iexists _
    isplitr [Hout]; swap
    · iexact Hout
    ipureintro
    have fs6_0 : ∀ (f : (Memref.whole cc0_scratch6).view.ty.Contents (Elt F)) (w : (Rect.unit (s := S8x128x256) ![0, 0, 0] S1x128x256.size inb_S8x128x256_S1x128x256_0_0_0).shape.Idx → Elt F .f32) (L : List (View.Piece (Elt F) S8x128x256 .f32)),
        (((Memref.whole cc0_scratch6).slice (Rect.unit (s := S8x128x256) ![0, 0, 0] S1x128x256.size inb_S8x128x256_S1x128x256_0_0_0) (fun _ => rfl)).squeeze S128x256 squeezes_S1x128x256_S128x256).view.read (Elt F) ((Memref.whole cc0_scratch6).view.writes (Elt F) f (⟨(Rect.unit (s := S8x128x256) ![0, 0, 0] S1x128x256.size inb_S8x128x256_S1x128x256_0_0_0), w⟩ :: L)) = shapeCast S128x256 w shapeCasts_S1x128x256_S128x256 :=
      fun f w L => fslot_read (F := F) (Memref.whole cc0_scratch6) 0 (fun _ => rfl) f w L
    have fs7_0 : ∀ (f : (Memref.whole cc0_scratch7).view.ty.Contents (Elt F)) (w : (Rect.unit (s := S8x128x256) ![0, 0, 0] S1x128x256.size inb_S8x128x256_S1x128x256_0_0_0).shape.Idx → Elt F .f32) (L : List (View.Piece (Elt F) S8x128x256 .f32)),
        (((Memref.whole cc0_scratch7).slice (Rect.unit (s := S8x128x256) ![0, 0, 0] S1x128x256.size inb_S8x128x256_S1x128x256_0_0_0) (fun _ => rfl)).squeeze S128x256 squeezes_S1x128x256_S128x256).view.read (Elt F) ((Memref.whole cc0_scratch7).view.writes (Elt F) f (⟨(Rect.unit (s := S8x128x256) ![0, 0, 0] S1x128x256.size inb_S8x128x256_S1x128x256_0_0_0), w⟩ :: L)) = shapeCast S128x256 w shapeCasts_S1x128x256_S128x256 :=
      fun f w L => fslot_read (F := F) (Memref.whole cc0_scratch7) 0 (fun _ => rfl) f w L
    have fs6_1 : ∀ (f : (Memref.whole cc0_scratch6).view.ty.Contents (Elt F)) (w : (Rect.unit (s := S8x128x256) ![1, 0, 0] S1x128x256.size inb_S8x128x256_S1x128x256_1_0_0).shape.Idx → Elt F .f32) (L : List (View.Piece (Elt F) S8x128x256 .f32)),
        (((Memref.whole cc0_scratch6).slice (Rect.unit (s := S8x128x256) ![1, 0, 0] S1x128x256.size inb_S8x128x256_S1x128x256_1_0_0) (fun _ => rfl)).squeeze S128x256 squeezes_S1x128x256_S128x256).view.read (Elt F) ((Memref.whole cc0_scratch6).view.writes (Elt F) f (⟨(Rect.unit (s := S8x128x256) ![1, 0, 0] S1x128x256.size inb_S8x128x256_S1x128x256_1_0_0), w⟩ :: L)) = shapeCast S128x256 w shapeCasts_S1x128x256_S128x256 :=
      fun f w L => fslot_read (F := F) (Memref.whole cc0_scratch6) 1 (fun _ => rfl) f w L
    have fs7_1 : ∀ (f : (Memref.whole cc0_scratch7).view.ty.Contents (Elt F)) (w : (Rect.unit (s := S8x128x256) ![1, 0, 0] S1x128x256.size inb_S8x128x256_S1x128x256_1_0_0).shape.Idx → Elt F .f32) (L : List (View.Piece (Elt F) S8x128x256 .f32)),
        (((Memref.whole cc0_scratch7).slice (Rect.unit (s := S8x128x256) ![1, 0, 0] S1x128x256.size inb_S8x128x256_S1x128x256_1_0_0) (fun _ => rfl)).squeeze S128x256 squeezes_S1x128x256_S128x256).view.read (Elt F) ((Memref.whole cc0_scratch7).view.writes (Elt F) f (⟨(Rect.unit (s := S8x128x256) ![1, 0, 0] S1x128x256.size inb_S8x128x256_S1x128x256_1_0_0), w⟩ :: L)) = shapeCast S128x256 w shapeCasts_S1x128x256_S128x256 :=
      fun f w L => fslot_read (F := F) (Memref.whole cc0_scratch7) 1 (fun _ => rfl) f w L
    have fs6_2 : ∀ (f : (Memref.whole cc0_scratch6).view.ty.Contents (Elt F)) (w : (Rect.unit (s := S8x128x256) ![2, 0, 0] S1x128x256.size inb_S8x128x256_S1x128x256_2_0_0).shape.Idx → Elt F .f32) (L : List (View.Piece (Elt F) S8x128x256 .f32)),
        (((Memref.whole cc0_scratch6).slice (Rect.unit (s := S8x128x256) ![2, 0, 0] S1x128x256.size inb_S8x128x256_S1x128x256_2_0_0) (fun _ => rfl)).squeeze S128x256 squeezes_S1x128x256_S128x256).view.read (Elt F) ((Memref.whole cc0_scratch6).view.writes (Elt F) f (⟨(Rect.unit (s := S8x128x256) ![2, 0, 0] S1x128x256.size inb_S8x128x256_S1x128x256_2_0_0), w⟩ :: L)) = shapeCast S128x256 w shapeCasts_S1x128x256_S128x256 :=
      fun f w L => fslot_read (F := F) (Memref.whole cc0_scratch6) 2 (fun _ => rfl) f w L
    have fs7_2 : ∀ (f : (Memref.whole cc0_scratch7).view.ty.Contents (Elt F)) (w : (Rect.unit (s := S8x128x256) ![2, 0, 0] S1x128x256.size inb_S8x128x256_S1x128x256_2_0_0).shape.Idx → Elt F .f32) (L : List (View.Piece (Elt F) S8x128x256 .f32)),
        (((Memref.whole cc0_scratch7).slice (Rect.unit (s := S8x128x256) ![2, 0, 0] S1x128x256.size inb_S8x128x256_S1x128x256_2_0_0) (fun _ => rfl)).squeeze S128x256 squeezes_S1x128x256_S128x256).view.read (Elt F) ((Memref.whole cc0_scratch7).view.writes (Elt F) f (⟨(Rect.unit (s := S8x128x256) ![2, 0, 0] S1x128x256.size inb_S8x128x256_S1x128x256_2_0_0), w⟩ :: L)) = shapeCast S128x256 w shapeCasts_S1x128x256_S128x256 :=
      fun f w L => fslot_read (F := F) (Memref.whole cc0_scratch7) 2 (fun _ => rfl) f w L
    have fs6_3 : ∀ (f : (Memref.whole cc0_scratch6).view.ty.Contents (Elt F)) (w : (Rect.unit (s := S8x128x256) ![3, 0, 0] S1x128x256.size inb_S8x128x256_S1x128x256_3_0_0).shape.Idx → Elt F .f32) (L : List (View.Piece (Elt F) S8x128x256 .f32)),
        (((Memref.whole cc0_scratch6).slice (Rect.unit (s := S8x128x256) ![3, 0, 0] S1x128x256.size inb_S8x128x256_S1x128x256_3_0_0) (fun _ => rfl)).squeeze S128x256 squeezes_S1x128x256_S128x256).view.read (Elt F) ((Memref.whole cc0_scratch6).view.writes (Elt F) f (⟨(Rect.unit (s := S8x128x256) ![3, 0, 0] S1x128x256.size inb_S8x128x256_S1x128x256_3_0_0), w⟩ :: L)) = shapeCast S128x256 w shapeCasts_S1x128x256_S128x256 :=
      fun f w L => fslot_read (F := F) (Memref.whole cc0_scratch6) 3 (fun _ => rfl) f w L
    have fs7_3 : ∀ (f : (Memref.whole cc0_scratch7).view.ty.Contents (Elt F)) (w : (Rect.unit (s := S8x128x256) ![3, 0, 0] S1x128x256.size inb_S8x128x256_S1x128x256_3_0_0).shape.Idx → Elt F .f32) (L : List (View.Piece (Elt F) S8x128x256 .f32)),
        (((Memref.whole cc0_scratch7).slice (Rect.unit (s := S8x128x256) ![3, 0, 0] S1x128x256.size inb_S8x128x256_S1x128x256_3_0_0) (fun _ => rfl)).squeeze S128x256 squeezes_S1x128x256_S128x256).view.read (Elt F) ((Memref.whole cc0_scratch7).view.writes (Elt F) f (⟨(Rect.unit (s := S8x128x256) ![3, 0, 0] S1x128x256.size inb_S8x128x256_S1x128x256_3_0_0), w⟩ :: L)) = shapeCast S128x256 w shapeCasts_S1x128x256_S128x256 :=
      fun f w L => fslot_read (F := F) (Memref.whole cc0_scratch7) 3 (fun _ => rfl) f w L
    have fs6_4 : ∀ (f : (Memref.whole cc0_scratch6).view.ty.Contents (Elt F)) (w : (Rect.unit (s := S8x128x256) ![4, 0, 0] S1x128x256.size inb_S8x128x256_S1x128x256_4_0_0).shape.Idx → Elt F .f32) (L : List (View.Piece (Elt F) S8x128x256 .f32)),
        (((Memref.whole cc0_scratch6).slice (Rect.unit (s := S8x128x256) ![4, 0, 0] S1x128x256.size inb_S8x128x256_S1x128x256_4_0_0) (fun _ => rfl)).squeeze S128x256 squeezes_S1x128x256_S128x256).view.read (Elt F) ((Memref.whole cc0_scratch6).view.writes (Elt F) f (⟨(Rect.unit (s := S8x128x256) ![4, 0, 0] S1x128x256.size inb_S8x128x256_S1x128x256_4_0_0), w⟩ :: L)) = shapeCast S128x256 w shapeCasts_S1x128x256_S128x256 :=
      fun f w L => fslot_read (F := F) (Memref.whole cc0_scratch6) 4 (fun _ => rfl) f w L
    have fs7_4 : ∀ (f : (Memref.whole cc0_scratch7).view.ty.Contents (Elt F)) (w : (Rect.unit (s := S8x128x256) ![4, 0, 0] S1x128x256.size inb_S8x128x256_S1x128x256_4_0_0).shape.Idx → Elt F .f32) (L : List (View.Piece (Elt F) S8x128x256 .f32)),
        (((Memref.whole cc0_scratch7).slice (Rect.unit (s := S8x128x256) ![4, 0, 0] S1x128x256.size inb_S8x128x256_S1x128x256_4_0_0) (fun _ => rfl)).squeeze S128x256 squeezes_S1x128x256_S128x256).view.read (Elt F) ((Memref.whole cc0_scratch7).view.writes (Elt F) f (⟨(Rect.unit (s := S8x128x256) ![4, 0, 0] S1x128x256.size inb_S8x128x256_S1x128x256_4_0_0), w⟩ :: L)) = shapeCast S128x256 w shapeCasts_S1x128x256_S128x256 :=
      fun f w L => fslot_read (F := F) (Memref.whole cc0_scratch7) 4 (fun _ => rfl) f w L
    have fs6_5 : ∀ (f : (Memref.whole cc0_scratch6).view.ty.Contents (Elt F)) (w : (Rect.unit (s := S8x128x256) ![5, 0, 0] S1x128x256.size inb_S8x128x256_S1x128x256_5_0_0).shape.Idx → Elt F .f32) (L : List (View.Piece (Elt F) S8x128x256 .f32)),
        (((Memref.whole cc0_scratch6).slice (Rect.unit (s := S8x128x256) ![5, 0, 0] S1x128x256.size inb_S8x128x256_S1x128x256_5_0_0) (fun _ => rfl)).squeeze S128x256 squeezes_S1x128x256_S128x256).view.read (Elt F) ((Memref.whole cc0_scratch6).view.writes (Elt F) f (⟨(Rect.unit (s := S8x128x256) ![5, 0, 0] S1x128x256.size inb_S8x128x256_S1x128x256_5_0_0), w⟩ :: L)) = shapeCast S128x256 w shapeCasts_S1x128x256_S128x256 :=
      fun f w L => fslot_read (F := F) (Memref.whole cc0_scratch6) 5 (fun _ => rfl) f w L
    have fs7_5 : ∀ (f : (Memref.whole cc0_scratch7).view.ty.Contents (Elt F)) (w : (Rect.unit (s := S8x128x256) ![5, 0, 0] S1x128x256.size inb_S8x128x256_S1x128x256_5_0_0).shape.Idx → Elt F .f32) (L : List (View.Piece (Elt F) S8x128x256 .f32)),
        (((Memref.whole cc0_scratch7).slice (Rect.unit (s := S8x128x256) ![5, 0, 0] S1x128x256.size inb_S8x128x256_S1x128x256_5_0_0) (fun _ => rfl)).squeeze S128x256 squeezes_S1x128x256_S128x256).view.read (Elt F) ((Memref.whole cc0_scratch7).view.writes (Elt F) f (⟨(Rect.unit (s := S8x128x256) ![5, 0, 0] S1x128x256.size inb_S8x128x256_S1x128x256_5_0_0), w⟩ :: L)) = shapeCast S128x256 w shapeCasts_S1x128x256_S128x256 :=
      fun f w L => fslot_read (F := F) (Memref.whole cc0_scratch7) 5 (fun _ => rfl) f w L
    have fs6_6 : ∀ (f : (Memref.whole cc0_scratch6).view.ty.Contents (Elt F)) (w : (Rect.unit (s := S8x128x256) ![6, 0, 0] S1x128x256.size inb_S8x128x256_S1x128x256_6_0_0).shape.Idx → Elt F .f32) (L : List (View.Piece (Elt F) S8x128x256 .f32)),
        (((Memref.whole cc0_scratch6).slice (Rect.unit (s := S8x128x256) ![6, 0, 0] S1x128x256.size inb_S8x128x256_S1x128x256_6_0_0) (fun _ => rfl)).squeeze S128x256 squeezes_S1x128x256_S128x256).view.read (Elt F) ((Memref.whole cc0_scratch6).view.writes (Elt F) f (⟨(Rect.unit (s := S8x128x256) ![6, 0, 0] S1x128x256.size inb_S8x128x256_S1x128x256_6_0_0), w⟩ :: L)) = shapeCast S128x256 w shapeCasts_S1x128x256_S128x256 :=
      fun f w L => fslot_read (F := F) (Memref.whole cc0_scratch6) 6 (fun _ => rfl) f w L
    have fs7_6 : ∀ (f : (Memref.whole cc0_scratch7).view.ty.Contents (Elt F)) (w : (Rect.unit (s := S8x128x256) ![6, 0, 0] S1x128x256.size inb_S8x128x256_S1x128x256_6_0_0).shape.Idx → Elt F .f32) (L : List (View.Piece (Elt F) S8x128x256 .f32)),
        (((Memref.whole cc0_scratch7).slice (Rect.unit (s := S8x128x256) ![6, 0, 0] S1x128x256.size inb_S8x128x256_S1x128x256_6_0_0) (fun _ => rfl)).squeeze S128x256 squeezes_S1x128x256_S128x256).view.read (Elt F) ((Memref.whole cc0_scratch7).view.writes (Elt F) f (⟨(Rect.unit (s := S8x128x256) ![6, 0, 0] S1x128x256.size inb_S8x128x256_S1x128x256_6_0_0), w⟩ :: L)) = shapeCast S128x256 w shapeCasts_S1x128x256_S128x256 :=
      fun f w L => fslot_read (F := F) (Memref.whole cc0_scratch7) 6 (fun _ => rfl) f w L
    have fs6_7 : ∀ (f : (Memref.whole cc0_scratch6).view.ty.Contents (Elt F)) (w : (Rect.unit (s := S8x128x256) ![7, 0, 0] S1x128x256.size inb_S8x128x256_S1x128x256_7_0_0).shape.Idx → Elt F .f32) (L : List (View.Piece (Elt F) S8x128x256 .f32)),
        (((Memref.whole cc0_scratch6).slice (Rect.unit (s := S8x128x256) ![7, 0, 0] S1x128x256.size inb_S8x128x256_S1x128x256_7_0_0) (fun _ => rfl)).squeeze S128x256 squeezes_S1x128x256_S128x256).view.read (Elt F) ((Memref.whole cc0_scratch6).view.writes (Elt F) f (⟨(Rect.unit (s := S8x128x256) ![7, 0, 0] S1x128x256.size inb_S8x128x256_S1x128x256_7_0_0), w⟩ :: L)) = shapeCast S128x256 w shapeCasts_S1x128x256_S128x256 :=
      fun f w L => fslot_read (F := F) (Memref.whole cc0_scratch6) 7 (fun _ => rfl) f w L
    have fs7_7 : ∀ (f : (Memref.whole cc0_scratch7).view.ty.Contents (Elt F)) (w : (Rect.unit (s := S8x128x256) ![7, 0, 0] S1x128x256.size inb_S8x128x256_S1x128x256_7_0_0).shape.Idx → Elt F .f32) (L : List (View.Piece (Elt F) S8x128x256 .f32)),
        (((Memref.whole cc0_scratch7).slice (Rect.unit (s := S8x128x256) ![7, 0, 0] S1x128x256.size inb_S8x128x256_S1x128x256_7_0_0) (fun _ => rfl)).squeeze S128x256 squeezes_S1x128x256_S128x256).view.read (Elt F) ((Memref.whole cc0_scratch7).view.writes (Elt F) f (⟨(Rect.unit (s := S8x128x256) ![7, 0, 0] S1x128x256.size inb_S8x128x256_S1x128x256_7_0_0), w⟩ :: L)) = shapeCast S128x256 w shapeCasts_S1x128x256_S128x256 :=
      fun f w L => fslot_read (F := F) (Memref.whole cc0_scratch7) 7 (fun _ => rfl) f w L
    val_norm
    rw [fs6_0, fs7_0, fs6_1, fs7_1, fs6_2, fs7_2, fs6_3, fs7_3, fs6_4, fs7_4, fs6_5, fs7_5, fs6_6, fs7_6, fs6_7, fs7_7]
    rw [← outChain_eq_outM m c]
    set_option maxHeartbeats 4000000 in rfl
  isplitl [Hs1 Hs2 Hs3 Hs4 Hs5 Hs6 Hs7 Hs8 Hs9 Hs10 Hs11 Hs12 Hs13 Hs14 Hs15 Hs16 Hs17]
  · isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    iexact Hs17
  isplitl [Hzys0 Hzys1 Hzys2 Hzys3 Hzys4 Hzys5 Hzys6 Hzys7 Hzyr0 Hzyr1 Hzyr2 Hzyr3 Hzyr4 Hzyr5 Hzyr6 Hzyr7 Hzzs0 Hzzs1 Hzzs2 Hzzs3 Hzzs4 Hzzs5 Hzzs6 Hzzs7 Hzzr0 Hzzr1 Hzzr2 Hzzr3 Hzzr4 Hzzr5 Hzzr6 Hzzr7]
  · isplitl [Hzys0 Hzys1 Hzys2 Hzys3 Hzys4 Hzys5 Hzys6 Hzys7]
    · isplitl [Hzys0]; · iexact Hzys0
      isplitl [Hzys1]; · iexact Hzys1
      isplitl [Hzys2]; · iexact Hzys2
      isplitl [Hzys3]; · iexact Hzys3
      isplitl [Hzys4]; · iexact Hzys4
      isplitl [Hzys5]; · iexact Hzys5
      isplitl [Hzys6]; · iexact Hzys6
      iexact Hzys7
    isplitl [Hzyr0 Hzyr1 Hzyr2 Hzyr3 Hzyr4 Hzyr5 Hzyr6 Hzyr7]
    · isplitl [Hzyr0]; · iexact Hzyr0
      isplitl [Hzyr1]; · iexact Hzyr1
      isplitl [Hzyr2]; · iexact Hzyr2
      isplitl [Hzyr3]; · iexact Hzyr3
      isplitl [Hzyr4]; · iexact Hzyr4
      isplitl [Hzyr5]; · iexact Hzyr5
      isplitl [Hzyr6]; · iexact Hzyr6
      iexact Hzyr7
    isplitl [Hzzs0 Hzzs1 Hzzs2 Hzzs3 Hzzs4 Hzzs5 Hzzs6 Hzzs7]
    · isplitl [Hzzs0]; · iexact Hzzs0
      isplitl [Hzzs1]; · iexact Hzzs1
      isplitl [Hzzs2]; · iexact Hzzs2
      isplitl [Hzzs3]; · iexact Hzzs3
      isplitl [Hzzs4]; · iexact Hzzs4
      isplitl [Hzzs5]; · iexact Hzzs5
      isplitl [Hzzs6]; · iexact Hzzs6
      iexact Hzzs7
    isplitl [Hzzr0]; · iexact Hzzr0
    isplitl [Hzzr1]; · iexact Hzzr1
    isplitl [Hzzr2]; · iexact Hzzr2
    isplitl [Hzzr3]; · iexact Hzzr3
    isplitl [Hzzr4]; · iexact Hzzr4
    isplitl [Hzzr5]; · iexact Hzzr5
    isplitl [Hzzr6]; · iexact Hzzr6
    iexact Hzzr7
  isplitl [Hb0]; · iexists _; iexact Hb0
  isplitl [Hb1]; · iexists _; iexact Hb1
  isplitl [Hatys0_pay1 Hatys1_pay1 Hatys2_pay1 Hatys3_pay1 Hatys4_pay1 Hatys5_pay1 Hatys6_pay1 Hatys7_pay1]
  · iapply (join8' (F := F) YS (View.set_whole _) c _ _ _ _ _ _ _ _)
    isplitl [Hatys0_pay1]; · iexact Hatys0_pay1
    isplitl [Hatys1_pay1]; · iexact Hatys1_pay1
    isplitl [Hatys2_pay1]; · iexact Hatys2_pay1
    isplitl [Hatys3_pay1]; · iexact Hatys3_pay1
    isplitl [Hatys4_pay1]; · iexact Hatys4_pay1
    isplitl [Hatys5_pay1]; · iexact Hatys5_pay1
    isplitl [Hatys6_pay1]; · iexact Hatys6_pay1
    iexact Hatys7_pay1
  isplitl [HYR0 HYR1 HYR2 HYR3 HYR4 HYR5 HYR6 HYR7]
  · iapply (join8' (F := F) YR (View.set_whole _) c _ _ _ _ _ _ _ _)
    isplitl [HYR0]; · iexact HYR0
    isplitl [HYR1]; · iexact HYR1
    isplitl [HYR2]; · iexact HYR2
    isplitl [HYR3]; · iexact HYR3
    isplitl [HYR4]; · iexact HYR4
    isplitl [HYR5]; · iexact HYR5
    isplitl [HYR6]; · iexact HYR6
    iexact HYR7
  isplitl [Hatzs0_pay1 Hatzs1_pay1 Hatzs2_pay1 Hatzs3_pay1 Hatzs4_pay1 Hatzs5_pay1 Hatzs6_pay1 Hatzs7_pay1]
  · iapply (join8' (F := F) ZS (View.set_whole _) c _ _ _ _ _ _ _ _)
    isplitl [Hatzs0_pay1]; · iexact Hatzs0_pay1
    isplitl [Hatzs1_pay1]; · iexact Hatzs1_pay1
    isplitl [Hatzs2_pay1]; · iexact Hatzs2_pay1
    isplitl [Hatzs3_pay1]; · iexact Hatzs3_pay1
    isplitl [Hatzs4_pay1]; · iexact Hatzs4_pay1
    isplitl [Hatzs5_pay1]; · iexact Hatzs5_pay1
    isplitl [Hatzs6_pay1]; · iexact Hatzs6_pay1
    iexact Hatzs7_pay1
  isplitl [HZR0 HZR1 HZR2 HZR3 HZR4 HZR5 HZR6 HZR7]
  · iapply (join8' (F := F) ZR (View.set_whole _) c _ _ _ _ _ _ _ _)
    isplitl [HZR0]; · iexact HZR0
    isplitl [HZR1]; · iexact HZR1
    isplitl [HZR2]; · iexact HZR2
    isplitl [HZR3]; · iexact HZR3
    isplitl [HZR4]; · iexact HZR4
    isplitl [HZR5]; · iexact HZR5
    isplitl [HZR6]; · iexact HZR6
    iexact HZR7
  isplitl [Hb6]; · iexists _; iexact Hb6
  iexists _; iexact Hb7

end Cert.Kernel.Hand

end
-- ==== Proof.WLaunchK.lean ====
import proofs.«900476_g7700000000000477_dist_rsdw_v7x_xyz2x2x2_y_m512_d512_f2048_f32_1_alg».proof.Proof.WBodyDefs
import Idealize.ShloMosaic.Lib.Pipeline.Launch
import Idealize.ShloMosaic.Lib.Pipeline.Kit
import Idealize.ShloMosaic.Lib.Tactic

set_option maxRecDepth 16384

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The launch -/

/-- The kernel's own semaphores: every scoped DMA semaphore but the staging buffer's. -/
abbrev osem : Fin 49 → SemLoc sig := fun j => .dma ⟨j.val + 1, by have := j.isLt; show j.val + 1 < 50; omega⟩

theorem ownSemFacts : Pipeline.OwnSemFacts cfg0.spec osem := by decide

/-! ### The protocol's cells and tokens, device by device -/

/-- A device's 33 cells: the barrier, then the DMA semaphores 18 … 49. -/
def csem : Fin 33 → SemLoc sig := fun k => match k with
  | ⟨0, _⟩ => .reg barS
  | ⟨n + 1, h⟩ => .dma ⟨18 + n, by show 18 + n < 50; omega⟩
abbrev kcell (ck : Dev nD × Fin 33) : GSem nD τ sig := ((ck.1 : Thread nD τ), csem ck.2)

theorem csem_injective : Function.Injective csem := by decide

theorem kcell_injective : Function.Injective (kcell : Dev nD × Fin 33 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

/-- A device's own cells' duty tokens as minted: the barrier's two, then one per transfer cell. -/
def tsem : Fin 34 → SemLoc sig × Bool := fun j => match j with
  | ⟨0, _⟩ => (.reg barS, false)
  | ⟨1, _⟩ => (.reg barS, true)
  | ⟨n + 2, h⟩ => (.dma ⟨18 + n, by show 18 + n < 50; omega⟩, false)
abbrev tokOf (cj : Dev nD × Fin 34) : GSem nD τ sig × ℕ × Bool := (((cj.1 : Thread nD τ), (tsem cj.2).1), 0, (tsem cj.2).2)

theorem tsem_injective : Function.Injective tsem := by decide

theorem tokOf_injective : Function.Injective (tokOf : Dev nD × Fin 34 → GSem nD τ sig × ℕ × Bool) := by
  rintro ⟨c, j⟩ ⟨c', j'⟩ h
  have h1 : c = c' := by have := congrArg (fun x : GSem nD τ sig × ℕ × Bool => x.1.1.1) h; exact this
  subst h1
  have h2 : tsem j = tsem j' := Prod.ext (congrArg (fun x : GSem nD τ sig × ℕ × Bool => x.1.2) h) (congrArg (fun x : GSem nD τ sig × ℕ × Bool => x.2.2) h)
  rw [tsem_injective h2]
def ringToks : Finset (GSem nD τ sig × ℕ × Bool) := Finset.univ.map ⟨tokOf, tokOf_injective⟩

/-- The launch element: the pipeline's, the protocol's, and the unit of the counters. -/
def u₀ : UU :=
  (initOf (Pipeline.cells cfgs cellOf_inj) (Pipeline.launchToks cfgs cellOf_inj), (initOf ringCells ringToks, 1))

section Launch

variable (m : (ℓ : Loc nD τ sig) → Buf (Elt F) ℓ) (ρ : Dev nD → PrngReg)

/-- The duty tokens of device `c`'s own cells. -/
def toks (c : Dev nD) : sProp 𝕄 :=
  bigSep Finset.univ fun j : Fin 34 => dutyTok ER (tokOf (c, j)).1 (tokOf (c, j)).2.1 (tokOf (c, j)).2.2

/-- What the launch element deals device `c`. -/
def G (c : Dev nD) : sProp 𝕄 :=
  iprop((bigSep Finset.univ fun k : Fin 33 => roundState ER (sched (PSm m) (PZm m)) (kcell (c, k)) 0)
    ∗ (bigSep Finset.univ fun k : Fin 33 => iprop(atPos ER (kcell (c, k)) 0 ∅ 0 ∗ reached ER (kcell (c, k)) 0)) ∗ toks c)

/-- What the global step makes of it. -/
def G' (c : Dev nD) : sProp 𝕄 := iprop(∃ K, invsG (PSm m) (PZm m) K c ∗ posToks c ∗ localSems c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 33 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_prod]; rfl
  iintro HX
  imod (Rounds.fund ER (sched (PSm m) (PZm m)) ringCells ringToks) $$ HX with ⟨Hst, Hr, Hat, Htok⟩
  imodintro
  ihave Hst' := (Entails.of_eq (hX fun g => roundState ER (sched (PSm m) (PZm m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem hu₀ : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H2 := (own_pair_emb embR _ _) $$ HX
  icases H2 with ⟨HR, -⟩
  imod (fund_ring m) $$ HR with HG
  imodintro
  isplitl [HP] <;> iassumption

end Launch

/-! ### Finite conjunctions written out -/

omit [FloatOps F] in
theorem bigSep_fin33 (Φ : Fin 33 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32) :=
  bigSep_univ_eq_bigSepL [0, 1, 2, 3, 4, 5, 6, 7, 8, 9, 10, 11, 12, 13, 14, 15, 16, 17, 18, 19, 20, 21, 22, 23, 24, 25, 26, 27, 28, 29, 30, 31, 32] (by decide) (by decide) Φ
omit [FloatOps F] in
theorem bigSep_fin34 (Φ : Fin 34 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33) :=
  bigSep_univ_eq_bigSepL [0, 1, 2, 3, 4, 5, 6, 7, 8, 9, 10, 11, 12, 13, 14, 15, 16, 17, 18, 19, 20, 21, 22, 23, 24, 25, 26, 27, 28, 29, 30, 31, 32, 33] (by decide) (by decide) Φ

omit [FloatOps F] in
/-- A device's 33 cells by name. -/
theorem cells33 (Ψ : GSem nD τ sig → sProp 𝕄) (c : Dev nD) :
    (bigSep Finset.univ fun k : Fin 33 => Ψ (kcell (c, k)))
      = iprop(Ψ (barCell c) ∗ Ψ (ysCell c 0) ∗ Ψ (ysCell c 1) ∗ Ψ (ysCell c 2) ∗ Ψ (ysCell c 3) ∗ Ψ (ysCell c 4) ∗ Ψ (ysCell c 5) ∗ Ψ (ysCell c 6) ∗ Ψ (ysCell c 7) ∗ Ψ (yrCell c 0) ∗ Ψ (yrCell c 1) ∗ Ψ (yrCell c 2) ∗ Ψ (yrCell c 3) ∗ Ψ (yrCell c 4) ∗ Ψ (yrCell c 5) ∗ Ψ (yrCell c 6) ∗ Ψ (yrCell c 7) ∗ Ψ (zsCell c 0) ∗ Ψ (zsCell c 1) ∗ Ψ (zsCell c 2) ∗ Ψ (zsCell c 3) ∗ Ψ (zsCell c 4) ∗ Ψ (zsCell c 5) ∗ Ψ (zsCell c 6) ∗ Ψ (zsCell c 7) ∗ Ψ (zrCell c 0) ∗ Ψ (zrCell c 1) ∗ Ψ (zrCell c 2) ∗ Ψ (zrCell c 3) ∗ Ψ (zrCell c 4) ∗ Ψ (zrCell c 5) ∗ Ψ (zrCell c 6) ∗ Ψ (zrCell c 7)) := by
  rw [bigSep_fin33]; rfl

omit [FloatOps F] in
/-- Thirty-two in a row are four groups of eight, -/
theorem chain_all8 (X : sProp 𝕄) (a b d e : Fin 8 → sProp 𝕄) :
    iprop(X ∗ a 0 ∗ a 1 ∗ a 2 ∗ a 3 ∗ a 4 ∗ a 5 ∗ a 6 ∗ a 7 ∗ b 0 ∗ b 1 ∗ b 2 ∗ b 3 ∗ b 4 ∗ b 5 ∗ b 6 ∗ b 7 ∗ d 0 ∗ d 1 ∗ d 2 ∗ d 3 ∗ d 4 ∗ d 5 ∗ d 6 ∗ d 7 ∗ e 0 ∗ e 1 ∗ e 2 ∗ e 3 ∗ e 4 ∗ e 5 ∗ e 6 ∗ e 7)
      ⊢ iprop(X ∗ all8 a ∗ all8 b ∗ all8 d ∗ all8 e) := by
  unfold all8
  iintro ⟨HX, A0, A1, A2, A3, A4, A5, A6, A7, B0, B1, B2, B3, B4, B5, B6, B7, D0, D1, D2, D3, D4, D5, D6, D7, E0, E1, E2, E3, E4, E5, E6, E7⟩
  isplitl [HX]
  · iexact HX
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [B0 B1 B2 B3 B4 B5 B6 B7]
  · isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  isplitl [D0 D1 D2 D3 D4 D5 D6 D7]
  · isplitl [D0]; · iexact D0
    isplitl [D1]; · iexact D1
    isplitl [D2]; · iexact D2
    isplitl [D3]; · iexact D3
    isplitl [D4]; · iexact D4
    isplitl [D5]; · iexact D5
    isplitl [D6]; · iexact D6
    iexact D7
  isplitl [E0]; · iexact E0
  isplitl [E1]; · iexact E1
  isplitl [E2]; · iexact E2
  isplitl [E3]; · iexact E3
  isplitl [E4]; · iexact E4
  isplitl [E5]; · iexact E5
  isplitl [E6]; · iexact E6
  iexact E7

omit [FloatOps F] in
/-- and back. -/
theorem all8_chain (a b d e : Fin 8 → sProp 𝕄) :
    iprop(all8 a ∗ all8 b ∗ all8 d ∗ all8 e)
      ⊢ iprop(a 0 ∗ a 1 ∗ a 2 ∗ a 3 ∗ a 4 ∗ a 5 ∗ a 6 ∗ a 7 ∗ b 0 ∗ b 1 ∗ b 2 ∗ b 3 ∗ b 4 ∗ b 5 ∗ b 6 ∗ b 7 ∗ d 0 ∗ d 1 ∗ d 2 ∗ d 3 ∗ d 4 ∗ d 5 ∗ d 6 ∗ d 7 ∗ e 0 ∗ e 1 ∗ e 2 ∗ e 3 ∗ e 4 ∗ e 5 ∗ e 6 ∗ e 7) := by
  unfold all8
  iintro ⟨⟨A0, A1, A2, A3, A4, A5, A6, A7⟩, ⟨B0, B1, B2, B3, B4, B5, B6, B7⟩, ⟨D0, D1, D2, D3, D4, D5, D6, D7⟩, E0, E1, E2, E3, E4, E5, E6, E7⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [D0]; · iexact D0
  isplitl [D1]; · iexact D1
  isplitl [D2]; · iexact D2
  isplitl [D3]; · iexact D3
  isplitl [D4]; · iexact D4
  isplitl [D5]; · iexact D5
  isplitl [D6]; · iexact D6
  isplitl [D7]; · iexact D7
  isplitl [E0]; · iexact E0
  isplitl [E1]; · iexact E1
  isplitl [E2]; · iexact E2
  isplitl [E3]; · iexact E3
  isplitl [E4]; · iexact E4
  isplitl [E5]; · iexact E5
  isplitl [E6]; · iexact E6
  iexact E7

/-! ### The semaphores at launch -/

omit [FloatOps F] in
/-- The kernel's own 49 semaphores by name: the seventeen local ones, then the transfer cells'. -/
theorem ownSems0_eq (c : Dev nD) : (Pipeline.ownSems0 (Ix := Unit) (Name := ℕ) (U := UU) (Lvl := ℕ) (Val := Elt F) (τ := τ) osem c : sProp 𝕄)
    = iprop(semVal ((c : Thread nD τ), .dma (1 : DmaSem sig)) 0
      ∗ semVal ((c : Thread nD τ), .dma (2 : DmaSem sig)) 0
      ∗ semVal ((c : Thread nD τ), .dma (3 : DmaSem sig)) 0
      ∗ semVal ((c : Thread nD τ), .dma (4 : DmaSem sig)) 0
      ∗ semVal ((c : Thread nD τ), .dma (5 : DmaSem sig)) 0
      ∗ semVal ((c : Thread nD τ), .dma (6 : DmaSem sig)) 0
      ∗ semVal ((c : Thread nD τ), .dma (7 : DmaSem sig)) 0
      ∗ semVal ((c : Thread nD τ), .dma (8 : DmaSem sig)) 0
      ∗ semVal ((c : Thread nD τ), .dma (9 : DmaSem sig)) 0
      ∗ semVal ((c : Thread nD τ), .dma (10 : DmaSem sig)) 0
      ∗ semVal ((c : Thread nD τ), .dma (11 : DmaSem sig)) 0
      ∗ semVal ((c : Thread nD τ), .dma (12 : DmaSem sig)) 0
      ∗ semVal ((c : Thread nD τ), .dma (13 : DmaSem sig)) 0
      ∗ semVal ((c : Thread nD τ), .dma (14 : DmaSem sig)) 0
      ∗ semVal ((c : Thread nD τ), .dma (15 : DmaSem sig)) 0
      ∗ semVal ((c : Thread nD τ), .dma (16 : DmaSem sig)) 0
      ∗ semVal ((c : Thread nD τ), .dma (17 : DmaSem sig)) 0
      ∗ semVal (ysCell c 0) 0
      ∗ semVal (ysCell c 1) 0
      ∗ semVal (ysCell c 2) 0
      ∗ semVal (ysCell c 3) 0
      ∗ semVal (ysCell c 4) 0
      ∗ semVal (ysCell c 5) 0
      ∗ semVal (ysCell c 6) 0
      ∗ semVal (ysCell c 7) 0
      ∗ semVal (yrCell c 0) 0
      ∗ semVal (yrCell c 1) 0
      ∗ semVal (yrCell c 2) 0
      ∗ semVal (yrCell c 3) 0
      ∗ semVal (yrCell c 4) 0
      ∗ semVal (yrCell c 5) 0
      ∗ semVal (yrCell c 6) 0
      ∗ semVal (yrCell c 7) 0
      ∗ semVal (zsCell c 0) 0
      ∗ semVal (zsCell c 1) 0
      ∗ semVal (zsCell c 2) 0
      ∗ semVal (zsCell c 3) 0
      ∗ semVal (zsCell c 4) 0
      ∗ semVal (zsCell c 5) 0
      ∗ semVal (zsCell c 6) 0
      ∗ semVal (zsCell c 7) 0
      ∗ semVal (zrCell c 0) 0
      ∗ semVal (zrCell c 1) 0
      ∗ semVal (zrCell c 2) 0
      ∗ semVal (zrCell c 3) 0
      ∗ semVal (zrCell c 4) 0
      ∗ semVal (zrCell c 5) 0
      ∗ semVal (zrCell c 6) 0
      ∗ semVal (zrCell c 7) 0) := by
  rw [Pipeline.ownSems0_eq_of_list c osem [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48] (by decide) (by decide)]; rfl

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_split (c : Dev nD) :
    iprop(Pipeline.ownSems0 (Ix := Unit) (Name := ℕ) (U := UU) (Lvl := ℕ) (Val := Elt F) (τ := τ) osem c ∗ unscopedSems0 c)
      ⊢ iprop(localSems c ∗ (bigSep Finset.univ fun k : Fin 33 => semVal (kcell (c, k)) 0 : sProp 𝕄)) := by
  rw [ownSems0_eq, unscopedSems0_eq, cells33 (fun g => (semVal g 0 : sProp 𝕄))]
  unfold localSems
  iintro ⟨⟨H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49⟩, HB⟩
  isplitl [H1 H2 H3 H4 H5 H6 H7 H8 H9 H10 H11 H12 H13 H14 H15 H16 H17]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  isplitl [HB]; · iexact HB
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  iexact H49

omit [FloatOps F] in
theorem sems0_back (c : Dev nD) :
    iprop(localSems c ∗ closedSems c)
      ⊢ (Pipeline.ownSems0 (Ix := Unit) (Name := ℕ) (U := UU) (Lvl := ℕ) (Val := Elt F) (τ := τ) osem c : sProp 𝕄) := by
  rw [ownSems0_eq]
  unfold localSems closedSems
  iintro ⟨⟨H1, H2, H3, H4, H5, H6, H7, H8, H9, H10, H11, H12, H13, H14, H15, H16, H17⟩, HC⟩
  ihave HC' := (all8_chain _ _ _ _) $$ HC
  icases HC' with ⟨H18, H19, H20, H21, H22, H23, H24, H25, H26, H27, H28, H29, H30, H31, H32, H33, H34, H35, H36, H37, H38, H39, H40, H41, H42, H43, H44, H45, H46, H47, H48, H49⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  iexact H49

/-! ### The global step: every device's cells opened, the tokens dealt to the payers -/

section Glob

variable (m : (ℓ : Loc nD τ sig) → Buf (Elt F) ℓ)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 33 => iprop(∃ κ : ℕ, cellInv ER (sched (PSm m) (PZm m)) κ (kcell (c, k))))
          ∗ (bigSep Finset.univ fun k : Fin 33 => iprop(atPos ER (kcell (c, k)) 0 ∅ 0 ∗ reached ER (kcell (c, k)) 0)) ∗ toks c ∗ localSems c) := by
  unfold G
  iintro ⟨Hos, Hus, Hst, Hat, Htok⟩
  ihave Hv := (sems0_split (F := F) c) $$ [Hos Hus]
  · isplitl [Hos] <;> iassumption
  icases Hv with ⟨Hloc, Hv⟩
  imod (show iprop((bigSep Finset.univ fun k : Fin 33 => semVal (kcell (c, k)) 0) ∗ bigSep Finset.univ fun k : Fin 33 => roundState ER (sched (PSm m) (PZm m)) (kcell (c, k)) 0)
      ⊢ (|={Set.univ}=> bigSep Finset.univ fun k : Fin 33 => iprop(∃ κ : ℕ, cellInv ER (sched (PSm m) (PZm m)) κ (kcell (c, k))) : sProp 𝕄) from by
        rw [← bigSep_sep']
        exact (bigSep_mono fun k _ => (Rounds.body_intro ER (sched (PSm m) (PZm m)) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-- The index of a semaphore among a device's 33 cells (0 for one that is none of them), -/
def cidx : SemLoc sig → Fin 33 := fun s => match s with
  | .reg _ => 0
  | .dma n => if h : 18 ≤ n.val then ⟨n.val - 17, by have : n.val < 50 := n.isLt; omega⟩ else 0
theorem cidx_csem : ∀ k : Fin 33, cidx (csem k) = k := by decide
/-- and the name function on cells made of the per-index names. -/
def Kg (K : Dev nD × Fin 33 → ℕ) : GSem nD τ sig → ℕ := fun g => K (g.1.1, cidx g.2)
theorem Kg_kcell (K : Dev nD × Fin 33 → ℕ) (ck : Dev nD × Fin 33) : Kg K (kcell ck) = K ck := by
  show K (ck.1, cidx (csem ck.2)) = K ck
  rw [cidx_csem]

def records (K : Dev nD × Fin 33 → ℕ) : sProp 𝕄 :=
  iprop((bigSep Finset.univ fun ck : Dev nD × Fin 33 => cellInv ER (sched (PSm m) (PZm m)) (Kg K (kcell ck)) (kcell ck))
    ∗ bigSep Finset.univ fun ck : Dev nD × Fin 33 => reached ER (kcell ck) 0)

instance records_persistent (K : Dev nD × Fin 33 → ℕ) : BI.Persistent (records m K) := by unfold records; infer_instance

omit [FloatOps F] in
theorem at_k (Ψ : GSem nD τ sig → sProp 𝕄) (c' : Dev nD) (k : Fin 33) :
    (bigSep Finset.univ fun ck : Dev nD × Fin 33 => Ψ (kcell ck)) ⊢ Ψ (kcell (c', k)) :=
  bigSep_elim (Φ := fun ck : Dev nD × Fin 33 => Ψ (kcell ck)) (Finset.mem_univ (c', k))

omit [FloatOps F] in
theorem at_bar (Ψ : GSem nD τ sig → sProp 𝕄) (c' : Dev nD) :
    (bigSep Finset.univ fun ck : Dev nD × Fin 33 => Ψ (kcell ck)) ⊢ Ψ (barCell c') := at_k Ψ c' 0

omit [FloatOps F] in
theorem at_ys (Ψ : GSem nD τ sig → sProp 𝕄) [∀ g, BI.Persistent (Ψ g)] (c' : Dev nD) :
    (bigSep Finset.univ fun ck : Dev nD × Fin 33 => Ψ (kcell ck)) ⊢ all8 fun i => Ψ (ysCell c' i) := by
  show _ ⊢ iprop(Ψ (ysCell c' 0) ∗ Ψ (ysCell c' 1) ∗ Ψ (ysCell c' 2) ∗ Ψ (ysCell c' 3) ∗ Ψ (ysCell c' 4) ∗ Ψ (ysCell c' 5) ∗ Ψ (ysCell c' 6) ∗ Ψ (ysCell c' 7))
  iintro #H
  isplitr; · iapply (show (bigSep Finset.univ fun ck : Dev nD × Fin 33 => Ψ (kcell ck)) ⊢ Ψ (ysCell c' 0) from at_k Ψ c' 1); iexact H
  isplitr; · iapply (show (bigSep Finset.univ fun ck : Dev nD × Fin 33 => Ψ (kcell ck)) ⊢ Ψ (ysCell c' 1) from at_k Ψ c' 2); iexact H
  isplitr; · iapply (show (bigSep Finset.univ fun ck : Dev nD × Fin 33 => Ψ (kcell ck)) ⊢ Ψ (ysCell c' 2) from at_k Ψ c' 3); iexact H
  isplitr; · iapply (show (bigSep Finset.univ fun ck : Dev nD × Fin 33 => Ψ (kcell ck)) ⊢ Ψ (ysCell c' 3) from at_k Ψ c' 4); iexact H
  isplitr; · iapply (show (bigSep Finset.univ fun ck : Dev nD × Fin 33 => Ψ (kcell ck)) ⊢ Ψ (ysCell c' 4) from at_k Ψ c' 5); iexact H
  isplitr; · iapply (show (bigSep Finset.univ fun ck : Dev nD × Fin 33 => Ψ (kcell ck)) ⊢ Ψ (ysCell c' 5) from at_k Ψ c' 6); iexact H
  isplitr; · iapply (show (bigSep Finset.univ fun ck : Dev nD × Fin 33 => Ψ (kcell ck)) ⊢ Ψ (ysCell c' 6) from at_k Ψ c' 7); iexact H
  iapply (show (bigSep Finset.univ fun ck : Dev nD × Fin 33 => Ψ (kcell ck)) ⊢ Ψ (ysCell c' 7) from at_k Ψ c' 8); iexact H

omit [FloatOps F] in
theorem at_yr (Ψ : GSem nD τ sig → sProp 𝕄) [∀ g, BI.Persistent (Ψ g)] (c' : Dev nD) :
    (bigSep Finset.univ fun ck : Dev nD × Fin 33 => Ψ (kcell ck)) ⊢ all8 fun i => Ψ (yrCell c' i) := by
  show _ ⊢ iprop(Ψ (yrCell c' 0) ∗ Ψ (yrCell c' 1) ∗ Ψ (yrCell c' 2) ∗ Ψ (yrCell c' 3) ∗ Ψ (yrCell c' 4) ∗ Ψ (yrCell c' 5) ∗ Ψ (yrCell c' 6) ∗ Ψ (yrCell c' 7))
  iintro #H
  isplitr; · iapply (show (bigSep Finset.univ fun ck : Dev nD × Fin 33 => Ψ (kcell ck)) ⊢ Ψ (yrCell c' 0) from at_k Ψ c' 9); iexact H
  isplitr; · iapply (show (bigSep Finset.univ fun ck : Dev nD × Fin 33 => Ψ (kcell ck)) ⊢ Ψ (yrCell c' 1) from at_k Ψ c' 10); iexact H
  isplitr; · iapply (show (bigSep Finset.univ fun ck : Dev nD × Fin 33 => Ψ (kcell ck)) ⊢ Ψ (yrCell c' 2) from at_k Ψ c' 11); iexact H
  isplitr; · iapply (show (bigSep Finset.univ fun ck : Dev nD × Fin 33 => Ψ (kcell ck)) ⊢ Ψ (yrCell c' 3) from at_k Ψ c' 12); iexact H
  isplitr; · iapply (show (bigSep Finset.univ fun ck : Dev nD × Fin 33 => Ψ (kcell ck)) ⊢ Ψ (yrCell c' 4) from at_k Ψ c' 13); iexact H
  isplitr; · iapply (show (bigSep Finset.univ fun ck : Dev nD × Fin 33 => Ψ (kcell ck)) ⊢ Ψ (yrCell c' 5) from at_k Ψ c' 14); iexact H
  isplitr; · iapply (show (bigSep Finset.univ fun ck : Dev nD × Fin 33 => Ψ (kcell ck)) ⊢ Ψ (yrCell c' 6) from at_k Ψ c' 15); iexact H
  iapply (show (bigSep Finset.univ fun ck : Dev nD × Fin 33 => Ψ (kcell ck)) ⊢ Ψ (yrCell c' 7) from at_k Ψ c' 16); iexact H

omit [FloatOps F] in
theorem at_zs (Ψ : GSem nD τ sig → sProp 𝕄) [∀ g, BI.Persistent (Ψ g)] (c' : Dev nD) :
    (bigSep Finset.univ fun ck : Dev nD × Fin 33 => Ψ (kcell ck)) ⊢ all8 fun i => Ψ (zsCell c' i) := by
  show _ ⊢ iprop(Ψ (zsCell c' 0) ∗ Ψ (zsCell c' 1) ∗ Ψ (zsCell c' 2) ∗ Ψ (zsCell c' 3) ∗ Ψ (zsCell c' 4) ∗ Ψ (zsCell c' 5) ∗ Ψ (zsCell c' 6) ∗ Ψ (zsCell c' 7))
  iintro #H
  isplitr; · iapply (show (bigSep Finset.univ fun ck : Dev nD × Fin 33 => Ψ (kcell ck)) ⊢ Ψ (zsCell c' 0) from at_k Ψ c' 17); iexact H
  isplitr; · iapply (show (bigSep Finset.univ fun ck : Dev nD × Fin 33 => Ψ (kcell ck)) ⊢ Ψ (zsCell c' 1) from at_k Ψ c' 18); iexact H
  isplitr; · iapply (show (bigSep Finset.univ fun ck : Dev nD × Fin 33 => Ψ (kcell ck)) ⊢ Ψ (zsCell c' 2) from at_k Ψ c' 19); iexact H
  isplitr; · iapply (show (bigSep Finset.univ fun ck : Dev nD × Fin 33 => Ψ (kcell ck)) ⊢ Ψ (zsCell c' 3) from at_k Ψ c' 20); iexact H
  isplitr; · iapply (show (bigSep Finset.univ fun ck : Dev nD × Fin 33 => Ψ (kcell ck)) ⊢ Ψ (zsCell c' 4) from at_k Ψ c' 21); iexact H
  isplitr; · iapply (show (bigSep Finset.univ fun ck : Dev nD × Fin 33 => Ψ (kcell ck)) ⊢ Ψ (zsCell c' 5) from at_k Ψ c' 22); iexact H
  isplitr; · iapply (show (bigSep Finset.univ fun ck : Dev nD × Fin 33 => Ψ (kcell ck)) ⊢ Ψ (zsCell c' 6) from at_k Ψ c' 23); iexact H
  iapply (show (bigSep Finset.univ fun ck : Dev nD × Fin 33 => Ψ (kcell ck)) ⊢ Ψ (zsCell c' 7) from at_k Ψ c' 24); iexact H

omit [FloatOps F] in
theorem at_zr (Ψ : GSem nD τ sig → sProp 𝕄) [∀ g, BI.Persistent (Ψ g)] (c' : Dev nD) :
    (bigSep Finset.univ fun ck : Dev nD × Fin 33 => Ψ (kcell ck)) ⊢ all8 fun i => Ψ (zrCell c' i) := by
  show _ ⊢ iprop(Ψ (zrCell c' 0) ∗ Ψ (zrCell c' 1) ∗ Ψ (zrCell c' 2) ∗ Ψ (zrCell c' 3) ∗ Ψ (zrCell c' 4) ∗ Ψ (zrCell c' 5) ∗ Ψ (zrCell c' 6) ∗ Ψ (zrCell c' 7))
  iintro #H
  isplitr; · iapply (show (bigSep Finset.univ fun ck : Dev nD × Fin 33 => Ψ (kcell ck)) ⊢ Ψ (zrCell c' 0) from at_k Ψ c' 25); iexact H
  isplitr; · iapply (show (bigSep Finset.univ fun ck : Dev nD × Fin 33 => Ψ (kcell ck)) ⊢ Ψ (zrCell c' 1) from at_k Ψ c' 26); iexact H
  isplitr; · iapply (show (bigSep Finset.univ fun ck : Dev nD × Fin 33 => Ψ (kcell ck)) ⊢ Ψ (zrCell c' 2) from at_k Ψ c' 27); iexact H
  isplitr; · iapply (show (bigSep Finset.univ fun ck : Dev nD × Fin 33 => Ψ (kcell ck)) ⊢ Ψ (zrCell c' 3) from at_k Ψ c' 28); iexact H
  isplitr; · iapply (show (bigSep Finset.univ fun ck : Dev nD × Fin 33 => Ψ (kcell ck)) ⊢ Ψ (zrCell c' 4) from at_k Ψ c' 29); iexact H
  isplitr; · iapply (show (bigSep Finset.univ fun ck : Dev nD × Fin 33 => Ψ (kcell ck)) ⊢ Ψ (zrCell c' 5) from at_k Ψ c' 30); iexact H
  isplitr; · iapply (show (bigSep Finset.univ fun ck : Dev nD × Fin 33 => Ψ (kcell ck)) ⊢ Ψ (zrCell c' 6) from at_k Ψ c' 31); iexact H
  iapply (show (bigSep Finset.univ fun ck : Dev nD × Fin 33 => Ψ (kcell ck)) ⊢ Ψ (zrCell c' 7) from at_k Ψ c' 32); iexact H

/-- The tokens of the duties device `c` pays; -/
def payToks (c : Dev nD) : sProp 𝕄 :=
  iprop(dutyTok ER (barCell (yp c)) 0 false ∗ dutyTok ER (barCell (zp c)) 0 true
    ∗ (all8 fun i => dutyTok ER (ysCell c i) 0 false) ∗ (all8 fun i => dutyTok ER (zsCell c i) 0 false)
    ∗ (all8 fun i => dutyTok ER (yrCell (yp c) i) 0 false) ∗ (all8 fun i => dutyTok ER (zrCell (zp c) i) 0 false))
/-- what stays with it. -/
def linear (c : Dev nD) : sProp 𝕄 :=
  iprop((bigSep Finset.univ fun k : Fin 33 => atPos ER (kcell (c, k)) 0 ∅ 0) ∗ payToks c ∗ localSems c)

theorem ghost_intro (K : Dev nD × Fin 33 → ℕ) (c : Dev nD) : iprop(records m K ∗ linear c) ⊢ G' m c := by
  unfold records linear G'
  iintro ⟨⟨#HI, #HR⟩, Hat, Htk, Hloc⟩
  iexists (Kg K)
  have hb : ∀ c' : Dev nD, (bigSep Finset.univ fun ck : Dev nD × Fin 33 => (cellInv ER (sched (PSm m) (PZm m)) (Kg K (kcell ck)) (kcell ck) : sProp 𝕄)) ⊢ cellInv ER (sched (PSm m) (PZm m)) (Kg K (barCell c')) (barCell c') :=
    fun c' => at_bar (F := F) (fun g => cellInv ER (sched (PSm m) (PZm m)) (Kg K g) g) c'
  have hys : ∀ c' : Dev nD, (bigSep Finset.univ fun ck : Dev nD × Fin 33 => (cellInv ER (sched (PSm m) (PZm m)) (Kg K (kcell ck)) (kcell ck) : sProp 𝕄)) ⊢ all8 fun i => cellInv ER (sched (PSm m) (PZm m)) (Kg K (ysCell c' i)) (ysCell c' i) :=
    fun c' => at_ys (F := F) (fun g => cellInv ER (sched (PSm m) (PZm m)) (Kg K g) g) c'
  have hyr : ∀ c' : Dev nD, (bigSep Finset.univ fun ck : Dev nD × Fin 33 => (cellInv ER (sched (PSm m) (PZm m)) (Kg K (kcell ck)) (kcell ck) : sProp 𝕄)) ⊢ all8 fun i => cellInv ER (sched (PSm m) (PZm m)) (Kg K (yrCell c' i)) (yrCell c' i) :=
    fun c' => at_yr (F := F) (fun g => cellInv ER (sched (PSm m) (PZm m)) (Kg K g) g) c'
  have hzs : ∀ c' : Dev nD, (bigSep Finset.univ fun ck : Dev nD × Fin 33 => (cellInv ER (sched (PSm m) (PZm m)) (Kg K (kcell ck)) (kcell ck) : sProp 𝕄)) ⊢ all8 fun i => cellInv ER (sched (PSm m) (PZm m)) (Kg K (zsCell c' i)) (zsCell c' i) :=
    fun c' => at_zs (F := F) (fun g => cellInv ER (sched (PSm m) (PZm m)) (Kg K g) g) c'
  have hzr : ∀ c' : Dev nD, (bigSep Finset.univ fun ck : Dev nD × Fin 33 => (cellInv ER (sched (PSm m) (PZm m)) (Kg K (kcell ck)) (kcell ck) : sProp 𝕄)) ⊢ all8 fun i => cellInv ER (sched (PSm m) (PZm m)) (Kg K (zrCell c' i)) (zrCell c' i) :=
    fun c' => at_zr (F := F) (fun g => cellInv ER (sched (PSm m) (PZm m)) (Kg K g) g) c'
  have rb : ∀ c' : Dev nD, (bigSep Finset.univ fun ck : Dev nD × Fin 33 => (reached ER (kcell ck) 0 : sProp 𝕄)) ⊢ reached ER (barCell c') 0 :=
    fun c' => at_bar (F := F) (fun g => reached ER g 0) c'
  have rys : ∀ c' : Dev nD, (bigSep Finset.univ fun ck : Dev nD × Fin 33 => (reached ER (kcell ck) 0 : sProp 𝕄)) ⊢ all8 fun i => reached ER (ysCell c' i) 0 :=
    fun c' => at_ys (F := F) (fun g => reached ER g 0) c'
  have ryr : ∀ c' : Dev nD, (bigSep Finset.univ fun ck : Dev nD × Fin 33 => (reached ER (kcell ck) 0 : sProp 𝕄)) ⊢ all8 fun i => reached ER (yrCell c' i) 0 :=
    fun c' => at_yr (F := F) (fun g => reached ER g 0) c'
  have rzs : ∀ c' : Dev nD, (bigSep Finset.univ fun ck : Dev nD × Fin 33 => (reached ER (kcell ck) 0 : sProp 𝕄)) ⊢ all8 fun i => reached ER (zsCell c' i) 0 :=
    fun c' => at_zs (F := F) (fun g => reached ER g 0) c'
  have rzr : ∀ c' : Dev nD, (bigSep Finset.univ fun ck : Dev nD × Fin 33 => (reached ER (kcell ck) 0 : sProp 𝕄)) ⊢ all8 fun i => reached ER (zrCell c' i) 0 :=
    fun c' => at_zr (F := F) (fun g => reached ER g 0) c'
  isplitr
  · unfold invsG
    isplitr; · iapply (hb c); iexact HI
    isplitr; · iapply (hb (yp c)); iexact HI
    isplitr; · iapply (hb (zp c)); iexact HI
    isplitr; · iapply (hys c); iexact HI
    isplitr; · iapply (hyr c); iexact HI
    isplitr; · iapply (hzs c); iexact HI
    isplitr; · iapply (hzr c); iexact HI
    isplitr; · iapply (hyr (yp c)); iexact HI
    isplitr; · iapply (hzr (zp c)); iexact HI
    isplitr; · iapply (rb (yp c)); iexact HR
    isplitr; · iapply (rb (zp c)); iexact HR
    isplitr; · iapply (rys c); iexact HR
    isplitr; · iapply (ryr c); iexact HR
    isplitr; · iapply (rzs c); iexact HR
    iapply (rzr c); iexact HR
  isplitl [Hat Htk]
  · unfold posToks payToks
    ihave Hat' := (Entails.of_eq (cells33 (fun g => (atPos ER g 0 ∅ 0 : sProp 𝕄)) c)) $$ Hat
    ihave Hat'' := (chain_all8 (F := F) (atPos ER (barCell c) 0 ∅ 0) (fun i => atPos ER (ysCell c i) 0 ∅ 0) (fun i => atPos ER (yrCell c i) 0 ∅ 0) (fun i => atPos ER (zsCell c i) 0 ∅ 0) (fun i => atPos ER (zrCell c i) 0 ∅ 0)) $$ Hat'
    icases Hat'' with ⟨P0, P1, P2, P3, P4⟩
    icases Htk with ⟨T1, T2, T3, T4, T5, T6⟩
    isplitl [P0]; · iexact P0
    isplitl [P1]; · iexact P1
    isplitl [P2]; · iexact P2
    isplitl [P3]; · iexact P3
    isplitl [P4]; · iexact P4
    isplitl [T1]; · iexact T1
    isplitl [T2]; · iexact T2
    isplitl [T3]; · iexact T3
    isplitl [T4]; · iexact T4
    isplitl [T5]; · iexact T5
    iexact T6
  iexact Hloc

omit [FloatOps F] in
/-- A device's own cells' tokens by name. -/
theorem toks_named (c : Dev nD) : (toks c : sProp 𝕄)
    ⊢ iprop(dutyTok ER (barCell c) 0 false ∗ dutyTok ER (barCell c) 0 true
      ∗ (all8 fun i => dutyTok ER (ysCell c i) 0 false) ∗ (all8 fun i => dutyTok ER (yrCell c i) 0 false)
      ∗ (all8 fun i => dutyTok ER (zsCell c i) 0 false) ∗ (all8 fun i => dutyTok ER (zrCell c i) 0 false)) := by
  have e : (toks c : sProp 𝕄) = iprop(dutyTok ER (barCell c) 0 false ∗ dutyTok ER (barCell c) 0 true ∗ dutyTok ER (ysCell c 0) 0 false ∗ dutyTok ER (ysCell c 1) 0 false ∗ dutyTok ER (ysCell c 2) 0 false ∗ dutyTok ER (ysCell c 3) 0 false ∗ dutyTok ER (ysCell c 4) 0 false ∗ dutyTok ER (ysCell c 5) 0 false ∗ dutyTok ER (ysCell c 6) 0 false ∗ dutyTok ER (ysCell c 7) 0 false ∗ dutyTok ER (yrCell c 0) 0 false ∗ dutyTok ER (yrCell c 1) 0 false ∗ dutyTok ER (yrCell c 2) 0 false ∗ dutyTok ER (yrCell c 3) 0 false ∗ dutyTok ER (yrCell c 4) 0 false ∗ dutyTok ER (yrCell c 5) 0 false ∗ dutyTok ER (yrCell c 6) 0 false ∗ dutyTok ER (yrCell c 7) 0 false ∗ dutyTok ER (zsCell c 0) 0 false ∗ dutyTok ER (zsCell c 1) 0 false ∗ dutyTok ER (zsCell c 2) 0 false ∗ dutyTok ER (zsCell c 3) 0 false ∗ dutyTok ER (zsCell c 4) 0 false ∗ dutyTok ER (zsCell c 5) 0 false ∗ dutyTok ER (zsCell c 6) 0 false ∗ dutyTok ER (zsCell c 7) 0 false ∗ dutyTok ER (zrCell c 0) 0 false ∗ dutyTok ER (zrCell c 1) 0 false ∗ dutyTok ER (zrCell c 2) 0 false ∗ dutyTok ER (zrCell c 3) 0 false ∗ dutyTok ER (zrCell c 4) 0 false ∗ dutyTok ER (zrCell c 5) 0 false ∗ dutyTok ER (zrCell c 6) 0 false ∗ dutyTok ER (zrCell c 7) 0 false) := by
    unfold toks; rw [bigSep_fin34]; rfl
  rw [e]
  exact sep_mono_right (chain_all8 (F := F) (dutyTok ER (barCell c) 0 true) (fun i => dutyTok ER (ysCell c i) 0 false) (fun i => dutyTok ER (yrCell c i) 0 false) (fun i => dutyTok ER (zsCell c i) 0 false) (fun i => dutyTok ER (zrCell c i) 0 false))

def ypE : Dev nD ≃ Dev nD := ⟨yp, yp, yp_yp, yp_yp⟩
def zpE : Dev nD ≃ Dev nD := ⟨zp, zp, zp_zp, zp_zp⟩

omit [FloatOps F] in
/-- The tokens dealt along the two involutions: a barrier's `false` token and the receive tokens along y to the partner
    along y, the barrier's `true` token and the receive tokens along z to the partner along z. -/
theorem toks_around' : (bigSep Finset.univ fun c : Dev nD => (iprop(dutyTok ER (barCell c) 0 false ∗ dutyTok ER (barCell c) 0 true
      ∗ (all8 fun i => dutyTok ER (ysCell c i) 0 false) ∗ (all8 fun i => dutyTok ER (yrCell c i) 0 false)
      ∗ (all8 fun i => dutyTok ER (zsCell c i) 0 false) ∗ (all8 fun i => dutyTok ER (zrCell c i) 0 false)) : sProp 𝕄))
    ⊢ bigSep Finset.univ fun c : Dev nD => payToks c := by
  unfold payToks
  rw [bigSep_sep', bigSep_sep', bigSep_sep', bigSep_sep', bigSep_sep', bigSep_sep', bigSep_sep', bigSep_sep', bigSep_sep', bigSep_sep',
    bigSep_univ_equiv ypE (fun c : Dev nD => (dutyTok ER (barCell c) 0 false : sProp 𝕄)),
    bigSep_univ_equiv zpE (fun c : Dev nD => (dutyTok ER (barCell c) 0 true : sProp 𝕄)),
    bigSep_univ_equiv ypE (fun c : Dev nD => (all8 fun i => dutyTok ER (yrCell c i) 0 false : sProp 𝕄)),
    bigSep_univ_equiv zpE (fun c : Dev nD => (all8 fun i => dutyTok ER (zrCell c i) 0 false : sProp 𝕄))]
  iintro ⟨H1, H2, H3, H4, H5, H6⟩
  isplitl [H1]; · iexact H1
  isplitl [H2]; · iexact H2
  isplitl [H3]; · iexact H3
  isplitl [H5]; · iexact H5
  isplitl [H4]; · iexact H4
  iexact H6

omit [FloatOps F] in
theorem toks_around : (bigSep Finset.univ fun c : Dev nD => (toks c : sProp 𝕄)) ⊢ bigSep Finset.univ fun c : Dev nD => payToks c :=
  (bigSep_mono fun c _ => toks_named c).trans toks_around'

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 33 => iprop(∃ κ : ℕ, cellInv ER (sched (PSm m) (PZm m)) κ (kcell (c, k))))
          ∗ (bigSep Finset.univ fun k : Fin 33 => iprop(atPos ER (kcell (c, k)) 0 ∅ 0 ∗ reached ER (kcell (c, k)) 0)) ∗ toks c ∗ localSems c) : sProp 𝕄)
      ⊢ bigSep Finset.univ (G' m) := by
  rw [bigSep_sep', bigSep_sep', bigSep_sep', ← bigSep_univ_prod (fun ck : Dev nD × Fin 33 => iprop(∃ κ : ℕ, cellInv ER (sched (PSm m) (PZm m)) κ (kcell ck))),
    bigSep_congr (s := Finset.univ) (fun (c : Dev nD) _ => bigSep_sep' Finset.univ (fun k : Fin 33 => (atPos ER (kcell (c, k)) 0 ∅ 0 : sProp 𝕄)) (fun k => reached ER (kcell (c, k)) 0)),
    bigSep_sep', ← bigSep_univ_prod (fun ck : Dev nD × Fin 33 => (reached ER (kcell ck) 0 : sProp 𝕄))]
  iintro ⟨HI, ⟨Hat, #HR⟩, Htok, Hloc⟩
  ihave HK := (BI.bigSep_exists_pi Finset.univ (fun (ck : Dev nD × Fin 33) (κ : ℕ) => (cellInv ER (sched (PSm m) (PZm m)) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl
    · iapply (Entails.of_eq (bigSep_congr (s := Finset.univ) fun (ck : Dev nD × Fin 33) _ => show (cellInv ER (sched (PSm m) (PZm m)) (K ck) (kcell ck) : sProp 𝕄) = cellInv ER (sched (PSm m) (PZm m)) (Kg K (kcell ck)) (kcell ck) from by rw [Kg_kcell]))
      iexact HI
    iexact HR
  · rw [show (bigSep Finset.univ fun c : Dev nD => (linear c : sProp 𝕄))
        = iprop((bigSep Finset.univ fun c : Dev nD => bigSep Finset.univ fun k : Fin 33 => (atPos ER (kcell (c, k)) 0 ∅ 0 : sProp 𝕄))
          ∗ (bigSep Finset.univ fun c : Dev nD => payToks c) ∗ bigSep Finset.univ fun c : Dev nD => localSems c) from by
      unfold linear; rw [bigSep_sep', bigSep_sep']]
    isplitl [Hat]; · iexact Hat
    isplitl [Htk]; · iexact Htk
    iexact Hloc

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Glob

/-! ### The launch credit -/

section Cred

/-- The credit of a device's receive cells along z, in the order the partner pays them; -/
def credsZ (c : Dev nD) : ℕ → sProp 𝕄
  | 0 => iprop(emp)
  | n + 1 => iprop(credsZ c n ∗ cred (tallyAt (zrCell c (chunkRev n)) () N))
/-- then along y. -/
def credsY (c : Dev nD) : ℕ → sProp 𝕄
  | 0 => credsZ c 8
  | n + 1 => iprop(credsY c n ∗ cred (tallyAt (yrCell c (chunkRev n)) () N))

theorem cred_owedZ (c : Dev nD) : ∀ n, (Pipeline.launchCred (fun d => owedZ d n) c : sProp 𝕄) ⊢ credsZ (F := F) c n
  | 0 => Entails.of_eq (Pipeline.launchCred_zero c)
  | n + 1 => by
    show (Pipeline.launchCred (fun d => owedZ d n + tallyAt (zrCell (zp d) (chunkRev n)) () N) c : sProp 𝕄)
      ⊢ iprop(credsZ c n ∗ cred (tallyAt (zrCell c (chunkRev n)) () N))
    rw [Pipeline.launchCred_add]
    exact BIClass.sep_mono (cred_owedZ c n) (Pipeline.launchCred_tallyAt (.dma (zrSem (chunkRev n))) zp zp zp_zp zp_zp () N c)

theorem cred_owedY (c : Dev nD) : ∀ n, (Pipeline.launchCred (fun d => owedY d n) c : sProp 𝕄) ⊢ credsY (F := F) c n
  | 0 => cred_owedZ c 8
  | n + 1 => by
    show (Pipeline.launchCred (fun d => owedY d n + tallyAt (yrCell (yp d) (chunkRev n)) () N) c : sProp 𝕄)
      ⊢ iprop(credsY c n ∗ cred (tallyAt (yrCell c (chunkRev n)) () N))
    rw [Pipeline.launchCred_add]
    exact BIClass.sep_mono (cred_owedY c n) (Pipeline.launchCred_tallyAt (.dma (yrSem (chunkRev n))) yp yp yp_yp yp_yp () N c)

theorem credsY_all8 (c : Dev nD) : (credsY (F := F) c 8 : sProp 𝕄)
    ⊢ iprop((all8 fun i => cred (tallyAt (yrCell c i) () N)) ∗ (all8 fun i => cred (tallyAt (zrCell c i) () N))) := by
  show (iprop(((((((((((((((((emp ∗ cred (tallyAt (zrCell c 7) () N)) ∗ cred (tallyAt (zrCell c 6) () N)) ∗ cred (tallyAt (zrCell c 5) () N)) ∗ cred (tallyAt (zrCell c 4) () N)) ∗ cred (tallyAt (zrCell c 3) () N)) ∗ cred (tallyAt (zrCell c 2) () N)) ∗ cred (tallyAt (zrCell c 1) () N)) ∗ cred (tallyAt (zrCell c 0) () N)) ∗ cred (tallyAt (yrCell c 7) () N)) ∗ cred (tallyAt (yrCell c 6) () N)) ∗ cred (tallyAt (yrCell c 5) () N)) ∗ cred (tallyAt (yrCell c 4) () N)) ∗ cred (tallyAt (yrCell c 3) () N)) ∗ cred (tallyAt (yrCell c 2) () N)) ∗ cred (tallyAt (yrCell c 1) () N)) ∗ cred (tallyAt (yrCell c 0) () N))) : sProp 𝕄) ⊢ _
  unfold all8
  iintro ⟨⟨⟨⟨⟨⟨⟨⟨⟨⟨⟨⟨⟨⟨⟨⟨-, Z7⟩, Z6⟩, Z5⟩, Z4⟩, Z3⟩, Z2⟩, Z1⟩, Z0⟩, Y7⟩, Y6⟩, Y5⟩, Y4⟩, Y3⟩, Y2⟩, Y1⟩, Y0⟩
  isplitl [Y0 Y1 Y2 Y3 Y4 Y5 Y6 Y7]
  · isplitl [Y0]; · iexact Y0
    isplitl [Y1]; · iexact Y1
    isplitl [Y2]; · iexact Y2
    isplitl [Y3]; · iexact Y3
    isplitl [Y4]; · iexact Y4
    isplitl [Y5]; · iexact Y5
    isplitl [Y6]; · iexact Y6
    iexact Y7
  isplitl [Z0]; · iexact Z0
  isplitl [Z1]; · iexact Z1
  isplitl [Z2]; · iexact Z2
  isplitl [Z3]; · iexact Z3
  isplitl [Z4]; · iexact Z4
  isplitl [Z5]; · iexact Z5
  isplitl [Z6]; · iexact Z6
  iexact Z7

/-- The launch deals a device the credit of what its partners owe it: two units on its barrier cell, a landing on each
    receive cell. -/
theorem creds_intro (c : Dev nD) : (Pipeline.launchCred owed₀ c : sProp 𝕄) ⊢ creds (F := F) c := by
  have h0 : (Pipeline.launchCred owed₀ c : sProp 𝕄)
      ⊢ iprop((Pipeline.launchCred (fun d => owedY d 8) c ∗ Pipeline.launchCred (fun d => tallyAt (barCell (zp d)) () 1) c)
          ∗ Pipeline.launchCred (fun d => tallyAt (barCell (yp d)) () 1) c) := by
    show (Pipeline.launchCred (fun d => (owedY d 8 + tallyAt (barCell (zp d)) () 1) + tallyAt (barCell (yp d)) () 1) c : sProp 𝕄) ⊢ _
    rw [Pipeline.launchCred_add, Pipeline.launchCred_add]
  refine h0.trans ?_
  unfold creds
  have e2 : (tallyAt (barCell c) () 2 : CellTallies nD τ sig Unit) = tallyAt (barCell c) () 1 + tallyAt (barCell c) () 1 :=
    (tallyAt_add (barCell c) () 1 1).symm
  rw [e2]
  iintro ⟨⟨HY, HBz⟩, HBy⟩
  ihave HY1 := (cred_owedY (F := F) c 8) $$ HY
  ihave HY2 := (credsY_all8 (F := F) c) $$ HY1
  icases HY2 with ⟨HYr, HZr⟩
  ihave Bz := (Pipeline.launchCred_tallyAt (.reg barS) zp zp zp_zp zp_zp () 1 c) $$ HBz
  ihave By := (Pipeline.launchCred_tallyAt (.reg barS) yp yp yp_yp yp_yp () 1 c) $$ HBy
  isplitl [Bz By]
  · iapply (cred_add _ _).2
    isplitl [Bz] <;> iassumption
  isplitl [HYr]; · iexact HYr
  iexact HZr

end Cred

/-! ### The theorem's side conditions -/

section Side

variable (m : (ℓ : Loc nD τ sig) → Buf (Elt F) ℓ) (ρ : Dev nD → PrngReg)

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ |={Set.univ}=> iprop(start m c ∗ emp) := by
  rw [Pipeline.unscopedRestP_none, unscopedRest0_eq]
  iintro ⟨⟨Ha, Hv⟩, Hlev, Hcr, -, HG⟩
  ihave Hc := (creds_intro (F := F) c) $$ Hcr
  imodintro
  unfold start G'
  icases HG with ⟨%K, HI, Hpos, Hloc⟩
  isplitl
  · isplitl [HI]; · iexists K; iexact HI
    isplitl [Hlev]; · iexact Hlev
    isplitl [Hpos]; · iexact Hpos
    isplitl [Hc]; · iexact Hc
    isplitl [Hloc]; · iexact Hloc
    isplitl [Ha]; · iexact Ha
    iexact Hv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratches
  iintro ⟨Hs, -, Hr⟩
  isplitl [Hs]; · iexact Hs
  iexact Hr

/-- What the last point leaves of the unscoped buffers: the dy block as launched, the result block holding its rows of the product. -/
def Yc (c : Dev nD) : sProp 𝕄 :=
  iprop(((Memref.whole main_arg1).view.loc (c : Thread nD τ) ↦{fullShare} m ((c : Thread nD τ).loc main_arg1))
    ∗ ((Memref.whole main_v1).view.loc (c : Thread nD τ) ↦{fullShare} outM m c))

theorem phi1_exit (c : Dev nD) :
    (dats m 0 c).Φ (Fin.last cfg0.N) ⊢ iprop(Yc m c ∗ Pipeline.ownSems0 osem c ∗ Pipeline.scopedRest cfg0.spec c) := by
  rw [show (dats m 0 c).Φ (Fin.last cfg0.N) = Φ₁ m c from rfl, scopedRest0_eq]
  unfold Φ₁ Yc scratches
  iintro ⟨Ha, Hv, Hloc, Hcl, Hr⟩
  isplitl [Ha Hv]
  · isplitl [Ha] <;> iassumption
  isplitl [Hloc Hcl]
  · iapply (sems0_back (F := F) c)
    isplitl [Hloc] <;> iassumption
  iexact Hr

omit [FloatOps F] in
/-- Whatever a device owes at launch sits on a cell of level at least 1. -/
theorem owed₀_pos {c : Dev nD} {g : GSem nD τ sig} {u : Unit} (h : 0 < owed₀ c g u) : u ∈ L g ∧ 1 ≤ lv g u := by
  rcases Pipeline.add_pos_cases (show 0 < (owed₁ c + tallyAt (barCell (yp c)) () 1) g u from h) with h | h
  · rcases Pipeline.add_pos_cases (show 0 < (owedY c 8 + tallyAt (barCell (zp c)) () 1) g u from h) with h | h
    · rcases owedY_pos h with ⟨i, rfl⟩ | ⟨i, rfl⟩
      · exact ⟨by rw [L_tc]; exact Finset.mem_singleton_self _, by rw [lv_zr]; omega⟩
      · exact ⟨by rw [L_tc]; exact Finset.mem_singleton_self _, by rw [lv_yr]; omega⟩
    · rw [tallyAt_apply] at h
      by_cases hg : g = barCell (zp c) ∧ u = ()
      · rw [hg.1]; exact ⟨by rw [L_tc]; exact Finset.mem_singleton_self _, Nat.le_refl 1⟩
      · rw [if_neg hg] at h; exact absurd h (Nat.lt_irrefl 0)
  · rw [tallyAt_apply] at h
    by_cases hg : g = barCell (yp c) ∧ u = ()
    · rw [hg.1]; exact ⟨by rw [L_tc]; exact Finset.mem_singleton_self _, Nat.le_refl 1⟩
    · rw [if_neg hg] at h; exact absurd h (Nat.lt_irrefl 0)

omit [FloatOps F] in
/-- A wait on a cell of level 0 is allowed whatever of the launch dues is still owed. -/
theorem mayWait_stage (c : Dev nD) (q : DmaSem sig) (hq : q.val < 26) (O : CellTallies nD τ sig Unit) (hO : O = owed₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    obtain ⟨h1, h2⟩ := owed₀_pos hg
    refine ⟨h1, ?_⟩
    have h0 : lv ((c : Thread nD τ), .dma q) () = 0 := by
      show (if q.val < 26 then 0 else if q.val < 34 then 2 else if q.val < 42 then 0 else 3) = 0
      rw [if_pos hq]
    omega
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

end Side

/-! ### The run -/

section Run

variable (m : (ℓ : Loc nD τ sig) → Buf (Elt F) ℓ) (ρ : Dev nD → PrngReg)

set_option maxRecDepth 16384 in
/-- At the compiled mesh of eight devices, for any float values, from any memory with zero counters, given the body's obligation on
    every device: every weakly fair execution of @main terminates, and every final state has each device's result block at the
    rows the protocol computes for it and its two argument blocks unchanged. -/
theorem run_main (hbody : ∀ c : Dev nD, BodyObligation (dats (F := F) m 0 c) (defs₀ (F := F)) 𝒱₀ () Set.univ) :
    θ_run (defs (F := F)) (onTc (τ := τ) (main (F := F))) ⟨m, fun _ => 0, ρ⟩ (fun r => ∀ c : Dev nD,
      r.2.mem ((c.tc : Thread nD τ).loc main_v1) = outM m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m)
    (hdistinct := winFacts0.arr_inj)
    (O₀ := owed₀) (howed₀ := fun _ => rfl) (howedN := fun _ => rfl)
    (L := L) (lv := lv) (hL := L_of_ne) (hwaits := waits m)
    (G := G m) (G' := G' m) (u₀ := u₀)
    (hu₀ := hu₀ m)
    (hglob := glob m)
    (hA := fun _ _ => rfl) (hpf := fun _ k => k.elim0)
    (X := start m) (Y := Yc m) (Z := fun _ => iprop(emp))
    (hX := start_intro m ρ) (hin := phi0_intro m) (hout := phi1_exit m)
    (QY := fun c s => s.mem ((c.tc : Thread nD τ).loc main_v1) = outM m c
      ∧ s.mem ((c.tc : Thread nD τ).loc main_arg1) = m ((c.tc : Thread nD τ).loc main_arg1))
    (hY := fun c s' => by
      unfold Yc
      iintro ⟨⟨Ha, Hv⟩, -, HSI⟩
      icombine HSI Ha gives %ha
      icombine HSI Hv gives %hv
      imodintro
      isplitr; · ipureintro; exact ⟨Buf.eq_of_forall_mem_univ hv, Buf.eq_of_forall_mem_univ ha⟩
      iexact HSI)
    (hQ := fun s h c => ⟨(h c).2.2.1, ((h c).1 0).trans ((dats (F := F) m 0 c).arrAt_in 0 rfl _), (h c).2.2.2⟩)

/-- info: 'Cert.Kernel.Hand.run_main' depends on axioms: [propext, Classical.choice, Quot.sound] -/
#guard_msgs in #print axioms run_main

end Run

end Cert.Kernel.Hand

end
-- ==== Proof.WObligation.lean ====
import proofs.«900476_g7700000000000477_dist_rsdw_v7x_xyz2x2x2_y_m512_d512_f2048_f32_1_alg».proof.Proof.WBody
import proofs.«900476_g7700000000000477_dist_rsdw_v7x_xyz2x2x2_y_m512_d512_f2048_f32_1_alg».proof.Proof.WLaunchK
import Idealize.ShloMosaic.Lib.Pipeline.Launch
import Idealize.ShloMosaic.Lib.Pipeline.Kit
import Idealize.ShloMosaic.Lib.Tactic

set_option maxRecDepth 16384

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The body's obligation, and the run -/

omit [FloatOps F] in
/-- A whole buffer owned at contents `X` is the buffer held at contents equal to `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

section

variable (m : (ℓ : Loc nD τ sig) → Buf (Elt F) ℓ) (ρ : Dev nD → PrngReg)

/-- At the one point the staging buffer holds the device's block of x: the window is fetched there, and its one block is the whole array. -/
theorem before_eq (c : Dev nD) (d) : (dats (F := F) m 0 c).before 0 t0_0 d = xstg m c := by
  unfold Dat.before
  rw [if_pos (fetch0_0 t0_0)]
  rfl

set_option maxRecDepth 16384 in
/-- The library's body obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show iprop(Φ₀ m c ∗ (dats (F := F) m 0 c).owesAt () t0_0.castSucc
      ∗ ∃ d, ∃ f : Buf (Elt F) ((c : Thread nD τ).loc cc0_stg0_0), ⌜f = (dats (F := F) m 0 c).before 0 t0_0 d⌝ ∗ (((c : Thread nD τ).loc cc0_stg0_0) ↦{fullShare} f))
    ⊢ wp frame (wpE (defs₀ (F := F)) 𝒱₀ c none) Set.univ (cc0_body (Memref.whole cc0_stg0_0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13) (fun _ => iprop(Φ₁ m c ∗ (dats (F := F) m 0 c).owesAt () t0_0.succ ∗ ∃ f : Buf (Elt F) ((c : Thread nD τ).loc cc0_stg0_0), ⌜f = xstg m c⌝ ∗ (((c : Thread nD τ).loc cc0_stg0_0) ↦{fullShare} f)))
  unfold Φ₀ start scratches
  iintro ⟨⟨⟨⟨%K, HI⟩, Hlev, Hpos, Hcr, Hloc, Harg1, Hv1⟩, ⟨%f0, H0⟩, ⟨%f1, H1⟩, ⟨%f2, H2⟩, ⟨%f3, H3⟩, ⟨%f4, H4⟩, ⟨%f5, H5⟩, ⟨%f6, H6⟩, ⟨%f7, H7⟩⟩, ⟨%W, %hW, Ho⟩, ⟨%d, %f, %hf, Hx⟩⟩
  have hf' : f = xstg m c := hf.trans (before_eq m c d)
  subst hf'
  iapply (sound_body m K c W f0 f1 f2 f3 f4 f5 f6 f7 (fun _ => iprop(Φ₁ m c ∗ (dats (F := F) m 0 c).owesAt () t0_0.succ ∗ ∃ f : Buf (Elt F) ((c : Thread nD τ).loc cc0_stg0_0), ⌜f = xstg m c⌝ ∗ (((c : Thread nD τ).loc cc0_stg0_0) ↦{fullShare} f))))
  isplitl [HI]; · iexact HI
  isplitl [Hlev]; · iexact Hlev
  isplitl [Hpos]; · iexact Hpos
  isplitl [Hcr]; · iexact Hcr
  isplitl [Hloc]; · iexact Hloc
  isplitl [Ho]; · iexact Ho
  isplitl [Hx]; · iexact Hx
  isplitl [Harg1]; · iexact Harg1
  isplitl [Hv1]; · iexact Hv1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold bodyPost
  iintro ⟨⟨%W', Ho'⟩, Hx', HΦ⟩
  isplitl [HΦ]; · iexact HΦ
  isplitl [Ho']
  · iexists W'
    isplitr; · ipureintro; exact fun x _ => Or.inl (Set.mem_univ x)
    iexact Ho'
  iexists (xstg m c)
  isplitr; · ipureintro; rfl
  iexact Hx'

/-- At the compiled mesh of eight devices, for any float values, from any memory with zero counters: every weakly fair execution of
    @main terminates, each device's result block at the rows the protocol computes for it, its two argument blocks unchanged. -/
theorem run : θ_run (defs (F := F)) (onTc (τ := τ) (main (F := F))) ⟨m, fun _ => 0, ρ⟩ (fun r => ∀ c : Dev nD,
      r.2.mem ((c.tc : Thread nD τ).loc main_v1) = outM m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_main m ρ (body_obligation m)

end

end Cert.Kernel.Hand

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.Value.lean ====
import proofs.«900476_g7700000000000477_dist_rsdw_v7x_xyz2x2x2_y_m512_d512_f2048_f32_1_alg».proof.Proof.Contents
import proofs.«900476_g7700000000000477_dist_rsdw_v7x_xyz2x2x2_y_m512_d512_f2048_f32_1_alg».proof.Defs
import proofs.«900476_g7700000000000477_dist_rsdw_v7x_xyz2x2x2_y_m512_d512_f2048_f32_1_alg».proof.Proof.Gen.ReferenceIdeal.Read
import proofs.«900476_g7700000000000477_dist_rsdw_v7x_xyz2x2x2_y_m512_d512_f2048_f32_1_alg».proof.Proof.LibPlainDot
import Idealize.ShloMosaic.Lib.Layout
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

set_option maxRecDepth 16384

noncomputable section

namespace Cert.KernelIdeal.Hand

open Cert.KernelIdeal Cert.KernelIdeal.Gen

open Idealize.ShloMosaic Idealize.ShloMosaic.ValueIdx
open Idealize.ShloMosaic.TcCoe
open Idealize.SL Idealize.SL.Sem

/-!
# The value: each device's result block is its block of xᵀ·dy

The eight devices sit at `(x, y, z)`, device id `4x + 2y + z`. A device holds rows `512·y …` of x `[1024,512]` and of
dy `[1024,2048]`, and must end holding rows `256·y …` of xᵀ·dy `[512,2048]`. Entry `(256·y + p, q)` of that product is the sum over
all 1024 rows `k` of `x[k, 256·y + p] · dy[k, q]`. The device's own 512 rows give one half of that sum; the other half, over the
other 512 rows, is computed by its partner along y (same z, the other y) and sent over. Of the 256 result rows the device itself
adds up the 128 rows `128·z …`; the other 128 are added up the same way by its partner along z (same y, the other z), which
holds the same rows of x and dy, and are sent over. Narrowing to bf16 and widening back are the identity on extended reals, so
every entry is exactly the two halves added, in one order or the other; addition of extended reals is commutative.
-/

/-! ## The operands at an index -/

theorem xsV_apply (c : Dev nD) (fx : BufTy.Contents (Elt Ideal) X0.view.ty) (r : Fin 128) (k : Fin 512) :
    xsV (F := Ideal) c fx (ix2 r k)
      = fx (ix2 k (⟨(128 * (c.val % 2) + 256) - 256 * ((c.val / 2) % 2) + r.val, by
          have : c.val % 2 < 2 := Nat.mod_lt _ (by decide)
          have : (c.val / 2) % 2 < 2 := Nat.mod_lt _ (by decide)
          omega⟩ : Fin 512)) := by
  simp only [xsV, k0_pay4, k0_pay2, k0_pay1]
  rw [shapeCast_1ab_ab_apply, shapeCast_ab_1ab_apply, transpose_ix2_apply, shapeCast_self, View.readAt_apply]
  show fx _ = fx _
  refine congrArg fx (funext fun a => Fin.ext ?_)
  have ho := k0_off1_eq c
  match a with
  | ⟨0, _⟩ =>
    show (k0_off1 c) 0 + 1 * k.val = k.val
    rw [ho]; show 0 + 1 * k.val = k.val; omega
  | ⟨1, _⟩ =>
    show (k0_off1 c) 1 + 1 * r.val = (128 * (c.val % 2) + 256) - 256 * ((c.val / 2) % 2) + r.val
    rw [ho]; show (128 * (c.val % 2) + 256) - 256 * ((c.val / 2) % 2) + 1 * r.val = _; omega

theorem xoV_apply (c : Dev nD) (fx : BufTy.Contents (Elt Ideal) X0.view.ty) (r : Fin 128) (k : Fin 512) :
    xoV (F := Ideal) c fx (ix2 r k)
      = fx (ix2 k (⟨256 * ((c.val / 2) % 2) + 128 * (c.val % 2) + r.val, by
          have : c.val % 2 < 2 := Nat.mod_lt _ (by decide)
          have : (c.val / 2) % 2 < 2 := Nat.mod_lt _ (by decide)
          omega⟩ : Fin 512)) := by
  simp only [xoV, k0_pay5, k0_pay3]
  rw [shapeCast_1ab_ab_apply, shapeCast_ab_1ab_apply, transpose_ix2_apply, shapeCast_self, View.readAt_apply]
  show fx _ = fx _
  refine congrArg fx (funext fun a => Fin.ext ?_)
  have ho := k0_off2_eq c
  match a with
  | ⟨0, _⟩ =>
    show (k0_off2 c) 0 + 1 * k.val = k.val
    rw [ho]; show 0 + 1 * k.val = k.val; omega
  | ⟨1, _⟩ =>
    show (k0_off2 c) 1 + 1 * r.val = 256 * ((c.val / 2) % 2) + 128 * (c.val % 2) + r.val
    rw [ho]; show 256 * ((c.val / 2) % 2) + 128 * (c.val % 2) + 1 * r.val = _; omega

theorem dyChunk_apply (fdy : BufTy.Contents (Elt Ideal) DYV.view.ty) (i : Fin 8) (k : Fin 512) (col : Fin 256) :
    dyChunk (F := Ideal) fdy i (ix2 k col)
      = fdy (ix2 k (⟨256 * i.val + col.val, by have := i.isLt; have := col.isLt; omega⟩ : Fin 2048)) := by
  unfold dyChunk
  rw [View.readAt_apply]
  show fdy _ = fdy _
  refine congrArg fdy (funext fun a => Fin.ext ?_)
  match a with
  | ⟨0, _⟩ => show 0 + 1 * k.val = k.val; omega
  | ⟨1, _⟩ => show 256 * i.val + 1 * col.val = 256 * i.val + col.val; omega

theorem prodU_apply (xs : FVec Ideal S128x512 .f32) (d : Vec Ideal S512x256 .f32) (r : Fin 128) (col : Fin 256) :
    prodU (F := Ideal) xs d (ix2 r col) = ∑ k : Fin 512, xs (ix2 r k) * d (ix2 k col) :=
  Cert.Lib.matmul_zero_apply dot_S128x512_S512x256_S128x256_1_0_0_1_n_n.wf none xs d r col

/-! ## Column products

Column `xc` of a `[512,512]` block against column `q` of a `[512,2048]` block, summed over the 512 rows. -/

def colDot (A : (⟨2, ![512, 512]⟩ : Shape).Idx → EReal) (B : (⟨2, ![512, 2048]⟩ : Shape).Idx → EReal) (xc : Fin 512) (q : Fin 2048) : EReal :=
  ∑ k : Fin 512, A (ix2 k xc) * B (ix2 k q)

theorem off1_lt (c : Dev nD) (r : Fin 128) : (128 * (c.val % 2) + 256) - 256 * ((c.val / 2) % 2) + r.val < 512 := by
  have : c.val % 2 < 2 := Nat.mod_lt _ (by decide)
  have : (c.val / 2) % 2 < 2 := Nat.mod_lt _ (by decide)
  omega
theorem off2_lt (c : Dev nD) (r : Fin 128) : 256 * ((c.val / 2) % 2) + 128 * (c.val % 2) + r.val < 512 := by
  have : c.val % 2 < 2 := Nat.mod_lt _ (by decide)
  have : (c.val / 2) % 2 < 2 := Nat.mod_lt _ (by decide)
  omega
theorem chunk_lt (i : Fin 8) (col : Fin 256) : 256 * i.val + col.val < 2048 := by
  have := i.isLt; have := col.isLt; omega

/-- The `[128,256]` vector put back under a leading unit axis reads where it did. -/
theorem unsqz_apply {α : Type} (w : S128x256.Idx → α) (u : Fin 1) (r : Fin 128) (col : Fin 256) :
    unsqz w (ix3 u r col) = w (ix2 r col) := by
  unfold unsqz
  refine congrArg w ?_
  rw [Equiv.symm_apply_eq, reshapeEquiv_ix2_1ab]
  obtain rfl : u = ⟨0, Nat.one_pos⟩ := Subsingleton.elim _ _
  rfl

section Mem

variable (m : (ℓ : Loc nD τ sig) → Buf (Elt Ideal) ℓ)

/-- What a device sends along y, at row `r`, column `col` of chunk `i`. -/
theorem PSm_apply (c : Dev nD) (i : Fin 8) (r : Fin 128) (col : Fin 256) :
    PSm (F := Ideal) m c i (ix2 r col)
      = colDot (xstg m c) (dyB m c) ⟨_, off1_lt c r⟩ ⟨_, chunk_lt i col⟩ := by
  unfold PSm sqz psU
  rw [reshapeEquiv_ix2_1ab, shapeCast_ab_1ab_apply, truncf_apply, prodU_apply]
  unfold colDot
  refine Finset.sum_congr rfl fun k _ => ?_
  rw [xsV_apply, dyChunk_apply]

/-- What a device keeps: its own product plus what its partner along y sent. -/
theorem keepM_apply (c : Dev nD) (i : Fin 8) (u : Fin 1) (r : Fin 128) (col : Fin 256) :
    keepM (F := Ideal) m c i (ix3 u r col)
      = colDot (xstg m c) (dyB m c) ⟨_, off2_lt c r⟩ ⟨_, chunk_lt i col⟩
        + colDot (xstg m (yp c)) (dyB m (yp c)) ⟨_, off1_lt (yp c) r⟩ ⟨_, chunk_lt i col⟩ := by
  unfold keepM keepU redU
  rw [shapeCast_ab_1ab_apply, addf_apply, prodU_apply, extf_apply, shapeCast_1ab_ab_apply, unsqz_apply, PSm_apply]
  refine congrArg (· + _) ?_
  unfold colDot
  refine Finset.sum_congr rfl fun k _ => ?_
  rw [xoV_apply, dyChunk_apply]

/-- What arrives along z is what the partner there kept (narrowing and widening change nothing of an extended real). -/
theorem otherM_apply (c : Dev nD) (i : Fin 8) (u : Fin 1) (r : Fin 128) (col : Fin 256) :
    otherM (F := Ideal) m c i (ix3 u r col) = keepM (F := Ideal) m (zp c) i (ix3 u r col) := by
  unfold otherM widenU
  rw [shapeCast_ab_1ab_apply, extf_apply, shapeCast_1ab_ab_apply, unsqz_apply]
  unfold PZm sqz pzU
  rw [reshapeEquiv_ix2_1ab, shapeCast_ab_1ab_apply, truncf_apply]
  unfold keepM keepU
  rw [shapeCast_ab_1ab_apply]

end Mem

section Blocks

variable (m : (ℓ : Loc nD τ sig) → Buf (Elt Ideal) ℓ)

/-- The staged block of x is the device's whole argument buffer: the window's one block is the whole array. -/
theorem xstg_eq (c : Dev nD) : xstg (F := Ideal) m c = m ((c : Thread nD τ).loc main_arg0) :=
  Memref.read_access_unit_zero (Elt Ideal) main_arg0 (funext fun a => by fin_cases a <;> decide) (fun a => by fin_cases a <;> decide) _

end Blocks

/-! ## A block of an array cut along its rows -/

/-- Block `j 0` of the rows, nothing cut along the columns: row `p` of the block is row `j 0 · a + p` of the array. -/
theorem blockN_ix2 {α : Type} {a b A : Nat} {kN : Fin (⟨2, ![a, b]⟩ : Shape).rank → Nat}
    (hT : Layout.TilesN ⟨2, ![a, b]⟩ ⟨2, ![A, b]⟩ kN) (j : (d : Fin (⟨2, ![a, b]⟩ : Shape).rank) → Fin (kN d))
    (v : (⟨2, ![A, b]⟩ : Shape).Idx → α) (p : Fin a) (q : Fin b) (P : Fin A)
    (hP : P.val = (j 0).val * a + p.val) (hj1 : (j 1).val = 0) :
    (Layout.blockN ⟨2, ![a, b]⟩ ⟨2, ![A, b]⟩ j v hT) (ix2 p q) = v (ix2 P q) := by
  rw [Layout.blockN_apply]
  refine congrArg v (funext fun d => Fin.ext ?_)
  rw [Layout.TilesN.idx_val]
  match d with
  | ⟨0, _⟩ => show (j 0).val * a + p.val = P.val; exact hP.symm
  | ⟨1, _⟩ => show (j 1).val * b + q.val = q.val; rw [hj1, Nat.zero_mul, Nat.zero_add]

/-- A device's block along the rows is named by its position along y. -/
theorem blk_y (c : Dev nD) : Layout.meshLin [2, 2, 2] c.val [1] = (c.val / 2) % 2 := by revert c; decide

/-! ## The two halves of the contraction -/

/-- Rows `512·h …` of column `xc` of x against the same rows of column `q` of dy. -/
def halfDot (X : (⟨2, ![1024, 512]⟩ : Shape).Idx → EReal) (DY : (⟨2, ![1024, 2048]⟩ : Shape).Idx → EReal)
    (h : Nat) (hh : h < 2) (xc : Fin 512) (q : Fin 2048) : EReal :=
  ∑ k : Fin 512, X (ix2 (⟨512 * h + k.val, by have := k.isLt; omega⟩ : Fin 1024) xc) * DY (ix2 (⟨512 * h + k.val, by have := k.isLt; omega⟩ : Fin 1024) q)

/-- The whole contraction over 1024 rows. -/
def fullDot (X : (⟨2, ![1024, 512]⟩ : Shape).Idx → EReal) (DY : (⟨2, ![1024, 2048]⟩ : Shape).Idx → EReal)
    (xc : Fin 512) (q : Fin 2048) : EReal :=
  ∑ k : Fin 1024, X (ix2 k xc) * DY (ix2 k q)

theorem fullDot_eq (X : (⟨2, ![1024, 512]⟩ : Shape).Idx → EReal) (DY : (⟨2, ![1024, 2048]⟩ : Shape).Idx → EReal)
    (xc : Fin 512) (q : Fin 2048) :
    fullDot X DY xc q = halfDot X DY 0 (by decide) xc q + halfDot X DY 1 (by decide) xc q := by
  unfold fullDot halfDot
  refine (Fin.sum_univ_add (a := 512) (b := 512) (fun k : Fin (512 + 512) => X (ix2 k xc) * DY (ix2 k q))).trans ?_
  refine congrArg₂ (· + ·) (Finset.sum_congr rfl fun k _ => ?_) (Finset.sum_congr rfl fun k _ => ?_)
  · have e : (Fin.castAdd 512 k : Fin (512 + 512)) = (⟨512 * 0 + k.val, by have := k.isLt; omega⟩ : Fin 1024) :=
      Fin.ext (by show k.val = 512 * 0 + k.val; omega)
    rw [e]
  · have e : (Fin.natAdd 512 k : Fin (512 + 512)) = (⟨512 * 1 + k.val, by have := k.isLt; omega⟩ : Fin 1024) :=
      Fin.ext (by show 512 + k.val = 512 * 1 + k.val; omega)
    rw [e]

/-- The two halves in either order. -/
theorem halves (X : (⟨2, ![1024, 512]⟩ : Shape).Idx → EReal) (DY : (⟨2, ![1024, 2048]⟩ : Shape).Idx → EReal)
    (h h' : Nat) (hh : h < 2) (hh' : h' < 2) (hs : h + h' = 1) (xc : Fin 512) (q : Fin 2048) :
    halfDot X DY h hh xc q + halfDot X DY h' hh' xc q = fullDot X DY xc q := by
  rw [fullDot_eq]
  obtain ⟨rfl, rfl⟩ | ⟨rfl, rfl⟩ : (h = 0 ∧ h' = 1) ∨ (h = 1 ∧ h' = 0) := by omega
  · rfl
  · exact add_comm (G := EReal) _ _

/-! ## The partners' coordinates -/

theorem yp_y (c : Dev nD) : ((yp c).val / 2) % 2 + (c.val / 2) % 2 = 1 := by revert c; decide
theorem yp_z (c : Dev nD) : (yp c).val % 2 = c.val % 2 := by revert c; decide
theorem zp_y (c : Dev nD) : ((zp c).val / 2) % 2 = (c.val / 2) % 2 := by revert c; decide
theorem zp_z (c : Dev nD) : (zp c).val % 2 + c.val % 2 = 1 := by revert c; decide

/-! ## What a device keeps is an entry of xᵀ·dy -/

section Whole

variable (m : (ℓ : Loc nD τ sig) → Buf (Elt Ideal) ℓ)
  (X : (⟨2, ![1024, 512]⟩ : Shape).Idx → EReal) (DY : (⟨2, ![1024, 2048]⟩ : Shape).Idx → EReal)
  (hx : ∀ d : Dev nD, xstg (F := Ideal) m d
      = Layout.blockN ⟨2, ![512, 512]⟩ ⟨2, ![1024, 512]⟩ (Layout.meshBlock [2, 2, 2] ![[1], []] d) X)
  (hd : ∀ d : Dev nD, dyB (F := Ideal) m d
      = Layout.blockN ⟨2, ![512, 2048]⟩ ⟨2, ![1024, 2048]⟩ (Layout.meshBlock [2, 2, 2] ![[1], []] d) DY)

include hx hd in
/-- A device's column product is the half of the contraction its position along y names. -/
theorem colDot_block (d : Dev nD) (xc : Fin 512) (q : Fin 2048) :
    colDot (xstg (F := Ideal) m d) (dyB (F := Ideal) m d) xc q
      = halfDot X DY ((d.val / 2) % 2) (Nat.mod_lt _ (by decide)) xc q := by
  rw [hx d, hd d]
  unfold colDot halfDot
  refine Finset.sum_congr rfl fun k _ => ?_
  have hP : 512 * ((d.val / 2) % 2) + k.val = ((Layout.meshBlock [2, 2, 2] ![[1], []] d) 0).val * 512 + k.val := by
    rw [Layout.meshBlock_val]
    show _ = Layout.meshLin [2, 2, 2] d.val [1] * 512 + k.val
    rw [blk_y]; omega
  rw [blockN_ix2 _ _ X k xc ⟨512 * ((d.val / 2) % 2) + k.val, _⟩ hP rfl,
    blockN_ix2 _ _ DY k q ⟨512 * ((d.val / 2) % 2) + k.val, _⟩ hP rfl]

include hx hd in
/-- What device `c'` keeps at row `r`, column `col` of chunk `i`: the full contraction at column `256·y + 128·z + r` of x. -/
theorem keepM_full (c' : Dev nD) (i : Fin 8) (u : Fin 1) (r : Fin 128) (col : Fin 256) (xc : Fin 512) (q : Fin 2048)
    (hxc : xc.val = 256 * ((c'.val / 2) % 2) + 128 * (c'.val % 2) + r.val) (hq : q.val = 256 * i.val + col.val) :
    keepM (F := Ideal) m c' i (ix3 u r col) = fullDot X DY xc q := by
  rw [keepM_apply, colDot_block m X DY hx hd, colDot_block m X DY hx hd]
  have hy := yp_y c'
  have hz := yp_z c'
  have e1 : (⟨_, off2_lt c' r⟩ : Fin 512) = xc := Fin.ext hxc.symm
  have e2 : (⟨_, off1_lt (yp c') r⟩ : Fin 512) = xc := Fin.ext (by
    show (128 * ((yp c').val % 2) + 256) - 256 * (((yp c').val / 2) % 2) + r.val = xc.val
    omega)
  have e3 : (⟨_, chunk_lt i col⟩ : Fin 2048) = q := Fin.ext hq.symm
  rw [e1, e2, e3]
  exact halves X DY _ _ _ _ (by omega) xc q

end Whole

section Result

variable (m : (ℓ : Loc nD τ sig) → Buf (Elt Ideal) ℓ)
  (X : (⟨2, ![1024, 512]⟩ : Shape).Idx → EReal) (DY : (⟨2, ![1024, 2048]⟩ : Shape).Idx → EReal)
  (hx : ∀ d : Dev nD, xstg (F := Ideal) m d
      = Layout.blockN ⟨2, ![512, 512]⟩ ⟨2, ![1024, 512]⟩ (Layout.meshBlock [2, 2, 2] ![[1], []] d) X)
  (hd : ∀ d : Dev nD, dyB (F := Ideal) m d
      = Layout.blockN ⟨2, ![512, 2048]⟩ ⟨2, ![1024, 2048]⟩ (Layout.meshBlock [2, 2, 2] ![[1], []] d) DY)

include hx hd in
/-- Row `p`, column `q` of a device's result block: whichever of the two devices along z kept it, it is the full
    contraction at column `256·y + p` of x. -/
theorem outM_apply (c : Dev nD) (p : Fin 256) (q : Fin 2048) (P : Fin 512) (hP : P.val = 256 * ((c.val / 2) % 2) + p.val) :
    outM (F := Ideal) m c (ix2 p q) = fullDot X DY P q := by
  have hp := p.isLt
  have hq := q.isLt
  have hz : c.val % 2 < 2 := Nat.mod_lt _ (by decide)
  show (if p.val / 128 = c.val % 2
      then keepM (F := Ideal) m c ⟨q.val / 256, by omega⟩ (ix3 (0 : Fin 1) (⟨p.val % 128, Nat.mod_lt _ (by decide)⟩ : Fin 128) (⟨q.val % 256, Nat.mod_lt _ (by decide)⟩ : Fin 256))
      else otherM (F := Ideal) m c ⟨q.val / 256, by omega⟩ (ix3 (0 : Fin 1) (⟨p.val % 128, Nat.mod_lt _ (by decide)⟩ : Fin 128) (⟨q.val % 256, Nat.mod_lt _ (by decide)⟩ : Fin 256))) = _
  by_cases h : p.val / 128 = c.val % 2
  · rw [if_pos h]
    exact keepM_full m X DY hx hd c _ _ _ _ P q (by show P.val = _ + _ + p.val % 128; omega) (by show q.val = 256 * (q.val / 256) + q.val % 256; omega)
  · rw [if_neg h, otherM_apply]
    have h1 := zp_y c
    have h2 := zp_z c
    exact keepM_full m X DY hx hd (zp c) _ _ _ _ P q (by show P.val = _ + _ + p.val % 128; omega) (by show q.val = 256 * (q.val / 256) + q.val % 256; omega)

end Result

/-! ## The reference at an index -/

theorem ref_apply (X : (⟨2, ![1024, 512]⟩ : Shape).Idx → EReal) (DY : (⟨2, ![1024, 2048]⟩ : Shape).Idx → EReal)
    (P : Fin 512) (q : Fin 2048) :
    Cert.ReferenceIdeal.Read.val_main_v1 (F := Ideal) X DY (ix2 P q) = fullDot X DY P q := by
  rw [Cert.ReferenceIdeal.Read.val_main_v1_apply]
  unfold fullDot
  refine Finset.sum_congr rfl fun k _ => ?_
  rw [Cert.ReferenceIdeal.Read.val_main_v0_apply]
  have e1 : Cert.ReferenceIdeal.Read.idx_main_v0 (Cert.ReferenceIdeal.Read.lidx_main_v1 (ix2 P q) k) = ix2 k P :=
    funext fun a => Fin.ext (by match a with | ⟨0, _⟩ => rfl | ⟨1, _⟩ => rfl)
  have e2 : Cert.ReferenceIdeal.Read.ridx_main_v1 (ix2 P q) k = ix2 k q :=
    funext fun a => Fin.ext (by match a with | ⟨0, _⟩ => rfl | ⟨1, _⟩ => rfl)
  rw [e1, e2]

/-- Each device's result block, as the kernel leaves it, is the device's block (rows `256·y …`) of the reference's xᵀ·dy. -/
theorem out_eq_block
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2048]⟩ ⟨2, ![1024, 2048]⟩ (Layout.meshBlock [2, 2, 2] ![[1], []] c) (m' (((0 : Dev Cert.ReferenceIdeal.nD).tc : Thread Cert.ReferenceIdeal.nD Cert.ReferenceIdeal.τ).loc Cert.ReferenceIdeal.main_arg1)))
    (c : Dev Cert.KernelIdeal.nD) :
    (outM (F := Ideal) m c : Buf (Elt Ideal) ((c.tc : Thread Cert.KernelIdeal.nD Cert.KernelIdeal.τ).loc Cert.KernelIdeal.main_v1))
      = Layout.blockN ⟨2, ![256, 2048]⟩ ⟨2, ![512, 2048]⟩ (Layout.meshBlock [2, 2, 2] ![[1], []] c)
          (Host.dotGeneral (F := Ideal) (φ₁ := .f32) (φ₂ := .f32) Cert.ReferenceIdeal.dot_S512x1024_S1024x2048_S512x2048_1_0_0_1_n_n none
            (transpose Cert.ReferenceIdeal.S512x1024 [1, 0] (m' (((0 : Dev Cert.ReferenceIdeal.nD).tc : Thread Cert.ReferenceIdeal.nD Cert.ReferenceIdeal.τ).loc Cert.ReferenceIdeal.main_arg0)) Cert.ReferenceIdeal.Gen.transposes_S1024x512_S512x1024_1_0)
            (m' (((0 : Dev Cert.ReferenceIdeal.nD).tc : Thread Cert.ReferenceIdeal.nD Cert.ReferenceIdeal.τ).loc Cert.ReferenceIdeal.main_arg1))) := by
  have hx : ∀ d : Dev nD, xstg (F := Ideal) m d
      = Layout.blockN ⟨2, ![512, 512]⟩ ⟨2, ![1024, 512]⟩ (Layout.meshBlock [2, 2, 2] ![[1], []] d) (m' (((0 : Dev Cert.ReferenceIdeal.nD).tc : Thread Cert.ReferenceIdeal.nD Cert.ReferenceIdeal.τ).loc Cert.ReferenceIdeal.main_arg0)) :=
    fun d => (xstg_eq m d).trans (hagree d).1
  have hd : ∀ d : Dev nD, dyB (F := Ideal) m d
      = Layout.blockN ⟨2, ![512, 2048]⟩ ⟨2, ![1024, 2048]⟩ (Layout.meshBlock [2, 2, 2] ![[1], []] d) (m' (((0 : Dev Cert.ReferenceIdeal.nD).tc : Thread Cert.ReferenceIdeal.nD Cert.ReferenceIdeal.τ).loc Cert.ReferenceIdeal.main_arg1)) :=
    fun d => (hagree d).2
  funext idx
  obtain ⟨p, q, rfl⟩ : ∃ (p : Fin 256) (q : Fin 2048), idx = ix2 p q := ⟨idx 0, idx 1, eq_ix2 idx⟩
  have hy : (c.val / 2) % 2 < 2 := Nat.mod_lt _ (by decide)
  have hPlt : 256 * ((c.val / 2) % 2) + p.val < 512 := by have := p.isLt; omega
  have hP : 256 * ((c.val / 2) % 2) + p.val = ((Layout.meshBlock [2, 2, 2] ![[1], []] c) 0).val * 256 + p.val := by
    rw [Layout.meshBlock_val]
    show _ = Layout.meshLin [2, 2, 2] c.val [1] * 256 + p.val
    rw [blk_y]; omega
  rw [Cert.ReferenceIdeal.Read.val_main_v1_eq, blockN_ix2 _ _ _ p q ⟨256 * ((c.val / 2) % 2) + p.val, hPlt⟩ hP rfl, ref_apply]
  exact outM_apply m _ _ hx hd c p q _ rfl

end Cert.KernelIdeal.Hand

end
-- ==== Proof.Claims.lean ====
import proofs.«900476_g7700000000000477_dist_rsdw_v7x_xyz2x2x2_y_m512_d512_f2048_f32_1_alg».proof.Defs
import proofs.«900476_g7700000000000477_dist_rsdw_v7x_xyz2x2x2_y_m512_d512_f2048_f32_1_alg».proof.Proof.Obligation
import proofs.«900476_g7700000000000477_dist_rsdw_v7x_xyz2x2x2_y_m512_d512_f2048_f32_1_alg».proof.Proof.WObligation
import proofs.«900476_g7700000000000477_dist_rsdw_v7x_xyz2x2x2_y_m512_d512_f2048_f32_1_alg».proof.Proof.Value
import proofs.«900476_g7700000000000477_dist_rsdw_v7x_xyz2x2x2_y_m512_d512_f2048_f32_1_alg».proof.Proof.Gen.ReferenceIdeal.Run
import proofs.«900476_g7700000000000477_dist_rsdw_v7x_xyz2x2x2_y_m512_d512_f2048_f32_1_alg».proof.Proof.Gen.Kernel
import proofs.«900476_g7700000000000477_dist_rsdw_v7x_xyz2x2x2_y_m512_d512_f2048_f32_1_alg».proof.Proof.Gen.KernelIdeal
import proofs.«900476_g7700000000000477_dist_rsdw_v7x_xyz2x2x2_y_m512_d512_f2048_f32_1_alg».proof.Proof.Gen.ReferenceIdeal
import proofs.«900476_g7700000000000477_dist_rsdw_v7x_xyz2x2x2_y_m512_d512_f2048_f32_1_alg».proof.Proof.Gen.Pre_finite_inputs_Kernel
import proofs.«900476_g7700000000000477_dist_rsdw_v7x_xyz2x2x2_y_m512_d512_f2048_f32_1_alg».proof.Proof.Gen.Pre_finite_inputs_ReferenceIdeal

set_option maxRecDepth 16384

noncomputable section

namespace Cert.Proof.Claims

open Idealize.ShloMosaic Idealize.SL.Sem

/-- The kernel as printed runs to the end on the eight devices and leaves its argument blocks as they were. -/
theorem frame_k : Cert.frame_Kernel := fun m ρ _ =>
  (θ_run _ _ _).mono (fun _ h c => (h c).2) (Cert.Kernel.Hand.run (F := Bits) m ρ)

/-- The same at the ideal values. -/
theorem frame_ki : Cert.frame_KernelIdeal := fun m ρ _ =>
  (θ_run _ _ _).mono (fun _ h c => (h c).2) (Cert.KernelIdeal.Hand.run (F := Ideal) m ρ)

/-- At the ideal values each device ends holding its rows of the reference's xᵀ·dy, the reference's result being the product
    of its transposed first argument with its second. -/
theorem algebraic : Cert.algebraic_KernelIdeal_ReferenceIdeal := fun m ρ m' ρ' _ hagree =>
  ⟨(Host.dotGeneral (F := Ideal) (φ₁ := .f32) (φ₂ := .f32) Cert.ReferenceIdeal.dot_S512x1024_S1024x2048_S512x2048_1_0_0_1_n_n none
      (transpose Cert.ReferenceIdeal.S512x1024 [1, 0] (m' (((0 : Dev Cert.ReferenceIdeal.nD).tc : Thread Cert.ReferenceIdeal.nD Cert.ReferenceIdeal.τ).loc Cert.ReferenceIdeal.main_arg0)) Cert.ReferenceIdeal.Gen.transposes_S1024x512_S512x1024_1_0)
      (m' (((0 : Dev Cert.ReferenceIdeal.nD).tc : Thread Cert.ReferenceIdeal.nD Cert.ReferenceIdeal.τ).loc Cert.ReferenceIdeal.main_arg1))),
    (θ_run _ _ _).mono (fun _ h c => ⟨((h c).1).trans (Cert.KernelIdeal.Hand.out_eq_block m m' hagree c), (h c).2.1, (h c).2.2⟩)
      (Cert.KernelIdeal.Hand.run (F := Ideal) m ρ),
    (θ_run _ _ _).mono (fun _ h => ⟨(h 0).1, (h 0).2.1, (h 0).2.2⟩) (Cert.ReferenceIdeal.Value.run (F := Ideal) m' ρ')⟩

end Cert.Proof.Claims

end
-- ==== Proof.lean ====
/- The claim for the eight-device kernel computing this device's rows of xᵀ·dy, against the one-device reference.

   Mathematics. Device (x, y, z) holds the y-th block of 512 rows of x [1024, 512] and of dy [1024, 2048]. With half = 256
   and zh = 128 it forms, per column chunk i of 256, the product of the transposed columns
   (1 - y)·half + z·zh … + zh of its x block with its dy block and hands it to its partner along y; it forms the same
   product on its own columns y·half + z·zh …, adds what the partner along y sent (the other 512 rows' share of the sum over
   all 1024 rows), keeps that as rows z·zh … of its result and hands it to its partner along z, whose rows it receives as
   rows (1 - z)·zh …. A sum over 1024 rows is the sum over the two blocks of 512 in either order; a change of float format
   is the identity on extended reals; so each device ends with rows y·256 … y·256 + 255 of xᵀ·dy.

   The reference's frame is its generated run with the result dropped; the idealization rewrote nothing. The kernel's run on the
   eight devices — every device's body stepped once at a symbolic device, the devices meeting through the barrier cells and the
   transfer cells of one round each — ends with each result block at the function of the two blocks written above; that function
   is its block of the reference's product, entry by entry. -/
import proofs.«900476_g7700000000000477_dist_rsdw_v7x_xyz2x2x2_y_m512_d512_f2048_f32_1_alg».proof.Defs
import proofs.«900476_g7700000000000477_dist_rsdw_v7x_xyz2x2x2_y_m512_d512_f2048_f32_1_alg».proof.Proof.Gen.Kernel
import proofs.«900476_g7700000000000477_dist_rsdw_v7x_xyz2x2x2_y_m512_d512_f2048_f32_1_alg».proof.Proof.Gen.Kernel.Skeleton
import proofs.«900476_g7700000000000477_dist_rsdw_v7x_xyz2x2x2_y_m512_d512_f2048_f32_1_alg».proof.Proof.Gen.Kernel.Launch
import proofs.«900476_g7700000000000477_dist_rsdw_v7x_xyz2x2x2_y_m512_d512_f2048_f32_1_alg».proof.Proof.Gen.Kernel.Points
import proofs.«900476_g7700000000000477_dist_rsdw_v7x_xyz2x2x2_y_m512_d512_f2048_f32_1_alg».proof.Proof.Gen.Kernel.Frame
import proofs.«900476_g7700000000000477_dist_rsdw_v7x_xyz2x2x2_y_m512_d512_f2048_f32_1_alg».proof.Proof.Gen.KernelIdeal
import proofs.«900476_g7700000000000477_dist_rsdw_v7x_xyz2x2x2_y_m512_d512_f2048_f32_1_alg».proof.Proof.Gen.KernelIdeal.Skeleton
import proofs.«900476_g7700000000000477_dist_rsdw_v7x_xyz2x2x2_y_m512_d512_f2048_f32_1_alg».proof.Proof.Gen.KernelIdeal.Launch
import proofs.«900476_g7700000000000477_dist_rsdw_v7x_xyz2x2x2_y_m512_d512_f2048_f32_1_alg».proof.Proof.Gen.KernelIdeal.Points
import proofs.«900476_g7700000000000477_dist_rsdw_v7x_xyz2x2x2_y_m512_d512_f2048_f32_1_alg».proof.Proof.Gen.KernelIdeal.Frame
import proofs.«900476_g7700000000000477_dist_rsdw_v7x_xyz2x2x2_y_m512_d512_f2048_f32_1_alg».proof.Proof.Gen.ReferenceIdeal
import proofs.«900476_g7700000000000477_dist_rsdw_v7x_xyz2x2x2_y_m512_d512_f2048_f32_1_alg».proof.Proof.Gen.Pre_finite_inputs_Kernel
import proofs.«900476_g7700000000000477_dist_rsdw_v7x_xyz2x2x2_y_m512_d512_f2048_f32_1_alg».proof.Proof.Gen.Pre_finite_inputs_ReferenceIdeal
import proofs.«900476_g7700000000000477_dist_rsdw_v7x_xyz2x2x2_y_m512_d512_f2048_f32_1_alg».proof.Proof.Gen.ReferenceIdeal.Run
import proofs.«900476_g7700000000000477_dist_rsdw_v7x_xyz2x2x2_y_m512_d512_f2048_f32_1_alg».proof.Proof.Claims
import Idealize.ShloMosaic.Adequacy
import Idealize.ShloMosaic.Init

noncomputable section

namespace Cert.Proof

open Idealize.ShloMosaic Idealize.SL.Sem Cert.Kernel

/-- The reference runs to the end on its one device and leaves its arguments as they were: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Cert.Proof.Claims.frame_k, Cert.Proof.Claims.frame_ki, frame_ri, trivial, Cert.Proof.Claims.algebraic⟩

end Cert.Proof

end
